-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v161) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S384x128 : Shape := ⟨2, ![384, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S384x128 : S_.BroadcastsInDim S384x128 (![] : Fin 0 → Fin S384x128.rank)
  reducesTo_S384x128_S_d0_1 : S384x128.ReducesTo [0, 1] S_

variable [Facts]

def fn_part3 {F : FTy → Type} [FloatOps F] (main_arg13 : FVec F S128x128 .f32) (main_arg14 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg13
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg9 : FVec F S128x128 .f32) (main_arg10 : FVec F S128 .f32) (main_arg11 : FVec F S384x128 .f32) (main_arg12 : FVec F S128 .f32) (main_arg13 : FVec F S128x128 .f32) (main_arg14 : FVec F S128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S384x128 .f32 := Host.absf main_arg11
  let main_cst_16 : FVec F S_ .f32 := constant S_ .f32 0x7F800000#32
  let main_v45 : FVec F S384x128 .f32 := broadcastInDim S384x128 ![] bcast_S_S384x128 main_cst_16
  let main_v46 : IVec S384x128 1 := cmpf .olt main_v44 main_v45
  let main_c_17 : IVec S_ 1 := constantI S_ 1 1#1
  let main_v47 : IVec S_ 1 := (fun x v => Host.reduce IntOp.andi x v reducesTo_S384x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_v48 main_v49 main_v50

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_arg11 : FVec F S384x128 .f32) (main_arg12 : FVec F S128 .f32) (main_arg13 : FVec F S128x128 .f32) (main_arg14 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S384x128 .f32) (main_arg12 : FVec F S128 .f32) (main_arg13 : FVec F S128x128 .f32) (main_arg14 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S384x128 : Shape := ⟨2, ![384, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S50000x2 : Shape := ⟨2, ![50000, 2]⟩
abbrev S1x128 : Shape := ⟨2, ![1, 128]⟩
abbrev S2000x128 : Shape := ⟨2, ![2000, 128]⟩
abbrev S2000x1 : Shape := ⟨2, ![2000, 1]⟩
abbrev S800000x128 : Shape := ⟨2, ![800000, 128]⟩
abbrev S2000x2 : Shape := ⟨2, ![2000, 2]⟩
abbrev S512x128 : Shape := ⟨2, ![512, 128]⟩
abbrev S512 : Shape := ⟨1, ![512]⟩
abbrev S512x1 : Shape := ⟨2, ![512, 1]⟩
abbrev S512x384 : Shape := ⟨2, ![512, 384]⟩

abbrev nBuf : Space → Nat
  | .hbm => 122
  | .vmem => 62
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S384x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S1x800000, .i32⟩
  | .hbm, ⟨16, _⟩ => ⟨S800000, .i32⟩
  | .hbm, ⟨17, _⟩ => ⟨S1x800000, .i32⟩
  | .hbm, ⟨18, _⟩ => ⟨S800000, .i32⟩
  | .hbm, ⟨19, _⟩ => ⟨S_, .f32⟩
  | .hbm, ⟨20, _⟩ => ⟨S800000, .f32⟩
  | .hbm, ⟨21, _⟩ => ⟨S_, .f32⟩
  | .hbm, ⟨22, _⟩ => ⟨S50000, .f32⟩
  | .hbm, ⟨23, _⟩ => ⟨S800000x1, .i32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S50000, .f32⟩
  | .hbm, ⟨31, _⟩ => ⟨S50000x1, .f32⟩
  | .hbm, ⟨32, _⟩ => ⟨S50000x1, .f32⟩
  | .hbm, ⟨33, _⟩ => ⟨S50000x2, .f32⟩
  | .hbm, ⟨34, _⟩ => ⟨S1x128, .f32⟩
  | .hbm, ⟨35, _⟩ => ⟨S1x128, .f32⟩
  | .hbm, ⟨36, _⟩ => ⟨S1x128, .f32⟩
  | .hbm, ⟨37, _⟩ => ⟨S1x128, .f32⟩
  | .hbm, ⟨38, _⟩ => ⟨S1x128, .f32⟩
  | .hbm, ⟨39, _⟩ => ⟨S1x128, .f32⟩
  | .hbm, ⟨40, _⟩ => ⟨S50000x128, .f32⟩
  | .hbm, ⟨41, _⟩ => ⟨S50000x128, .f32⟩
  | .hbm, ⟨42, _⟩ => ⟨S50000x128, .bf16⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x128, .bf16⟩
  | .hbm, ⟨52, _⟩ => ⟨S800000x128, .f32⟩
  | .hbm, ⟨53, _⟩ => ⟨S_, .f32⟩
  | .hbm, ⟨54, _⟩ => ⟨S50000x128, .f32⟩
  | .hbm, ⟨55, _⟩ => ⟨S800000x1, .i32⟩
  | .hbm, ⟨56, _⟩ => ⟨S50000x128, .f32⟩
  | .hbm, ⟨57, _⟩ => ⟨S50000x128, .f32⟩
  | .hbm, ⟨58, _⟩ => ⟨S50000x128, .f32⟩
  | .hbm, ⟨59, _⟩ => ⟨S50000x128, .bf16⟩
  | .hbm, ⟨60, _⟩ => ⟨S_, .i32⟩
  | .hbm, ⟨61, _⟩ => ⟨S800000, .i32⟩
  | .hbm, ⟨62, _⟩ => ⟨S800000, .i1⟩
  | .hbm, ⟨63, _⟩ => ⟨S_, .i32⟩
  | .hbm, ⟨64, _⟩ => ⟨S800000, .i32⟩
  | .hbm, ⟨65, _⟩ => ⟨S800000, .i32⟩
  | .hbm, ⟨66, _⟩ => ⟨S800000, .i32⟩
  | .hbm, ⟨67, _⟩ => ⟨S800000x1, .i32⟩
  | .hbm, ⟨68, _⟩ => ⟨S800000x128, .bf16⟩
  | .hbm, ⟨69, _⟩ => ⟨S800000x128, .f32⟩
  | .hbm, ⟨70, _⟩ => ⟨S_, .f32⟩
  | .hbm, ⟨71, _⟩ => ⟨S50000x128, .f32⟩
  | .hbm, ⟨72, _⟩ => ⟨S800000x1, .i32⟩
  | .hbm, ⟨73, _⟩ => ⟨S50000x128, .f32⟩
  | .hbm, ⟨74, _⟩ => ⟨S50000x128, .f32⟩
  | .hbm, ⟨75, _⟩ => ⟨S50000x128, .f32⟩
  | .hbm, ⟨76, _⟩ => ⟨S50000x128, .bf16⟩
  | .hbm, ⟨77, _⟩ => ⟨S_, .i32⟩
  | .hbm, ⟨78, _⟩ => ⟨S800000, .i32⟩
  | .hbm, ⟨79, _⟩ => ⟨S800000, .i1⟩
  | .hbm, ⟨80, _⟩ => ⟨S_, .i32⟩
  | .hbm, ⟨81, _⟩ => ⟨S800000, .i32⟩
  | .hbm, ⟨82, _⟩ => ⟨S800000, .i32⟩
  | .hbm, ⟨83, _⟩ => ⟨S800000, .i32⟩
  | .hbm, ⟨84, _⟩ => ⟨S800000x1, .i32⟩
  | .hbm, ⟨85, _⟩ => ⟨S800000x128, .bf16⟩
  | .hbm, ⟨86, _⟩ => ⟨S800000x128, .f32⟩
  | .hbm, ⟨87, _⟩ => ⟨S_, .f32⟩
  | .hbm, ⟨88, _⟩ => ⟨S50000x128, .f32⟩
  | .hbm, ⟨89, _⟩ => ⟨S800000x1, .i32⟩
  | .hbm, ⟨90, _⟩ => ⟨S50000x128, .f32⟩
  | .hbm, ⟨91, _⟩ => ⟨S50000x128, .f32⟩
  | .hbm, ⟨92, _⟩ => ⟨S_, .f32⟩
  | .hbm, ⟨93, _⟩ => ⟨S512x128, .f32⟩
  | .hbm, ⟨94, _⟩ => ⟨S50000x1, .i32⟩
  | .hbm, ⟨95, _⟩ => ⟨S512x128, .f32⟩
  | .hbm, ⟨96, _⟩ => ⟨S_, .f32⟩
  | .hbm, ⟨97, _⟩ => ⟨S512x128, .f32⟩
  | .hbm, ⟨98, _⟩ => ⟨S50000x1, .i32⟩
  | .hbm, ⟨99, _⟩ => ⟨S512x128, .f32⟩
  | .hbm, ⟨100, _⟩ => ⟨S_, .f32⟩
  | .hbm, ⟨101, _⟩ => ⟨S512x128, .f32⟩
  | .hbm, ⟨102, _⟩ => ⟨S50000x1, .i32⟩
  | .hbm, ⟨103, _⟩ => ⟨S512x128, .f32⟩
  | .hbm, ⟨104, _⟩ => ⟨S_, .f32⟩
  | .hbm, ⟨105, _⟩ => ⟨S50000, .f32⟩
  | .hbm, ⟨106, _⟩ => ⟨S_, .f32⟩
  | .hbm, ⟨107, _⟩ => ⟨S512, .f32⟩
  | .hbm, ⟨108, _⟩ => ⟨S50000x1, .i32⟩
  | .hbm, ⟨109, _⟩ => ⟨S512, .f32⟩
  | .hbm, ⟨110, _⟩ => ⟨S_, .f32⟩
  | .hbm, ⟨111, _⟩ => ⟨S512, .f32⟩
  | .hbm, ⟨112, _⟩ => ⟨S512, .f32⟩
  | .hbm, ⟨113, _⟩ => ⟨S512x1, .f32⟩
  | .hbm, ⟨114, _⟩ => ⟨S512x128, .f32⟩
  | .hbm, ⟨115, _⟩ => ⟨S512x128, .f32⟩
  | .hbm, ⟨116, _⟩ => ⟨S512x128, .f32⟩
  | .hbm, ⟨117, _⟩ => ⟨S512x128, .f32⟩
  | .hbm, ⟨118, _⟩ => ⟨S512x128, .f32⟩
  | .hbm, ⟨119, _⟩ => ⟨S512x128, .f32⟩
  | .hbm, ⟨120, _⟩ => ⟨S512x384, .f32⟩
  | .hbm, ⟨121, _⟩ => ⟨S512x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S2000x1, .f32⟩
  | .local _ .vmem, ⟨6, _⟩ => ⟨S2000x1, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .bf16⟩
  | .local _ .vmem, ⟨12, _⟩ => ⟨S2000x128, .bf16⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x2, .f32⟩
  | .local _ .vmem, ⟨20, _⟩ => ⟨S2000x2, .f32⟩
  | .local _ .vmem, ⟨21, _⟩ => ⟨S1x128, .f32⟩
  | .local _ .vmem, ⟨22, _⟩ => ⟨S128x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .bf16⟩
  | .local _ .vmem, ⟨28, _⟩ => ⟨S2000x128, .bf16⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S2000x2, .f32⟩
  | .local _ .vmem, ⟨36, _⟩ => ⟨S2000x2, .f32⟩
  | .local _ .vmem, ⟨37, _⟩ => ⟨S1x128, .f32⟩
  | .local _ .vmem, ⟨38, _⟩ => ⟨S128x128, .f32⟩
  | .local _ .vmem, ⟨39, _⟩ => ⟨S2000x128, .f32⟩
  | .local _ .vmem, ⟨40, _⟩ => ⟨S2000x128, .f32⟩
  | .local _ .vmem, ⟨41, _⟩ => ⟨S2000x128, .f32⟩
  | .local _ .vmem, ⟨42, _⟩ => ⟨S2000x128, .f32⟩
  | .local _ .vmem, ⟨43, _⟩ => ⟨S2000x128, .bf16⟩
  | .local _ .vmem, ⟨44, _⟩ => ⟨S2000x128, .bf16⟩
  | .local _ .vmem, ⟨45, _⟩ => ⟨S2000x128, .f32⟩
  | .local _ .vmem, ⟨46, _⟩ => ⟨S2000x128, .f32⟩
  | .local _ .vmem, ⟨47, _⟩ => ⟨S2000x128, .f32⟩
  | .local _ .vmem, ⟨48, _⟩ => ⟨S2000x128, .f32⟩
  | .local _ .vmem, ⟨49, _⟩ => ⟨S2000x128, .f32⟩
  | .local _ .vmem, ⟨50, _⟩ => ⟨S2000x128, .f32⟩
  | .local _ .vmem, ⟨51, _⟩ => ⟨S2000x2, .f32⟩
  | .local _ .vmem, ⟨52, _⟩ => ⟨S2000x2, .f32⟩
  | .local _ .vmem, ⟨53, _⟩ => ⟨S1x128, .f32⟩
  | .local _ .vmem, ⟨54, _⟩ => ⟨S2000x128, .f32⟩
  | .local _ .vmem, ⟨55, _⟩ => ⟨S2000x128, .f32⟩
  | .local _ .vmem, ⟨56, _⟩ => ⟨S512x384, .f32⟩
  | .local _ .vmem, ⟨57, _⟩ => ⟨S384x128, .f32⟩
  | .local _ .vmem, ⟨58, _⟩ => ⟨S1x128, .f32⟩
  | .local _ .vmem, ⟨59, _⟩ => ⟨S128x128, .f32⟩
  | .local _ .vmem, ⟨60, _⟩ => ⟨S1x128, .f32⟩
  | .local _ .vmem, ⟨61, _⟩ => ⟨S512x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | _, _ => false

abbrev semScoped : Fin 0 → Bool
  | ⟨_, h⟩ => absurd h (Nat.not_lt_zero _)

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  ofTc nBuf bufTy 0 62 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22_0 : Ref sig .tc := ⟨.hbm, 40, rfl⟩
abbrev main_v22_1 : Ref sig .tc := ⟨.hbm, 41, rfl⟩
abbrev main_v22_2 : Ref sig .tc := ⟨.hbm, 42, rfl⟩
abbrev main_c : Ref sig .tc := ⟨.hbm, 43, rfl⟩
abbrev main_v23 : Ref sig .tc := ⟨.hbm, 44, rfl⟩
abbrev main_v24 : Ref sig .tc := ⟨.hbm, 45, rfl⟩
abbrev main_c_2 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_3 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34_0 : Ref sig .tc := ⟨.hbm, 57, rfl⟩
abbrev main_v34_1 : Ref sig .tc := ⟨.hbm, 58, rfl⟩
abbrev main_v34_2 : Ref sig .tc := ⟨.hbm, 59, rfl⟩
abbrev main_c_4 : Ref sig .tc := ⟨.hbm, 60, rfl⟩
abbrev main_v35 : Ref sig .tc := ⟨.hbm, 61, rfl⟩
abbrev main_v36 : Ref sig .tc := ⟨.hbm, 62, rfl⟩
abbrev main_c_5 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_6 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46_0 : Ref sig .tc := ⟨.hbm, 74, rfl⟩
abbrev main_v46_1 : Ref sig .tc := ⟨.hbm, 75, rfl⟩
abbrev main_v46_2 : Ref sig .tc := ⟨.hbm, 76, rfl⟩
abbrev main_c_7 : Ref sig .tc := ⟨.hbm, 77, rfl⟩
abbrev main_v47 : Ref sig .tc := ⟨.hbm, 78, rfl⟩
abbrev main_v48 : Ref sig .tc := ⟨.hbm, 79, rfl⟩
abbrev main_c_8 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_cst_9 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_10 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_11 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_cst_12 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_cst_13 : Ref sig .tc := ⟨.hbm, 104, rfl⟩
abbrev main_v68 : Ref sig .tc := ⟨.hbm, 105, rfl⟩
abbrev main_cst_14 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_cst_15 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg6_1 : Ref sig .tc := ⟨.vmem, 24, rfl⟩
abbrev cc1_stg7_0 : Ref sig .tc := ⟨.vmem, 25, rfl⟩
abbrev cc1_stg7_1 : Ref sig .tc := ⟨.vmem, 26, rfl⟩
abbrev cc1_stg8_0 : Ref sig .tc := ⟨.vmem, 27, rfl⟩
abbrev cc1_stg8_1 : Ref sig .tc := ⟨.vmem, 28, rfl⟩
abbrev cc2_stg0_0 : Ref sig .tc := ⟨.vmem, 29, rfl⟩
abbrev cc2_stg0_1 : Ref sig .tc := ⟨.vmem, 30, rfl⟩
abbrev cc2_stg1_0 : Ref sig .tc := ⟨.vmem, 31, rfl⟩
abbrev cc2_stg1_1 : Ref sig .tc := ⟨.vmem, 32, rfl⟩
abbrev cc2_stg2_0 : Ref sig .tc := ⟨.vmem, 33, rfl⟩
abbrev cc2_stg2_1 : Ref sig .tc := ⟨.vmem, 34, rfl⟩
abbrev cc2_stg3_0 : Ref sig .tc := ⟨.vmem, 35, rfl⟩
abbrev cc2_stg3_1 : Ref sig .tc := ⟨.vmem, 36, rfl⟩
abbrev cc2_stg4_0 : Ref sig .tc := ⟨.vmem, 37, rfl⟩
abbrev cc2_stg5_0 : Ref sig .tc := ⟨.vmem, 38, rfl⟩
abbrev cc2_stg6_0 : Ref sig .tc := ⟨.vmem, 39, rfl⟩
abbrev cc2_stg6_1 : Ref sig .tc := ⟨.vmem, 40, rfl⟩
abbrev cc2_stg7_0 : Ref sig .tc := ⟨.vmem, 41, rfl⟩
abbrev cc2_stg7_1 : Ref sig .tc := ⟨.vmem, 42, rfl⟩
abbrev cc2_stg8_0 : Ref sig .tc := ⟨.vmem, 43, rfl⟩
abbrev cc2_stg8_1 : Ref sig .tc := ⟨.vmem, 44, rfl⟩
abbrev cc3_stg0_0 : Ref sig .tc := ⟨.vmem, 45, rfl⟩
abbrev cc3_stg0_1 : Ref sig .tc := ⟨.vmem, 46, rfl⟩
abbrev cc3_stg1_0 : Ref sig .tc := ⟨.vmem, 47, rfl⟩
abbrev cc3_stg1_1 : Ref sig .tc := ⟨.vmem, 48, rfl⟩
abbrev cc3_stg2_0 : Ref sig .tc := ⟨.vmem, 49, rfl⟩
abbrev cc3_stg2_1 : Ref sig .tc := ⟨.vmem, 50, rfl⟩
abbrev cc3_stg3_0 : Ref sig .tc := ⟨.vmem, 51, rfl⟩
abbrev cc3_stg3_1 : Ref sig .tc := ⟨.vmem, 52, rfl⟩
abbrev cc3_stg4_0 : Ref sig .tc := ⟨.vmem, 53, rfl⟩
abbrev cc3_stg5_0 : Ref sig .tc := ⟨.vmem, 54, rfl⟩
abbrev cc3_stg5_1 : Ref sig .tc := ⟨.vmem, 55, rfl⟩
abbrev cc4_stg0_0 : Ref sig .tc := ⟨.vmem, 56, rfl⟩
abbrev cc4_stg1_0 : Ref sig .tc := ⟨.vmem, 57, rfl⟩
abbrev cc4_stg2_0 : Ref sig .tc := ⟨.vmem, 58, rfl⟩
abbrev cc4_stg3_0 : Ref sig .tc := ⟨.vmem, 59, rfl⟩
abbrev cc4_stg4_0 : Ref sig .tc := ⟨.vmem, 60, rfl⟩
abbrev cc4_stg5_0 : Ref sig .tc := ⟨.vmem, 61, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21
abbrev cc1_sem5_0 : DmaSem sig := 22
abbrev cc1_sem6_0 : DmaSem sig := 23
abbrev cc1_sem6_1 : DmaSem sig := 24
abbrev cc1_sem7_0 : DmaSem sig := 25
abbrev cc1_sem7_1 : DmaSem sig := 26
abbrev cc1_sem8_0 : DmaSem sig := 27
abbrev cc1_sem8_1 : DmaSem sig := 28
abbrev cc2_sem0_0 : DmaSem sig := 29
abbrev cc2_sem0_1 : DmaSem sig := 30
abbrev cc2_sem1_0 : DmaSem sig := 31
abbrev cc2_sem1_1 : DmaSem sig := 32
abbrev cc2_sem2_0 : DmaSem sig := 33
abbrev cc2_sem2_1 : DmaSem sig := 34
abbrev cc2_sem3_0 : DmaSem sig := 35
abbrev cc2_sem3_1 : DmaSem sig := 36
abbrev cc2_sem4_0 : DmaSem sig := 37
abbrev cc2_sem5_0 : DmaSem sig := 38
abbrev cc2_sem6_0 : DmaSem sig := 39
abbrev cc2_sem6_1 : DmaSem sig := 40
abbrev cc2_sem7_0 : DmaSem sig := 41
abbrev cc2_sem7_1 : DmaSem sig := 42
abbrev cc2_sem8_0 : DmaSem sig := 43
abbrev cc2_sem8_1 : DmaSem sig := 44
abbrev cc3_sem0_0 : DmaSem sig := 45
abbrev cc3_sem0_1 : DmaSem sig := 46
abbrev cc3_sem1_0 : DmaSem sig := 47
abbrev cc3_sem1_1 : DmaSem sig := 48
abbrev cc3_sem2_0 : DmaSem sig := 49
abbrev cc3_sem2_1 : DmaSem sig := 50
abbrev cc3_sem3_0 : DmaSem sig := 51
abbrev cc3_sem3_1 : DmaSem sig := 52
abbrev cc3_sem4_0 : DmaSem sig := 53
abbrev cc3_sem5_0 : DmaSem sig := 54
abbrev cc3_sem5_1 : DmaSem sig := 55
abbrev cc4_sem0_0 : DmaSem sig := 56
abbrev cc4_sem1_0 : DmaSem sig := 57
abbrev cc4_sem2_0 : DmaSem sig := 58
abbrev cc4_sem3_0 : DmaSem sig := 59
abbrev cc4_sem4_0 : DmaSem sig := 60
abbrev cc4_sem5_0 : DmaSem sig := 61

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2000x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x2 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S2000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S2000x128 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x2 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S2000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S2000x128 .bf16 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2000x2 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S512x384 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S384x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S512x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S50000_S50000x1_0 : S50000.BroadcastsInDim S50000x1 (![0] : Fin 1 → Fin S50000x1.rank)
  concatenates_S50000x1_S50000x1_S50000x2_d1 : Shape.Concatenates [S50000x1, S50000x1] S50000x2 1
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  packedbf16_S2000x128_S2000x128_0_0 : (Rect.unit (s := S2000x128) ![0, 0] S2000x128.size inb_S2000x128_S2000x128_0_0).PackedRows (EltTy.packing .bf16)
  bcast_S_S50000x128 : S_.BroadcastsInDim S50000x128 (![] : Fin 0 → Fin S50000x128.rank)
  inb_S2000x2_S2000x2_0_0 : ∀ a, (![0, 0] : Fin 2 → Nat) a + S2000x2.size a ≤ S2000x2.size a
  h_S2000x2 : 0 < S2000x2.numel
  shapeCasts_S2000x2_S2000x2 : S2000x2.ShapeCasts S2000x2
  slices_S2000x2_o0_0_S2000x1 : S2000x2.Slices ![0, 0] S2000x1
  slices_S2000x2_o0_1_S2000x1 : S2000x2.Slices ![0, 1] S2000x1
  shapeCasts_S2000x128_S2000x128 : S2000x128.ShapeCasts S2000x128
  bcast_S_S512x128 : S_.BroadcastsInDim S512x128 (![] : Fin 0 → Fin S512x128.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  concatenates_S512x128_S512x128_S512x128_S512x384_d1 : Shape.Concatenates [S512x128, S512x128, S512x128] S512x384 1
  inb_S512x384_S512x384_0_0 : ∀ a, (![0, 0] : Fin 2 → Nat) a + S512x384.size a ≤ S512x384.size a
  h_S512x384 : 0 < S512x384.numel
  shapeCasts_S512x384_S512x384 : S512x384.ShapeCasts S512x384
  inb_S384x128_S384x128_0_0 : ∀ a, (![0, 0] : Fin 2 → Nat) a + S384x128.size a ≤ S384x128.size a
  h_S384x128 : 0 < S384x128.numel
  broadcasts_S1x128_S512x128 : S1x128.Broadcasts S512x128
  reduces_S512x128_S512 : S512x128.Reduces [1] S512
  shapeCasts_S512_S512x1 : S512.ShapeCasts S512x1
  broadcasts_S512x1_S512x128 : S512x1.Broadcasts S512x128
  inb_S512x128_S512x128_0_0 : ∀ a, (![0, 0] : Fin 2 → Nat) a + S512x128.size a ≤ S512x128.size a
  h_S512x128 : 0 < S512x128.numel
  scatter_S50000_S800000x1_S800000_n_0_0_1_wf : ScatterDims.WF S50000 S800000x1 S800000 [] [0] [0] 1
  dot_S2000x128_S128x128_S2000x128_1_0_0_1_n_n_wf : DotDims.WF S2000x128 S128x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S512x128_S50000x1_S50000x128_1_0_0_1_wf : ScatterDims.WF S512x128 S50000x1 S50000x128 [1] [0] [0] 1
  scatter_S512_S50000x1_S50000_n_0_0_1_wf : ScatterDims.WF S512 S50000x1 S50000 [] [0] [0] 1
  dot_S512x384_S384x128_S512x128_1_0_0_1_n_n_wf : DotDims.WF S512x384 S384x128 S512x128 [1] [0] [0] [1] [] []
  dot_S512x128_S128x128_S512x128_1_0_0_1_n_n_wf : DotDims.WF S512x128 S128x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x1.size a ≤ S50000x1.size a
  hwx0_4 : ∀ i : grid0.Coords, EltTy.bits .f32 = 32 ∨ (Rect.block (s := S50000x1) S2000x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .f32 = 32 ∨ (Rect.block (s := S50000x128) S2000x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x128.size a ≤ S50000x128.size a
  hwx0_7 : ∀ i : grid0.Coords, EltTy.bits .bf16 = 32 ∨ (Rect.block (s := S50000x128) S2000x128.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x2.size a ≤ S50000x2.size a
  hwx1_3 : ∀ i : grid1.Coords, EltTy.bits .f32 = 32 ∨ (Rect.block (s := S50000x2) S2000x2.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .f32 = 32 ∨ (Rect.block (s := S50000x128) S2000x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x128.size a ≤ S50000x128.size a
  hwx1_7 : ∀ i : grid1.Coords, EltTy.bits .f32 = 32 ∨ (Rect.block (s := S50000x128) S2000x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x128.size a ≤ S50000x128.size a
  hwx1_8 : ∀ i : grid1.Coords, EltTy.bits .bf16 = 32 ∨ (Rect.block (s := S50000x128) S2000x128.size (cc1_transform_8 i) (hinb1_8 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x2.size a ≤ S50000x2.size a
  hwx2_3 : ∀ i : grid2.Coords, EltTy.bits .f32 = 32 ∨ (Rect.block (s := S50000x2) S2000x2.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S50000x128.size a
  hwx2_6 : ∀ i : grid2.Coords, EltTy.bits .f32 = 32 ∨ (Rect.block (s := S50000x128) S2000x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x128.size a ≤ S50000x128.size a
  hwx2_7 : ∀ i : grid2.Coords, EltTy.bits .f32 = 32 ∨ (Rect.block (s := S50000x128) S2000x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S2000x128.size a ≤ S50000x128.size a
  hwx2_8 : ∀ i : grid2.Coords, EltTy.bits .bf16 = 32 ∨ (Rect.block (s := S50000x128) S2000x128.size (cc2_transform_8 i) (hinb2_8 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S50000x128.size a
  hwx3_2 : ∀ i : grid3.Coords, EltTy.bits .f32 = 32 ∨ (Rect.block (s := S50000x128) S2000x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x2.size a ≤ S50000x2.size a
  hwx3_3 : ∀ i : grid3.Coords, EltTy.bits .f32 = 32 ∨ (Rect.block (s := S50000x2) S2000x2.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x128.size a ≤ S50000x128.size a
  hwx3_5 : ∀ i : grid3.Coords, EltTy.bits .f32 = 32 ∨ (Rect.block (s := S50000x128) S2000x128.size (cc3_transform_5 i) (hinb3_5 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S512x384.size a ≤ S512x384.size a
  hwx4_0 : ∀ i : grid4.Coords, EltTy.bits .f32 = 32 ∨ (Rect.block (s := S512x384) S512x384.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S384x128.size a ≤ S384x128.size a
  hwx4_1 : ∀ i : grid4.Coords, EltTy.bits .f32 = 32 ∨ (Rect.block (s := S384x128) S384x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S512x128.size a ≤ S512x128.size a
  hwx4_5 : ∀ i : grid4.Coords, EltTy.bits .f32 = 32 ∨ (Rect.block (s := S512x128) S512x128.size (cc4_transform_5 i) (hinb4_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x384_S384x128_S512x128_1_0_0_1_n_n : DotDims S512x384 S384x128 S512x128 where
  lhsContracting := [1]
  rhsContracting := [0]
  lhsNonContracting := [0]
  rhsNonContracting := [1]
  lhsBatch := []
  rhsBatch := []
  wf := dot_S512x384_S384x128_S512x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S2000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v22_0) S2000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v22_1) S2000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v22_2) S2000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v22_0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22_1) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v15) S2000x2.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v17) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v34_0) S2000x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v34_1) S2000x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v34_2) S2000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v34_0) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v34_1) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v15) S2000x2.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v18) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg9) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v46_0) S2000x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v46_1) S2000x128.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v46_2) S2000x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v46_0) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v46_1) S2000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v15) S2000x2.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v19) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v58) S2000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v81) S512x384.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg11) S384x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v20) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg13) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v21) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v82) S512x128.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S384x128 : Shape := ⟨2, ![384, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1x128 : Shape := ⟨2, ![1, 128]⟩
abbrev S800000x128 : Shape := ⟨2, ![800000, 128]⟩
abbrev S50000x1 : Shape := ⟨2, ![50000, 1]⟩
abbrev S50000x384 : Shape := ⟨2, ![50000, 384]⟩
abbrev S512x384 : Shape := ⟨2, ![512, 384]⟩
abbrev S512 : Shape := ⟨1, ![512]⟩
abbrev S512x1 : Shape := ⟨2, ![512, 1]⟩
abbrev S512x128 : Shape := ⟨2, ![512, 128]⟩

abbrev nBuf : Space → Nat
  | .hbm => 215
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S384x128, .f32⟩
  | 12 => ⟨S128, .f32⟩
  | 13 => ⟨S128x128, .f32⟩
  | 14 => ⟨S128, .f32⟩
  | 15 => ⟨S1x800000, .i32⟩
  | 16 => ⟨S800000, .i32⟩
  | 17 => ⟨S1x800000, .i32⟩
  | 18 => ⟨S800000, .i32⟩
  | 19 => ⟨S_, .f32⟩
  | 20 => ⟨S800000, .f32⟩
  | 21 => ⟨S_, .f32⟩
  | 22 => ⟨S50000, .f32⟩
  | 23 => ⟨S800000x1, .i32⟩
  | 24 => ⟨S50000, .f32⟩
  | 25 => ⟨S_, .f32⟩
  | 26 => ⟨S50000, .f32⟩
  | 27 => ⟨S50000, .f32⟩
  | 28 => ⟨S50000, .f32⟩
  | 29 => ⟨S50000x128, .f32⟩
  | 30 => ⟨S1x128, .f32⟩
  | 31 => ⟨S50000x128, .f32⟩
  | 32 => ⟨S50000x128, .f32⟩
  | 33 => ⟨S50000x128, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000, .f32⟩
  | 52 => ⟨S800000, .f32⟩
  | 53 => ⟨S800000x1, .f32⟩
  | 54 => ⟨S_, .i32⟩
  | 55 => ⟨S800000, .i32⟩
  | 56 => ⟨S800000, .i1⟩
  | 57 => ⟨S_, .i32⟩
  | 58 => ⟨S800000, .i32⟩
  | 59 => ⟨S800000, .i32⟩
  | 60 => ⟨S800000, .i32⟩
  | 61 => ⟨S800000x1, .i32⟩
  | 62 => ⟨S800000x128, .f32⟩
  | 63 => ⟨S800000x128, .f32⟩
  | 64 => ⟨S800000x128, .f32⟩
  | 65 => ⟨S_, .f32⟩
  | 66 => ⟨S50000x128, .f32⟩
  | 67 => ⟨S800000x1, .i32⟩
  | 68 => ⟨S50000x128, .f32⟩
  | 69 => ⟨S50000, .f32⟩
  | 70 => ⟨S50000x1, .f32⟩
  | 71 => ⟨S50000x128, .f32⟩
  | 72 => ⟨S50000x128, .f32⟩
  | 73 => ⟨S50000x128, .f32⟩
  | 74 => ⟨S1x128, .f32⟩
  | 75 => ⟨S50000x128, .f32⟩
  | 76 => ⟨S50000x128, .f32⟩
  | 77 => ⟨S50000x128, .f32⟩
  | 78 => ⟨S_, .f32⟩
  | 79 => ⟨S50000x128, .f32⟩
  | 80 => ⟨S50000x128, .f32⟩
  | 81 => ⟨S50000x128, .f32⟩
  | 82 => ⟨S_, .i32⟩
  | 83 => ⟨S800000, .i32⟩
  | 84 => ⟨S800000, .i1⟩
  | 85 => ⟨S_, .i32⟩
  | 86 => ⟨S800000, .i32⟩
  | 87 => ⟨S800000, .i32⟩
  | 88 => ⟨S800000, .i32⟩
  | 89 => ⟨S800000x1, .i32⟩
  | 90 => ⟨S800000, .f32⟩
  | 91 => ⟨S_, .i32⟩
  | 92 => ⟨S800000, .i32⟩
  | 93 => ⟨S800000, .i1⟩
  | 94 => ⟨S_, .i32⟩
  | 95 => ⟨S800000, .i32⟩
  | 96 => ⟨S800000, .i32⟩
  | 97 => ⟨S800000, .i32⟩
  | 98 => ⟨S800000x1, .i32⟩
  | 99 => ⟨S800000, .f32⟩
  | 100 => ⟨S800000, .f32⟩
  | 101 => ⟨S800000x1, .f32⟩
  | 102 => ⟨S_, .i32⟩
  | 103 => ⟨S800000, .i32⟩
  | 104 => ⟨S800000, .i1⟩
  | 105 => ⟨S_, .i32⟩
  | 106 => ⟨S800000, .i32⟩
  | 107 => ⟨S800000, .i32⟩
  | 108 => ⟨S800000, .i32⟩
  | 109 => ⟨S800000x1, .i32⟩
  | 110 => ⟨S800000x128, .f32⟩
  | 111 => ⟨S800000x128, .f32⟩
  | 112 => ⟨S800000x128, .f32⟩
  | 113 => ⟨S_, .f32⟩
  | 114 => ⟨S50000x128, .f32⟩
  | 115 => ⟨S800000x1, .i32⟩
  | 116 => ⟨S50000x128, .f32⟩
  | 117 => ⟨S50000, .f32⟩
  | 118 => ⟨S50000x1, .f32⟩
  | 119 => ⟨S50000x128, .f32⟩
  | 120 => ⟨S50000x128, .f32⟩
  | 121 => ⟨S50000x128, .f32⟩
  | 122 => ⟨S1x128, .f32⟩
  | 123 => ⟨S50000x128, .f32⟩
  | 124 => ⟨S50000x128, .f32⟩
  | 125 => ⟨S50000x128, .f32⟩
  | 126 => ⟨S_, .f32⟩
  | 127 => ⟨S50000x128, .f32⟩
  | _ => ⟨S50000x128, .f32⟩

abbrev hbmTy0_1 (i : Nat) : BufTy := match i % 128 with
  | 0 => ⟨S50000x128, .f32⟩
  | 1 => ⟨S50000x128, .f32⟩
  | 2 => ⟨S_, .i32⟩
  | 3 => ⟨S800000, .i32⟩
  | 4 => ⟨S800000, .i1⟩
  | 5 => ⟨S_, .i32⟩
  | 6 => ⟨S800000, .i32⟩
  | 7 => ⟨S800000, .i32⟩
  | 8 => ⟨S800000, .i32⟩
  | 9 => ⟨S800000x1, .i32⟩
  | 10 => ⟨S800000, .f32⟩
  | 11 => ⟨S_, .i32⟩
  | 12 => ⟨S800000, .i32⟩
  | 13 => ⟨S800000, .i1⟩
  | 14 => ⟨S_, .i32⟩
  | 15 => ⟨S800000, .i32⟩
  | 16 => ⟨S800000, .i32⟩
  | 17 => ⟨S800000, .i32⟩
  | 18 => ⟨S800000x1, .i32⟩
  | 19 => ⟨S800000, .f32⟩
  | 20 => ⟨S800000, .f32⟩
  | 21 => ⟨S800000x1, .f32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S800000x128, .f32⟩
  | 31 => ⟨S800000x128, .f32⟩
  | 32 => ⟨S800000x128, .f32⟩
  | 33 => ⟨S_, .f32⟩
  | 34 => ⟨S50000x128, .f32⟩
  | 35 => ⟨S800000x1, .i32⟩
  | 36 => ⟨S50000x128, .f32⟩
  | 37 => ⟨S50000, .f32⟩
  | 38 => ⟨S50000x1, .f32⟩
  | 39 => ⟨S50000x128, .f32⟩
  | 40 => ⟨S50000x128, .f32⟩
  | 41 => ⟨S50000x128, .f32⟩
  | 42 => ⟨S1x128, .f32⟩
  | 43 => ⟨S50000x128, .f32⟩
  | 44 => ⟨S50000x128, .f32⟩
  | 45 => ⟨S50000x128, .f32⟩
  | 46 => ⟨S_, .f32⟩
  | 47 => ⟨S50000x128, .f32⟩
  | 48 => ⟨S50000x128, .f32⟩
  | 49 => ⟨S50000x384, .f32⟩
  | 50 => ⟨S_, .f32⟩
  | 51 => ⟨S512x384, .f32⟩
  | 52 => ⟨S50000x1, .i32⟩
  | 53 => ⟨S512x384, .f32⟩
  | 54 => ⟨S_, .f32⟩
  | 55 => ⟨S50000, .f32⟩
  | 56 => ⟨S_, .f32⟩
  | 57 => ⟨S512, .f32⟩
  | 58 => ⟨S50000x1, .i32⟩
  | 59 => ⟨S512, .f32⟩
  | 60 => ⟨S_, .f32⟩
  | 61 => ⟨S512, .f32⟩
  | 62 => ⟨S512, .f32⟩
  | 63 => ⟨S512x1, .f32⟩
  | 64 => ⟨S512x384, .f32⟩
  | 65 => ⟨S512x384, .f32⟩
  | 66 => ⟨S512x128, .f32⟩
  | 67 => ⟨S1x128, .f32⟩
  | 68 => ⟨S512x128, .f32⟩
  | 69 => ⟨S512x128, .f32⟩
  | 70 => ⟨S_, .f32⟩
  | 71 => ⟨S512x128, .f32⟩
  | 72 => ⟨S512x128, .f32⟩
  | 73 => ⟨S512x128, .f32⟩
  | 74 => ⟨S1x128, .f32⟩
  | 75 => ⟨S512x128, .f32⟩
  | 76 => ⟨S512x128, .f32⟩
  | 77 => ⟨S512x128, .f32⟩
  | 78 => ⟨S_, .f32⟩
  | 79 => ⟨S512, .f32⟩
  | 80 => ⟨S512x1, .f32⟩
  | 81 => ⟨S512x1, .f32⟩
  | 82 => ⟨S_, .f32⟩
  | 83 => ⟨S512x1, .f32⟩
  | 84 => ⟨S512x1, .f32⟩
  | 85 => ⟨S512x128, .f32⟩
  | 86 => ⟨S512x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_2 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_3 : Ref sig .tc := ⟨.hbm, 43, rfl⟩
abbrev main_v23 : Ref sig .tc := ⟨.hbm, 44, rfl⟩
abbrev main_v24 : Ref sig .tc := ⟨.hbm, 45, rfl⟩
abbrev main_c_4 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_5 : Ref sig .tc := ⟨.hbm, 54, rfl⟩
abbrev main_v32 : Ref sig .tc := ⟨.hbm, 55, rfl⟩
abbrev main_v33 : Ref sig .tc := ⟨.hbm, 56, rfl⟩
abbrev main_c_6 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_7 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_call0_cst : Ref sig .tc := ⟨.hbm, 78, rfl⟩
abbrev main_call0_v0 : Ref sig .tc := ⟨.hbm, 79, rfl⟩
abbrev main_v53 : Ref sig .tc := ⟨.hbm, 80, rfl⟩
abbrev main_v54 : Ref sig .tc := ⟨.hbm, 81, rfl⟩
abbrev main_c_8 : Ref sig .tc := ⟨.hbm, 82, rfl⟩
abbrev main_v55 : Ref sig .tc := ⟨.hbm, 83, rfl⟩
abbrev main_v56 : Ref sig .tc := ⟨.hbm, 84, rfl⟩
abbrev main_c_9 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_c_10 : Ref sig .tc := ⟨.hbm, 91, rfl⟩
abbrev main_v62 : Ref sig .tc := ⟨.hbm, 92, rfl⟩
abbrev main_v63 : Ref sig .tc := ⟨.hbm, 93, rfl⟩
abbrev main_c_11 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_c_12 : Ref sig .tc := ⟨.hbm, 102, rfl⟩
abbrev main_v71 : Ref sig .tc := ⟨.hbm, 103, rfl⟩
abbrev main_v72 : Ref sig .tc := ⟨.hbm, 104, rfl⟩
abbrev main_c_13 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_14 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_call1_cst : Ref sig .tc := ⟨.hbm, 126, rfl⟩
abbrev main_call1_v0 : Ref sig .tc := ⟨.hbm, 127, rfl⟩
abbrev main_v92 : Ref sig .tc := ⟨.hbm, 128, rfl⟩
abbrev main_v93 : Ref sig .tc := ⟨.hbm, 129, rfl⟩
abbrev main_c_15 : Ref sig .tc := ⟨.hbm, 130, rfl⟩
abbrev main_v94 : Ref sig .tc := ⟨.hbm, 131, rfl⟩
abbrev main_v95 : Ref sig .tc := ⟨.hbm, 132, rfl⟩
abbrev main_c_16 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_c_17 : Ref sig .tc := ⟨.hbm, 139, rfl⟩
abbrev main_v101 : Ref sig .tc := ⟨.hbm, 140, rfl⟩
abbrev main_v102 : Ref sig .tc := ⟨.hbm, 141, rfl⟩
abbrev main_c_18 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_c_19 : Ref sig .tc := ⟨.hbm, 150, rfl⟩
abbrev main_v110 : Ref sig .tc := ⟨.hbm, 151, rfl⟩
abbrev main_v111 : Ref sig .tc := ⟨.hbm, 152, rfl⟩
abbrev main_c_20 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_cst_21 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_call2_cst : Ref sig .tc := ⟨.hbm, 174, rfl⟩
abbrev main_call2_v0 : Ref sig .tc := ⟨.hbm, 175, rfl⟩
abbrev main_v131 : Ref sig .tc := ⟨.hbm, 176, rfl⟩
abbrev main_v132 : Ref sig .tc := ⟨.hbm, 177, rfl⟩
abbrev main_cst_22 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_cst_23 : Ref sig .tc := ⟨.hbm, 182, rfl⟩
abbrev main_v136 : Ref sig .tc := ⟨.hbm, 183, rfl⟩
abbrev main_cst_24 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_cst_25 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_call3_cst : Ref sig .tc := ⟨.hbm, 198, rfl⟩
abbrev main_call3_v0 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_cst_26 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_cst_27 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  concatenates_S50000x128_S50000x128_S50000x128_S50000x384_d1 : Shape.Concatenates [S50000x128, S50000x128, S50000x128] S50000x384 1
  bcast_S_S512x384 : S_.BroadcastsInDim S512x384 (![] : Fin 0 → Fin S512x384.rank)
  bcast_S_S512 : S_.BroadcastsInDim S512 (![] : Fin 0 → Fin S512.rank)
  bcast_S512_S512x1_0 : S512.BroadcastsInDim S512x1 (![0] : Fin 1 → Fin S512x1.rank)
  bcast_S512x1_S512x384_0_1 : S512x1.BroadcastsInDim S512x384 (![0, 1] : Fin 2 → Fin S512x384.rank)
  bcast_S1x128_S512x128_0_1 : S1x128.BroadcastsInDim S512x128 (![0, 1] : Fin 2 → Fin S512x128.rank)
  bcast_S_S512x128 : S_.BroadcastsInDim S512x128 (![] : Fin 0 → Fin S512x128.rank)
  reducesTo_S512x128_S512_d1 : S512x128.ReducesTo [1] S512
  h_S_ : 0 < S_.numel
  bcast_S_S512x1 : S_.BroadcastsInDim S512x1 (![] : Fin 0 → Fin S512x1.rank)
  bcast_S512x1_S512x128_0_1 : S512x1.BroadcastsInDim S512x128 (![0, 1] : Fin 2 → Fin S512x128.rank)
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S512x384_S50000x1_S50000x384_1_0_0_1_wf : ScatterDims.WF S512x384 S50000x1 S50000x384 [1] [0] [0] 1
  scatter_S512_S50000x1_S50000_n_0_0_1_wf : ScatterDims.WF S512 S50000x1 S50000 [] [0] [0] 1
  dot_S512x384_S384x128_S512x128_1_0_0_1_n_n_wf : DotDims.WF S512x384 S384x128 S512x128 [1] [0] [0] [1] [] []
  dot_S512x128_S128x128_S512x128_1_0_0_1_n_n_wf : DotDims.WF S512x128 S128x128 S512x128 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S512x384_S50000x1_S50000x384_1_0_0_1 : ScatterDims S512x384 S50000x1 S50000x384 where
  updateWindowDims := [1]
  insertedWindowDims := [0]
  scatterDimsToOperandDims := [0]
  indexVectorDim := 1
  wf := scatter_S512x384_S50000x1_S50000x384_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x384_S384x128_S512x128_1_0_0_1_n_n : DotDims S512x384 S384x128 S512x128 where
  lhsContracting := [1]
  rhsContracting := [0]
  lhsNonContracting := [0]
  rhsNonContracting := [1]
  lhsBatch := []
  rhsBatch := []
  wf := dot_S512x384_S384x128_S512x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf

class Facts : Prop extends Facts₀ where

variable [Facts]
-- ==== Proof.BitsReg0.lean ====
/-
  Region 0 of the host program: the input layer, one block of 2000 rows per grid point.
  At every point the body reads a block of the node features x, the first weight matrix W1, the bias row b, the second
  weight matrix W2, and a block of the normalisation column s, and stores three blocks:
      h = bf16(x) · bf16(W1) + b,     g = bf16(h) · bf16(W2),     bf16(g · s)   (s broadcast along the rows).
  This module states what the body leaves in each output window's buffer as a function of the input blocks, proves
  the body's triple, and packages the per-point obligation of the pipeline that launches it. Everything is stated at a
  parameter: the contents of the core's buffers when the region is entered.
-/
import proofs.«111900_j74998718923370_2_alg».proof.Proof.Gen.Kernel.Launch
import proofs.«111900_j74998718923370_2_alg».proof.Proof.Gen.Kernel.Skeleton
import proofs.«111900_j74998718923370_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_S2000x128 : Rect S2000x128 := Rect.unit (s := S2000x128) ![0, 0] S2000x128.size inb_S2000x128_S2000x128_0_0
abbrev r0_S128x128 : Rect S128x128 := Rect.unit (s := S128x128) ![0, 0] S128x128.size inb_S128x128_S128x128_0_0
abbrev r0_S1x128 : Rect S1x128 := Rect.unit (s := S1x128) ![0, 0] S1x128.size inb_S1x128_S1x128_0_0
abbrev r0_S2000x1 : Rect S2000x1 := Rect.unit (s := S2000x1) ![0, 0] S2000x1.size inb_S2000x1_S2000x1_0_0

/-! ## What the body leaves in each output window's buffer -/

/-- Output window 5's buffer after the body, from the input windows' blocks: its one store. -/
def out0_5 (x0 : Vec F S2000x128 .f32) (x1 : Vec F S128x128 .f32) (x2 : Vec F S1x128 .f32) (x3 : Vec F S128x128 .f32) (x4 : Vec F S2000x1 .f32) : Vec F S2000x128 .f32 :=
  View.canon [⟨r0_S2000x128, k0_pay1 (View.ld x0 r0_S2000x128) (View.ld x1 r0_S128x128) (View.ld x2 r0_S1x128)⟩]

/-- The store covers the whole buffer. -/
theorem cover0_5 (p0 : Vec F S2000x128 .f32) (y : S2000x128.Idx) :
    ∃ pc ∈ ([⟨r0_S2000x128, p0⟩] : List (View.Piece (Elt F) S2000x128 .f32)), y ∈ pc.1.set :=
  View.cover_of_tiled [⟨r0_S2000x128, p0⟩] S2000x128.size (by rfl) y

/-- Output window 6's buffer after the body, from the input windows' blocks: its one store. -/
def out0_6 (x0 : Vec F S2000x128 .f32) (x1 : Vec F S128x128 .f32) (x2 : Vec F S1x128 .f32) (x3 : Vec F S128x128 .f32) (x4 : Vec F S2000x1 .f32) : Vec F S2000x128 .f32 :=
  View.canon [⟨r0_S2000x128, k0_pay2 (View.ld x0 r0_S2000x128) (View.ld x1 r0_S128x128) (View.ld x2 r0_S1x128) (View.ld x3 r0_S128x128)⟩]

/-- The store covers the whole buffer. -/
theorem cover0_6 (p0 : Vec F S2000x128 .f32) (y : S2000x128.Idx) :
    ∃ pc ∈ ([⟨r0_S2000x128, p0⟩] : List (View.Piece (Elt F) S2000x128 .f32)), y ∈ pc.1.set :=
  View.cover_of_tiled [⟨r0_S2000x128, p0⟩] S2000x128.size (by rfl) y

/-- Output window 7's buffer after the body, from the input windows' blocks: its one store. -/
def out0_7 (x0 : Vec F S2000x128 .f32) (x1 : Vec F S128x128 .f32) (x2 : Vec F S1x128 .f32) (x3 : Vec F S128x128 .f32) (x4 : Vec F S2000x1 .f32) : Vec F S2000x128 .bf16 :=
  View.canon [⟨r0_S2000x128, k0_pay3 (View.ld x0 r0_S2000x128) (View.ld x1 r0_S128x128) (View.ld x2 r0_S1x128) (View.ld x3 r0_S128x128) (View.ld x4 r0_S2000x1)⟩]

/-- The store covers the whole buffer. -/
theorem cover0_7 (p0 : Vec F S2000x128 .bf16) (y : S2000x128.Idx) :
    ∃ pc ∈ ([⟨r0_S2000x128, p0⟩] : List (View.Piece (Elt F) S2000x128 .bf16)), y ∈ pc.1.set :=
  View.cover_of_tiled [⟨r0_S2000x128, p0⟩] S2000x128.size (by rfl) y

/-! ## The body's triple -/

set_option maxHeartbeats 8000000 in
/-- The body on whole staging memrefs, the inputs' at read contents and the outputs' at anything, runs to the
    continuation holding the inputs as they were and each output at its `out0_w` of the inputs. -/
theorem sound_kernel0 (c : Dev nD) (E : Set ℕ) (i : grid0.Coords)
    (arg1 : Memref sig .tc .vmem S2000x128 .f32) (harg1 : arg1.IsWhole)
    (arg2 : Memref sig .tc .vmem S128x128 .f32) (harg2 : arg2.IsWhole)
    (arg3 : Memref sig .tc .vmem S1x128 .f32) (harg3 : arg3.IsWhole)
    (arg4 : Memref sig .tc .vmem S128x128 .f32) (harg4 : arg4.IsWhole)
    (arg5 : Memref sig .tc .vmem S2000x1 .f32) (harg5 : arg5.IsWhole)
    (arg6 : Memref sig .tc .vmem S2000x128 .f32) (harg6 : arg6.IsWhole)
    (arg7 : Memref sig .tc .vmem S2000x128 .f32) (harg7 : arg7.IsWhole)
    (arg8 : Memref sig .tc .vmem S2000x128 .bf16) (harg8 : arg8.IsWhole)
    (x0 : Vec F S2000x128 .f32) (x1 : Vec F S128x128 .f32) (x2 : Vec F S1x128 .f32) (x3 : Vec F S128x128 .f32) (x4 : Vec F S2000x1 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ (∃ d, owns (c : Thread nD τ) arg6 fullShare d)
        ∗ (∃ d, owns (c : Thread nD τ) arg7 fullShare d)
        ∗ (∃ d, owns (c : Thread nD τ) arg8 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare (out0_5 x0 x1 x2 x3 x4)
            ∗ owns (c : Thread nD τ) arg7 fullShare (out0_6 x0 x1 x2 x3 x4)
            ∗ owns (c : Thread nD τ) arg8 fullShare (out0_7 x0 x1 x2 x3 x4)) -∗ K ⟨⟩))
      ⊢ wp frame (wpE (defs₀ (F := F)) Variants.none c none) E (cc0__input_first_linear_kernel i arg1 harg1 arg2 harg2 arg3 harg3 arg4 harg4 arg5 harg5 arg6 harg6 arg7 harg7 arg8 harg8) K := by
  simp only [cc0__input_first_linear_kernel_eq_skeleton]; unfold cc0__input_first_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_5 _)
  isplitl [H6]
  · iexists _; isplitr
    swap; · iexact H6
    ipureintro
    exact View.read_writes_eq_canon _ _ _ (cover0_6 _)
  iexists _; isplitr
  swap; · iexact H7
  ipureintro
  exact View.read_writes_eq_canon _ _ _ (cover0_7 _)

/-! ## The pipeline's proof data -/

/-- The proof data of pipeline 0 on core `c`: the arrays as the region finds them; after the body at point `t` each
    input's buffer at its block and each output's at its `out0_w` of the input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
    | ⟨6, _⟩ => out0_6 (iblk0 V c 0 t) (iblk0 V c 1 t) (iblk0 V c 2 t) (iblk0 V c 3 t) (iblk0 V c 4 t)
    | ⟨7, _⟩ => out0_7 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t
    = out0_5 (iblk0 V c 0 t) (iblk0 V c 1 t) (iblk0 V c 2 t) (iblk0 V c 3 t) (iblk0 V c 4 t) := by dsimp only [dat0]
theorem after0_6 (c : Dev nD) (t : Fin cfg0.N) : (dat0 V c).after 6 t
    = out0_6 (iblk0 V c 0 t) (iblk0 V c 1 t) (iblk0 V c 2 t) (iblk0 V c 3 t) (iblk0 V c 4 t) := by dsimp only [dat0]
theorem after0_7 (c : Dev nD) (t : Fin cfg0.N) : (dat0 V c).after 7 t
    = out0_7 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BitsReg1.lean ====
/-
  Region 1 of the host program: a hidden layer's combine step fused with the next layer's linear map, one block of
  2000 rows per grid point. At every point the body reads three blocks x0, x1, x2 of 2000 rows by 128 columns, a block
  of two columns (a, b), a bias row and a 128 by 128 weight matrix w, and stores three blocks:
      h = max (x0 + a · x1 + x2 · b + bias, 0),
      p = (h rounded to bfloat16) times (w rounded to bfloat16), accumulated in binary32 from zero,
      (p · a) rounded to bfloat16.
  This module states what the body leaves in each output window's buffer as a function of the input blocks, proves the
  body's triple, and packages the per-point obligation of the pipeline that launches it. Everything is stated at a
  parameter: the contents of the core's buffers when the region is entered.
-/
import proofs.«111900_j74998718923370_2_alg».proof.Proof.Gen.Kernel.Launch
import proofs.«111900_j74998718923370_2_alg».proof.Proof.Gen.Kernel.Skeleton
import proofs.«111900_j74998718923370_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_a : Rect S2000x128 := Rect.unit (s := S2000x128) ![0, 0] S2000x128.size inb_S2000x128_S2000x128_0_0
abbrev r1_b : Rect S2000x2 := Rect.unit (s := S2000x2) ![0, 0] S2000x2.size inb_S2000x2_S2000x2_0_0
abbrev r1_c : Rect S1x128 := Rect.unit (s := S1x128) ![0, 0] S1x128.size inb_S1x128_S1x128_0_0
abbrev r1_d : Rect S128x128 := Rect.unit (s := S128x128) ![0, 0] S128x128.size inb_S128x128_S128x128_0_0

/-- Output window 6's buffer after the body, from the input windows' blocks: its one store (the block h). -/
def out1_6 (x0 x1 x2 : Vec F S2000x128 .f32) (x3 : Vec F S2000x2 .f32) (x4 : Vec F S1x128 .f32) : Vec F S2000x128 .f32 :=
  View.canon [⟨r1_a, k1_pay3 (View.ld x3 r1_b) (View.ld x0 r1_a) (View.ld x1 r1_a) (View.ld x2 r1_a) (View.ld x4 r1_c)⟩]

/-- The store covers the whole buffer. -/
theorem cover1_6 (p0 : Vec F S2000x128 .f32) (y : S2000x128.Idx) :
    ∃ pc ∈ ([⟨r1_a, p0⟩] : List (View.Piece (Elt F) S2000x128 .f32)), y ∈ pc.1.set :=
  View.cover_of_tiled [⟨r1_a, p0⟩] S2000x128.size (by rfl) y

/-- Output window 7's buffer after the body, from the input windows' blocks: its one store (the block p). -/
def out1_7 (x0 x1 x2 : Vec F S2000x128 .f32) (x3 : Vec F S2000x2 .f32) (x4 : Vec F S1x128 .f32) (x5 : Vec F S128x128 .f32) : Vec F S2000x128 .f32 :=
  View.canon [⟨r1_a, k1_pay4 (View.ld x3 r1_b) (View.ld x0 r1_a) (View.ld x1 r1_a) (View.ld x2 r1_a) (View.ld x4 r1_c) (View.ld x5 r1_d)⟩]

/-- The store covers the whole buffer. -/
theorem cover1_7 (p0 : Vec F S2000x128 .f32) (y : S2000x128.Idx) :
    ∃ pc ∈ ([⟨r1_a, p0⟩] : List (View.Piece (Elt F) S2000x128 .f32)), y ∈ pc.1.set :=
  View.cover_of_tiled [⟨r1_a, p0⟩] S2000x128.size (by rfl) y

/-- Output window 8's buffer after the body, from the input windows' blocks: its one store (the block p · a in bfloat16). -/
def out1_8 (x0 x1 x2 : Vec F S2000x128 .f32) (x3 : Vec F S2000x2 .f32) (x4 : Vec F S1x128 .f32) (x5 : Vec F S128x128 .f32) : Vec F S2000x128 .bf16 :=
  View.canon [⟨r1_a, k1_pay5 (View.ld x3 r1_b) (View.ld x0 r1_a) (View.ld x1 r1_a) (View.ld x2 r1_a) (View.ld x4 r1_c) (View.ld x5 r1_d)⟩]

/-- The store covers the whole buffer. -/
theorem cover1_8 (p0 : Vec F S2000x128 .bf16) (y : S2000x128.Idx) :
    ∃ pc ∈ ([⟨r1_a, p0⟩] : List (View.Piece (Elt F) S2000x128 .bf16)), y ∈ pc.1.set :=
  View.cover_of_tiled [⟨r1_a, p0⟩] S2000x128.size (by rfl) y

/-! ## The body's triple -/

set_option maxHeartbeats 8000000 in
/-- The body on whole staging memrefs, the inputs' at read contents and the outputs' at anything, runs to the
    continuation holding the inputs as they were and each output at its `out1_w` of the inputs. -/
theorem sound_kernel1 (c : Dev nD) (E : Set ℕ) (i : grid1.Coords)
    (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole)
    (arg4 : Memref sig .tc .vmem S2000x2 .f32) (harg4 : arg4.IsWhole) (arg5 : Memref sig .tc .vmem S1x128 .f32) (harg5 : arg5.IsWhole) (arg6 : Memref sig .tc .vmem S128x128 .f32) (harg6 : arg6.IsWhole)
    (arg7 : Memref sig .tc .vmem S2000x128 .f32) (harg7 : arg7.IsWhole) (arg8 : Memref sig .tc .vmem S2000x128 .f32) (harg8 : arg8.IsWhole) (arg9 : Memref sig .tc .vmem S2000x128 .bf16) (harg9 : arg9.IsWhole)
    (x0 x1 x2 : Vec F S2000x128 .f32) (x3 : Vec F S2000x2 .f32) (x4 : Vec F S1x128 .f32) (x5 : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4)
            ∗ owns (c : Thread nD τ) arg8 fullShare (out1_7 x0 x1 x2 x3 x4 x5)
            ∗ owns (c : Thread nD τ) arg9 fullShare (out1_8 x0 x1 x2 x3 x4 x5)) -∗ K ⟨⟩))
      ⊢ wp frame (wpE (defs₀ (F := F)) Variants.none c none) E (cc1__fused_postprocess_linear_kernel i arg1 harg1 arg2 harg2 arg3 harg3 arg4 harg4 arg5 harg5 arg6 harg6 arg7 harg7 arg8 harg8 arg9 harg9) K := by
  simp only [cc1__fused_postprocess_linear_kernel_eq_skeleton]; unfold cc1__fused_postprocess_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover1_6 _)
  isplitl [H7]
  · iexists _; isplitr
    swap; · iexact H7
    ipureintro
    exact View.read_writes_eq_canon _ _ _ (cover1_7 _)
  iexists _; isplitr
  swap; · iexact H8
  ipureintro
  exact View.read_writes_eq_canon _ _ _ (cover1_8 _)

/-! ## The pipeline's proof data -/

/-- The proof data of pipeline 1 on core `c`: the arrays as the region finds them; after the body at point `t` each
    input's buffer at its block and each output's at its `out1_w` of the input blocks; the invariant the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t)
    | ⟨7, _⟩ => out1_7 (iblk1 V c 0 t) (iblk1 V c 1 t) (iblk1 V c 2 t) (iblk1 V c 3 t) (iblk1 V c 4 t) (iblk1 V c 5 t)
    | ⟨8, _⟩ => out1_8 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t
    = out1_6 (iblk1 V c 0 t) (iblk1 V c 1 t) (iblk1 V c 2 t) (iblk1 V c 3 t) (iblk1 V c 4 t) := by dsimp only [dat1]
theorem after1_7 (c : Dev nD) (t : Fin cfg1.N) : (dat1 V c).after 7 t
    = out1_7 (iblk1 V c 0 t) (iblk1 V c 1 t) (iblk1 V c 2 t) (iblk1 V c 3 t) (iblk1 V c 4 t) (iblk1 V c 5 t) := by dsimp only [dat1]
theorem after1_8 (c : Dev nD) (t : Fin cfg1.N) : (dat1 V c).after 8 t
    = out1_8 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ _ _ _ _ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BitsReg2.lean ====
/-
  Region 2 of the host program: a hidden layer's combine step fused with the next layer's linear map, one block of
  2000 rows per grid point. At every point the body reads three blocks x0, x1, x2 of 2000 rows by 128 columns, a block
  of two columns (a, b), a bias row and a 128 by 128 weight matrix w, and stores three blocks:
      h = max (x0 + a · x1 + x2 · b + bias, 0),
      p = (h rounded to bfloat16) times (w rounded to bfloat16), accumulated in binary32 from zero,
      (p · a) rounded to bfloat16.
  This module states what the body leaves in each output window's buffer as a function of the input blocks, proves the
  body's triple, and packages the per-point obligation of the pipeline that launches it. Everything is stated at a
  parameter: the contents of the core's buffers when the region is entered.
-/
import proofs.«111900_j74998718923370_2_alg».proof.Proof.Gen.Kernel.Launch
import proofs.«111900_j74998718923370_2_alg».proof.Proof.Gen.Kernel.Skeleton
import proofs.«111900_j74998718923370_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_a : Rect S2000x128 := Rect.unit (s := S2000x128) ![0, 0] S2000x128.size inb_S2000x128_S2000x128_0_0
abbrev r2_b : Rect S2000x2 := Rect.unit (s := S2000x2) ![0, 0] S2000x2.size inb_S2000x2_S2000x2_0_0
abbrev r2_c : Rect S1x128 := Rect.unit (s := S1x128) ![0, 0] S1x128.size inb_S1x128_S1x128_0_0
abbrev r2_d : Rect S128x128 := Rect.unit (s := S128x128) ![0, 0] S128x128.size inb_S128x128_S128x128_0_0

/-- Output window 6's buffer after the body, from the input windows' blocks: its one store (the block h). -/
def out2_6 (x0 x1 x2 : Vec F S2000x128 .f32) (x3 : Vec F S2000x2 .f32) (x4 : Vec F S1x128 .f32) : Vec F S2000x128 .f32 :=
  View.canon [⟨r2_a, k2_pay3 (View.ld x3 r2_b) (View.ld x0 r2_a) (View.ld x1 r2_a) (View.ld x2 r2_a) (View.ld x4 r2_c)⟩]

/-- The store covers the whole buffer. -/
theorem cover2_6 (p0 : Vec F S2000x128 .f32) (y : S2000x128.Idx) :
    ∃ pc ∈ ([⟨r2_a, p0⟩] : List (View.Piece (Elt F) S2000x128 .f32)), y ∈ pc.1.set :=
  View.cover_of_tiled [⟨r2_a, p0⟩] S2000x128.size (by rfl) y

/-- Output window 7's buffer after the body, from the input windows' blocks: its one store (the block p). -/
def out2_7 (x0 x1 x2 : Vec F S2000x128 .f32) (x3 : Vec F S2000x2 .f32) (x4 : Vec F S1x128 .f32) (x5 : Vec F S128x128 .f32) : Vec F S2000x128 .f32 :=
  View.canon [⟨r2_a, k2_pay4 (View.ld x3 r2_b) (View.ld x0 r2_a) (View.ld x1 r2_a) (View.ld x2 r2_a) (View.ld x4 r2_c) (View.ld x5 r2_d)⟩]

/-- The store covers the whole buffer. -/
theorem cover2_7 (p0 : Vec F S2000x128 .f32) (y : S2000x128.Idx) :
    ∃ pc ∈ ([⟨r2_a, p0⟩] : List (View.Piece (Elt F) S2000x128 .f32)), y ∈ pc.1.set :=
  View.cover_of_tiled [⟨r2_a, p0⟩] S2000x128.size (by rfl) y

/-- Output window 8's buffer after the body, from the input windows' blocks: its one store (the block p · a in bfloat16). -/
def out2_8 (x0 x1 x2 : Vec F S2000x128 .f32) (x3 : Vec F S2000x2 .f32) (x4 : Vec F S1x128 .f32) (x5 : Vec F S128x128 .f32) : Vec F S2000x128 .bf16 :=
  View.canon [⟨r2_a, k2_pay5 (View.ld x3 r2_b) (View.ld x0 r2_a) (View.ld x1 r2_a) (View.ld x2 r2_a) (View.ld x4 r2_c) (View.ld x5 r2_d)⟩]

/-- The store covers the whole buffer. -/
theorem cover2_8 (p0 : Vec F S2000x128 .bf16) (y : S2000x128.Idx) :
    ∃ pc ∈ ([⟨r2_a, p0⟩] : List (View.Piece (Elt F) S2000x128 .bf16)), y ∈ pc.1.set :=
  View.cover_of_tiled [⟨r2_a, p0⟩] S2000x128.size (by rfl) y

/-! ## The body's triple -/

set_option maxHeartbeats 8000000 in
/-- The body on whole staging memrefs, the inputs' at read contents and the outputs' at anything, runs to the
    continuation holding the inputs as they were and each output at its `out2_w` of the inputs. -/
theorem sound_kernel2 (c : Dev nD) (E : Set ℕ) (i : grid2.Coords)
    (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole)
    (arg4 : Memref sig .tc .vmem S2000x2 .f32) (harg4 : arg4.IsWhole) (arg5 : Memref sig .tc .vmem S1x128 .f32) (harg5 : arg5.IsWhole) (arg6 : Memref sig .tc .vmem S128x128 .f32) (harg6 : arg6.IsWhole)
    (arg7 : Memref sig .tc .vmem S2000x128 .f32) (harg7 : arg7.IsWhole) (arg8 : Memref sig .tc .vmem S2000x128 .f32) (harg8 : arg8.IsWhole) (arg9 : Memref sig .tc .vmem S2000x128 .bf16) (harg9 : arg9.IsWhole)
    (x0 x1 x2 : Vec F S2000x128 .f32) (x3 : Vec F S2000x2 .f32) (x4 : Vec F S1x128 .f32) (x5 : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x3 x4)
            ∗ owns (c : Thread nD τ) arg8 fullShare (out2_7 x0 x1 x2 x3 x4 x5)
            ∗ owns (c : Thread nD τ) arg9 fullShare (out2_8 x0 x1 x2 x3 x4 x5)) -∗ K ⟨⟩))
      ⊢ wp frame (wpE (defs₀ (F := F)) Variants.none c none) E (cc2__fused_postprocess_linear_kernel i arg1 harg1 arg2 harg2 arg3 harg3 arg4 harg4 arg5 harg5 arg6 harg6 arg7 harg7 arg8 harg8 arg9 harg9) K := by
  simp only [cc2__fused_postprocess_linear_kernel_eq_skeleton]; unfold cc2__fused_postprocess_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover2_6 _)
  isplitl [H7]
  · iexists _; isplitr
    swap; · iexact H7
    ipureintro
    exact View.read_writes_eq_canon _ _ _ (cover2_7 _)
  iexists _; isplitr
  swap; · iexact H8
  ipureintro
  exact View.read_writes_eq_canon _ _ _ (cover2_8 _)

/-! ## The pipeline's proof data -/

/-- The proof data of pipeline 2 on core `c`: the arrays as the region finds them; after the body at point `t` each
    input's buffer at its block and each output's at its `out2_w` of the input blocks; the invariant the scoped rest and
    the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t)
    | ⟨7, _⟩ => out2_7 (iblk2 V c 0 t) (iblk2 V c 1 t) (iblk2 V c 2 t) (iblk2 V c 3 t) (iblk2 V c 4 t) (iblk2 V c 5 t)
    | ⟨8, _⟩ => out2_8 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t
    = out2_6 (iblk2 V c 0 t) (iblk2 V c 1 t) (iblk2 V c 2 t) (iblk2 V c 3 t) (iblk2 V c 4 t) := by dsimp only [dat2]
theorem after2_7 (c : Dev nD) (t : Fin cfg2.N) : (dat2 V c).after 7 t
    = out2_7 (iblk2 V c 0 t) (iblk2 V c 1 t) (iblk2 V c 2 t) (iblk2 V c 3 t) (iblk2 V c 4 t) (iblk2 V c 5 t) := by dsimp only [dat2]
theorem after2_8 (c : Dev nD) (t : Fin cfg2.N) : (dat2 V c).after 8 t
    = out2_8 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ _ _ _ _ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.BitsReg3.lean ====
/-
  Region 3 of the host program: the last layer's combine step, one block of 2000 rows per grid point.
  At every point the body reads a block of the residual, of the aggregated messages, of the projected features,
  of the two normalisation columns, and the bias row, and stores one block
      max (residual + dis · agg + proj · dis² + bias, 0).
  This module states what the body leaves in the output window's buffer as a function of the input blocks, proves the
  body's triple, and packages the per-point obligation of the pipeline that launches it. Everything is stated at a
  parameter: the contents of the core's buffers when the region is entered.
-/
import proofs.«111900_j74998718923370_2_alg».proof.Proof.Gen.Kernel.Launch
import proofs.«111900_j74998718923370_2_alg».proof.Proof.Gen.Kernel.Skeleton
import proofs.«111900_j74998718923370_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_a : Rect S2000x128 := Rect.unit (s := S2000x128) ![0, 0] S2000x128.size inb_S2000x128_S2000x128_0_0
abbrev r3_b : Rect S2000x2 := Rect.unit (s := S2000x2) ![0, 0] S2000x2.size inb_S2000x2_S2000x2_0_0
abbrev r3_c : Rect S1x128 := Rect.unit (s := S1x128) ![0, 0] S1x128.size inb_S1x128_S1x128_0_0

/-- The output window's buffer after the body, from the input windows' blocks: its one store. -/
def out3_5 (x0 x1 x2 : Vec F S2000x128 .f32) (x3 : Vec F S2000x2 .f32) (x4 : Vec F S1x128 .f32) : Vec F S2000x128 .f32 :=
  View.canon [⟨r3_a, k3_pay1 (View.ld x3 r3_b) (View.ld x0 r3_a) (View.ld x1 r3_a) (View.ld x2 r3_a) (View.ld x4 r3_c)⟩]

/-- The store covers the whole buffer. -/
theorem cover3_5 (p0 : Vec F S2000x128 .f32) (y : S2000x128.Idx) :
    ∃ pc ∈ ([⟨r3_a, p0⟩] : List (View.Piece (Elt F) S2000x128 .f32)), y ∈ pc.1.set :=
  View.cover_of_tiled [⟨r3_a, p0⟩] S2000x128.size (by rfl) y

/-! ## The body's triple -/

set_option maxHeartbeats 4000000 in
/-- The body on whole staging memrefs, the inputs' at read contents and the output's at anything, runs to the
    continuation holding the inputs as they were and the output at `out3_5` of the inputs. -/
theorem sound_kernel3 (c : Dev nD) (E : Set ℕ) (i : grid3.Coords)
    (arg1 : Memref sig .tc .vmem S2000x128 .f32) (harg1 : arg1.IsWhole) (arg2 : Memref sig .tc .vmem S2000x128 .f32) (harg2 : arg2.IsWhole)
    (arg3 : Memref sig .tc .vmem S2000x128 .f32) (harg3 : arg3.IsWhole) (arg4 : Memref sig .tc .vmem S2000x2 .f32) (harg4 : arg4.IsWhole)
    (arg5 : Memref sig .tc .vmem S1x128 .f32) (harg5 : arg5.IsWhole) (arg6 : Memref sig .tc .vmem S2000x128 .f32) (harg6 : arg6.IsWhole)
    (x0 x1 x2 : Vec F S2000x128 .f32) (x3 : Vec F S2000x2 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E (cc3__final_postprocess_kernel i arg1 harg1 arg2 harg2 arg3 harg3 arg4 harg4 arg5 harg5 arg6 harg6) K := by
  simp only [cc3__final_postprocess_kernel_eq_skeleton]; unfold cc3__final_postprocess_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data of pipeline 3 on core `c`: the arrays as the region finds them; after the body at point `t` each
    input's buffer at its block and the output's at `out3_5` of the input blocks; the invariant the scoped rest and the
    generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t
    = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.BitsReg4.lean ====
/-
  Region 4 of the host program: the read-out head, a grid of one point on whole arrays.
  The body reads the pooled features x, the first weight matrix W1 and bias row b1, the second weight matrix W2 and
  bias row b2, and stores one array: with
      h = max (bf16(x) · bf16(W1) + b1, 0)   and   y = bf16(h) · bf16(W2) + b2,
  each row of y divided by the larger of its Euclidean norm and a fixed small constant.
  This module states what the body leaves in the output window's buffer as a function of the input blocks, proves the
  body's triple, and packages the per-point obligation of the pipeline that launches it. Everything is stated at a
  parameter: the contents of the core's buffers when the region is entered.
-/
import proofs.«111900_j74998718923370_2_alg».proof.Proof.Gen.Kernel.Launch
import proofs.«111900_j74998718923370_2_alg».proof.Proof.Gen.Kernel.Skeleton
import proofs.«111900_j74998718923370_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

abbrev r4_S512x384 : Rect S512x384 := Rect.unit (s := S512x384) ![0, 0] S512x384.size inb_S512x384_S512x384_0_0
abbrev r4_S384x128 : Rect S384x128 := Rect.unit (s := S384x128) ![0, 0] S384x128.size inb_S384x128_S384x128_0_0
abbrev r4_S1x128 : Rect S1x128 := Rect.unit (s := S1x128) ![0, 0] S1x128.size inb_S1x128_S1x128_0_0
abbrev r4_S128x128 : Rect S128x128 := Rect.unit (s := S128x128) ![0, 0] S128x128.size inb_S128x128_S128x128_0_0
abbrev r4_S512x128 : Rect S512x128 := Rect.unit (s := S512x128) ![0, 0] S512x128.size inb_S512x128_S512x128_0_0

/-! ## What the body leaves in each output window's buffer -/

/-- Output window 5's buffer after the body, from the input windows' blocks: its one store. -/
def out4_5 (x0 : Vec F S512x384 .f32) (x1 : Vec F S384x128 .f32) (x2 : Vec F S1x128 .f32) (x3 : Vec F S128x128 .f32) (x4 : Vec F S1x128 .f32) : Vec F S512x128 .f32 :=
  View.canon [⟨r4_S512x128, k4_pay1 (View.ld x0 r4_S512x384) (View.ld x1 r4_S384x128) (View.ld x2 r4_S1x128) (View.ld x3 r4_S128x128) (View.ld x4 r4_S1x128)⟩]

/-- The store covers the whole buffer. -/
theorem cover4_5 (p0 : Vec F S512x128 .f32) (y : S512x128.Idx) :
    ∃ pc ∈ ([⟨r4_S512x128, p0⟩] : List (View.Piece (Elt F) S512x128 .f32)), y ∈ pc.1.set :=
  View.cover_of_tiled [⟨r4_S512x128, p0⟩] S512x128.size (by rfl) y

/-! ## The body's triple -/

set_option maxHeartbeats 8000000 in
/-- The body on whole staging memrefs, the inputs' at read contents and the outputs' at anything, runs to the
    continuation holding the inputs as they were and each output at its `out4_w` of the inputs. -/
theorem sound_kernel4 (c : Dev nD) (E : Set ℕ) (i : grid4.Coords)
    (arg1 : Memref sig .tc .vmem S512x384 .f32) (harg1 : arg1.IsWhole)
    (arg2 : Memref sig .tc .vmem S384x128 .f32) (harg2 : arg2.IsWhole)
    (arg3 : Memref sig .tc .vmem S1x128 .f32) (harg3 : arg3.IsWhole)
    (arg4 : Memref sig .tc .vmem S128x128 .f32) (harg4 : arg4.IsWhole)
    (arg5 : Memref sig .tc .vmem S1x128 .f32) (harg5 : arg5.IsWhole)
    (arg6 : Memref sig .tc .vmem S512x128 .f32) (harg6 : arg6.IsWhole)
    (x0 : Vec F S512x384 .f32) (x1 : Vec F S384x128 .f32) (x2 : Vec F S1x128 .f32) (x3 : Vec F S128x128 .f32) (x4 : Vec F S1x128 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ (∃ d, owns (c : Thread nD τ) arg6 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare (out4_5 x0 x1 x2 x3 x4)) -∗ K ⟨⟩))
      ⊢ wp frame (wpE (defs₀ (F := F)) Variants.none c none) E (cc4__head_kernel i arg1 harg1 arg2 harg2 arg3 harg3 arg4 harg4 arg5 harg5 arg6 harg6) K := by
  simp only [cc4__head_kernel_eq_skeleton]; unfold cc4__head_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

/-! ## The pipeline's proof data -/

/-- The proof data of pipeline 4 on core `c`: the arrays as the region finds them; after the body at point `t` each
    input's buffer at its block and each output's at its `out4_w` of the input blocks; the invariant the scoped rest
    and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t
    = out4_5 (iblk4 V c 0 t) (iblk4 V c 1 t) (iblk4 V c 2 t) (iblk4 V c 3 t) (iblk4 V c 4 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.BitsRun.lean ====
/-
  The whole host program as a run with named contents.
  The program is ten items: a stretch of host operations, then a region, five times over. The contents of the core's
  buffers at each boundary are a fold from the launch memory: a host stretch applies its operations; a region leaves each
  of its windows' arrays at what its write-backs leave (an input's array as entered, an output's array block by block)
  and every other buffer as entered. Each region is entered and left through the thread state "every unscoped buffer at
  the boundary's contents, the generator register at some state, nothing owed". The run's post names the result buffer's
  final contents as the last boundary's, and says every argument array ends as launched.
-/
import proofs.«111900_j74998718923370_2_alg».proof.Proof.Gen.Kernel.Launch
import proofs.«111900_j74998718923370_2_alg».proof.Proof.Gen.Kernel.Skeleton
import proofs.«111900_j74998718923370_2_alg».proof.Proof.Gen.Kernel.Points
import proofs.«111900_j74998718923370_2_alg».proof.Proof.BitsReg0
import proofs.«111900_j74998718923370_2_alg».proof.Proof.BitsReg1
import proofs.«111900_j74998718923370_2_alg».proof.Proof.BitsReg2
import proofs.«111900_j74998718923370_2_alg».proof.Proof.BitsReg3
import proofs.«111900_j74998718923370_2_alg».proof.Proof.BitsReg4
import proofs.«111900_j74998718923370_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)

/-- After the host stretch before region 0. -/
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

/-- After the host stretch before region 1. -/
abbrev W3 : Dev nD → Valuation τ sig (Elt F) := fun c => StableHlo.after hostOps1 (W2 m ρ c)
abbrev U3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev U4 : (c : Dev nD) → (b : Ref sig .tc) → Buf (Elt F) ((c : Thread nD τ).loc b) := fun c b => W4 m ρ c b
theorem hF1 (c : Dev nD) (w : Fin cfg1.W) : (dat1 (U3 m ρ) c).arrAt w cfg1.N = U4 m ρ c (Pipeline.arrRef spec1 w) :=
  (W4_arr m ρ c w).symm
theorem hrest1 (c : Dev nD) : ∀ b, b ∉ Finset.univ.image (Pipeline.arrRef spec1) → U4 m ρ c b = U3 m ρ c b :=
  fun b hb => W4_of_ne m ρ c b fun w e => hb (Finset.mem_image.mpr ⟨w, Finset.mem_univ _, e⟩)

/-- After the host stretch before region 2. -/
abbrev W5 : Dev nD → Valuation τ sig (Elt F) := fun c => StableHlo.after hostOps2 (W4 m ρ c)
abbrev U5 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (U5 m ρ) c).arrAt w cfg2.N
theorem W6_arr (c : Dev nD) (w : Fin cfg2.W) :
    W6 m ρ c (Proc.devRef .tc (Pipeline.arrRef spec2 w)) = (dat2 (U5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev U6 : (c : Dev nD) → (b : Ref sig .tc) → Buf (Elt F) ((c : Thread nD τ).loc b) := fun c b => W6 m ρ c b
theorem hF2 (c : Dev nD) (w : Fin cfg2.W) : (dat2 (U5 m ρ) c).arrAt w cfg2.N = U6 m ρ c (Pipeline.arrRef spec2 w) :=
  (W6_arr m ρ c w).symm
theorem hrest2 (c : Dev nD) : ∀ b, b ∉ Finset.univ.image (Pipeline.arrRef spec2) → U6 m ρ c b = U5 m ρ c b :=
  fun b hb => W6_of_ne m ρ c b fun w e => hb (Finset.mem_image.mpr ⟨w, Finset.mem_univ _, e⟩)

/-- After the host stretch before region 3. -/
abbrev W7 : Dev nD → Valuation τ sig (Elt F) := fun c => StableHlo.after hostOps3 (W6 m ρ c)
abbrev U7 : (c : Dev nD) → (b : Ref sig .tc) → Buf (Elt F) ((c : Thread nD τ).loc b) := fun c b => W7 m ρ c b
/-- At region 3's exit: its arrays at what the pipeline leaves, every other buffer as entered. -/
def W8 (c : Dev nD) : Valuation τ sig (Elt F) :=
  Pipeline.withArrays spec3 c (W7 m ρ c) fun w => (dat3 (U7 m ρ) c).arrAt w cfg3.N
theorem W8_arr (c : Dev nD) (w : Fin cfg3.W) :
    W8 m ρ c (Proc.devRef .tc (Pipeline.arrRef spec3 w)) = (dat3 (U7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev U8 : (c : Dev nD) → (b : Ref sig .tc) → Buf (Elt F) ((c : Thread nD τ).loc b) := fun c b => W8 m ρ c b
theorem hF3 (c : Dev nD) (w : Fin cfg3.W) : (dat3 (U7 m ρ) c).arrAt w cfg3.N = U8 m ρ c (Pipeline.arrRef spec3 w) :=
  (W8_arr m ρ c w).symm
theorem hrest3 (c : Dev nD) : ∀ b, b ∉ Finset.univ.image (Pipeline.arrRef spec3) → U8 m ρ c b = U7 m ρ c b :=
  fun b hb => W8_of_ne m ρ c b fun w e => hb (Finset.mem_image.mpr ⟨w, Finset.mem_univ _, e⟩)

/-- After the host stretch before region 4. -/
abbrev W9 : Dev nD → Valuation τ sig (Elt F) := fun c => StableHlo.after hostOps4 (W8 m ρ c)
abbrev U9 : (c : Dev nD) → (b : Ref sig .tc) → Buf (Elt F) ((c : Thread nD τ).loc b) := fun c b => W9 m ρ c b
/-- At region 4's exit: its arrays at what the pipeline leaves, every other buffer as entered. -/
def W10 (c : Dev nD) : Valuation τ sig (Elt F) :=
  Pipeline.withArrays spec4 c (W9 m ρ c) fun w => (dat4 (U9 m ρ) c).arrAt w cfg4.N
theorem W10_arr (c : Dev nD) (w : Fin cfg4.W) :
    W10 m ρ c (Proc.devRef .tc (Pipeline.arrRef spec4 w)) = (dat4 (U9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev U10 : (c : Dev nD) → (b : Ref sig .tc) → Buf (Elt F) ((c : Thread nD τ).loc b) := fun c b => W10 m ρ c b
theorem hF4 (c : Dev nD) (w : Fin cfg4.W) : (dat4 (U9 m ρ) c).arrAt w cfg4.N = U10 m ρ c (Pipeline.arrRef spec4 w) :=
  (W10_arr m ρ c w).symm
theorem hrest4 (c : Dev nD) : ∀ b, b ∉ Finset.univ.image (Pipeline.arrRef spec4) → U10 m ρ c b = U9 m ρ c b :=
  fun b hb => W10_of_ne m ρ c b fun w e => hb (Finset.mem_image.mpr ⟨w, Finset.mem_univ _, e⟩)

/-! ## The arguments end as launched: no host operation writes one, and a region reads it through an input window or not at all -/

theorem W10_main_arg0 (c : Dev nD) : W10 m ρ c (Proc.devRef .tc main_arg0) = m ((c : Thread nD τ).loc main_arg0) :=
  calc W10 m ρ c (Proc.devRef .tc main_arg0)
    _ = W9 m ρ c (Proc.devRef .tc main_arg0) := W10_of_ne m ρ c main_arg0 (by decide)
    _ = W8 m ρ c (Proc.devRef .tc main_arg0) := StableHlo.after_of_writes_sub hostOps4 _ hostOps4_writes (by decide)
    _ = W7 m ρ c (Proc.devRef .tc main_arg0) := W8_of_ne m ρ c main_arg0 (by decide)
    _ = W6 m ρ c (Proc.devRef .tc main_arg0) := StableHlo.after_of_writes_sub hostOps3 _ hostOps3_writes (by decide)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 0).trans (((dat0 (U1 m ρ) c).arrAt_in 0 rfl _).trans (A_eq0 (U1 m ρ) c 0))
    _ = W0 m ρ c (Proc.devRef .tc main_arg0) := StableHlo.after_of_writes_sub hostOps0 _ hostOps0_writes (by decide)
    _ = m ((c : Thread nD τ).loc main_arg0) := rfl

theorem W10_main_arg1 (c : Dev nD) : W10 m ρ c (Proc.devRef .tc main_arg1) = m ((c : Thread nD τ).loc main_arg1) :=
  calc W10 m ρ c (Proc.devRef .tc main_arg1)
    _ = W9 m ρ c (Proc.devRef .tc main_arg1) := W10_of_ne m ρ c main_arg1 (by decide)
    _ = W8 m ρ c (Proc.devRef .tc main_arg1) := StableHlo.after_of_writes_sub hostOps4 _ hostOps4_writes (by decide)
    _ = W7 m ρ c (Proc.devRef .tc main_arg1) := W8_of_ne m ρ c main_arg1 (by decide)
    _ = W6 m ρ c (Proc.devRef .tc main_arg1) := StableHlo.after_of_writes_sub hostOps3 _ hostOps3_writes (by decide)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W10_main_arg2 (c : Dev nD) : W10 m ρ c (Proc.devRef .tc main_arg2) = m ((c : Thread nD τ).loc main_arg2) :=
  calc W10 m ρ c (Proc.devRef .tc main_arg2)
    _ = W9 m ρ c (Proc.devRef .tc main_arg2) := W10_of_ne m ρ c main_arg2 (by decide)
    _ = W8 m ρ c (Proc.devRef .tc main_arg2) := StableHlo.after_of_writes_sub hostOps4 _ hostOps4_writes (by decide)
    _ = W7 m ρ c (Proc.devRef .tc main_arg2) := W8_of_ne m ρ c main_arg2 (by decide)
    _ = W6 m ρ c (Proc.devRef .tc main_arg2) := StableHlo.after_of_writes_sub hostOps3 _ hostOps3_writes (by decide)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W10_main_arg3 (c : Dev nD) : W10 m ρ c (Proc.devRef .tc main_arg3) = m ((c : Thread nD τ).loc main_arg3) :=
  calc W10 m ρ c (Proc.devRef .tc main_arg3)
    _ = W9 m ρ c (Proc.devRef .tc main_arg3) := W10_of_ne m ρ c main_arg3 (by decide)
    _ = W8 m ρ c (Proc.devRef .tc main_arg3) := StableHlo.after_of_writes_sub hostOps4 _ hostOps4_writes (by decide)
    _ = W7 m ρ c (Proc.devRef .tc main_arg3) := W8_of_ne m ρ c main_arg3 (by decide)
    _ = W6 m ρ c (Proc.devRef .tc main_arg3) := StableHlo.after_of_writes_sub hostOps3 _ hostOps3_writes (by decide)
    _ = W5 m ρ c (Proc.devRef .tc main_arg3) := W6_of_ne m ρ c main_arg3 (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := (W2_arr m ρ c 1).trans (((dat0 (U1 m ρ) c).arrAt_in 1 rfl _).trans (A_eq0 (U1 m ρ) c 1))
    _ = W0 m ρ c (Proc.devRef .tc main_arg3) := StableHlo.after_of_writes_sub hostOps0 _ hostOps0_writes (by decide)
    _ = m ((c : Thread nD τ).loc main_arg3) := rfl

theorem W10_main_arg4 (c : Dev nD) : W10 m ρ c (Proc.devRef .tc main_arg4) = m ((c : Thread nD τ).loc main_arg4) :=
  calc W10 m ρ c (Proc.devRef .tc main_arg4)
    _ = W9 m ρ c (Proc.devRef .tc main_arg4) := W10_of_ne m ρ c main_arg4 (by decide)
    _ = W8 m ρ c (Proc.devRef .tc main_arg4) := StableHlo.after_of_writes_sub hostOps4 _ hostOps4_writes (by decide)
    _ = W7 m ρ c (Proc.devRef .tc main_arg4) := W8_of_ne m ρ c main_arg4 (by decide)
    _ = W6 m ρ c (Proc.devRef .tc main_arg4) := StableHlo.after_of_writes_sub hostOps3 _ hostOps3_writes (by decide)
    _ = W5 m ρ c (Proc.devRef .tc main_arg4) := W6_of_ne m ρ c main_arg4 (by decide)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

theorem W10_main_arg5 (c : Dev nD) : W10 m ρ c (Proc.devRef .tc main_arg5) = m ((c : Thread nD τ).loc main_arg5) :=
  calc W10 m ρ c (Proc.devRef .tc main_arg5)
    _ = W9 m ρ c (Proc.devRef .tc main_arg5) := W10_of_ne m ρ c main_arg5 (by decide)
    _ = W8 m ρ c (Proc.devRef .tc main_arg5) := StableHlo.after_of_writes_sub hostOps4 _ hostOps4_writes (by decide)
    _ = W7 m ρ c (Proc.devRef .tc main_arg5) := W8_of_ne m ρ c main_arg5 (by decide)
    _ = W6 m ρ c (Proc.devRef .tc main_arg5) := StableHlo.after_of_writes_sub hostOps3 _ hostOps3_writes (by decide)
    _ = W5 m ρ c (Proc.devRef .tc main_arg5) := W6_of_ne m ρ c main_arg5 (by decide)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := (W2_arr m ρ c 3).trans (((dat0 (U1 m ρ) c).arrAt_in 3 rfl _).trans (A_eq0 (U1 m ρ) c 3))
    _ = W0 m ρ c (Proc.devRef .tc main_arg5) := StableHlo.after_of_writes_sub hostOps0 _ hostOps0_writes (by decide)
    _ = m ((c : Thread nD τ).loc main_arg5) := rfl

theorem W10_main_arg6 (c : Dev nD) : W10 m ρ c (Proc.devRef .tc main_arg6) = m ((c : Thread nD τ).loc main_arg6) :=
  calc W10 m ρ c (Proc.devRef .tc main_arg6)
    _ = W9 m ρ c (Proc.devRef .tc main_arg6) := W10_of_ne m ρ c main_arg6 (by decide)
    _ = W8 m ρ c (Proc.devRef .tc main_arg6) := StableHlo.after_of_writes_sub hostOps4 _ hostOps4_writes (by decide)
    _ = W7 m ρ c (Proc.devRef .tc main_arg6) := W8_of_ne m ρ c main_arg6 (by decide)
    _ = W6 m ρ c (Proc.devRef .tc main_arg6) := StableHlo.after_of_writes_sub hostOps3 _ hostOps3_writes (by decide)
    _ = W5 m ρ c (Proc.devRef .tc main_arg6) := W6_of_ne m ρ c main_arg6 (by decide)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

theorem W10_main_arg7 (c : Dev nD) : W10 m ρ c (Proc.devRef .tc main_arg7) = m ((c : Thread nD τ).loc main_arg7) :=
  calc W10 m ρ c (Proc.devRef .tc main_arg7)
    _ = W9 m ρ c (Proc.devRef .tc main_arg7) := W10_of_ne m ρ c main_arg7 (by decide)
    _ = W8 m ρ c (Proc.devRef .tc main_arg7) := StableHlo.after_of_writes_sub hostOps4 _ hostOps4_writes (by decide)
    _ = W7 m ρ c (Proc.devRef .tc main_arg7) := W8_of_ne m ρ c main_arg7 (by decide)
    _ = W6 m ρ c (Proc.devRef .tc main_arg7) := StableHlo.after_of_writes_sub hostOps3 _ hostOps3_writes (by decide)
    _ = W5 m ρ c (Proc.devRef .tc main_arg7) := W6_of_ne m ρ c main_arg7 (by decide)
    _ = W4 m ρ c (Proc.devRef .tc main_arg7) := StableHlo.after_of_writes_sub hostOps2 _ hostOps2_writes (by decide)
    _ = W3 m ρ c (Proc.devRef .tc main_arg7) := (W4_arr m ρ c 5).trans (((dat1 (U3 m ρ) c).arrAt_in 5 rfl _).trans (A_eq1 (U3 m ρ) c 5))
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

theorem W10_main_arg8 (c : Dev nD) : W10 m ρ c (Proc.devRef .tc main_arg8) = m ((c : Thread nD τ).loc main_arg8) :=
  calc W10 m ρ c (Proc.devRef .tc main_arg8)
    _ = W9 m ρ c (Proc.devRef .tc main_arg8) := W10_of_ne m ρ c main_arg8 (by decide)
    _ = W8 m ρ c (Proc.devRef .tc main_arg8) := StableHlo.after_of_writes_sub hostOps4 _ hostOps4_writes (by decide)
    _ = W7 m ρ c (Proc.devRef .tc main_arg8) := W8_of_ne m ρ c main_arg8 (by decide)
    _ = W6 m ρ c (Proc.devRef .tc main_arg8) := StableHlo.after_of_writes_sub hostOps3 _ hostOps3_writes (by decide)
    _ = W5 m ρ c (Proc.devRef .tc main_arg8) := W6_of_ne m ρ c main_arg8 (by decide)
    _ = W4 m ρ c (Proc.devRef .tc main_arg8) := StableHlo.after_of_writes_sub hostOps2 _ hostOps2_writes (by decide)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

theorem W10_main_arg9 (c : Dev nD) : W10 m ρ c (Proc.devRef .tc main_arg9) = m ((c : Thread nD τ).loc main_arg9) :=
  calc W10 m ρ c (Proc.devRef .tc main_arg9)
    _ = W9 m ρ c (Proc.devRef .tc main_arg9) := W10_of_ne m ρ c main_arg9 (by decide)
    _ = W8 m ρ c (Proc.devRef .tc main_arg9) := StableHlo.after_of_writes_sub hostOps4 _ hostOps4_writes (by decide)
    _ = W7 m ρ c (Proc.devRef .tc main_arg9) := W8_of_ne m ρ c main_arg9 (by decide)
    _ = W6 m ρ c (Proc.devRef .tc main_arg9) := StableHlo.after_of_writes_sub hostOps3 _ hostOps3_writes (by decide)
    _ = W5 m ρ c (Proc.devRef .tc main_arg9) := (W6_arr m ρ c 5).trans (((dat2 (U5 m ρ) c).arrAt_in 5 rfl _).trans (A_eq2 (U5 m ρ) c 5))
    _ = W4 m ρ c (Proc.devRef .tc main_arg9) := StableHlo.after_of_writes_sub hostOps2 _ hostOps2_writes (by decide)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl

theorem W10_main_arg10 (c : Dev nD) : W10 m ρ c (Proc.devRef .tc main_arg10) = m ((c : Thread nD τ).loc main_arg10) :=
  calc W10 m ρ c (Proc.devRef .tc main_arg10)
    _ = W9 m ρ c (Proc.devRef .tc main_arg10) := W10_of_ne m ρ c main_arg10 (by decide)
    _ = W8 m ρ c (Proc.devRef .tc main_arg10) := StableHlo.after_of_writes_sub hostOps4 _ hostOps4_writes (by decide)
    _ = W7 m ρ c (Proc.devRef .tc main_arg10) := W8_of_ne m ρ c main_arg10 (by decide)
    _ = W6 m ρ c (Proc.devRef .tc main_arg10) := StableHlo.after_of_writes_sub hostOps3 _ hostOps3_writes (by decide)
    _ = W5 m ρ c (Proc.devRef .tc main_arg10) := W6_of_ne m ρ c main_arg10 (by decide)
    _ = W4 m ρ c (Proc.devRef .tc main_arg10) := StableHlo.after_of_writes_sub hostOps2 _ hostOps2_writes (by decide)
    _ = W3 m ρ c (Proc.devRef .tc main_arg10) := W4_of_ne m ρ c main_arg10 (by decide)
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl

theorem W10_main_arg11 (c : Dev nD) : W10 m ρ c (Proc.devRef .tc main_arg11) = m ((c : Thread nD τ).loc main_arg11) :=
  calc W10 m ρ c (Proc.devRef .tc main_arg11)
    _ = W9 m ρ c (Proc.devRef .tc main_arg11) := (W10_arr m ρ c 1).trans (((dat4 (U9 m ρ) c).arrAt_in 1 rfl _).trans (A_eq4 (U9 m ρ) c 1))
    _ = W8 m ρ c (Proc.devRef .tc main_arg11) := StableHlo.after_of_writes_sub hostOps4 _ hostOps4_writes (by decide)
    _ = W7 m ρ c (Proc.devRef .tc main_arg11) := W8_of_ne m ρ c main_arg11 (by decide)
    _ = W6 m ρ c (Proc.devRef .tc main_arg11) := StableHlo.after_of_writes_sub hostOps3 _ hostOps3_writes (by decide)
    _ = W5 m ρ c (Proc.devRef .tc main_arg11) := W6_of_ne m ρ c main_arg11 (by decide)
    _ = W4 m ρ c (Proc.devRef .tc main_arg11) := StableHlo.after_of_writes_sub hostOps2 _ hostOps2_writes (by decide)
    _ = W3 m ρ c (Proc.devRef .tc main_arg11) := W4_of_ne m ρ c main_arg11 (by decide)
    _ = W2 m ρ c (Proc.devRef .tc main_arg11) := StableHlo.after_of_writes_sub hostOps1 _ hostOps1_writes (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)
    _ = m ((c : Thread nD τ).loc main_arg11) := rfl

theorem W10_main_arg12 (c : Dev nD) : W10 m ρ c (Proc.devRef .tc main_arg12) = m ((c : Thread nD τ).loc main_arg12) :=
  calc W10 m ρ c (Proc.devRef .tc main_arg12)
    _ = W9 m ρ c (Proc.devRef .tc main_arg12) := W10_of_ne m ρ c main_arg12 (by decide)
    _ = W8 m ρ c (Proc.devRef .tc main_arg12) := StableHlo.after_of_writes_sub hostOps4 _ hostOps4_writes (by decide)
    _ = W7 m ρ c (Proc.devRef .tc main_arg12) := W8_of_ne m ρ c main_arg12 (by decide)
    _ = W6 m ρ c (Proc.devRef .tc main_arg12) := StableHlo.after_of_writes_sub hostOps3 _ hostOps3_writes (by decide)
    _ = W5 m ρ c (Proc.devRef .tc main_arg12) := W6_of_ne m ρ c main_arg12 (by decide)
    _ = W4 m ρ c (Proc.devRef .tc main_arg12) := StableHlo.after_of_writes_sub hostOps2 _ hostOps2_writes (by decide)
    _ = W3 m ρ c (Proc.devRef .tc main_arg12) := W4_of_ne m ρ c main_arg12 (by decide)
    _ = W2 m ρ c (Proc.devRef .tc main_arg12) := StableHlo.after_of_writes_sub hostOps1 _ hostOps1_writes (by decide)
    _ = W1 m ρ c (Proc.devRef .tc main_arg12) := W2_of_ne m ρ c main_arg12 (by decide)
    _ = W0 m ρ c (Proc.devRef .tc main_arg12) := StableHlo.after_of_writes_sub hostOps0 _ hostOps0_writes (by decide)
    _ = m ((c : Thread nD τ).loc main_arg12) := rfl

theorem W10_main_arg13 (c : Dev nD) : W10 m ρ c (Proc.devRef .tc main_arg13) = m ((c : Thread nD τ).loc main_arg13) :=
  calc W10 m ρ c (Proc.devRef .tc main_arg13)
    _ = W9 m ρ c (Proc.devRef .tc main_arg13) := (W10_arr m ρ c 3).trans (((dat4 (U9 m ρ) c).arrAt_in 3 rfl _).trans (A_eq4 (U9 m ρ) c 3))
    _ = W8 m ρ c (Proc.devRef .tc main_arg13) := StableHlo.after_of_writes_sub hostOps4 _ hostOps4_writes (by decide)
    _ = W7 m ρ c (Proc.devRef .tc main_arg13) := W8_of_ne m ρ c main_arg13 (by decide)
    _ = W6 m ρ c (Proc.devRef .tc main_arg13) := StableHlo.after_of_writes_sub hostOps3 _ hostOps3_writes (by decide)
    _ = W5 m ρ c (Proc.devRef .tc main_arg13) := W6_of_ne m ρ c main_arg13 (by decide)
    _ = W4 m ρ c (Proc.devRef .tc main_arg13) := StableHlo.after_of_writes_sub hostOps2 _ hostOps2_writes (by decide)
    _ = W3 m ρ c (Proc.devRef .tc main_arg13) := W4_of_ne m ρ c main_arg13 (by decide)
    _ = W2 m ρ c (Proc.devRef .tc main_arg13) := StableHlo.after_of_writes_sub hostOps1 _ hostOps1_writes (by decide)
    _ = W1 m ρ c (Proc.devRef .tc main_arg13) := W2_of_ne m ρ c main_arg13 (by decide)
    _ = W0 m ρ c (Proc.devRef .tc main_arg13) := StableHlo.after_of_writes_sub hostOps0 _ hostOps0_writes (by decide)
    _ = m ((c : Thread nD τ).loc main_arg13) := rfl

theorem W10_main_arg14 (c : Dev nD) : W10 m ρ c (Proc.devRef .tc main_arg14) = m ((c : Thread nD τ).loc main_arg14) :=
  calc W10 m ρ c (Proc.devRef .tc main_arg14)
    _ = W9 m ρ c (Proc.devRef .tc main_arg14) := W10_of_ne m ρ c main_arg14 (by decide)
    _ = W8 m ρ c (Proc.devRef .tc main_arg14) := StableHlo.after_of_writes_sub hostOps4 _ hostOps4_writes (by decide)
    _ = W7 m ρ c (Proc.devRef .tc main_arg14) := W8_of_ne m ρ c main_arg14 (by decide)
    _ = W6 m ρ c (Proc.devRef .tc main_arg14) := StableHlo.after_of_writes_sub hostOps3 _ hostOps3_writes (by decide)
    _ = W5 m ρ c (Proc.devRef .tc main_arg14) := W6_of_ne m ρ c main_arg14 (by decide)
    _ = W4 m ρ c (Proc.devRef .tc main_arg14) := StableHlo.after_of_writes_sub hostOps2 _ hostOps2_writes (by decide)
    _ = W3 m ρ c (Proc.devRef .tc main_arg14) := W4_of_ne m ρ c main_arg14 (by decide)
    _ = W2 m ρ c (Proc.devRef .tc main_arg14) := StableHlo.after_of_writes_sub hostOps1 _ hostOps1_writes (by decide)
    _ = W1 m ρ c (Proc.devRef .tc main_arg14) := W2_of_ne m ρ c main_arg14 (by decide)
    _ = W0 m ρ c (Proc.devRef .tc main_arg14) := StableHlo.after_of_writes_sub hostOps0 _ hostOps0_writes (by decide)
    _ = m ((c : Thread nD τ).loc main_arg14) := rfl

/-! ## The proof data family and the thread state -/

abbrev admH : (p : Fin 5) → (pcfgs (F := F) p).Adm := fun p => (cfgs p).toPCfg_adm
/-- Every pipeline's proof data, each at its region's entry contents. -/
def pdatsH : (p : Fin 5) → (c : Dev nD) → Dat τ (Elt F) Unit ℕ (UR sig nD τ) ℕ (Pipeline.pin (pcfgs (F := F)) admH p) c
  | ⟨0, _⟩ => fun c => dat0 (U1 m ρ) c
  | ⟨1, _⟩ => fun c => dat1 (U3 m ρ) c
  | ⟨2, _⟩ => fun c => dat2 (U5 m ρ) c
  | ⟨3, _⟩ => fun c => dat3 (U7 m ρ) c
  | ⟨4, _⟩ => fun c => dat4 (U9 m ρ) c
abbrev 𝒱H : Variants := Variants.none
abbrev LH : GSem nD τ sig → Finset Unit := fun _ => ∅
abbrev lvH : GSem nD τ sig → Unit → ℕ := fun _ _ => 0
/-- What rides beside the buffers through every item: the generator register at some state and nothing owed. -/
abbrev RH (c : Dev nD) : sProp 𝕄 := iprop((∃ r, prngReg c r) ∗ ∃ W, owes (c : Thread nD τ) (0 : CellTallies nD τ sig Unit) W)
/-- A host stretch as an item of the run. -/
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TH (c : Dev nD) : sProp 𝕄 := iprop(StableHlo.held (c : Thread nD τ) (Pipeline.ucRefs τ sig) (W10 m ρ c) ∗ ∃ r, prngReg c r)

/-! ## The regions as items of the run -/

set_option backward.isDefEq.respectTransparency.types false in
/-- Region 0: entered from every unscoped buffer at the contents before it, left at the contents after it. Its arrays
    are split out of the unscoped buffers and put back at the exit contents; the generator register goes into the
    pipeline's invariant and comes back; nothing is owed. -/
def reg0 : Pipeline.RegionSeg (pcfgs (F := F)) admH (pdatsH m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ LH lvH 0 fun _ _ => rfl
  pre c := iprop(StableHlo.held (c : Thread nD τ) (Pipeline.ucRefs τ sig) (W1 m ρ c) ∗ RH c)
  post c := iprop(StableHlo.held (c : Thread nD τ) (Pipeline.ucRefs τ sig) (W2 m ρ c) ∗ RH c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) admH (pdatsH m ρ) launch0.win launch0.arr_whole c
      ((pdatsH m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m ρ) ((pdatsH m ρ 0 c).share_full fun _ => rfl)
      (U1 m ρ c) (U2 m ρ c) ((pdatsH m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at the contents before it, left at the contents after it. Its arrays
    are split out of the unscoped buffers and put back at the exit contents; the generator register goes into the
    pipeline's invariant and comes back; nothing is owed. -/
def reg1 : Pipeline.RegionSeg (pcfgs (F := F)) admH (pdatsH m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ LH lvH 1 fun _ _ => rfl
  pre c := iprop(StableHlo.held (c : Thread nD τ) (Pipeline.ucRefs τ sig) (W3 m ρ c) ∗ RH c)
  post c := iprop(StableHlo.held (c : Thread nD τ) (Pipeline.ucRefs τ sig) (W4 m ρ c) ∗ RH c)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) admH (pdatsH m ρ) launch1.win launch1.arr_whole c
      ((pdatsH m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m ρ) ((pdatsH m ρ 1 c).share_full fun _ => rfl)
      (U3 m ρ c) (U4 m ρ c) ((pdatsH m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at the contents before it, left at the contents after it. Its arrays
    are split out of the unscoped buffers and put back at the exit contents; the generator register goes into the
    pipeline's invariant and comes back; nothing is owed. -/
def reg2 : Pipeline.RegionSeg (pcfgs (F := F)) admH (pdatsH m ρ) () defs₀ 𝒱H LH lvH 2 where
  win := launch2.win.to₀
  block_pos := launch2.block_pos
  stage_whole := launch2.stage_whole
  K := PEmpty
  osem k := k.elim
  ho := Pipeline.OwnSemFacts.none _
  hbody c := (body_obligation2 (U5 m ρ) c).loose
  hwaits := Pipeline.hwaits_of_owed_zero _ _ _ _ LH lvH 2 fun _ _ => rfl
  pre c := iprop(StableHlo.held (c : Thread nD τ) (Pipeline.ucRefs τ sig) (W5 m ρ c) ∗ RH c)
  post c := iprop(StableHlo.held (c : Thread nD τ) (Pipeline.ucRefs τ sig) (W6 m ρ c) ∗ RH c)
  X c := iprop(∃ r, prngReg c r)
  Y c := iprop(∃ r, prngReg c r)
  Z c := Pipeline.unscopedRest (Ix := Unit) (Name := ℕ) (U := UR sig nD τ) (Lvl := ℕ) spec2 c (U5 m ρ c)
  hentry c := by
    rw [Pipeline.ownSems0_none]
    have hsplit := Pipeline.arrays_of_unscopedBufs (p := 2) (pcfgs (F := F)) admH (pdatsH m ρ) launch2.win launch2.arr_whole c
      ((pdatsH m ρ 2 c).share_full fun _ => rfl) (U5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdatsH m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdatsH m ρ) ((pdatsH m ρ 2 c).share_full fun _ => rfl)
      (U5 m ρ c) (U6 m ρ c) ((pdatsH m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every unscoped buffer at the contents before it, left at the contents after it. Its arrays
    are split out of the unscoped buffers and put back at the exit contents; the generator register goes into the
    pipeline's invariant and comes back; nothing is owed. -/
def reg3 : Pipeline.RegionSeg (pcfgs (F := F)) admH (pdatsH m ρ) () defs₀ 𝒱H LH lvH 3 where
  win := launch3.win.to₀
  block_pos := launch3.block_pos
  stage_whole := launch3.stage_whole
  K := PEmpty
  osem k := k.elim
  ho := Pipeline.OwnSemFacts.none _
  hbody c := (body_obligation3 (U7 m ρ) c).loose
  hwaits := Pipeline.hwaits_of_owed_zero _ _ _ _ LH lvH 3 fun _ _ => rfl
  pre c := iprop(StableHlo.held (c : Thread nD τ) (Pipeline.ucRefs τ sig) (W7 m ρ c) ∗ RH c)
  post c := iprop(StableHlo.held (c : Thread nD τ) (Pipeline.ucRefs τ sig) (W8 m ρ c) ∗ RH c)
  X c := iprop(∃ r, prngReg c r)
  Y c := iprop(∃ r, prngReg c r)
  Z c := Pipeline.unscopedRest (Ix := Unit) (Name := ℕ) (U := UR sig nD τ) (Lvl := ℕ) spec3 c (U7 m ρ c)
  hentry c := by
    rw [Pipeline.ownSems0_none]
    have hsplit := Pipeline.arrays_of_unscopedBufs (p := 3) (pcfgs (F := F)) admH (pdatsH m ρ) launch3.win launch3.arr_whole c
      ((pdatsH m ρ 3 c).share_full fun _ => rfl) (U7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdatsH m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admH (Ix := Unit) (Name := ℕ) (U := UR sig nD τ) (Lvl := ℕ)
      launch3.win launch3.arr_whole c (pdatsH m ρ) ((pdatsH m ρ 3 c).share_full fun _ => rfl)
      (U7 m ρ c) (U8 m ρ c) ((pdatsH m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered from every unscoped buffer at the contents before it, left at the contents after it. Its arrays
    are split out of the unscoped buffers and put back at the exit contents; the generator register goes into the
    pipeline's invariant and comes back; nothing is owed. -/
def reg4 : Pipeline.RegionSeg (pcfgs (F := F)) admH (pdatsH m ρ) () defs₀ 𝒱H LH lvH 4 where
  win := launch4.win.to₀
  block_pos := launch4.block_pos
  stage_whole := launch4.stage_whole
  K := PEmpty
  osem k := k.elim
  ho := Pipeline.OwnSemFacts.none _
  hbody c := (body_obligation4 (U9 m ρ) c).loose
  hwaits := Pipeline.hwaits_of_owed_zero _ _ _ _ LH lvH 4 fun _ _ => rfl
  pre c := iprop(StableHlo.held (c : Thread nD τ) (Pipeline.ucRefs τ sig) (W9 m ρ c) ∗ RH c)
  post c := iprop(TH m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (U9 m ρ c)
  hentry c := by
    rw [Pipeline.ownSems0_none]
    have hsplit := Pipeline.arrays_of_unscopedBufs (p := 4) (pcfgs (F := F)) admH (pdatsH m ρ) launch4.win launch4.arr_whole c
      ((pdatsH m ρ 4 c).share_full fun _ => rfl) (U9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdatsH m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) admH (Ix := Unit) (Name := ℕ) (U := UR sig nD τ) (Lvl := ℕ)
      launch4.win launch4.arr_whole c (pdatsH m ρ) ((pdatsH m ρ 4 c).share_full fun _ => rfl)
      (U9 m ρ c) (U10 m ρ c) ((pdatsH m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as the run of its items, and the launch -/

abbrev segsH : List (Pipeline.Seg (pcfgs (F := F)) admH (pdatsH m ρ) () defs₀ 𝒱H LH lvH) :=
  [ .host (hsegH hostOps0 hostOps0_sub hostOps0_fresh (W0 m ρ)),
    .region (reg0 m ρ),
    .host (hsegH hostOps1 hostOps1_sub hostOps1_fresh (W2 m ρ)),
    .region (reg1 m ρ),
    .host (hsegH hostOps2 hostOps2_sub hostOps2_fresh (W4 m ρ)),
    .region (reg2 m ρ),
    .host (hsegH hostOps3 hostOps3_sub hostOps3_fresh (W6 m ρ)),
    .region (reg3 m ρ),
    .host (hsegH hostOps4 hostOps4_sub hostOps4_fresh (W8 m ρ)),
    .region (reg4 m ρ) ]

theorem main_runH (c : Dev nD) : main (F := F) c = Pipeline.Seg.run (segsH m ρ) := (main_chain c).trans (by chain_rfl)

set_option backward.isDefEq.respectTransparency.types false in
/-- THE RUN. From any memory with zero counters every weakly fair execution of the program terminates, nothing
    faulting; the result buffer ends at the last boundary's contents and every argument array as launched. -/
theorem run_main : θ_run defs (onTc (τ := τ) (main (F := F))) ⟨m, fun _ => 0, ρ⟩ (fun r => ∀ c : Dev nD,
      r.2.mem ((c.tc : Thread nD τ).loc main_v82) = W10 m ρ c (Proc.devRef .tc main_v82)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) admH (pdatsH m ρ) () cellOf_inj emb₁ defs₀ 𝒱H LH lvH m ρ main (segsH m ρ)
    (fun c Q => by rw [main_runH m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ RH c)) (Tₙ := TH m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach LH lvH fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v82 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c)⟩)

/-- The frame: every argument array ends as launched. -/
theorem frameH : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => (h c).2) (run_main m ρ)

end Cert.Kernel.Hand

end
-- ==== Proof.IdealReg0.lean ====
/-
  Region 0 of the host program: the input layer, one block of 2000 rows per grid point.
  At every point the body reads a block of the node features x, the first weight matrix W1, the bias row b, the second
  weight matrix W2, and a block of the normalisation column s, and stores three blocks:
      h = bf16(x) · bf16(W1) + b,     g = bf16(h) · bf16(W2),     bf16(g · s)   (s broadcast along the rows).
  This module states what the body leaves in each output window's buffer as a function of the input blocks, proves
  the body's triple, and packages the per-point obligation of the pipeline that launches it. Everything is stated at a
  parameter: the contents of the core's buffers when the region is entered.
-/
import proofs.«111900_j74998718923370_2_alg».proof.Proof.Gen.KernelIdeal.Launch
import proofs.«111900_j74998718923370_2_alg».proof.Proof.Gen.KernelIdeal.Skeleton
import proofs.«111900_j74998718923370_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_S2000x128 : Rect S2000x128 := Rect.unit (s := S2000x128) ![0, 0] S2000x128.size inb_S2000x128_S2000x128_0_0
abbrev r0_S128x128 : Rect S128x128 := Rect.unit (s := S128x128) ![0, 0] S128x128.size inb_S128x128_S128x128_0_0
abbrev r0_S1x128 : Rect S1x128 := Rect.unit (s := S1x128) ![0, 0] S1x128.size inb_S1x128_S1x128_0_0
abbrev r0_S2000x1 : Rect S2000x1 := Rect.unit (s := S2000x1) ![0, 0] S2000x1.size inb_S2000x1_S2000x1_0_0

/-! ## What the body leaves in each output window's buffer -/

/-- Output window 5's buffer after the body, from the input windows' blocks: its one store. -/
def out0_5 (x0 : Vec F S2000x128 .f32) (x1 : Vec F S128x128 .f32) (x2 : Vec F S1x128 .f32) (x3 : Vec F S128x128 .f32) (x4 : Vec F S2000x1 .f32) : Vec F S2000x128 .f32 :=
  View.canon [⟨r0_S2000x128, k0_pay1 (View.ld x0 r0_S2000x128) (View.ld x1 r0_S128x128) (View.ld x2 r0_S1x128)⟩]

/-- The store covers the whole buffer. -/
theorem cover0_5 (p0 : Vec F S2000x128 .f32) (y : S2000x128.Idx) :
    ∃ pc ∈ ([⟨r0_S2000x128, p0⟩] : List (View.Piece (Elt F) S2000x128 .f32)), y ∈ pc.1.set :=
  View.cover_of_tiled [⟨r0_S2000x128, p0⟩] S2000x128.size (by rfl) y

/-- Output window 6's buffer after the body, from the input windows' blocks: its one store. -/
def out0_6 (x0 : Vec F S2000x128 .f32) (x1 : Vec F S128x128 .f32) (x2 : Vec F S1x128 .f32) (x3 : Vec F S128x128 .f32) (x4 : Vec F S2000x1 .f32) : Vec F S2000x128 .f32 :=
  View.canon [⟨r0_S2000x128, k0_pay2 (View.ld x0 r0_S2000x128) (View.ld x1 r0_S128x128) (View.ld x2 r0_S1x128) (View.ld x3 r0_S128x128)⟩]

/-- The store covers the whole buffer. -/
theorem cover0_6 (p0 : Vec F S2000x128 .f32) (y : S2000x128.Idx) :
    ∃ pc ∈ ([⟨r0_S2000x128, p0⟩] : List (View.Piece (Elt F) S2000x128 .f32)), y ∈ pc.1.set :=
  View.cover_of_tiled [⟨r0_S2000x128, p0⟩] S2000x128.size (by rfl) y

/-- Output window 7's buffer after the body, from the input windows' blocks: its one store. -/
def out0_7 (x0 : Vec F S2000x128 .f32) (x1 : Vec F S128x128 .f32) (x2 : Vec F S1x128 .f32) (x3 : Vec F S128x128 .f32) (x4 : Vec F S2000x1 .f32) : Vec F S2000x128 .bf16 :=
  View.canon [⟨r0_S2000x128, k0_pay3 (View.ld x0 r0_S2000x128) (View.ld x1 r0_S128x128) (View.ld x2 r0_S1x128) (View.ld x3 r0_S128x128) (View.ld x4 r0_S2000x1)⟩]

/-- The store covers the whole buffer. -/
theorem cover0_7 (p0 : Vec F S2000x128 .bf16) (y : S2000x128.Idx) :
    ∃ pc ∈ ([⟨r0_S2000x128, p0⟩] : List (View.Piece (Elt F) S2000x128 .bf16)), y ∈ pc.1.set :=
  View.cover_of_tiled [⟨r0_S2000x128, p0⟩] S2000x128.size (by rfl) y

/-! ## The body's triple -/

set_option maxHeartbeats 8000000 in
/-- The body on whole staging memrefs, the inputs' at read contents and the outputs' at anything, runs to the
    continuation holding the inputs as they were and each output at its `out0_w` of the inputs. -/
theorem sound_kernel0 (c : Dev nD) (E : Set ℕ) (i : grid0.Coords)
    (arg1 : Memref sig .tc .vmem S2000x128 .f32) (harg1 : arg1.IsWhole)
    (arg2 : Memref sig .tc .vmem S128x128 .f32) (harg2 : arg2.IsWhole)
    (arg3 : Memref sig .tc .vmem S1x128 .f32) (harg3 : arg3.IsWhole)
    (arg4 : Memref sig .tc .vmem S128x128 .f32) (harg4 : arg4.IsWhole)
    (arg5 : Memref sig .tc .vmem S2000x1 .f32) (harg5 : arg5.IsWhole)
    (arg6 : Memref sig .tc .vmem S2000x128 .f32) (harg6 : arg6.IsWhole)
    (arg7 : Memref sig .tc .vmem S2000x128 .f32) (harg7 : arg7.IsWhole)
    (arg8 : Memref sig .tc .vmem S2000x128 .bf16) (harg8 : arg8.IsWhole)
    (x0 : Vec F S2000x128 .f32) (x1 : Vec F S128x128 .f32) (x2 : Vec F S1x128 .f32) (x3 : Vec F S128x128 .f32) (x4 : Vec F S2000x1 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ (∃ d, owns (c : Thread nD τ) arg6 fullShare d)
        ∗ (∃ d, owns (c : Thread nD τ) arg7 fullShare d)
        ∗ (∃ d, owns (c : Thread nD τ) arg8 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare (out0_5 x0 x1 x2 x3 x4)
            ∗ owns (c : Thread nD τ) arg7 fullShare (out0_6 x0 x1 x2 x3 x4)
            ∗ owns (c : Thread nD τ) arg8 fullShare (out0_7 x0 x1 x2 x3 x4)) -∗ K ⟨⟩))
      ⊢ wp frame (wpE (defs₀ (F := F)) Variants.none c none) E (cc0__input_first_linear_kernel i arg1 harg1 arg2 harg2 arg3 harg3 arg4 harg4 arg5 harg5 arg6 harg6 arg7 harg7 arg8 harg8) K := by
  simp only [cc0__input_first_linear_kernel_eq_skeleton]; unfold cc0__input_first_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_5 _)
  isplitl [H6]
  · iexists _; isplitr
    swap; · iexact H6
    ipureintro
    exact View.read_writes_eq_canon _ _ _ (cover0_6 _)
  iexists _; isplitr
  swap; · iexact H7
  ipureintro
  exact View.read_writes_eq_canon _ _ _ (cover0_7 _)

/-! ## The pipeline's proof data -/

/-- The proof data of pipeline 0 on core `c`: the arrays as the region finds them; after the body at point `t` each
    input's buffer at its block and each output's at its `out0_w` of the input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
    | ⟨6, _⟩ => out0_6 (iblk0 V c 0 t) (iblk0 V c 1 t) (iblk0 V c 2 t) (iblk0 V c 3 t) (iblk0 V c 4 t)
    | ⟨7, _⟩ => out0_7 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t
    = out0_5 (iblk0 V c 0 t) (iblk0 V c 1 t) (iblk0 V c 2 t) (iblk0 V c 3 t) (iblk0 V c 4 t) := by dsimp only [dat0]
theorem after0_6 (c : Dev nD) (t : Fin cfg0.N) : (dat0 V c).after 6 t
    = out0_6 (iblk0 V c 0 t) (iblk0 V c 1 t) (iblk0 V c 2 t) (iblk0 V c 3 t) (iblk0 V c 4 t) := by dsimp only [dat0]
theorem after0_7 (c : Dev nD) (t : Fin cfg0.N) : (dat0 V c).after 7 t
    = out0_7 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.IdealReg1.lean ====
/-
  Region 1 of the host program: a hidden layer's combine step fused with the next layer's linear map, one block of
  2000 rows per grid point. At every point the body reads three blocks x0, x1, x2 of 2000 rows by 128 columns, a block
  of two columns (a, b), a bias row and a 128 by 128 weight matrix w, and stores three blocks:
      h = max (x0 + a · x1 + x2 · b + bias, 0),
      p = (h rounded to bfloat16) times (w rounded to bfloat16), accumulated in binary32 from zero,
      (p · a) rounded to bfloat16.
  This module states what the body leaves in each output window's buffer as a function of the input blocks, proves the
  body's triple, and packages the per-point obligation of the pipeline that launches it. Everything is stated at a
  parameter: the contents of the core's buffers when the region is entered.
-/
import proofs.«111900_j74998718923370_2_alg».proof.Proof.Gen.KernelIdeal.Launch
import proofs.«111900_j74998718923370_2_alg».proof.Proof.Gen.KernelIdeal.Skeleton
import proofs.«111900_j74998718923370_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_a : Rect S2000x128 := Rect.unit (s := S2000x128) ![0, 0] S2000x128.size inb_S2000x128_S2000x128_0_0
abbrev r1_b : Rect S2000x2 := Rect.unit (s := S2000x2) ![0, 0] S2000x2.size inb_S2000x2_S2000x2_0_0
abbrev r1_c : Rect S1x128 := Rect.unit (s := S1x128) ![0, 0] S1x128.size inb_S1x128_S1x128_0_0
abbrev r1_d : Rect S128x128 := Rect.unit (s := S128x128) ![0, 0] S128x128.size inb_S128x128_S128x128_0_0

/-- Output window 6's buffer after the body, from the input windows' blocks: its one store (the block h). -/
def out1_6 (x0 x1 x2 : Vec F S2000x128 .f32) (x3 : Vec F S2000x2 .f32) (x4 : Vec F S1x128 .f32) : Vec F S2000x128 .f32 :=
  View.canon [⟨r1_a, k1_pay3 (View.ld x3 r1_b) (View.ld x0 r1_a) (View.ld x1 r1_a) (View.ld x2 r1_a) (View.ld x4 r1_c)⟩]

/-- The store covers the whole buffer. -/
theorem cover1_6 (p0 : Vec F S2000x128 .f32) (y : S2000x128.Idx) :
    ∃ pc ∈ ([⟨r1_a, p0⟩] : List (View.Piece (Elt F) S2000x128 .f32)), y ∈ pc.1.set :=
  View.cover_of_tiled [⟨r1_a, p0⟩] S2000x128.size (by rfl) y

/-- Output window 7's buffer after the body, from the input windows' blocks: its one store (the block p). -/
def out1_7 (x0 x1 x2 : Vec F S2000x128 .f32) (x3 : Vec F S2000x2 .f32) (x4 : Vec F S1x128 .f32) (x5 : Vec F S128x128 .f32) : Vec F S2000x128 .f32 :=
  View.canon [⟨r1_a, k1_pay4 (View.ld x3 r1_b) (View.ld x0 r1_a) (View.ld x1 r1_a) (View.ld x2 r1_a) (View.ld x4 r1_c) (View.ld x5 r1_d)⟩]

/-- The store covers the whole buffer. -/
theorem cover1_7 (p0 : Vec F S2000x128 .f32) (y : S2000x128.Idx) :
    ∃ pc ∈ ([⟨r1_a, p0⟩] : List (View.Piece (Elt F) S2000x128 .f32)), y ∈ pc.1.set :=
  View.cover_of_tiled [⟨r1_a, p0⟩] S2000x128.size (by rfl) y

/-- Output window 8's buffer after the body, from the input windows' blocks: its one store (the block p · a in bfloat16). -/
def out1_8 (x0 x1 x2 : Vec F S2000x128 .f32) (x3 : Vec F S2000x2 .f32) (x4 : Vec F S1x128 .f32) (x5 : Vec F S128x128 .f32) : Vec F S2000x128 .bf16 :=
  View.canon [⟨r1_a, k1_pay5 (View.ld x3 r1_b) (View.ld x0 r1_a) (View.ld x1 r1_a) (View.ld x2 r1_a) (View.ld x4 r1_c) (View.ld x5 r1_d)⟩]

/-- The store covers the whole buffer. -/
theorem cover1_8 (p0 : Vec F S2000x128 .bf16) (y : S2000x128.Idx) :
    ∃ pc ∈ ([⟨r1_a, p0⟩] : List (View.Piece (Elt F) S2000x128 .bf16)), y ∈ pc.1.set :=
  View.cover_of_tiled [⟨r1_a, p0⟩] S2000x128.size (by rfl) y

/-! ## The body's triple -/

set_option maxHeartbeats 8000000 in
/-- The body on whole staging memrefs, the inputs' at read contents and the outputs' at anything, runs to the
    continuation holding the inputs as they were and each output at its `out1_w` of the inputs. -/
theorem sound_kernel1 (c : Dev nD) (E : Set ℕ) (i : grid1.Coords)
    (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole)
    (arg4 : Memref sig .tc .vmem S2000x2 .f32) (harg4 : arg4.IsWhole) (arg5 : Memref sig .tc .vmem S1x128 .f32) (harg5 : arg5.IsWhole) (arg6 : Memref sig .tc .vmem S128x128 .f32) (harg6 : arg6.IsWhole)
    (arg7 : Memref sig .tc .vmem S2000x128 .f32) (harg7 : arg7.IsWhole) (arg8 : Memref sig .tc .vmem S2000x128 .f32) (harg8 : arg8.IsWhole) (arg9 : Memref sig .tc .vmem S2000x128 .bf16) (harg9 : arg9.IsWhole)
    (x0 x1 x2 : Vec F S2000x128 .f32) (x3 : Vec F S2000x2 .f32) (x4 : Vec F S1x128 .f32) (x5 : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4)
            ∗ owns (c : Thread nD τ) arg8 fullShare (out1_7 x0 x1 x2 x3 x4 x5)
            ∗ owns (c : Thread nD τ) arg9 fullShare (out1_8 x0 x1 x2 x3 x4 x5)) -∗ K ⟨⟩))
      ⊢ wp frame (wpE (defs₀ (F := F)) Variants.none c none) E (cc1__fused_postprocess_linear_kernel i arg1 harg1 arg2 harg2 arg3 harg3 arg4 harg4 arg5 harg5 arg6 harg6 arg7 harg7 arg8 harg8 arg9 harg9) K := by
  simp only [cc1__fused_postprocess_linear_kernel_eq_skeleton]; unfold cc1__fused_postprocess_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover1_6 _)
  isplitl [H7]
  · iexists _; isplitr
    swap; · iexact H7
    ipureintro
    exact View.read_writes_eq_canon _ _ _ (cover1_7 _)
  iexists _; isplitr
  swap; · iexact H8
  ipureintro
  exact View.read_writes_eq_canon _ _ _ (cover1_8 _)

/-! ## The pipeline's proof data -/

/-- The proof data of pipeline 1 on core `c`: the arrays as the region finds them; after the body at point `t` each
    input's buffer at its block and each output's at its `out1_w` of the input blocks; the invariant the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t)
    | ⟨7, _⟩ => out1_7 (iblk1 V c 0 t) (iblk1 V c 1 t) (iblk1 V c 2 t) (iblk1 V c 3 t) (iblk1 V c 4 t) (iblk1 V c 5 t)
    | ⟨8, _⟩ => out1_8 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t
    = out1_6 (iblk1 V c 0 t) (iblk1 V c 1 t) (iblk1 V c 2 t) (iblk1 V c 3 t) (iblk1 V c 4 t) := by dsimp only [dat1]
theorem after1_7 (c : Dev nD) (t : Fin cfg1.N) : (dat1 V c).after 7 t
    = out1_7 (iblk1 V c 0 t) (iblk1 V c 1 t) (iblk1 V c 2 t) (iblk1 V c 3 t) (iblk1 V c 4 t) (iblk1 V c 5 t) := by dsimp only [dat1]
theorem after1_8 (c : Dev nD) (t : Fin cfg1.N) : (dat1 V c).after 8 t
    = out1_8 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ _ _ _ _ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.IdealReg2.lean ====
/-
  Region 2 of the host program: a hidden layer's combine step fused with the next layer's linear map, one block of
  2000 rows per grid point. At every point the body reads three blocks x0, x1, x2 of 2000 rows by 128 columns, a block
  of two columns (a, b), a bias row and a 128 by 128 weight matrix w, and stores three blocks:
      h = max (x0 + a · x1 + x2 · b + bias, 0),
      p = (h rounded to bfloat16) times (w rounded to bfloat16), accumulated in binary32 from zero,
      (p · a) rounded to bfloat16.
  This module states what the body leaves in each output window's buffer as a function of the input blocks, proves the
  body's triple, and packages the per-point obligation of the pipeline that launches it. Everything is stated at a
  parameter: the contents of the core's buffers when the region is entered.
-/
import proofs.«111900_j74998718923370_2_alg».proof.Proof.Gen.KernelIdeal.Launch
import proofs.«111900_j74998718923370_2_alg».proof.Proof.Gen.KernelIdeal.Skeleton
import proofs.«111900_j74998718923370_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_a : Rect S2000x128 := Rect.unit (s := S2000x128) ![0, 0] S2000x128.size inb_S2000x128_S2000x128_0_0
abbrev r2_b : Rect S2000x2 := Rect.unit (s := S2000x2) ![0, 0] S2000x2.size inb_S2000x2_S2000x2_0_0
abbrev r2_c : Rect S1x128 := Rect.unit (s := S1x128) ![0, 0] S1x128.size inb_S1x128_S1x128_0_0
abbrev r2_d : Rect S128x128 := Rect.unit (s := S128x128) ![0, 0] S128x128.size inb_S128x128_S128x128_0_0

/-- Output window 6's buffer after the body, from the input windows' blocks: its one store (the block h). -/
def out2_6 (x0 x1 x2 : Vec F S2000x128 .f32) (x3 : Vec F S2000x2 .f32) (x4 : Vec F S1x128 .f32) : Vec F S2000x128 .f32 :=
  View.canon [⟨r2_a, k2_pay3 (View.ld x3 r2_b) (View.ld x0 r2_a) (View.ld x1 r2_a) (View.ld x2 r2_a) (View.ld x4 r2_c)⟩]

/-- The store covers the whole buffer. -/
theorem cover2_6 (p0 : Vec F S2000x128 .f32) (y : S2000x128.Idx) :
    ∃ pc ∈ ([⟨r2_a, p0⟩] : List (View.Piece (Elt F) S2000x128 .f32)), y ∈ pc.1.set :=
  View.cover_of_tiled [⟨r2_a, p0⟩] S2000x128.size (by rfl) y

/-- Output window 7's buffer after the body, from the input windows' blocks: its one store (the block p). -/
def out2_7 (x0 x1 x2 : Vec F S2000x128 .f32) (x3 : Vec F S2000x2 .f32) (x4 : Vec F S1x128 .f32) (x5 : Vec F S128x128 .f32) : Vec F S2000x128 .f32 :=
  View.canon [⟨r2_a, k2_pay4 (View.ld x3 r2_b) (View.ld x0 r2_a) (View.ld x1 r2_a) (View.ld x2 r2_a) (View.ld x4 r2_c) (View.ld x5 r2_d)⟩]

/-- The store covers the whole buffer. -/
theorem cover2_7 (p0 : Vec F S2000x128 .f32) (y : S2000x128.Idx) :
    ∃ pc ∈ ([⟨r2_a, p0⟩] : List (View.Piece (Elt F) S2000x128 .f32)), y ∈ pc.1.set :=
  View.cover_of_tiled [⟨r2_a, p0⟩] S2000x128.size (by rfl) y

/-- Output window 8's buffer after the body, from the input windows' blocks: its one store (the block p · a in bfloat16). -/
def out2_8 (x0 x1 x2 : Vec F S2000x128 .f32) (x3 : Vec F S2000x2 .f32) (x4 : Vec F S1x128 .f32) (x5 : Vec F S128x128 .f32) : Vec F S2000x128 .bf16 :=
  View.canon [⟨r2_a, k2_pay5 (View.ld x3 r2_b) (View.ld x0 r2_a) (View.ld x1 r2_a) (View.ld x2 r2_a) (View.ld x4 r2_c) (View.ld x5 r2_d)⟩]

/-- The store covers the whole buffer. -/
theorem cover2_8 (p0 : Vec F S2000x128 .bf16) (y : S2000x128.Idx) :
    ∃ pc ∈ ([⟨r2_a, p0⟩] : List (View.Piece (Elt F) S2000x128 .bf16)), y ∈ pc.1.set :=
  View.cover_of_tiled [⟨r2_a, p0⟩] S2000x128.size (by rfl) y

/-! ## The body's triple -/

set_option maxHeartbeats 8000000 in
/-- The body on whole staging memrefs, the inputs' at read contents and the outputs' at anything, runs to the
    continuation holding the inputs as they were and each output at its `out2_w` of the inputs. -/
theorem sound_kernel2 (c : Dev nD) (E : Set ℕ) (i : grid2.Coords)
    (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole)
    (arg4 : Memref sig .tc .vmem S2000x2 .f32) (harg4 : arg4.IsWhole) (arg5 : Memref sig .tc .vmem S1x128 .f32) (harg5 : arg5.IsWhole) (arg6 : Memref sig .tc .vmem S128x128 .f32) (harg6 : arg6.IsWhole)
    (arg7 : Memref sig .tc .vmem S2000x128 .f32) (harg7 : arg7.IsWhole) (arg8 : Memref sig .tc .vmem S2000x128 .f32) (harg8 : arg8.IsWhole) (arg9 : Memref sig .tc .vmem S2000x128 .bf16) (harg9 : arg9.IsWhole)
    (x0 x1 x2 : Vec F S2000x128 .f32) (x3 : Vec F S2000x2 .f32) (x4 : Vec F S1x128 .f32) (x5 : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x3 x4)
            ∗ owns (c : Thread nD τ) arg8 fullShare (out2_7 x0 x1 x2 x3 x4 x5)
            ∗ owns (c : Thread nD τ) arg9 fullShare (out2_8 x0 x1 x2 x3 x4 x5)) -∗ K ⟨⟩))
      ⊢ wp frame (wpE (defs₀ (F := F)) Variants.none c none) E (cc2__fused_postprocess_linear_kernel i arg1 harg1 arg2 harg2 arg3 harg3 arg4 harg4 arg5 harg5 arg6 harg6 arg7 harg7 arg8 harg8 arg9 harg9) K := by
  simp only [cc2__fused_postprocess_linear_kernel_eq_skeleton]; unfold cc2__fused_postprocess_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover2_6 _)
  isplitl [H7]
  · iexists _; isplitr
    swap; · iexact H7
    ipureintro
    exact View.read_writes_eq_canon _ _ _ (cover2_7 _)
  iexists _; isplitr
  swap; · iexact H8
  ipureintro
  exact View.read_writes_eq_canon _ _ _ (cover2_8 _)

/-! ## The pipeline's proof data -/

/-- The proof data of pipeline 2 on core `c`: the arrays as the region finds them; after the body at point `t` each
    input's buffer at its block and each output's at its `out2_w` of the input blocks; the invariant the scoped rest and
    the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t)
    | ⟨7, _⟩ => out2_7 (iblk2 V c 0 t) (iblk2 V c 1 t) (iblk2 V c 2 t) (iblk2 V c 3 t) (iblk2 V c 4 t) (iblk2 V c 5 t)
    | ⟨8, _⟩ => out2_8 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t
    = out2_6 (iblk2 V c 0 t) (iblk2 V c 1 t) (iblk2 V c 2 t) (iblk2 V c 3 t) (iblk2 V c 4 t) := by dsimp only [dat2]
theorem after2_7 (c : Dev nD) (t : Fin cfg2.N) : (dat2 V c).after 7 t
    = out2_7 (iblk2 V c 0 t) (iblk2 V c 1 t) (iblk2 V c 2 t) (iblk2 V c 3 t) (iblk2 V c 4 t) (iblk2 V c 5 t) := by dsimp only [dat2]
theorem after2_8 (c : Dev nD) (t : Fin cfg2.N) : (dat2 V c).after 8 t
    = out2_8 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ _ _ _ _ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.IdealReg3.lean ====
/-
  Region 3 of the host program: the last layer's combine step, one block of 2000 rows per grid point.
  At every point the body reads a block of the residual, of the aggregated messages, of the projected features,
  of the two normalisation columns, and the bias row, and stores one block
      max (residual + dis · agg + proj · dis² + bias, 0).
  This module states what the body leaves in the output window's buffer as a function of the input blocks, proves the
  body's triple, and packages the per-point obligation of the pipeline that launches it. Everything is stated at a
  parameter: the contents of the core's buffers when the region is entered.
-/
import proofs.«111900_j74998718923370_2_alg».proof.Proof.Gen.KernelIdeal.Launch
import proofs.«111900_j74998718923370_2_alg».proof.Proof.Gen.KernelIdeal.Skeleton
import proofs.«111900_j74998718923370_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_a : Rect S2000x128 := Rect.unit (s := S2000x128) ![0, 0] S2000x128.size inb_S2000x128_S2000x128_0_0
abbrev r3_b : Rect S2000x2 := Rect.unit (s := S2000x2) ![0, 0] S2000x2.size inb_S2000x2_S2000x2_0_0
abbrev r3_c : Rect S1x128 := Rect.unit (s := S1x128) ![0, 0] S1x128.size inb_S1x128_S1x128_0_0

/-- The output window's buffer after the body, from the input windows' blocks: its one store. -/
def out3_5 (x0 x1 x2 : Vec F S2000x128 .f32) (x3 : Vec F S2000x2 .f32) (x4 : Vec F S1x128 .f32) : Vec F S2000x128 .f32 :=
  View.canon [⟨r3_a, k3_pay1 (View.ld x3 r3_b) (View.ld x0 r3_a) (View.ld x1 r3_a) (View.ld x2 r3_a) (View.ld x4 r3_c)⟩]

/-- The store covers the whole buffer. -/
theorem cover3_5 (p0 : Vec F S2000x128 .f32) (y : S2000x128.Idx) :
    ∃ pc ∈ ([⟨r3_a, p0⟩] : List (View.Piece (Elt F) S2000x128 .f32)), y ∈ pc.1.set :=
  View.cover_of_tiled [⟨r3_a, p0⟩] S2000x128.size (by rfl) y

/-! ## The body's triple -/

set_option maxHeartbeats 4000000 in
/-- The body on whole staging memrefs, the inputs' at read contents and the output's at anything, runs to the
    continuation holding the inputs as they were and the output at `out3_5` of the inputs. -/
theorem sound_kernel3 (c : Dev nD) (E : Set ℕ) (i : grid3.Coords)
    (arg1 : Memref sig .tc .vmem S2000x128 .f32) (harg1 : arg1.IsWhole) (arg2 : Memref sig .tc .vmem S2000x128 .f32) (harg2 : arg2.IsWhole)
    (arg3 : Memref sig .tc .vmem S2000x128 .f32) (harg3 : arg3.IsWhole) (arg4 : Memref sig .tc .vmem S2000x2 .f32) (harg4 : arg4.IsWhole)
    (arg5 : Memref sig .tc .vmem S1x128 .f32) (harg5 : arg5.IsWhole) (arg6 : Memref sig .tc .vmem S2000x128 .f32) (harg6 : arg6.IsWhole)
    (x0 x1 x2 : Vec F S2000x128 .f32) (x3 : Vec F S2000x2 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E (cc3__final_postprocess_kernel i arg1 harg1 arg2 harg2 arg3 harg3 arg4 harg4 arg5 harg5 arg6 harg6) K := by
  simp only [cc3__final_postprocess_kernel_eq_skeleton]; unfold cc3__final_postprocess_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data of pipeline 3 on core `c`: the arrays as the region finds them; after the body at point `t` each
    input's buffer at its block and the output's at `out3_5` of the input blocks; the invariant the scoped rest and the
    generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t
    = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.IdealReg4.lean ====
/-
  Region 4 of the host program: the read-out head, a grid of one point on whole arrays.
  The body reads the pooled features x, the first weight matrix W1 and bias row b1, the second weight matrix W2 and
  bias row b2, and stores one array: with
      h = max (bf16(x) · bf16(W1) + b1, 0)   and   y = bf16(h) · bf16(W2) + b2,
  each row of y divided by the larger of its Euclidean norm and a fixed small constant.
  This module states what the body leaves in the output window's buffer as a function of the input blocks, proves the
  body's triple, and packages the per-point obligation of the pipeline that launches it. Everything is stated at a
  parameter: the contents of the core's buffers when the region is entered.
-/
import proofs.«111900_j74998718923370_2_alg».proof.Proof.Gen.KernelIdeal.Launch
import proofs.«111900_j74998718923370_2_alg».proof.Proof.Gen.KernelIdeal.Skeleton
import proofs.«111900_j74998718923370_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

abbrev r4_S512x384 : Rect S512x384 := Rect.unit (s := S512x384) ![0, 0] S512x384.size inb_S512x384_S512x384_0_0
abbrev r4_S384x128 : Rect S384x128 := Rect.unit (s := S384x128) ![0, 0] S384x128.size inb_S384x128_S384x128_0_0
abbrev r4_S1x128 : Rect S1x128 := Rect.unit (s := S1x128) ![0, 0] S1x128.size inb_S1x128_S1x128_0_0
abbrev r4_S128x128 : Rect S128x128 := Rect.unit (s := S128x128) ![0, 0] S128x128.size inb_S128x128_S128x128_0_0
abbrev r4_S512x128 : Rect S512x128 := Rect.unit (s := S512x128) ![0, 0] S512x128.size inb_S512x128_S512x128_0_0

/-! ## What the body leaves in each output window's buffer -/

/-- Output window 5's buffer after the body, from the input windows' blocks: its one store. -/
def out4_5 (x0 : Vec F S512x384 .f32) (x1 : Vec F S384x128 .f32) (x2 : Vec F S1x128 .f32) (x3 : Vec F S128x128 .f32) (x4 : Vec F S1x128 .f32) : Vec F S512x128 .f32 :=
  View.canon [⟨r4_S512x128, k4_pay1 (View.ld x0 r4_S512x384) (View.ld x1 r4_S384x128) (View.ld x2 r4_S1x128) (View.ld x3 r4_S128x128) (View.ld x4 r4_S1x128)⟩]

/-- The store covers the whole buffer. -/
theorem cover4_5 (p0 : Vec F S512x128 .f32) (y : S512x128.Idx) :
    ∃ pc ∈ ([⟨r4_S512x128, p0⟩] : List (View.Piece (Elt F) S512x128 .f32)), y ∈ pc.1.set :=
  View.cover_of_tiled [⟨r4_S512x128, p0⟩] S512x128.size (by rfl) y

/-! ## The body's triple -/

set_option maxHeartbeats 8000000 in
/-- The body on whole staging memrefs, the inputs' at read contents and the outputs' at anything, runs to the
    continuation holding the inputs as they were and each output at its `out4_w` of the inputs. -/
theorem sound_kernel4 (c : Dev nD) (E : Set ℕ) (i : grid4.Coords)
    (arg1 : Memref sig .tc .vmem S512x384 .f32) (harg1 : arg1.IsWhole)
    (arg2 : Memref sig .tc .vmem S384x128 .f32) (harg2 : arg2.IsWhole)
    (arg3 : Memref sig .tc .vmem S1x128 .f32) (harg3 : arg3.IsWhole)
    (arg4 : Memref sig .tc .vmem S128x128 .f32) (harg4 : arg4.IsWhole)
    (arg5 : Memref sig .tc .vmem S1x128 .f32) (harg5 : arg5.IsWhole)
    (arg6 : Memref sig .tc .vmem S512x128 .f32) (harg6 : arg6.IsWhole)
    (x0 : Vec F S512x384 .f32) (x1 : Vec F S384x128 .f32) (x2 : Vec F S1x128 .f32) (x3 : Vec F S128x128 .f32) (x4 : Vec F S1x128 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ (∃ d, owns (c : Thread nD τ) arg6 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare (out4_5 x0 x1 x2 x3 x4)) -∗ K ⟨⟩))
      ⊢ wp frame (wpE (defs₀ (F := F)) Variants.none c none) E (cc4__head_kernel i arg1 harg1 arg2 harg2 arg3 harg3 arg4 harg4 arg5 harg5 arg6 harg6) K := by
  simp only [cc4__head_kernel_eq_skeleton]; unfold cc4__head_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

/-! ## The pipeline's proof data -/

/-- The proof data of pipeline 4 on core `c`: the arrays as the region finds them; after the body at point `t` each
    input's buffer at its block and each output's at its `out4_w` of the input blocks; the invariant the scoped rest
    and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t
    = out4_5 (iblk4 V c 0 t) (iblk4 V c 1 t) (iblk4 V c 2 t) (iblk4 V c 3 t) (iblk4 V c 4 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.IdealRun.lean ====
/-
  The whole host program as a run with named contents.
  The program is ten items: a stretch of host operations, then a region, five times over. The contents of the core's
  buffers at each boundary are a fold from the launch memory: a host stretch applies its operations; a region leaves each
  of its windows' arrays at what its write-backs leave (an input's array as entered, an output's array block by block)
  and every other buffer as entered. Each region is entered and left through the thread state "every unscoped buffer at
  the boundary's contents, the generator register at some state, nothing owed". The run's post names the result buffer's
  final contents as the last boundary's, and says every argument array ends as launched.
-/
import proofs.«111900_j74998718923370_2_alg».proof.Proof.Gen.KernelIdeal.Launch
import proofs.«111900_j74998718923370_2_alg».proof.Proof.Gen.KernelIdeal.Skeleton
import proofs.«111900_j74998718923370_2_alg».proof.Proof.Gen.KernelIdeal.Points
import proofs.«111900_j74998718923370_2_alg».proof.Proof.IdealReg0
import proofs.«111900_j74998718923370_2_alg».proof.Proof.IdealReg1
import proofs.«111900_j74998718923370_2_alg».proof.Proof.IdealReg2
import proofs.«111900_j74998718923370_2_alg».proof.Proof.IdealReg3
import proofs.«111900_j74998718923370_2_alg».proof.Proof.IdealReg4
import proofs.«111900_j74998718923370_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)

/-- After the host stretch before region 0. -/
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

/-- After the host stretch before region 1. -/
abbrev W3 : Dev nD → Valuation τ sig (Elt F) := fun c => StableHlo.after hostOps1 (W2 m ρ c)
abbrev U3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev U4 : (c : Dev nD) → (b : Ref sig .tc) → Buf (Elt F) ((c : Thread nD τ).loc b) := fun c b => W4 m ρ c b
theorem hF1 (c : Dev nD) (w : Fin cfg1.W) : (dat1 (U3 m ρ) c).arrAt w cfg1.N = U4 m ρ c (Pipeline.arrRef spec1 w) :=
  (W4_arr m ρ c w).symm
theorem hrest1 (c : Dev nD) : ∀ b, b ∉ Finset.univ.image (Pipeline.arrRef spec1) → U4 m ρ c b = U3 m ρ c b :=
  fun b hb => W4_of_ne m ρ c b fun w e => hb (Finset.mem_image.mpr ⟨w, Finset.mem_univ _, e⟩)

/-- After the host stretch before region 2. -/
abbrev W5 : Dev nD → Valuation τ sig (Elt F) := fun c => StableHlo.after hostOps2 (W4 m ρ c)
abbrev U5 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (U5 m ρ) c).arrAt w cfg2.N
theorem W6_arr (c : Dev nD) (w : Fin cfg2.W) :
    W6 m ρ c (Proc.devRef .tc (Pipeline.arrRef spec2 w)) = (dat2 (U5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev U6 : (c : Dev nD) → (b : Ref sig .tc) → Buf (Elt F) ((c : Thread nD τ).loc b) := fun c b => W6 m ρ c b
theorem hF2 (c : Dev nD) (w : Fin cfg2.W) : (dat2 (U5 m ρ) c).arrAt w cfg2.N = U6 m ρ c (Pipeline.arrRef spec2 w) :=
  (W6_arr m ρ c w).symm
theorem hrest2 (c : Dev nD) : ∀ b, b ∉ Finset.univ.image (Pipeline.arrRef spec2) → U6 m ρ c b = U5 m ρ c b :=
  fun b hb => W6_of_ne m ρ c b fun w e => hb (Finset.mem_image.mpr ⟨w, Finset.mem_univ _, e⟩)

/-- After the host stretch before region 3. -/
abbrev W7 : Dev nD → Valuation τ sig (Elt F) := fun c => StableHlo.after hostOps3 (W6 m ρ c)
abbrev U7 : (c : Dev nD) → (b : Ref sig .tc) → Buf (Elt F) ((c : Thread nD τ).loc b) := fun c b => W7 m ρ c b
/-- At region 3's exit: its arrays at what the pipeline leaves, every other buffer as entered. -/
def W8 (c : Dev nD) : Valuation τ sig (Elt F) :=
  Pipeline.withArrays spec3 c (W7 m ρ c) fun w => (dat3 (U7 m ρ) c).arrAt w cfg3.N
theorem W8_arr (c : Dev nD) (w : Fin cfg3.W) :
    W8 m ρ c (Proc.devRef .tc (Pipeline.arrRef spec3 w)) = (dat3 (U7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev U8 : (c : Dev nD) → (b : Ref sig .tc) → Buf (Elt F) ((c : Thread nD τ).loc b) := fun c b => W8 m ρ c b
theorem hF3 (c : Dev nD) (w : Fin cfg3.W) : (dat3 (U7 m ρ) c).arrAt w cfg3.N = U8 m ρ c (Pipeline.arrRef spec3 w) :=
  (W8_arr m ρ c w).symm
theorem hrest3 (c : Dev nD) : ∀ b, b ∉ Finset.univ.image (Pipeline.arrRef spec3) → U8 m ρ c b = U7 m ρ c b :=
  fun b hb => W8_of_ne m ρ c b fun w e => hb (Finset.mem_image.mpr ⟨w, Finset.mem_univ _, e⟩)

/-- After the host stretch before region 4. -/
abbrev W9 : Dev nD → Valuation τ sig (Elt F) := fun c => StableHlo.after hostOps4 (W8 m ρ c)
abbrev U9 : (c : Dev nD) → (b : Ref sig .tc) → Buf (Elt F) ((c : Thread nD τ).loc b) := fun c b => W9 m ρ c b
/-- At region 4's exit: its arrays at what the pipeline leaves, every other buffer as entered. -/
def W10 (c : Dev nD) : Valuation τ sig (Elt F) :=
  Pipeline.withArrays spec4 c (W9 m ρ c) fun w => (dat4 (U9 m ρ) c).arrAt w cfg4.N
theorem W10_arr (c : Dev nD) (w : Fin cfg4.W) :
    W10 m ρ c (Proc.devRef .tc (Pipeline.arrRef spec4 w)) = (dat4 (U9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev U10 : (c : Dev nD) → (b : Ref sig .tc) → Buf (Elt F) ((c : Thread nD τ).loc b) := fun c b => W10 m ρ c b
theorem hF4 (c : Dev nD) (w : Fin cfg4.W) : (dat4 (U9 m ρ) c).arrAt w cfg4.N = U10 m ρ c (Pipeline.arrRef spec4 w) :=
  (W10_arr m ρ c w).symm
theorem hrest4 (c : Dev nD) : ∀ b, b ∉ Finset.univ.image (Pipeline.arrRef spec4) → U10 m ρ c b = U9 m ρ c b :=
  fun b hb => W10_of_ne m ρ c b fun w e => hb (Finset.mem_image.mpr ⟨w, Finset.mem_univ _, e⟩)

/-! ## The arguments end as launched: no host operation writes one, and a region reads it through an input window or not at all -/

theorem W10_main_arg0 (c : Dev nD) : W10 m ρ c (Proc.devRef .tc main_arg0) = m ((c : Thread nD τ).loc main_arg0) :=
  calc W10 m ρ c (Proc.devRef .tc main_arg0)
    _ = W9 m ρ c (Proc.devRef .tc main_arg0) := W10_of_ne m ρ c main_arg0 (by decide)
    _ = W8 m ρ c (Proc.devRef .tc main_arg0) := StableHlo.after_of_writes_sub hostOps4 _ hostOps4_writes (by decide)
    _ = W7 m ρ c (Proc.devRef .tc main_arg0) := W8_of_ne m ρ c main_arg0 (by decide)
    _ = W6 m ρ c (Proc.devRef .tc main_arg0) := StableHlo.after_of_writes_sub hostOps3 _ hostOps3_writes (by decide)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 0).trans (((dat0 (U1 m ρ) c).arrAt_in 0 rfl _).trans (A_eq0 (U1 m ρ) c 0))
    _ = W0 m ρ c (Proc.devRef .tc main_arg0) := StableHlo.after_of_writes_sub hostOps0 _ hostOps0_writes (by decide)
    _ = m ((c : Thread nD τ).loc main_arg0) := rfl

theorem W10_main_arg1 (c : Dev nD) : W10 m ρ c (Proc.devRef .tc main_arg1) = m ((c : Thread nD τ).loc main_arg1) :=
  calc W10 m ρ c (Proc.devRef .tc main_arg1)
    _ = W9 m ρ c (Proc.devRef .tc main_arg1) := W10_of_ne m ρ c main_arg1 (by decide)
    _ = W8 m ρ c (Proc.devRef .tc main_arg1) := StableHlo.after_of_writes_sub hostOps4 _ hostOps4_writes (by decide)
    _ = W7 m ρ c (Proc.devRef .tc main_arg1) := W8_of_ne m ρ c main_arg1 (by decide)
    _ = W6 m ρ c (Proc.devRef .tc main_arg1) := StableHlo.after_of_writes_sub hostOps3 _ hostOps3_writes (by decide)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W10_main_arg2 (c : Dev nD) : W10 m ρ c (Proc.devRef .tc main_arg2) = m ((c : Thread nD τ).loc main_arg2) :=
  calc W10 m ρ c (Proc.devRef .tc main_arg2)
    _ = W9 m ρ c (Proc.devRef .tc main_arg2) := W10_of_ne m ρ c main_arg2 (by decide)
    _ = W8 m ρ c (Proc.devRef .tc main_arg2) := StableHlo.after_of_writes_sub hostOps4 _ hostOps4_writes (by decide)
    _ = W7 m ρ c (Proc.devRef .tc main_arg2) := W8_of_ne m ρ c main_arg2 (by decide)
    _ = W6 m ρ c (Proc.devRef .tc main_arg2) := StableHlo.after_of_writes_sub hostOps3 _ hostOps3_writes (by decide)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W10_main_arg3 (c : Dev nD) : W10 m ρ c (Proc.devRef .tc main_arg3) = m ((c : Thread nD τ).loc main_arg3) :=
  calc W10 m ρ c (Proc.devRef .tc main_arg3)
    _ = W9 m ρ c (Proc.devRef .tc main_arg3) := W10_of_ne m ρ c main_arg3 (by decide)
    _ = W8 m ρ c (Proc.devRef .tc main_arg3) := StableHlo.after_of_writes_sub hostOps4 _ hostOps4_writes (by decide)
    _ = W7 m ρ c (Proc.devRef .tc main_arg3) := W8_of_ne m ρ c main_arg3 (by decide)
    _ = W6 m ρ c (Proc.devRef .tc main_arg3) := StableHlo.after_of_writes_sub hostOps3 _ hostOps3_writes (by decide)
    _ = W5 m ρ c (Proc.devRef .tc main_arg3) := W6_of_ne m ρ c main_arg3 (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := (W2_arr m ρ c 1).trans (((dat0 (U1 m ρ) c).arrAt_in 1 rfl _).trans (A_eq0 (U1 m ρ) c 1))
    _ = W0 m ρ c (Proc.devRef .tc main_arg3) := StableHlo.after_of_writes_sub hostOps0 _ hostOps0_writes (by decide)
    _ = m ((c : Thread nD τ).loc main_arg3) := rfl

theorem W10_main_arg4 (c : Dev nD) : W10 m ρ c (Proc.devRef .tc main_arg4) = m ((c : Thread nD τ).loc main_arg4) :=
  calc W10 m ρ c (Proc.devRef .tc main_arg4)
    _ = W9 m ρ c (Proc.devRef .tc main_arg4) := W10_of_ne m ρ c main_arg4 (by decide)
    _ = W8 m ρ c (Proc.devRef .tc main_arg4) := StableHlo.after_of_writes_sub hostOps4 _ hostOps4_writes (by decide)
    _ = W7 m ρ c (Proc.devRef .tc main_arg4) := W8_of_ne m ρ c main_arg4 (by decide)
    _ = W6 m ρ c (Proc.devRef .tc main_arg4) := StableHlo.after_of_writes_sub hostOps3 _ hostOps3_writes (by decide)
    _ = W5 m ρ c (Proc.devRef .tc main_arg4) := W6_of_ne m ρ c main_arg4 (by decide)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

theorem W10_main_arg5 (c : Dev nD) : W10 m ρ c (Proc.devRef .tc main_arg5) = m ((c : Thread nD τ).loc main_arg5) :=
  calc W10 m ρ c (Proc.devRef .tc main_arg5)
    _ = W9 m ρ c (Proc.devRef .tc main_arg5) := W10_of_ne m ρ c main_arg5 (by decide)
    _ = W8 m ρ c (Proc.devRef .tc main_arg5) := StableHlo.after_of_writes_sub hostOps4 _ hostOps4_writes (by decide)
    _ = W7 m ρ c (Proc.devRef .tc main_arg5) := W8_of_ne m ρ c main_arg5 (by decide)
    _ = W6 m ρ c (Proc.devRef .tc main_arg5) := StableHlo.after_of_writes_sub hostOps3 _ hostOps3_writes (by decide)
    _ = W5 m ρ c (Proc.devRef .tc main_arg5) := W6_of_ne m ρ c main_arg5 (by decide)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := (W2_arr m ρ c 3).trans (((dat0 (U1 m ρ) c).arrAt_in 3 rfl _).trans (A_eq0 (U1 m ρ) c 3))
    _ = W0 m ρ c (Proc.devRef .tc main_arg5) := StableHlo.after_of_writes_sub hostOps0 _ hostOps0_writes (by decide)
    _ = m ((c : Thread nD τ).loc main_arg5) := rfl

theorem W10_main_arg6 (c : Dev nD) : W10 m ρ c (Proc.devRef .tc main_arg6) = m ((c : Thread nD τ).loc main_arg6) :=
  calc W10 m ρ c (Proc.devRef .tc main_arg6)
    _ = W9 m ρ c (Proc.devRef .tc main_arg6) := W10_of_ne m ρ c main_arg6 (by decide)
    _ = W8 m ρ c (Proc.devRef .tc main_arg6) := StableHlo.after_of_writes_sub hostOps4 _ hostOps4_writes (by decide)
    _ = W7 m ρ c (Proc.devRef .tc main_arg6) := W8_of_ne m ρ c main_arg6 (by decide)
    _ = W6 m ρ c (Proc.devRef .tc main_arg6) := StableHlo.after_of_writes_sub hostOps3 _ hostOps3_writes (by decide)
    _ = W5 m ρ c (Proc.devRef .tc main_arg6) := W6_of_ne m ρ c main_arg6 (by decide)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

theorem W10_main_arg7 (c : Dev nD) : W10 m ρ c (Proc.devRef .tc main_arg7) = m ((c : Thread nD τ).loc main_arg7) :=
  calc W10 m ρ c (Proc.devRef .tc main_arg7)
    _ = W9 m ρ c (Proc.devRef .tc main_arg7) := W10_of_ne m ρ c main_arg7 (by decide)
    _ = W8 m ρ c (Proc.devRef .tc main_arg7) := StableHlo.after_of_writes_sub hostOps4 _ hostOps4_writes (by decide)
    _ = W7 m ρ c (Proc.devRef .tc main_arg7) := W8_of_ne m ρ c main_arg7 (by decide)
    _ = W6 m ρ c (Proc.devRef .tc main_arg7) := StableHlo.after_of_writes_sub hostOps3 _ hostOps3_writes (by decide)
    _ = W5 m ρ c (Proc.devRef .tc main_arg7) := W6_of_ne m ρ c main_arg7 (by decide)
    _ = W4 m ρ c (Proc.devRef .tc main_arg7) := StableHlo.after_of_writes_sub hostOps2 _ hostOps2_writes (by decide)
    _ = W3 m ρ c (Proc.devRef .tc main_arg7) := (W4_arr m ρ c 5).trans (((dat1 (U3 m ρ) c).arrAt_in 5 rfl _).trans (A_eq1 (U3 m ρ) c 5))
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

theorem W10_main_arg8 (c : Dev nD) : W10 m ρ c (Proc.devRef .tc main_arg8) = m ((c : Thread nD τ).loc main_arg8) :=
  calc W10 m ρ c (Proc.devRef .tc main_arg8)
    _ = W9 m ρ c (Proc.devRef .tc main_arg8) := W10_of_ne m ρ c main_arg8 (by decide)
    _ = W8 m ρ c (Proc.devRef .tc main_arg8) := StableHlo.after_of_writes_sub hostOps4 _ hostOps4_writes (by decide)
    _ = W7 m ρ c (Proc.devRef .tc main_arg8) := W8_of_ne m ρ c main_arg8 (by decide)
    _ = W6 m ρ c (Proc.devRef .tc main_arg8) := StableHlo.after_of_writes_sub hostOps3 _ hostOps3_writes (by decide)
    _ = W5 m ρ c (Proc.devRef .tc main_arg8) := W6_of_ne m ρ c main_arg8 (by decide)
    _ = W4 m ρ c (Proc.devRef .tc main_arg8) := StableHlo.after_of_writes_sub hostOps2 _ hostOps2_writes (by decide)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

theorem W10_main_arg9 (c : Dev nD) : W10 m ρ c (Proc.devRef .tc main_arg9) = m ((c : Thread nD τ).loc main_arg9) :=
  calc W10 m ρ c (Proc.devRef .tc main_arg9)
    _ = W9 m ρ c (Proc.devRef .tc main_arg9) := W10_of_ne m ρ c main_arg9 (by decide)
    _ = W8 m ρ c (Proc.devRef .tc main_arg9) := StableHlo.after_of_writes_sub hostOps4 _ hostOps4_writes (by decide)
    _ = W7 m ρ c (Proc.devRef .tc main_arg9) := W8_of_ne m ρ c main_arg9 (by decide)
    _ = W6 m ρ c (Proc.devRef .tc main_arg9) := StableHlo.after_of_writes_sub hostOps3 _ hostOps3_writes (by decide)
    _ = W5 m ρ c (Proc.devRef .tc main_arg9) := (W6_arr m ρ c 5).trans (((dat2 (U5 m ρ) c).arrAt_in 5 rfl _).trans (A_eq2 (U5 m ρ) c 5))
    _ = W4 m ρ c (Proc.devRef .tc main_arg9) := StableHlo.after_of_writes_sub hostOps2 _ hostOps2_writes (by decide)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl

theorem W10_main_arg10 (c : Dev nD) : W10 m ρ c (Proc.devRef .tc main_arg10) = m ((c : Thread nD τ).loc main_arg10) :=
  calc W10 m ρ c (Proc.devRef .tc main_arg10)
    _ = W9 m ρ c (Proc.devRef .tc main_arg10) := W10_of_ne m ρ c main_arg10 (by decide)
    _ = W8 m ρ c (Proc.devRef .tc main_arg10) := StableHlo.after_of_writes_sub hostOps4 _ hostOps4_writes (by decide)
    _ = W7 m ρ c (Proc.devRef .tc main_arg10) := W8_of_ne m ρ c main_arg10 (by decide)
    _ = W6 m ρ c (Proc.devRef .tc main_arg10) := StableHlo.after_of_writes_sub hostOps3 _ hostOps3_writes (by decide)
    _ = W5 m ρ c (Proc.devRef .tc main_arg10) := W6_of_ne m ρ c main_arg10 (by decide)
    _ = W4 m ρ c (Proc.devRef .tc main_arg10) := StableHlo.after_of_writes_sub hostOps2 _ hostOps2_writes (by decide)
    _ = W3 m ρ c (Proc.devRef .tc main_arg10) := W4_of_ne m ρ c main_arg10 (by decide)
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl

theorem W10_main_arg11 (c : Dev nD) : W10 m ρ c (Proc.devRef .tc main_arg11) = m ((c : Thread nD τ).loc main_arg11) :=
  calc W10 m ρ c (Proc.devRef .tc main_arg11)
    _ = W9 m ρ c (Proc.devRef .tc main_arg11) := (W10_arr m ρ c 1).trans (((dat4 (U9 m ρ) c).arrAt_in 1 rfl _).trans (A_eq4 (U9 m ρ) c 1))
    _ = W8 m ρ c (Proc.devRef .tc main_arg11) := StableHlo.after_of_writes_sub hostOps4 _ hostOps4_writes (by decide)
    _ = W7 m ρ c (Proc.devRef .tc main_arg11) := W8_of_ne m ρ c main_arg11 (by decide)
    _ = W6 m ρ c (Proc.devRef .tc main_arg11) := StableHlo.after_of_writes_sub hostOps3 _ hostOps3_writes (by decide)
    _ = W5 m ρ c (Proc.devRef .tc main_arg11) := W6_of_ne m ρ c main_arg11 (by decide)
    _ = W4 m ρ c (Proc.devRef .tc main_arg11) := StableHlo.after_of_writes_sub hostOps2 _ hostOps2_writes (by decide)
    _ = W3 m ρ c (Proc.devRef .tc main_arg11) := W4_of_ne m ρ c main_arg11 (by decide)
    _ = W2 m ρ c (Proc.devRef .tc main_arg11) := StableHlo.after_of_writes_sub hostOps1 _ hostOps1_writes (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)
    _ = m ((c : Thread nD τ).loc main_arg11) := rfl

theorem W10_main_arg12 (c : Dev nD) : W10 m ρ c (Proc.devRef .tc main_arg12) = m ((c : Thread nD τ).loc main_arg12) :=
  calc W10 m ρ c (Proc.devRef .tc main_arg12)
    _ = W9 m ρ c (Proc.devRef .tc main_arg12) := W10_of_ne m ρ c main_arg12 (by decide)
    _ = W8 m ρ c (Proc.devRef .tc main_arg12) := StableHlo.after_of_writes_sub hostOps4 _ hostOps4_writes (by decide)
    _ = W7 m ρ c (Proc.devRef .tc main_arg12) := W8_of_ne m ρ c main_arg12 (by decide)
    _ = W6 m ρ c (Proc.devRef .tc main_arg12) := StableHlo.after_of_writes_sub hostOps3 _ hostOps3_writes (by decide)
    _ = W5 m ρ c (Proc.devRef .tc main_arg12) := W6_of_ne m ρ c main_arg12 (by decide)
    _ = W4 m ρ c (Proc.devRef .tc main_arg12) := StableHlo.after_of_writes_sub hostOps2 _ hostOps2_writes (by decide)
    _ = W3 m ρ c (Proc.devRef .tc main_arg12) := W4_of_ne m ρ c main_arg12 (by decide)
    _ = W2 m ρ c (Proc.devRef .tc main_arg12) := StableHlo.after_of_writes_sub hostOps1 _ hostOps1_writes (by decide)
    _ = W1 m ρ c (Proc.devRef .tc main_arg12) := W2_of_ne m ρ c main_arg12 (by decide)
    _ = W0 m ρ c (Proc.devRef .tc main_arg12) := StableHlo.after_of_writes_sub hostOps0 _ hostOps0_writes (by decide)
    _ = m ((c : Thread nD τ).loc main_arg12) := rfl

theorem W10_main_arg13 (c : Dev nD) : W10 m ρ c (Proc.devRef .tc main_arg13) = m ((c : Thread nD τ).loc main_arg13) :=
  calc W10 m ρ c (Proc.devRef .tc main_arg13)
    _ = W9 m ρ c (Proc.devRef .tc main_arg13) := (W10_arr m ρ c 3).trans (((dat4 (U9 m ρ) c).arrAt_in 3 rfl _).trans (A_eq4 (U9 m ρ) c 3))
    _ = W8 m ρ c (Proc.devRef .tc main_arg13) := StableHlo.after_of_writes_sub hostOps4 _ hostOps4_writes (by decide)
    _ = W7 m ρ c (Proc.devRef .tc main_arg13) := W8_of_ne m ρ c main_arg13 (by decide)
    _ = W6 m ρ c (Proc.devRef .tc main_arg13) := StableHlo.after_of_writes_sub hostOps3 _ hostOps3_writes (by decide)
    _ = W5 m ρ c (Proc.devRef .tc main_arg13) := W6_of_ne m ρ c main_arg13 (by decide)
    _ = W4 m ρ c (Proc.devRef .tc main_arg13) := StableHlo.after_of_writes_sub hostOps2 _ hostOps2_writes (by decide)
    _ = W3 m ρ c (Proc.devRef .tc main_arg13) := W4_of_ne m ρ c main_arg13 (by decide)
    _ = W2 m ρ c (Proc.devRef .tc main_arg13) := StableHlo.after_of_writes_sub hostOps1 _ hostOps1_writes (by decide)
    _ = W1 m ρ c (Proc.devRef .tc main_arg13) := W2_of_ne m ρ c main_arg13 (by decide)
    _ = W0 m ρ c (Proc.devRef .tc main_arg13) := StableHlo.after_of_writes_sub hostOps0 _ hostOps0_writes (by decide)
    _ = m ((c : Thread nD τ).loc main_arg13) := rfl

theorem W10_main_arg14 (c : Dev nD) : W10 m ρ c (Proc.devRef .tc main_arg14) = m ((c : Thread nD τ).loc main_arg14) :=
  calc W10 m ρ c (Proc.devRef .tc main_arg14)
    _ = W9 m ρ c (Proc.devRef .tc main_arg14) := W10_of_ne m ρ c main_arg14 (by decide)
    _ = W8 m ρ c (Proc.devRef .tc main_arg14) := StableHlo.after_of_writes_sub hostOps4 _ hostOps4_writes (by decide)
    _ = W7 m ρ c (Proc.devRef .tc main_arg14) := W8_of_ne m ρ c main_arg14 (by decide)
    _ = W6 m ρ c (Proc.devRef .tc main_arg14) := StableHlo.after_of_writes_sub hostOps3 _ hostOps3_writes (by decide)
    _ = W5 m ρ c (Proc.devRef .tc main_arg14) := W6_of_ne m ρ c main_arg14 (by decide)
    _ = W4 m ρ c (Proc.devRef .tc main_arg14) := StableHlo.after_of_writes_sub hostOps2 _ hostOps2_writes (by decide)
    _ = W3 m ρ c (Proc.devRef .tc main_arg14) := W4_of_ne m ρ c main_arg14 (by decide)
    _ = W2 m ρ c (Proc.devRef .tc main_arg14) := StableHlo.after_of_writes_sub hostOps1 _ hostOps1_writes (by decide)
    _ = W1 m ρ c (Proc.devRef .tc main_arg14) := W2_of_ne m ρ c main_arg14 (by decide)
    _ = W0 m ρ c (Proc.devRef .tc main_arg14) := StableHlo.after_of_writes_sub hostOps0 _ hostOps0_writes (by decide)
    _ = m ((c : Thread nD τ).loc main_arg14) := rfl

/-! ## The proof data family and the thread state -/

abbrev admH : (p : Fin 5) → (pcfgs (F := F) p).Adm := fun p => (cfgs p).toPCfg_adm
/-- Every pipeline's proof data, each at its region's entry contents. -/
def pdatsH : (p : Fin 5) → (c : Dev nD) → Dat τ (Elt F) Unit ℕ (UR sig nD τ) ℕ (Pipeline.pin (pcfgs (F := F)) admH p) c
  | ⟨0, _⟩ => fun c => dat0 (U1 m ρ) c
  | ⟨1, _⟩ => fun c => dat1 (U3 m ρ) c
  | ⟨2, _⟩ => fun c => dat2 (U5 m ρ) c
  | ⟨3, _⟩ => fun c => dat3 (U7 m ρ) c
  | ⟨4, _⟩ => fun c => dat4 (U9 m ρ) c
abbrev 𝒱H : Variants := Variants.none
abbrev LH : GSem nD τ sig → Finset Unit := fun _ => ∅
abbrev lvH : GSem nD τ sig → Unit → ℕ := fun _ _ => 0
/-- What rides beside the buffers through every item: the generator register at some state and nothing owed. -/
abbrev RH (c : Dev nD) : sProp 𝕄 := iprop((∃ r, prngReg c r) ∗ ∃ W, owes (c : Thread nD τ) (0 : CellTallies nD τ sig Unit) W)
/-- A host stretch as an item of the run. -/
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TH (c : Dev nD) : sProp 𝕄 := iprop(StableHlo.held (c : Thread nD τ) (Pipeline.ucRefs τ sig) (W10 m ρ c) ∗ ∃ r, prngReg c r)

/-! ## The regions as items of the run -/

set_option backward.isDefEq.respectTransparency.types false in
/-- Region 0: entered from every unscoped buffer at the contents before it, left at the contents after it. Its arrays
    are split out of the unscoped buffers and put back at the exit contents; the generator register goes into the
    pipeline's invariant and comes back; nothing is owed. -/
def reg0 : Pipeline.RegionSeg (pcfgs (F := F)) admH (pdatsH m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ LH lvH 0 fun _ _ => rfl
  pre c := iprop(StableHlo.held (c : Thread nD τ) (Pipeline.ucRefs τ sig) (W1 m ρ c) ∗ RH c)
  post c := iprop(StableHlo.held (c : Thread nD τ) (Pipeline.ucRefs τ sig) (W2 m ρ c) ∗ RH c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) admH (pdatsH m ρ) launch0.win launch0.arr_whole c
      ((pdatsH m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m ρ) ((pdatsH m ρ 0 c).share_full fun _ => rfl)
      (U1 m ρ c) (U2 m ρ c) ((pdatsH m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at the contents before it, left at the contents after it. Its arrays
    are split out of the unscoped buffers and put back at the exit contents; the generator register goes into the
    pipeline's invariant and comes back; nothing is owed. -/
def reg1 : Pipeline.RegionSeg (pcfgs (F := F)) admH (pdatsH m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ LH lvH 1 fun _ _ => rfl
  pre c := iprop(StableHlo.held (c : Thread nD τ) (Pipeline.ucRefs τ sig) (W3 m ρ c) ∗ RH c)
  post c := iprop(StableHlo.held (c : Thread nD τ) (Pipeline.ucRefs τ sig) (W4 m ρ c) ∗ RH c)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) admH (pdatsH m ρ) launch1.win launch1.arr_whole c
      ((pdatsH m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m ρ) ((pdatsH m ρ 1 c).share_full fun _ => rfl)
      (U3 m ρ c) (U4 m ρ c) ((pdatsH m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at the contents before it, left at the contents after it. Its arrays
    are split out of the unscoped buffers and put back at the exit contents; the generator register goes into the
    pipeline's invariant and comes back; nothing is owed. -/
def reg2 : Pipeline.RegionSeg (pcfgs (F := F)) admH (pdatsH m ρ) () defs₀ 𝒱H LH lvH 2 where
  win := launch2.win.to₀
  block_pos := launch2.block_pos
  stage_whole := launch2.stage_whole
  K := PEmpty
  osem k := k.elim
  ho := Pipeline.OwnSemFacts.none _
  hbody c := (body_obligation2 (U5 m ρ) c).loose
  hwaits := Pipeline.hwaits_of_owed_zero _ _ _ _ LH lvH 2 fun _ _ => rfl
  pre c := iprop(StableHlo.held (c : Thread nD τ) (Pipeline.ucRefs τ sig) (W5 m ρ c) ∗ RH c)
  post c := iprop(StableHlo.held (c : Thread nD τ) (Pipeline.ucRefs τ sig) (W6 m ρ c) ∗ RH c)
  X c := iprop(∃ r, prngReg c r)
  Y c := iprop(∃ r, prngReg c r)
  Z c := Pipeline.unscopedRest (Ix := Unit) (Name := ℕ) (U := UR sig nD τ) (Lvl := ℕ) spec2 c (U5 m ρ c)
  hentry c := by
    rw [Pipeline.ownSems0_none]
    have hsplit := Pipeline.arrays_of_unscopedBufs (p := 2) (pcfgs (F := F)) admH (pdatsH m ρ) launch2.win launch2.arr_whole c
      ((pdatsH m ρ 2 c).share_full fun _ => rfl) (U5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdatsH m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdatsH m ρ) ((pdatsH m ρ 2 c).share_full fun _ => rfl)
      (U5 m ρ c) (U6 m ρ c) ((pdatsH m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every unscoped buffer at the contents before it, left at the contents after it. Its arrays
    are split out of the unscoped buffers and put back at the exit contents; the generator register goes into the
    pipeline's invariant and comes back; nothing is owed. -/
def reg3 : Pipeline.RegionSeg (pcfgs (F := F)) admH (pdatsH m ρ) () defs₀ 𝒱H LH lvH 3 where
  win := launch3.win.to₀
  block_pos := launch3.block_pos
  stage_whole := launch3.stage_whole
  K := PEmpty
  osem k := k.elim
  ho := Pipeline.OwnSemFacts.none _
  hbody c := (body_obligation3 (U7 m ρ) c).loose
  hwaits := Pipeline.hwaits_of_owed_zero _ _ _ _ LH lvH 3 fun _ _ => rfl
  pre c := iprop(StableHlo.held (c : Thread nD τ) (Pipeline.ucRefs τ sig) (W7 m ρ c) ∗ RH c)
  post c := iprop(StableHlo.held (c : Thread nD τ) (Pipeline.ucRefs τ sig) (W8 m ρ c) ∗ RH c)
  X c := iprop(∃ r, prngReg c r)
  Y c := iprop(∃ r, prngReg c r)
  Z c := Pipeline.unscopedRest (Ix := Unit) (Name := ℕ) (U := UR sig nD τ) (Lvl := ℕ) spec3 c (U7 m ρ c)
  hentry c := by
    rw [Pipeline.ownSems0_none]
    have hsplit := Pipeline.arrays_of_unscopedBufs (p := 3) (pcfgs (F := F)) admH (pdatsH m ρ) launch3.win launch3.arr_whole c
      ((pdatsH m ρ 3 c).share_full fun _ => rfl) (U7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdatsH m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admH (Ix := Unit) (Name := ℕ) (U := UR sig nD τ) (Lvl := ℕ)
      launch3.win launch3.arr_whole c (pdatsH m ρ) ((pdatsH m ρ 3 c).share_full fun _ => rfl)
      (U7 m ρ c) (U8 m ρ c) ((pdatsH m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered from every unscoped buffer at the contents before it, left at the contents after it. Its arrays
    are split out of the unscoped buffers and put back at the exit contents; the generator register goes into the
    pipeline's invariant and comes back; nothing is owed. -/
def reg4 : Pipeline.RegionSeg (pcfgs (F := F)) admH (pdatsH m ρ) () defs₀ 𝒱H LH lvH 4 where
  win := launch4.win.to₀
  block_pos := launch4.block_pos
  stage_whole := launch4.stage_whole
  K := PEmpty
  osem k := k.elim
  ho := Pipeline.OwnSemFacts.none _
  hbody c := (body_obligation4 (U9 m ρ) c).loose
  hwaits := Pipeline.hwaits_of_owed_zero _ _ _ _ LH lvH 4 fun _ _ => rfl
  pre c := iprop(StableHlo.held (c : Thread nD τ) (Pipeline.ucRefs τ sig) (W9 m ρ c) ∗ RH c)
  post c := iprop(TH m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (U9 m ρ c)
  hentry c := by
    rw [Pipeline.ownSems0_none]
    have hsplit := Pipeline.arrays_of_unscopedBufs (p := 4) (pcfgs (F := F)) admH (pdatsH m ρ) launch4.win launch4.arr_whole c
      ((pdatsH m ρ 4 c).share_full fun _ => rfl) (U9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdatsH m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) admH (Ix := Unit) (Name := ℕ) (U := UR sig nD τ) (Lvl := ℕ)
      launch4.win launch4.arr_whole c (pdatsH m ρ) ((pdatsH m ρ 4 c).share_full fun _ => rfl)
      (U9 m ρ c) (U10 m ρ c) ((pdatsH m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as the run of its items, and the launch -/

abbrev segsH : List (Pipeline.Seg (pcfgs (F := F)) admH (pdatsH m ρ) () defs₀ 𝒱H LH lvH) :=
  [ .host (hsegH hostOps0 hostOps0_sub hostOps0_fresh (W0 m ρ)),
    .region (reg0 m ρ),
    .host (hsegH hostOps1 hostOps1_sub hostOps1_fresh (W2 m ρ)),
    .region (reg1 m ρ),
    .host (hsegH hostOps2 hostOps2_sub hostOps2_fresh (W4 m ρ)),
    .region (reg2 m ρ),
    .host (hsegH hostOps3 hostOps3_sub hostOps3_fresh (W6 m ρ)),
    .region (reg3 m ρ),
    .host (hsegH hostOps4 hostOps4_sub hostOps4_fresh (W8 m ρ)),
    .region (reg4 m ρ) ]

theorem main_runH (c : Dev nD) : main (F := F) c = Pipeline.Seg.run (segsH m ρ) := (main_chain c).trans (by chain_rfl)

set_option backward.isDefEq.respectTransparency.types false in
/-- THE RUN. From any memory with zero counters every weakly fair execution of the program terminates, nothing
    faulting; the result buffer ends at the last boundary's contents and every argument array as launched. -/
theorem run_main : θ_run defs (onTc (τ := τ) (main (F := F))) ⟨m, fun _ => 0, ρ⟩ (fun r => ∀ c : Dev nD,
      r.2.mem ((c.tc : Thread nD τ).loc main_v82) = W10 m ρ c (Proc.devRef .tc main_v82)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) admH (pdatsH m ρ) () cellOf_inj emb₁ defs₀ 𝒱H LH lvH m ρ main (segsH m ρ)
    (fun c Q => by rw [main_runH m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ RH c)) (Tₙ := TH m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach LH lvH fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v82 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c)⟩)

/-- The frame: every argument array ends as launched. -/
theorem frameH : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => (h c).2) (run_main m ρ)

end Cert.KernelIdeal.Hand

end
-- ==== Proof.IdealCarry.lean ====
/-
  Which buffers hold what across which items of the host program: a buffer that an item neither writes (a host
  stretch) nor may change (a region: only its output windows' arrays) holds after the item what it held before.
-/
import proofs.«111900_j74998718923370_2_alg».proof.Proof.IdealRun

set_option maxRecDepth 16384

noncomputable section

namespace Cert.KernelIdeal.Hand

open Cert.KernelIdeal Cert.KernelIdeal.Gen
open Idealize.ShloMosaic Idealize.ShloMosaic.TcCoe
open Idealize.ShloMosaic.Pipeline (Dat)

variable {F : FTy → Type} [FloatOps F]
variable (m : (ℓ : Loc nD τ sig) → Buf (Elt F) ℓ) (ρ : Dev nD → PrngReg)

theorem carry_main_arg0_0_1 (c : Dev nD) : W1 m ρ c (Proc.devRef .tc main_arg0) = W0 m ρ c (Proc.devRef .tc main_arg0) :=
  calc W1 m ρ c (Proc.devRef .tc main_arg0)
    _ = W0 m ρ c (Proc.devRef .tc main_arg0) := StableHlo.after_of_writes_sub hostOps0 _ hostOps0_writes (by decide)

theorem carry_main_arg3_0_1 (c : Dev nD) : W1 m ρ c (Proc.devRef .tc main_arg3) = W0 m ρ c (Proc.devRef .tc main_arg3) :=
  calc W1 m ρ c (Proc.devRef .tc main_arg3)
    _ = W0 m ρ c (Proc.devRef .tc main_arg3) := StableHlo.after_of_writes_sub hostOps0 _ hostOps0_writes (by decide)

theorem carry_main_arg5_0_1 (c : Dev nD) : W1 m ρ c (Proc.devRef .tc main_arg5) = W0 m ρ c (Proc.devRef .tc main_arg5) :=
  calc W1 m ρ c (Proc.devRef .tc main_arg5)
    _ = W0 m ρ c (Proc.devRef .tc main_arg5) := StableHlo.after_of_writes_sub hostOps0 _ hostOps0_writes (by decide)

theorem carry_main_v1_1_2 (c : Dev nD) : W2 m ρ c (Proc.devRef .tc main_v1) = W1 m ρ c (Proc.devRef .tc main_v1) :=
  calc W2 m ρ c (Proc.devRef .tc main_v1)
    _ = W1 m ρ c (Proc.devRef .tc main_v1) := W2_of_ne m ρ c main_v1 (by decide)

theorem carry_main_v3_1_2 (c : Dev nD) : W2 m ρ c (Proc.devRef .tc main_v3) = W1 m ρ c (Proc.devRef .tc main_v3) :=
  calc W2 m ρ c (Proc.devRef .tc main_v3)
    _ = W1 m ρ c (Proc.devRef .tc main_v3) := W2_of_ne m ρ c main_v3 (by decide)

theorem carry_main_v1_1_4 (c : Dev nD) : W4 m ρ c (Proc.devRef .tc main_v1) = W1 m ρ c (Proc.devRef .tc main_v1) :=
  calc W4 m ρ c (Proc.devRef .tc main_v1)
    _ = W3 m ρ c (Proc.devRef .tc main_v1) := W4_of_ne m ρ c main_v1 (by decide)
    _ = W2 m ρ c (Proc.devRef .tc main_v1) := StableHlo.after_of_writes_sub hostOps1 _ hostOps1_writes (by decide)
    _ = W1 m ρ c (Proc.devRef .tc main_v1) := W2_of_ne m ρ c main_v1 (by decide)

theorem carry_main_v3_1_4 (c : Dev nD) : W4 m ρ c (Proc.devRef .tc main_v3) = W1 m ρ c (Proc.devRef .tc main_v3) :=
  calc W4 m ρ c (Proc.devRef .tc main_v3)
    _ = W3 m ρ c (Proc.devRef .tc main_v3) := W4_of_ne m ρ c main_v3 (by decide)
    _ = W2 m ρ c (Proc.devRef .tc main_v3) := StableHlo.after_of_writes_sub hostOps1 _ hostOps1_writes (by decide)
    _ = W1 m ρ c (Proc.devRef .tc main_v3) := W2_of_ne m ρ c main_v3 (by decide)

theorem carry_main_v1_1_6 (c : Dev nD) : W6 m ρ c (Proc.devRef .tc main_v1) = W1 m ρ c (Proc.devRef .tc main_v1) :=
  calc W6 m ρ c (Proc.devRef .tc main_v1)
    _ = W5 m ρ c (Proc.devRef .tc main_v1) := W6_of_ne m ρ c main_v1 (by decide)
    _ = W4 m ρ c (Proc.devRef .tc main_v1) := StableHlo.after_of_writes_sub hostOps2 _ hostOps2_writes (by decide)
    _ = W3 m ρ c (Proc.devRef .tc main_v1) := W4_of_ne m ρ c main_v1 (by decide)
    _ = W2 m ρ c (Proc.devRef .tc main_v1) := StableHlo.after_of_writes_sub hostOps1 _ hostOps1_writes (by decide)
    _ = W1 m ρ c (Proc.devRef .tc main_v1) := W2_of_ne m ρ c main_v1 (by decide)

theorem carry_main_v3_1_6 (c : Dev nD) : W6 m ρ c (Proc.devRef .tc main_v3) = W1 m ρ c (Proc.devRef .tc main_v3) :=
  calc W6 m ρ c (Proc.devRef .tc main_v3)
    _ = W5 m ρ c (Proc.devRef .tc main_v3) := W6_of_ne m ρ c main_v3 (by decide)
    _ = W4 m ρ c (Proc.devRef .tc main_v3) := StableHlo.after_of_writes_sub hostOps2 _ hostOps2_writes (by decide)
    _ = W3 m ρ c (Proc.devRef .tc main_v3) := W4_of_ne m ρ c main_v3 (by decide)
    _ = W2 m ρ c (Proc.devRef .tc main_v3) := StableHlo.after_of_writes_sub hostOps1 _ hostOps1_writes (by decide)
    _ = W1 m ρ c (Proc.devRef .tc main_v3) := W2_of_ne m ρ c main_v3 (by decide)

theorem carry_main_v15_1_3 (c : Dev nD) : W3 m ρ c (Proc.devRef .tc main_v15) = W1 m ρ c (Proc.devRef .tc main_v15) :=
  calc W3 m ρ c (Proc.devRef .tc main_v15)
    _ = W2 m ρ c (Proc.devRef .tc main_v15) := StableHlo.after_of_writes_sub hostOps1 _ hostOps1_writes (by decide)
    _ = W1 m ρ c (Proc.devRef .tc main_v15) := W2_of_ne m ρ c main_v15 (by decide)

theorem carry_main_v15_1_5 (c : Dev nD) : W5 m ρ c (Proc.devRef .tc main_v15) = W1 m ρ c (Proc.devRef .tc main_v15) :=
  calc W5 m ρ c (Proc.devRef .tc main_v15)
    _ = W4 m ρ c (Proc.devRef .tc main_v15) := StableHlo.after_of_writes_sub hostOps2 _ hostOps2_writes (by decide)
    _ = W3 m ρ c (Proc.devRef .tc main_v15) := (W4_arr m ρ c 3).trans (((dat1 (U3 m ρ) c).arrAt_in 3 rfl _).trans (A_eq1 (U3 m ρ) c 3))
    _ = W2 m ρ c (Proc.devRef .tc main_v15) := StableHlo.after_of_writes_sub hostOps1 _ hostOps1_writes (by decide)
    _ = W1 m ρ c (Proc.devRef .tc main_v15) := W2_of_ne m ρ c main_v15 (by decide)

theorem carry_main_v15_1_7 (c : Dev nD) : W7 m ρ c (Proc.devRef .tc main_v15) = W1 m ρ c (Proc.devRef .tc main_v15) :=
  calc W7 m ρ c (Proc.devRef .tc main_v15)
    _ = W6 m ρ c (Proc.devRef .tc main_v15) := StableHlo.after_of_writes_sub hostOps3 _ hostOps3_writes (by decide)
    _ = W5 m ρ c (Proc.devRef .tc main_v15) := (W6_arr m ρ c 3).trans (((dat2 (U5 m ρ) c).arrAt_in 3 rfl _).trans (A_eq2 (U5 m ρ) c 3))
    _ = W4 m ρ c (Proc.devRef .tc main_v15) := StableHlo.after_of_writes_sub hostOps2 _ hostOps2_writes (by decide)
    _ = W3 m ρ c (Proc.devRef .tc main_v15) := (W4_arr m ρ c 3).trans (((dat1 (U3 m ρ) c).arrAt_in 3 rfl _).trans (A_eq1 (U3 m ρ) c 3))
    _ = W2 m ρ c (Proc.devRef .tc main_v15) := StableHlo.after_of_writes_sub hostOps1 _ hostOps1_writes (by decide)
    _ = W1 m ρ c (Proc.devRef .tc main_v15) := W2_of_ne m ρ c main_v15 (by decide)

theorem carry_main_v17_1_3 (c : Dev nD) : W3 m ρ c (Proc.devRef .tc main_v17) = W1 m ρ c (Proc.devRef .tc main_v17) :=
  calc W3 m ρ c (Proc.devRef .tc main_v17)
    _ = W2 m ρ c (Proc.devRef .tc main_v17) := StableHlo.after_of_writes_sub hostOps1 _ hostOps1_writes (by decide)
    _ = W1 m ρ c (Proc.devRef .tc main_v17) := W2_of_ne m ρ c main_v17 (by decide)

theorem carry_main_v18_1_5 (c : Dev nD) : W5 m ρ c (Proc.devRef .tc main_v18) = W1 m ρ c (Proc.devRef .tc main_v18) :=
  calc W5 m ρ c (Proc.devRef .tc main_v18)
    _ = W4 m ρ c (Proc.devRef .tc main_v18) := StableHlo.after_of_writes_sub hostOps2 _ hostOps2_writes (by decide)
    _ = W3 m ρ c (Proc.devRef .tc main_v18) := W4_of_ne m ρ c main_v18 (by decide)
    _ = W2 m ρ c (Proc.devRef .tc main_v18) := StableHlo.after_of_writes_sub hostOps1 _ hostOps1_writes (by decide)
    _ = W1 m ρ c (Proc.devRef .tc main_v18) := W2_of_ne m ρ c main_v18 (by decide)

theorem carry_main_v19_1_7 (c : Dev nD) : W7 m ρ c (Proc.devRef .tc main_v19) = W1 m ρ c (Proc.devRef .tc main_v19) :=
  calc W7 m ρ c (Proc.devRef .tc main_v19)
    _ = W6 m ρ c (Proc.devRef .tc main_v19) := StableHlo.after_of_writes_sub hostOps3 _ hostOps3_writes (by decide)
    _ = W5 m ρ c (Proc.devRef .tc main_v19) := W6_of_ne m ρ c main_v19 (by decide)
    _ = W4 m ρ c (Proc.devRef .tc main_v19) := StableHlo.after_of_writes_sub hostOps2 _ hostOps2_writes (by decide)
    _ = W3 m ρ c (Proc.devRef .tc main_v19) := W4_of_ne m ρ c main_v19 (by decide)
    _ = W2 m ρ c (Proc.devRef .tc main_v19) := StableHlo.after_of_writes_sub hostOps1 _ hostOps1_writes (by decide)
    _ = W1 m ρ c (Proc.devRef .tc main_v19) := W2_of_ne m ρ c main_v19 (by decide)

theorem carry_main_v20_1_9 (c : Dev nD) : W9 m ρ c (Proc.devRef .tc main_v20) = W1 m ρ c (Proc.devRef .tc main_v20) :=
  calc W9 m ρ c (Proc.devRef .tc main_v20)
    _ = W8 m ρ c (Proc.devRef .tc main_v20) := StableHlo.after_of_writes_sub hostOps4 _ hostOps4_writes (by decide)
    _ = W7 m ρ c (Proc.devRef .tc main_v20) := W8_of_ne m ρ c main_v20 (by decide)
    _ = W6 m ρ c (Proc.devRef .tc main_v20) := StableHlo.after_of_writes_sub hostOps3 _ hostOps3_writes (by decide)
    _ = W5 m ρ c (Proc.devRef .tc main_v20) := W6_of_ne m ρ c main_v20 (by decide)
    _ = W4 m ρ c (Proc.devRef .tc main_v20) := StableHlo.after_of_writes_sub hostOps2 _ hostOps2_writes (by decide)
    _ = W3 m ρ c (Proc.devRef .tc main_v20) := W4_of_ne m ρ c main_v20 (by decide)
    _ = W2 m ρ c (Proc.devRef .tc main_v20) := StableHlo.after_of_writes_sub hostOps1 _ hostOps1_writes (by decide)
    _ = W1 m ρ c (Proc.devRef .tc main_v20) := W2_of_ne m ρ c main_v20 (by decide)

theorem carry_main_v21_1_9 (c : Dev nD) : W9 m ρ c (Proc.devRef .tc main_v21) = W1 m ρ c (Proc.devRef .tc main_v21) :=
  calc W9 m ρ c (Proc.devRef .tc main_v21)
    _ = W8 m ρ c (Proc.devRef .tc main_v21) := StableHlo.after_of_writes_sub hostOps4 _ hostOps4_writes (by decide)
    _ = W7 m ρ c (Proc.devRef .tc main_v21) := W8_of_ne m ρ c main_v21 (by decide)
    _ = W6 m ρ c (Proc.devRef .tc main_v21) := StableHlo.after_of_writes_sub hostOps3 _ hostOps3_writes (by decide)
    _ = W5 m ρ c (Proc.devRef .tc main_v21) := W6_of_ne m ρ c main_v21 (by decide)
    _ = W4 m ρ c (Proc.devRef .tc main_v21) := StableHlo.after_of_writes_sub hostOps2 _ hostOps2_writes (by decide)
    _ = W3 m ρ c (Proc.devRef .tc main_v21) := W4_of_ne m ρ c main_v21 (by decide)
    _ = W2 m ρ c (Proc.devRef .tc main_v21) := StableHlo.after_of_writes_sub hostOps1 _ hostOps1_writes (by decide)
    _ = W1 m ρ c (Proc.devRef .tc main_v21) := W2_of_ne m ρ c main_v21 (by decide)

theorem carry_main_v22_0_2_3 (c : Dev nD) : W3 m ρ c (Proc.devRef .tc main_v22_0) = W2 m ρ c (Proc.devRef .tc main_v22_0) :=
  calc W3 m ρ c (Proc.devRef .tc main_v22_0)
    _ = W2 m ρ c (Proc.devRef .tc main_v22_0) := StableHlo.after_of_writes_sub hostOps1 _ hostOps1_writes (by decide)

theorem carry_main_v22_1_2_3 (c : Dev nD) : W3 m ρ c (Proc.devRef .tc main_v22_1) = W2 m ρ c (Proc.devRef .tc main_v22_1) :=
  calc W3 m ρ c (Proc.devRef .tc main_v22_1)
    _ = W2 m ρ c (Proc.devRef .tc main_v22_1) := StableHlo.after_of_writes_sub hostOps1 _ hostOps1_writes (by decide)

theorem carry_main_v34_0_4_5 (c : Dev nD) : W5 m ρ c (Proc.devRef .tc main_v34_0) = W4 m ρ c (Proc.devRef .tc main_v34_0) :=
  calc W5 m ρ c (Proc.devRef .tc main_v34_0)
    _ = W4 m ρ c (Proc.devRef .tc main_v34_0) := StableHlo.after_of_writes_sub hostOps2 _ hostOps2_writes (by decide)

theorem carry_main_v34_1_4_5 (c : Dev nD) : W5 m ρ c (Proc.devRef .tc main_v34_1) = W4 m ρ c (Proc.devRef .tc main_v34_1) :=
  calc W5 m ρ c (Proc.devRef .tc main_v34_1)
    _ = W4 m ρ c (Proc.devRef .tc main_v34_1) := StableHlo.after_of_writes_sub hostOps2 _ hostOps2_writes (by decide)

theorem carry_main_v34_0_4_8 (c : Dev nD) : W8 m ρ c (Proc.devRef .tc main_v34_0) = W4 m ρ c (Proc.devRef .tc main_v34_0) :=
  calc W8 m ρ c (Proc.devRef .tc main_v34_0)
    _ = W7 m ρ c (Proc.devRef .tc main_v34_0) := W8_of_ne m ρ c main_v34_0 (by decide)
    _ = W6 m ρ c (Proc.devRef .tc main_v34_0) := StableHlo.after_of_writes_sub hostOps3 _ hostOps3_writes (by decide)
    _ = W5 m ρ c (Proc.devRef .tc main_v34_0) := (W6_arr m ρ c 0).trans (((dat2 (U5 m ρ) c).arrAt_in 0 rfl _).trans (A_eq2 (U5 m ρ) c 0))
    _ = W4 m ρ c (Proc.devRef .tc main_v34_0) := StableHlo.after_of_writes_sub hostOps2 _ hostOps2_writes (by decide)

theorem carry_main_v46_0_6_7 (c : Dev nD) : W7 m ρ c (Proc.devRef .tc main_v46_0) = W6 m ρ c (Proc.devRef .tc main_v46_0) :=
  calc W7 m ρ c (Proc.devRef .tc main_v46_0)
    _ = W6 m ρ c (Proc.devRef .tc main_v46_0) := StableHlo.after_of_writes_sub hostOps3 _ hostOps3_writes (by decide)

theorem carry_main_v46_1_6_7 (c : Dev nD) : W7 m ρ c (Proc.devRef .tc main_v46_1) = W6 m ρ c (Proc.devRef .tc main_v46_1) :=
  calc W7 m ρ c (Proc.devRef .tc main_v46_1)
    _ = W6 m ρ c (Proc.devRef .tc main_v46_1) := StableHlo.after_of_writes_sub hostOps3 _ hostOps3_writes (by decide)

theorem carry_main_v46_0_6_8 (c : Dev nD) : W8 m ρ c (Proc.devRef .tc main_v46_0) = W6 m ρ c (Proc.devRef .tc main_v46_0) :=
  calc W8 m ρ c (Proc.devRef .tc main_v46_0)
    _ = W7 m ρ c (Proc.devRef .tc main_v46_0) := (W8_arr m ρ c 0).trans (((dat3 (U7 m ρ) c).arrAt_in 0 rfl _).trans (A_eq3 (U7 m ρ) c 0))
    _ = W6 m ρ c (Proc.devRef .tc main_v46_0) := StableHlo.after_of_writes_sub hostOps3 _ hostOps3_writes (by decide)

theorem carry_main_arg2_0_8 (c : Dev nD) : W8 m ρ c (Proc.devRef .tc main_arg2) = W0 m ρ c (Proc.devRef .tc main_arg2) :=
  calc W8 m ρ c (Proc.devRef .tc main_arg2)
    _ = W7 m ρ c (Proc.devRef .tc main_arg2) := W8_of_ne m ρ c main_arg2 (by decide)
    _ = W6 m ρ c (Proc.devRef .tc main_arg2) := StableHlo.after_of_writes_sub hostOps3 _ hostOps3_writes (by decide)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)

theorem carry_main_arg7_0_3 (c : Dev nD) : W3 m ρ c (Proc.devRef .tc main_arg7) = W0 m ρ c (Proc.devRef .tc main_arg7) :=
  calc W3 m ρ c (Proc.devRef .tc main_arg7)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)

theorem carry_main_arg9_0_5 (c : Dev nD) : W5 m ρ c (Proc.devRef .tc main_arg9) = W0 m ρ c (Proc.devRef .tc main_arg9) :=
  calc W5 m ρ c (Proc.devRef .tc main_arg9)
    _ = W4 m ρ c (Proc.devRef .tc main_arg9) := StableHlo.after_of_writes_sub hostOps2 _ hostOps2_writes (by decide)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)

theorem carry_main_arg11_0_9 (c : Dev nD) : W9 m ρ c (Proc.devRef .tc main_arg11) = W0 m ρ c (Proc.devRef .tc main_arg11) :=
  calc W9 m ρ c (Proc.devRef .tc main_arg11)
    _ = W8 m ρ c (Proc.devRef .tc main_arg11) := StableHlo.after_of_writes_sub hostOps4 _ hostOps4_writes (by decide)
    _ = W7 m ρ c (Proc.devRef .tc main_arg11) := W8_of_ne m ρ c main_arg11 (by decide)
    _ = W6 m ρ c (Proc.devRef .tc main_arg11) := StableHlo.after_of_writes_sub hostOps3 _ hostOps3_writes (by decide)
    _ = W5 m ρ c (Proc.devRef .tc main_arg11) := W6_of_ne m ρ c main_arg11 (by decide)
    _ = W4 m ρ c (Proc.devRef .tc main_arg11) := StableHlo.after_of_writes_sub hostOps2 _ hostOps2_writes (by decide)
    _ = W3 m ρ c (Proc.devRef .tc main_arg11) := W4_of_ne m ρ c main_arg11 (by decide)
    _ = W2 m ρ c (Proc.devRef .tc main_arg11) := StableHlo.after_of_writes_sub hostOps1 _ hostOps1_writes (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)

theorem carry_main_arg13_0_9 (c : Dev nD) : W9 m ρ c (Proc.devRef .tc main_arg13) = W0 m ρ c (Proc.devRef .tc main_arg13) :=
  calc W9 m ρ c (Proc.devRef .tc main_arg13)
    _ = W8 m ρ c (Proc.devRef .tc main_arg13) := StableHlo.after_of_writes_sub hostOps4 _ hostOps4_writes (by decide)
    _ = W7 m ρ c (Proc.devRef .tc main_arg13) := W8_of_ne m ρ c main_arg13 (by decide)
    _ = W6 m ρ c (Proc.devRef .tc main_arg13) := StableHlo.after_of_writes_sub hostOps3 _ hostOps3_writes (by decide)
    _ = W5 m ρ c (Proc.devRef .tc main_arg13) := W6_of_ne m ρ c main_arg13 (by decide)
    _ = W4 m ρ c (Proc.devRef .tc main_arg13) := StableHlo.after_of_writes_sub hostOps2 _ hostOps2_writes (by decide)
    _ = W3 m ρ c (Proc.devRef .tc main_arg13) := W4_of_ne m ρ c main_arg13 (by decide)
    _ = W2 m ρ c (Proc.devRef .tc main_arg13) := StableHlo.after_of_writes_sub hostOps1 _ hostOps1_writes (by decide)
    _ = W1 m ρ c (Proc.devRef .tc main_arg13) := W2_of_ne m ρ c main_arg13 (by decide)
    _ = W0 m ρ c (Proc.devRef .tc main_arg13) := StableHlo.after_of_writes_sub hostOps0 _ hostOps0_writes (by decide)

end Cert.KernelIdeal.Hand

end
-- ==== Proof.Spec.lean ====
/-
  The two computations, as functions of the argument arrays, index by index, on the extended reals.

  A graph of 50000 nodes and 800000 edges; row 0 of the edge array holds each edge's source, row 1 its destination.
  An edge LANDS on node n when its destination number, read as a signed integer, is n (an edge whose destination is
  outside the node range lands nowhere). The row an edge READS is its source number, increased by 50000 once when it is
  negative, then clamped into the node range. The degree of a node is one plus the number of edges landing on it, and
  its normaliser the reciprocal square root of the degree.

  One layer maps node features r (50000 x 128) to  max (r + D (A + I) D (r W) + b, 0)  where A is the edge matrix and
  D the diagonal of normalisers. The KERNEL-shaped layer scales the projected features by the source's normaliser,
  sums over the landing edges, and multiplies the sum by the destination's normaliser; the REFERENCE-shaped layer
  multiplies every edge's term by the product of both normalisers before summing. The three layers' outputs are
  averaged per graph (a node belongs to graph g when its batch number is g; an empty graph divides by one) — the
  kernel shape pools each layer and then concatenates, the reference shape concatenates and then pools — and a
  two-layer head with a row-wise Euclidean normalisation follows.
-/
import Idealize.ShloMosaic.Lib.ValueIdx
import Idealize.ShloMosaic.PureOps.Ideal

noncomputable section

namespace Cert.Spec

open Idealize.ShloMosaic Idealize.ShloMosaic.ValueIdx

abbrev A2 (a b : Nat) : Type := (⟨2, ![a, b]⟩ : Shape).Idx → EReal
abbrev A1 (a : Nat) : Type := (⟨1, ![a]⟩ : Shape).Idx → EReal
abbrev EI : Type := (⟨2, ![2, 800000]⟩ : Shape).Idx → BitVec 32
abbrev BT : Type := (⟨1, ![50000]⟩ : Shape).Idx → BitVec 32

/-- The three float literals the programs spell: zero, one, and the normalisation's floor. -/
def zeroW : EReal := Ideal.ofBits .f32 0x00000000#32
def oneW : EReal := Ideal.ofBits .f32 0x3F800000#32
def tinyW : EReal := Ideal.ofBits .f32 0x2B8CBCCC#32

/-- A negative row number is increased by the node count, once. -/
def wrap (s : BitVec 32) : BitVec 32 := if s.slt 0#32 then s + 50000#32 else s
/-- A row number read signed and clamped into the node range. -/
def clampRow (s : BitVec 32) : Fin 50000 := ⟨min s.toInt.toNat 49999, by omega⟩
/-- The node whose features an edge reads. -/
def srcRow (ei : EI) (e : Fin 800000) : Fin 50000 := clampRow (wrap (ei (ix2 (0 : Fin 2) e)))
/-- The node whose normaliser the reference reads for an edge's destination. -/
def dstRow (ei : EI) (e : Fin 800000) : Fin 50000 := clampRow (wrap (ei (ix2 (1 : Fin 2) e)))
/-- The edges landing on node `n`. -/
def lands (ei : EI) (n : Fin 50000) : Finset (Fin 800000) :=
  Finset.univ.filter fun e => (ei (ix2 (1 : Fin 2) e)).toInt = (n.val : Int)
/-- The nodes of graph `g`. -/
def members (bt : BT) (g : Fin 512) : Finset (Fin 50000) :=
  Finset.univ.filter fun n => (bt (ix1 n)).toInt = (g.val : Int)

/-- One plus the number of edges landing on the node. -/
def deg (ei : EI) (n : Fin 50000) : EReal := (zeroW + ∑ _e ∈ lands ei n, oneW) + oneW
/-- The node's normaliser. -/
def dis (ei : EI) (n : Fin 50000) : EReal := Ideal.rsqrt (deg ei n)

/-- A matrix product as a plain sum. -/
def lin {a k b : Nat} (x : A2 a k) (w : A2 k b) : A2 a b := fun i => ∑ j : Fin k, x (ix2 (i 0) j) * w (ix2 j (i 1))
/-- A row added to every row. -/
def addRow {a b : Nat} (x : A2 a b) (r : A1 b) : A2 a b := fun i => x i + r (ix1 (i 1))
def relu {a b : Nat} (x : A2 a b) : A2 a b := fun i => max (x i) zeroW

/-- Kernel shape: the landing edges' source features, each scaled by its source's normaliser. -/
def aggK (ei : EI) (hm : A2 50000 128) : A2 50000 128 := fun i =>
  zeroW + ∑ e ∈ lands ei (i 0), hm (ix2 (srcRow ei e) (i 1)) * dis ei (srcRow ei e)
def layerK (ei : EI) (r : A2 50000 128) (W : A2 128 128) (b : A1 128) : A2 50000 128 := fun i =>
  max ((((r i + dis ei (i 0) * aggK ei (lin r W) i) + lin r W i * (dis ei (i 0) * dis ei (i 0))) + b (ix1 (i 1)))) zeroW

/-- Reference shape: every landing edge's source feature times the product of both normalisers. -/
def aggR (ei : EI) (hm : A2 50000 128) : A2 50000 128 := fun i =>
  zeroW + ∑ e ∈ lands ei (i 0), hm (ix2 (srcRow ei e) (i 1)) * (dis ei (srcRow ei e) * dis ei (dstRow ei e))
def layerR (ei : EI) (r : A2 50000 128) (W : A2 128 128) (b : A1 128) : A2 50000 128 := fun i =>
  max (r i + ((aggR ei (lin r W) i + lin r W i * (dis ei (i 0) * dis ei (i 0))) + b (ix1 (i 1)))) zeroW

/-- Three 128-column arrays side by side. -/
def cat3 {a : Nat} (x y z : A2 a 128) : A2 a 384 := fun i =>
  if h : (i 1).val < 128 then x (ix2 (i 0) ⟨(i 1).val, h⟩)
  else if h2 : (i 1).val < 256 then y (ix2 (i 0) ⟨(i 1).val - 128, by omega⟩)
  else z (ix2 (i 0) ⟨(i 1).val - 256, by have h3 : (i 1).val < 384 := (i 1).isLt; omega⟩)

/-- The number of nodes of a graph. -/
def cnt (bt : BT) (g : Fin 512) : EReal := zeroW + ∑ _n ∈ members bt g, oneW
/-- The per-graph mean of C columns (an empty graph divides by one). -/
def pool {C : Nat} (bt : BT) (r : A2 50000 C) : A2 512 C := fun i =>
  Ideal.div (zeroW + ∑ n ∈ members bt (i 0), r (ix2 n (i 1))) (max (cnt bt (i 0)) oneW)

/-- The head: two affine maps with a rectifier between, then each row divided by its Euclidean norm (floored). -/
def head (p : A2 512 384) (Wp1 : A2 384 128) (bp1 : A1 128) (Wp2 : A2 128 128) (bp2 : A1 128) : A2 512 128 := fun i =>
  Ideal.div (addRow (lin (relu (addRow (lin p Wp1) bp1)) Wp2) bp2 i)
    (max (Ideal.sqrt (zeroW + ∑ j : Fin 128, addRow (lin (relu (addRow (lin p Wp1) bp1)) Wp2) bp2 (ix2 (i 0) j)
        * addRow (lin (relu (addRow (lin p Wp1) bp1)) Wp2) bp2 (ix2 (i 0) j))) tinyW)

/-- The kernel-shaped result. -/
def outK (x : A2 50000 128) (ei : EI) (bt : BT) (Win : A2 128 128) (bin : A1 128) (W1 : A2 128 128) (b1 : A1 128)
    (W2 : A2 128 128) (b2 : A1 128) (W3 : A2 128 128) (b3 : A1 128) (Wp1 : A2 384 128) (bp1 : A1 128)
    (Wp2 : A2 128 128) (bp2 : A1 128) : A2 512 128 :=
  head (cat3 (pool bt (layerK ei (addRow (lin x Win) bin) W1 b1))
      (pool bt (layerK ei (layerK ei (addRow (lin x Win) bin) W1 b1) W2 b2))
      (pool bt (layerK ei (layerK ei (layerK ei (addRow (lin x Win) bin) W1 b1) W2 b2) W3 b3))) Wp1 bp1 Wp2 bp2

/-- The reference-shaped result. -/
def outR (x : A2 50000 128) (ei : EI) (bt : BT) (Win : A2 128 128) (bin : A1 128) (W1 : A2 128 128) (b1 : A1 128)
    (W2 : A2 128 128) (b2 : A1 128) (W3 : A2 128 128) (b3 : A1 128) (Wp1 : A2 384 128) (bp1 : A1 128)
    (Wp2 : A2 128 128) (bp2 : A1 128) : A2 512 128 :=
  head (pool bt (cat3 (layerR ei (addRow (lin x Win) bin) W1 b1)
      (layerR ei (layerR ei (addRow (lin x Win) bin) W1 b1) W2 b2)
      (layerR ei (layerR ei (layerR ei (addRow (lin x Win) bin) W1 b1) W2 b2) W3 b3))) Wp1 bp1 Wp2 bp2

end Cert.Spec

end
-- ==== Proof.LibPlainDot.lean ====
/-
  The plain product of an m×k by a k×n matrix, read at an index as a sum over the contracted coordinate, for ANY record
  with the plain dimension numbers (contract axis 1 of the left with axis 0 of the right, no batch axis) — both the host's
  `dot_general` and the matrix unit's product into a zero accumulator. At the ideal values.
-/
import Idealize.ShloMosaic.Lib.ValueIdx
import Idealize.ShloMosaic.PureOps.Ideal.Laws

namespace Cert.LibPlainDot

open Idealize.ShloMosaic Idealize.ShloMosaic.ValueIdx

variable {m k n : ℕ} {φ₁ φ₂ : FTy}

/-- The left operand's index at output (a, b) and contraction coordinate c is (a, c); the right operand's is (c, b). -/
theorem idx_apply (w : DotDims.WF ⟨2, ![m, k]⟩ ⟨2, ![k, n]⟩ ⟨2, ![m, n]⟩ [1] [0] [0] [1] [] []) (a : Fin m) (b : Fin n) (c : Fin k) :
    (⟨[1], [0], [0], [1], [], [], w⟩ : DotDims ⟨2, ![m, k]⟩ ⟨2, ![k, n]⟩ ⟨2, ![m, n]⟩).lhsIdx (ix2 a b)
        ((contrEquiv1 (⟨[1], [0], [0], [1], [], [], w⟩ : DotDims ⟨2, ![m, k]⟩ ⟨2, ![k, n]⟩ ⟨2, ![m, n]⟩) k rfl rfl).symm c) = ix2 a c
    ∧ (⟨[1], [0], [0], [1], [], [], w⟩ : DotDims ⟨2, ![m, k]⟩ ⟨2, ![k, n]⟩ ⟨2, ![m, n]⟩).rhsIdx (ix2 a b)
        ((contrEquiv1 (⟨[1], [0], [0], [1], [], [], w⟩ : DotDims ⟨2, ![m, k]⟩ ⟨2, ![k, n]⟩ ⟨2, ![m, n]⟩) k rfl rfl).symm c) = ix2 c b := by
  have c2 := contrEquiv1_symm_val
    (⟨[1], [0], [0], [1], [], [], w⟩ : DotDims ⟨2, ![m, k]⟩ ⟨2, ![k, n]⟩ ⟨2, ![m, n]⟩) k rfl rfl c
  constructor
  · funext ax; apply Fin.ext
    match ax with
    | ⟨0, _⟩ => simp [DotDims.lhsIdx]; rfl
    | ⟨1, _⟩ => simp [DotDims.lhsIdx]; exact c2
  · funext ax; apply Fin.ext
    match ax with
    | ⟨0, _⟩ => simp [DotDims.rhsIdx]; exact c2
    | ⟨1, _⟩ => simp [DotDims.rhsIdx]; rfl

/-- The host's product at (a, b) is the sum over c of A[a,c] · B[c,b]. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims _ _ _) prec A B (ix2 a b) = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims _ _ _) k rfl rfl).symm]
  refine Finset.sum_congr rfl fun c _ => ?_
  rw [(idx_apply w a b c).1, (idx_apply w a b c).2]

/-- The matrix unit's product into the zero accumulator at (a, b) is the same sum. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims _ _ _) prec A B (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  rw [(idx_apply w a b c).1, (idx_apply w a b c).2]

end Cert.LibPlainDot
-- ==== Proof.LibKeepdims.lean ====
/-
  Layout lemmas for a row statistic kept as a column: a vector [a] seen as a column [a, 1], and a column [a, 1]
  repeated along the rows to [a, b], each read at an index written by coordinates. (The library reads the leading-unit-axis
  forms [a] → [1, a] and [1, b] → [a, b]; these are the trailing-unit-axis forms every `keepdims` reduction meets.)
-/
import Idealize.ShloMosaic.Lib.ValueIdx
import Idealize.ShloMosaic.Lib.ValueLayout
import Idealize.ShloMosaic.Lib.Pipeline.Value

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.IdealFin0.lean ====
/-
  Region 0 of the host program, read at the ideal values: what each of its three output arrays holds after the whole
  region, index by index, as a function of the arrays the region finds.

  With X the node features (50000 x 128), W the first weights, b the bias row (1 x 128), W' the second weights and s the
  normaliser column (50000 x 1):
      first output   h (r, c)  = (∑ k, X (r, k) · W (k, c)) + b (0, c)
      second output  g (r, c)  = ∑ k, h (r, k) · W' (k, c)
      third output   g (r, c) · s (r, 0)
  (a change of float format is the identity on the extended reals, and the matrix unit's product into a zero
  accumulator is the plain sum).

  The steps: each payload read at an index of a block, over variables; the input windows' blocks at a grid point as
  pieces of their arrays (the row windows at rows 2000 t …, the weight and bias windows whole); so what point t writes
  back is block t of one whole-array function; the 25 blocks cover the 50000 rows; hence the array.
-/
import proofs.«111900_j74998718923370_2_alg».proof.Proof.IdealReg0
import proofs.«111900_j74998718923370_2_alg».proof.Proof.Spec
import proofs.«111900_j74998718923370_2_alg».proof.Proof.LibPlainDot
import proofs.«111900_j74998718923370_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

theorem pay0_1_apply (x0 : Vec Ideal S2000x128 .f32) (x1 : Vec Ideal S128x128 .f32) (x2 : Vec Ideal S1x128 .f32) (p : Fin 2000) (q : Fin 128) :
    k0_pay1 (F := Ideal) x0 x1 x2 (ix2 p q) = (∑ k : Fin 128, x0 (ix2 p k) * x1 (ix2 k q)) + x2 (ix2 (0 : Fin 1) q) := by
  unfold k0_pay1
  rw [addf_apply, shapeCast_self, broadcastTo_1b_ab_apply]
  congr 1
  exact Cert.LibPlainDot.matmul_zero_apply dot_S2000x128_S128x128_S2000x128_1_0_0_1_n_n_wf none (truncf .bf16 x0 bitsLt_bf16_f32) (truncf .bf16 x1 bitsLt_bf16_f32) p q

theorem pay0_2_apply (x0 : Vec Ideal S2000x128 .f32) (x1 : Vec Ideal S128x128 .f32) (x2 : Vec Ideal S1x128 .f32) (x3 : Vec Ideal S128x128 .f32) (p : Fin 2000) (q : Fin 128) :
    k0_pay2 (F := Ideal) x0 x1 x2 x3 (ix2 p q) = ∑ k : Fin 128, k0_pay1 (F := Ideal) x0 x1 x2 (ix2 p k) * x3 (ix2 k q) := by
  unfold k0_pay2
  exact Cert.LibPlainDot.matmul_zero_apply dot_S2000x128_S128x128_S2000x128_1_0_0_1_n_n_wf none (truncf .bf16 (k0_pay1 (F := Ideal) x0 x1 x2) bitsLt_bf16_f32) (truncf .bf16 x3 bitsLt_bf16_f32) p q

theorem pay0_3_apply (x0 : Vec Ideal S2000x128 .f32) (x1 : Vec Ideal S128x128 .f32) (x2 : Vec Ideal S1x128 .f32) (x3 : Vec Ideal S128x128 .f32) (x4 : Vec Ideal S2000x1 .f32) (p : Fin 2000) (q : Fin 128) :
    k0_pay3 (F := Ideal) x0 x1 x2 x3 x4 (ix2 p q) = k0_pay2 (F := Ideal) x0 x1 x2 x3 (ix2 p q) * x4 (ix2 p (0 : Fin 1)) := by
  unfold k0_pay3
  rw [truncf_apply, mulf_apply, shapeCast_self, Cert.LibKeepdims.broadcastTo_a1_ab_apply]

/-! ## The index maps, decided over the grid -/

theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

section Blocks
variable {F : FTy → Type} [FloatOps F]
variable (V : (c : Dev nD) → (b : Ref sig .tc) → Buf (Elt F) ((c : Thread nD τ).loc b))

/-- The feature window's block at point `t` is rows `2000 t … 2000 t + 1999` of its array. -/
theorem iblk0_0_apply (c : Dev nD) (t : Fin cfg0.N) (x : S2000x128.Idx) (k : S50000x128.Idx)
    (hk0 : (k 0).val = 2000 * t.val + (x 0).val) (hk1 : (k 1).val = (x 1).val) :
    (iblk0 V c 0 t : Vec F S2000x128 .f32) x = (V c main_arg0 : S50000x128.Idx → Elt F .f32) k := by
  obtain ⟨e0, e1, -⟩ := idx_facts0 t
  unfold iblk0
  rw [View.read_apply]
  show V c main_arg0 _ = V c main_arg0 _
  congr 1
  funext a
  apply Fin.ext
  match a with
  | ⟨0, _⟩ => show win0_0.index t 0 * 2000 + 1 * (x 0).val = (k 0).val; rw [e0, hk0]; omega
  | ⟨1, _⟩ => show win0_0.index t 1 * 128 + 1 * (x 1).val = (k 1).val; rw [e1, hk1]; omega

end Blocks

section Blocks2
variable {F : FTy → Type} [FloatOps F]
variable (V : (c : Dev nD) → (b : Ref sig .tc) → Buf (Elt F) ((c : Thread nD τ).loc b))

/-- The first weight window's block is its whole array at every point. -/
theorem iblk0_1_apply (c : Dev nD) (t : Fin cfg0.N) (x k : S128x128.Idx) (hk0 : (k 0).val = (x 0).val) (hk1 : (k 1).val = (x 1).val) :
    (iblk0 V c 1 t : Vec F S128x128 .f32) x = (V c main_arg3 : S128x128.Idx → Elt F .f32) k := by
  obtain ⟨-, -, e0, e1, -⟩ := idx_facts0 t
  unfold iblk0
  rw [View.read_apply]
  show V c main_arg3 _ = V c main_arg3 _
  congr 1
  funext a
  apply Fin.ext
  match a with
  | ⟨0, _⟩ => show win0_1.index t 0 * 128 + 1 * (x 0).val = (k 0).val; rw [e0, hk0]; omega
  | ⟨1, _⟩ => show win0_1.index t 1 * 128 + 1 * (x 1).val = (k 1).val; rw [e1, hk1]; omega

/-- The bias window's block is its whole row at every point. -/
theorem iblk0_2_apply (c : Dev nD) (t : Fin cfg0.N) (x k : S1x128.Idx) (hk0 : (k 0).val = (x 0).val) (hk1 : (k 1).val = (x 1).val) :
    (iblk0 V c 2 t : Vec F S1x128 .f32) x = (V c main_v16 : S1x128.Idx → Elt F .f32) k := by
  obtain ⟨-, -, -, -, e0, e1, -⟩ := idx_facts0 t
  unfold iblk0
  rw [View.read_apply]
  show V c main_v16 _ = V c main_v16 _
  congr 1
  funext a
  apply Fin.ext
  match a with
  | ⟨0, _⟩ => show win0_2.index t 0 * 1 + 1 * (x 0).val = (k 0).val; rw [e0, hk0]; omega
  | ⟨1, _⟩ => show win0_2.index t 1 * 128 + 1 * (x 1).val = (k 1).val; rw [e1, hk1]; omega

/-- The second weight window's block is its whole array at every point. -/
theorem iblk0_3_apply (c : Dev nD) (t : Fin cfg0.N) (x k : S128x128.Idx) (hk0 : (k 0).val = (x 0).val) (hk1 : (k 1).val = (x 1).val) :
    (iblk0 V c 3 t : Vec F S128x128 .f32) x = (V c main_arg5 : S128x128.Idx → Elt F .f32) k := by
  obtain ⟨-, -, -, -, -, -, e0, e1, -⟩ := idx_facts0 t
  unfold iblk0
  rw [View.read_apply]
  show V c main_arg5 _ = V c main_arg5 _
  congr 1
  funext a
  apply Fin.ext
  match a with
  | ⟨0, _⟩ => show win0_3.index t 0 * 128 + 1 * (x 0).val = (k 0).val; rw [e0, hk0]; omega
  | ⟨1, _⟩ => show win0_3.index t 1 * 128 + 1 * (x 1).val = (k 1).val; rw [e1, hk1]; omega

/-- The normaliser window's block at point `t` is rows `2000 t … 2000 t + 1999` of its column. -/
theorem iblk0_4_apply (c : Dev nD) (t : Fin cfg0.N) (x : S2000x1.Idx) (k : S50000x1.Idx)
    (hk0 : (k 0).val = 2000 * t.val + (x 0).val) (hk1 : (k 1).val = (x 1).val) :
    (iblk0 V c 4 t : Vec F S2000x1 .f32) x = (V c main_v11 : S50000x1.Idx → Elt F .f32) k := by
  obtain ⟨-, -, -, -, -, -, -, -, e0, e1, -⟩ := idx_facts0 t
  unfold iblk0
  rw [View.read_apply]
  show V c main_v11 _ = V c main_v11 _
  congr 1
  funext a
  apply Fin.ext
  match a with
  | ⟨0, _⟩ => show win0_4.index t 0 * 2000 + 1 * (x 0).val = (k 0).val; rw [e0, hk0]; omega
  | ⟨1, _⟩ => show win0_4.index t 1 * 1 + 1 * (x 1).val = (k 1).val; rw [e1, hk1]; omega

end Blocks2

/-! ## The three output arrays, index by index -/

/-- The first output: the features times the first weights, plus the bias row. -/
abbrev h0F (X : S50000x128.Idx → EReal) (Win : S128x128.Idx → EReal) (B : S1x128.Idx → EReal) : S50000x128.Idx → EReal :=
  fun i => Cert.Spec.lin X Win i + B (ix2 (0 : Fin 1) (i 1))
/-- The second output: the first times the second weights. -/
abbrev hmmF (X : S50000x128.Idx → EReal) (Win : S128x128.Idx → EReal) (B : S1x128.Idx → EReal) (W1 : S128x128.Idx → EReal) : S50000x128.Idx → EReal :=
  fun i => ∑ k : Fin 128, h0F X Win B (ix2 (i 0) k) * W1 (ix2 k (i 1))
/-- The third output: the second, each row scaled by its normaliser. -/
abbrev hsF (X : S50000x128.Idx → EReal) (Win : S128x128.Idx → EReal) (B : S1x128.Idx → EReal) (W1 : S128x128.Idx → EReal) (D : S50000x1.Idx → EReal) : S50000x128.Idx → EReal :=
  fun i => hmmF X Win B W1 i * D (ix2 (i 0) (0 : Fin 1))

theorem hz0 : (![0, 0] : Fin 2 → Nat) = fun _ => 0 := funext fun a => by fin_cases a <;> rfl

variable (V : (c : Dev nD) → (b : Ref sig .tc) → Buf (Elt Ideal) ((c : Thread nD τ).loc b))

/-- The first payload on the blocks at point `t`, read at `(p, q)`, is the first output's function at row `2000 t + p`. -/
theorem pay0_1_blocks (c : Dev nD) (t : Fin cfg0.N) (p : Fin 2000) (q : Fin 128) (i : S50000x128.Idx)
    (hi0 : (i 0).val = 2000 * t.val + p.val) (hi1 : (i 1).val = q.val) :
    k0_pay1 (F := Ideal) (iblk0 V c 0 t) (iblk0 V c 1 t) (iblk0 V c 2 t) (ix2 p q)
      = h0F (V c main_arg0) (V c main_arg3) (V c main_v16) i := by
  rw [pay0_1_apply]
  unfold h0F Cert.Spec.lin
  congr 1
  · refine Finset.sum_congr rfl fun k _ => ?_
    rw [iblk0_0_apply V c t (ix2 p k) (ix2 (i 0) k) hi0 rfl, iblk0_1_apply V c t (ix2 k q) (ix2 k (i 1)) rfl hi1]
  · rw [iblk0_2_apply V c t (ix2 (0 : Fin 1) q) (ix2 (0 : Fin 1) (i 1)) rfl hi1]

/-- The second payload on the blocks at point `t`, read at `(p, q)`, is the second output's function at row `2000 t + p`. -/
theorem pay0_2_blocks (c : Dev nD) (t : Fin cfg0.N) (p : Fin 2000) (q : Fin 128) (i : S50000x128.Idx)
    (hi0 : (i 0).val = 2000 * t.val + p.val) (hi1 : (i 1).val = q.val) :
    k0_pay2 (F := Ideal) (iblk0 V c 0 t) (iblk0 V c 1 t) (iblk0 V c 2 t) (iblk0 V c 3 t) (ix2 p q)
      = hmmF (V c main_arg0) (V c main_arg3) (V c main_v16) (V c main_arg5) i := by
  rw [pay0_2_apply]
  unfold hmmF
  refine Finset.sum_congr rfl fun k _ => ?_
  rw [pay0_1_blocks V c t p k (ix2 (i 0) k) hi0 rfl, iblk0_3_apply V c t (ix2 k q) (ix2 k (i 1)) rfl hi1]

/-- The third payload on the blocks at point `t`, read at `(p, q)`, is the third output's function at row `2000 t + p`. -/
theorem pay0_3_blocks (c : Dev nD) (t : Fin cfg0.N) (p : Fin 2000) (q : Fin 128) (i : S50000x128.Idx)
    (hi0 : (i 0).val = 2000 * t.val + p.val) (hi1 : (i 1).val = q.val) :
    k0_pay3 (F := Ideal) (iblk0 V c 0 t) (iblk0 V c 1 t) (iblk0 V c 2 t) (iblk0 V c 3 t) (iblk0 V c 4 t) (ix2 p q)
      = hsF (V c main_arg0) (V c main_arg3) (V c main_v16) (V c main_arg5) (V c main_v11) i := by
  rw [pay0_3_apply]
  unfold hsF
  rw [pay0_2_blocks V c t p q i hi0 hi1, iblk0_4_apply V c t (ix2 p (0 : Fin 1)) (ix2 (i 0) (0 : Fin 1)) hi0 rfl]

/-- What point `t` writes back to output window 5's array is block `t` of `h0F` of the arrays as the region finds them. -/
theorem flushed0_5_eq (c : Dev nD) (t : Fin cfg0.N) :
    (dat0 (F := Ideal) V c).flushed 5 t = ((cfg0.win 5).blk t).view.read (Elt Ideal) (h0F (V c main_arg0) (V c main_arg3) (V c main_v16)) := by
  show (cfg0.win 5).cut (grid0.coords t) ((dat0 V c).after 5 t) = _
  rw [after0_5]
  unfold out0_5
  rw [View.canon_unit_zero hz0]
  simp only [View.ld_unit_zero (S := S2000x128) hz0, View.ld_unit_zero (S := S128x128) hz0, View.ld_unit_zero (S := S1x128) hz0, View.ld_unit_zero (S := S2000x1) hz0]
  obtain ⟨-, -, -, -, -, -, -, -, -, -, e0, e1, -⟩ := idx_facts0 t
  funext j
  obtain ⟨p, q, rfl⟩ : ∃ (p : Fin 2000) (q : Fin 128), j = ix2 p q := ⟨j 0, j 1, eq_ix2 j⟩
  show k0_pay1 (F := Ideal) (iblk0 V c 0 t) (iblk0 V c 1 t) (iblk0 V c 2 t) (ix2 p q) = h0F (V c main_arg0) (V c main_arg3) (V c main_v16) (((cfg0.win 5).blk t).view.emb (ix2 p q))
  refine pay0_1_blocks V c t p q _ ?_ ?_
  · show win0_5.index t 0 * 2000 + 1 * p.val = _; rw [e0]; omega
  · show win0_5.index t 1 * 128 + 1 * q.val = _; rw [e1]; omega

/-- An index of the array is in point `t`'s block iff each coordinate is in the block's range on its axis. -/
theorem mem_blk0_5 (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v22_0).slice (win0_5.rect t)).set ↔ _
  rw [View.set_slice_whole, Rect.mem_set_unit]
  exact Iff.rfl

/-- Every row is in the block of the point numbered by the row's quotient by 2000. -/
theorem covered0_5 (i : S50000x128.Idx) : ∃ t : Fin cfg0.N, (cfg0.win 5).flush t = true ∧ i ∈ ((cfg0.win 5).blk t).view.set := by
  have hi0 : (i 0).val < 50000 := idx2_lt0 i
  have hi1 : (i 1).val < 128 := idx2_lt1 i
  refine ⟨⟨(i 0).val / 2000, by rw [show cfg0.N = 25 from N_0]; omega⟩, flush0_5 _, ?_⟩
  rw [mem_blk0_5]
  obtain ⟨-, -, -, -, -, -, -, -, -, -, e0, e1, -⟩ := idx_facts0 ⟨(i 0).val / 2000, by rw [show cfg0.N = 25 from N_0]; omega⟩
  intro a
  match a with
  | ⟨0, _⟩ => show win0_5.index _ 0 * 2000 ≤ (i 0).val ∧ (i 0).val < win0_5.index _ 0 * 2000 + 2000; rw [e0]; show (i 0).val / 2000 * 2000 ≤ (i 0).val ∧ (i 0).val < (i 0).val / 2000 * 2000 + 2000; omega
  | ⟨1, _⟩ => show win0_5.index _ 1 * 128 ≤ (i 1).val ∧ (i 1).val < win0_5.index _ 1 * 128 + 128; rw [e1]; omega

/-- Output window 5's array after the whole region. -/
theorem fin0_5 (c : Dev nD) : (dat0 (F := Ideal) V c).arrAt 5 cfg0.N = h0F (V c main_arg0) (V c main_arg3) (V c main_v16) :=
  (dat0 (F := Ideal) V c).arrAt_eq_of_cover 5 (h0F (V c main_arg0) (V c main_arg3) (V c main_v16)) (fun t _ => flushed0_5_eq V c t) (fun i => covered0_5 i)

/-- What point `t` writes back to output window 6's array is block `t` of `hmmF` of the arrays as the region finds them. -/
theorem flushed0_6_eq (c : Dev nD) (t : Fin cfg0.N) :
    (dat0 (F := Ideal) V c).flushed 6 t = ((cfg0.win 6).blk t).view.read (Elt Ideal) (hmmF (V c main_arg0) (V c main_arg3) (V c main_v16) (V c main_arg5)) := by
  show (cfg0.win 6).cut (grid0.coords t) ((dat0 V c).after 6 t) = _
  rw [after0_6]
  unfold out0_6
  rw [View.canon_unit_zero hz0]
  simp only [View.ld_unit_zero (S := S2000x128) hz0, View.ld_unit_zero (S := S128x128) hz0, View.ld_unit_zero (S := S1x128) hz0, View.ld_unit_zero (S := S2000x1) hz0]
  obtain ⟨-, -, -, -, -, -, -, -, -, -, -, -, e0, e1, -⟩ := idx_facts0 t
  funext j
  obtain ⟨p, q, rfl⟩ : ∃ (p : Fin 2000) (q : Fin 128), j = ix2 p q := ⟨j 0, j 1, eq_ix2 j⟩
  show k0_pay2 (F := Ideal) (iblk0 V c 0 t) (iblk0 V c 1 t) (iblk0 V c 2 t) (iblk0 V c 3 t) (ix2 p q) = hmmF (V c main_arg0) (V c main_arg3) (V c main_v16) (V c main_arg5) (((cfg0.win 6).blk t).view.emb (ix2 p q))
  refine pay0_2_blocks V c t p q _ ?_ ?_
  · show win0_6.index t 0 * 2000 + 1 * p.val = _; rw [e0]; omega
  · show win0_6.index t 1 * 128 + 1 * q.val = _; rw [e1]; omega

/-- An index of the array is in point `t`'s block iff each coordinate is in the block's range on its axis. -/
theorem mem_blk0_6 (t : Fin cfg0.N) (i : S50000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v22_1).slice (win0_6.rect t)).set ↔ _
  rw [View.set_slice_whole, Rect.mem_set_unit]
  exact Iff.rfl

/-- Every row is in the block of the point numbered by the row's quotient by 2000. -/
theorem covered0_6 (i : S50000x128.Idx) : ∃ t : Fin cfg0.N, (cfg0.win 6).flush t = true ∧ i ∈ ((cfg0.win 6).blk t).view.set := by
  have hi0 : (i 0).val < 50000 := idx2_lt0 i
  have hi1 : (i 1).val < 128 := idx2_lt1 i
  refine ⟨⟨(i 0).val / 2000, by rw [show cfg0.N = 25 from N_0]; omega⟩, flush0_6 _, ?_⟩
  rw [mem_blk0_6]
  obtain ⟨-, -, -, -, -, -, -, -, -, -, -, -, e0, e1, -⟩ := idx_facts0 ⟨(i 0).val / 2000, by rw [show cfg0.N = 25 from N_0]; omega⟩
  intro a
  match a with
  | ⟨0, _⟩ => show win0_6.index _ 0 * 2000 ≤ (i 0).val ∧ (i 0).val < win0_6.index _ 0 * 2000 + 2000; rw [e0]; show (i 0).val / 2000 * 2000 ≤ (i 0).val ∧ (i 0).val < (i 0).val / 2000 * 2000 + 2000; omega
  | ⟨1, _⟩ => show win0_6.index _ 1 * 128 ≤ (i 1).val ∧ (i 1).val < win0_6.index _ 1 * 128 + 128; rw [e1]; omega

/-- Output window 6's array after the whole region. -/
theorem fin0_6 (c : Dev nD) : (dat0 (F := Ideal) V c).arrAt 6 cfg0.N = hmmF (V c main_arg0) (V c main_arg3) (V c main_v16) (V c main_arg5) :=
  (dat0 (F := Ideal) V c).arrAt_eq_of_cover 6 (hmmF (V c main_arg0) (V c main_arg3) (V c main_v16) (V c main_arg5)) (fun t _ => flushed0_6_eq V c t) (fun i => covered0_6 i)

/-- What point `t` writes back to output window 7's array is block `t` of `hsF` of the arrays as the region finds them. -/
theorem flushed0_7_eq (c : Dev nD) (t : Fin cfg0.N) :
    (dat0 (F := Ideal) V c).flushed 7 t = ((cfg0.win 7).blk t).view.read (Elt Ideal) (hsF (V c main_arg0) (V c main_arg3) (V c main_v16) (V c main_arg5) (V c main_v11)) := by
  show (cfg0.win 7).cut (grid0.coords t) ((dat0 V c).after 7 t) = _
  rw [after0_7]
  unfold out0_7
  rw [View.canon_unit_zero hz0]
  simp only [View.ld_unit_zero (S := S2000x128) hz0, View.ld_unit_zero (S := S128x128) hz0, View.ld_unit_zero (S := S1x128) hz0, View.ld_unit_zero (S := S2000x1) hz0]
  obtain ⟨-, -, -, -, -, -, -, -, -, -, -, -, -, -, e0, e1⟩ := idx_facts0 t
  funext j
  obtain ⟨p, q, rfl⟩ : ∃ (p : Fin 2000) (q : Fin 128), j = ix2 p q := ⟨j 0, j 1, eq_ix2 j⟩
  show k0_pay3 (F := Ideal) (iblk0 V c 0 t) (iblk0 V c 1 t) (iblk0 V c 2 t) (iblk0 V c 3 t) (iblk0 V c 4 t) (ix2 p q) = hsF (V c main_arg0) (V c main_arg3) (V c main_v16) (V c main_arg5) (V c main_v11) (((cfg0.win 7).blk t).view.emb (ix2 p q))
  refine pay0_3_blocks V c t p q _ ?_ ?_
  · show win0_7.index t 0 * 2000 + 1 * p.val = _; rw [e0]; omega
  · show win0_7.index t 1 * 128 + 1 * q.val = _; rw [e1]; omega

/-- An index of the array is in point `t`'s block iff each coordinate is in the block's range on its axis. -/
theorem mem_blk0_7 (t : Fin cfg0.N) (i : S50000x128.Idx) :
    i ∈ ((cfg0.win 7).blk t).view.set ↔ ∀ a : Fin 2, win0_7.index t a * S2000x128.size a ≤ (i a).val ∧ (i a).val < win0_7.index t a * S2000x128.size a + S2000x128.size a := by
  show i ∈ ((View.whole main_v22_2).slice (win0_7.rect t)).set ↔ _
  rw [View.set_slice_whole, Rect.mem_set_unit]
  exact Iff.rfl

/-- Every row is in the block of the point numbered by the row's quotient by 2000. -/
theorem covered0_7 (i : S50000x128.Idx) : ∃ t : Fin cfg0.N, (cfg0.win 7).flush t = true ∧ i ∈ ((cfg0.win 7).blk t).view.set := by
  have hi0 : (i 0).val < 50000 := idx2_lt0 i
  have hi1 : (i 1).val < 128 := idx2_lt1 i
  refine ⟨⟨(i 0).val / 2000, by rw [show cfg0.N = 25 from N_0]; omega⟩, flush0_7 _, ?_⟩
  rw [mem_blk0_7]
  obtain ⟨-, -, -, -, -, -, -, -, -, -, -, -, -, -, e0, e1⟩ := idx_facts0 ⟨(i 0).val / 2000, by rw [show cfg0.N = 25 from N_0]; omega⟩
  intro a
  match a with
  | ⟨0, _⟩ => show win0_7.index _ 0 * 2000 ≤ (i 0).val ∧ (i 0).val < win0_7.index _ 0 * 2000 + 2000; rw [e0]; show (i 0).val / 2000 * 2000 ≤ (i 0).val ∧ (i 0).val < (i 0).val / 2000 * 2000 + 2000; omega
  | ⟨1, _⟩ => show win0_7.index _ 1 * 128 ≤ (i 1).val ∧ (i 1).val < win0_7.index _ 1 * 128 + 128; rw [e1]; omega

/-- Output window 7's array after the whole region. -/
theorem fin0_7 (c : Dev nD) : (dat0 (F := Ideal) V c).arrAt 7 cfg0.N = hsF (V c main_arg0) (V c main_arg3) (V c main_v16) (V c main_arg5) (V c main_v11) :=
  (dat0 (F := Ideal) V c).arrAt_eq_of_cover 7 (hsF (V c main_arg0) (V c main_arg3) (V c main_v16) (V c main_arg5) (V c main_v11)) (fun t _ => flushed0_7_eq V c t) (fun i => covered0_7 i)

end Cert.KernelIdeal.Hand

end
-- ==== Proof.IdealFin1.lean ====
/-
  Region 1 of the host program, read on the extended reals: what each output window's ARRAY holds once the region has
  run over its 25 blocks of 2000 rows, as one function of the arrays the region finds, index by index.
  With R, A, H the three 50000 by 128 input arrays, D the 50000 by 2 array of two columns, B the bias row and W the
  128 by 128 weight matrix:
      output 6 at (n, j) is  max (((R[n,j] + D[n,0] · A[n,j]) + H[n,j] · D[n,1]) + B[0,j], 0),
      output 7 at (n, j) is  the sum over k of output 6 at (n, k) times W[k, j],
      output 8 at (n, j) is  output 7 at (n, j) times D[n,0].
  First the body's payloads are read at an index over variables; then the block each point writes back is identified
  with a block of those functions (a block's coordinate is its block index times the block size plus the coordinate
  inside the block); then the blocks cover the arrays (row r lies in block r / 2000).
-/
import proofs.«111900_j74998718923370_2_alg».proof.Proof.IdealReg1
import proofs.«111900_j74998718923370_2_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«111900_j74998718923370_2_alg».proof.Proof.LibPlainDot
import proofs.«111900_j74998718923370_2_alg».proof.Proof.LibKeepdims

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.ShloMosaic.Pipeline (Dat Cfg Window BodyObligation cellOf)

variable {α : Type}

/-! ## The payloads at an index -/

theorem hz1 : (![0, 0] : Fin 2 → Nat) = fun _ => 0 := funext fun a => by fin_cases a <;> rfl

/-- Column 0 of a two-column block, kept as a column, read at a row. -/
theorem col0_1_apply (x : Vec Ideal S2000x2 .f32) (p : Fin 2000) (u : Fin 1) :
    extractStridedSlice S2000x1 ![0, 0] x slices_S2000x2_o0_0_S2000x1 (ix2 p u) = x (ix2 p (0 : Fin 2)) :=
  extractStridedSlice_apply _ x _ _ _ fun a => by
    match a with
    | ⟨0, _⟩ => show p.val = 0 + p.val; omega
    | ⟨1, _⟩ => show 0 = 0 + u.val; omega

/-- Column 1 of a two-column block, kept as a column, read at a row. -/
theorem col1_1_apply (x : Vec Ideal S2000x2 .f32) (p : Fin 2000) (u : Fin 1) :
    extractStridedSlice S2000x1 ![0, 1] x slices_S2000x2_o0_1_S2000x1 (ix2 p u) = x (ix2 p (1 : Fin 2)) :=
  extractStridedSlice_apply _ x _ _ _ fun a => by
    match a with
    | ⟨0, _⟩ => show p.val = 0 + p.val; omega
    | ⟨1, _⟩ => show 1 = 1 + u.val; omega

/-- The combine step at (p, q): the first block plus the first column times the second block, plus the third block times
    the second column, plus the bias, floored at zero. -/
theorem pay1_3_apply (xd : Vec Ideal S2000x2 .f32) (xr xa xh : Vec Ideal S2000x128 .f32) (xb : Vec Ideal S1x128 .f32) (p : Fin 2000) (q : Fin 128) :
    k1_pay3 (F := Ideal) xd xr xa xh xb (ix2 p q)
      = max (((xr (ix2 p q) + xd (ix2 p (0 : Fin 2)) * xa (ix2 p q)) + xh (ix2 p q) * xd (ix2 p (1 : Fin 2))) + xb (ix2 (0 : Fin 1) q)) Cert.Spec.zeroW := by
  unfold k1_pay3 k1_pay2 k1_pay1
  simp only [maximumf_apply, addf_apply, mulf_apply, broadcast_apply, shapeCast_self]
  rw [Cert.LibKeepdims.broadcastTo_a1_ab_apply, Cert.LibKeepdims.broadcastTo_a1_ab_apply, broadcastTo_1b_ab_apply,
    col0_1_apply, col1_1_apply]
  rfl

/-- The product with the weight block at (p, q): the plain sum over the contracted coordinate (the changes of format are
    the identity on the extended reals, and the accumulator starts at zero). -/
theorem pay1_4_apply (xd : Vec Ideal S2000x2 .f32) (xr xa xh : Vec Ideal S2000x128 .f32) (xb : Vec Ideal S1x128 .f32) (xw : Vec Ideal S128x128 .f32)
    (p : Fin 2000) (q : Fin 128) :
    k1_pay4 (F := Ideal) xd xr xa xh xb xw (ix2 p q) = ∑ k : Fin 128, k1_pay3 (F := Ideal) xd xr xa xh xb (ix2 p k) * xw (ix2 k q) := by
  unfold k1_pay4
  exact Cert.LibPlainDot.matmul_zero_apply dot_S2000x128_S128x128_S2000x128_1_0_0_1_n_n_wf none _ _ p q

/-- The scaled product at (p, q). -/
theorem pay1_5_apply (xd : Vec Ideal S2000x2 .f32) (xr xa xh : Vec Ideal S2000x128 .f32) (xb : Vec Ideal S1x128 .f32) (xw : Vec Ideal S128x128 .f32)
    (p : Fin 2000) (q : Fin 128) :
    k1_pay5 (F := Ideal) xd xr xa xh xb xw (ix2 p q) = k1_pay4 (F := Ideal) xd xr xa xh xb xw (ix2 p q) * xd (ix2 p (0 : Fin 2)) := by
  unfold k1_pay5 k1_pay2 k1_pay1
  simp only [truncf_apply, mulf_apply, shapeCast_self]
  rw [Cert.LibKeepdims.broadcastTo_a1_ab_apply, col0_1_apply]

/-! ## The blocks the body leaves, over variables -/

theorem blk1_6_apply (x0 x1 x2 : Vec Ideal S2000x128 .f32) (x3 : Vec Ideal S2000x2 .f32) (x4 : Vec Ideal S1x128 .f32) (p : Fin 2000) (q : Fin 128) :
    out1_6 (F := Ideal) x0 x1 x2 x3 x4 (ix2 p q)
      = max (((x0 (ix2 p q) + x3 (ix2 p (0 : Fin 2)) * x1 (ix2 p q)) + x2 (ix2 p q) * x3 (ix2 p (1 : Fin 2))) + x4 (ix2 (0 : Fin 1) q)) Cert.Spec.zeroW := by
  unfold out1_6
  rw [View.canon_unit_zero hz1]
  simp only [View.ld_unit_zero (S := S2000x128) hz1, View.ld_unit_zero (S := S2000x2) hz1, View.ld_unit_zero (S := S1x128) hz1]
  exact pay1_3_apply x3 x0 x1 x2 x4 p q

/-! ## From blocks to arrays -/

/-- The combine step on whole arrays, index by index. -/
abbrev G1_6 (R A H : S50000x128.Idx → EReal) (D : S50000x2.Idx → EReal) (B : S1x128.Idx → EReal) : S50000x128.Idx → EReal :=
  fun i => max (((R i + D (ix2 (i 0) (0 : Fin 2)) * A i) + H i * D (ix2 (i 0) (1 : Fin 2))) + B (ix2 (0 : Fin 1) (i 1))) Cert.Spec.zeroW

/-- The combine step read at indices that name one array index `e`: its row in the two-column array, its column in the bias row. -/
theorem G1_6_congr (R A H : S50000x128.Idx → EReal) (D : S50000x2.Idx → EReal) (B : S1x128.Idx → EReal)
    (e e0 e1 e2 : S50000x128.Idx) (d0 d1 : S50000x2.Idx) (b : S1x128.Idx)
    (h0 : e0 = e) (h1 : e1 = e) (h2 : e2 = e) (hd0 : d0 = ix2 (e 0) (0 : Fin 2)) (hd1 : d1 = ix2 (e 0) (1 : Fin 2)) (hb : b = ix2 (0 : Fin 1) (e 1)) :
    max (((R e0 + D d0 * A e1) + H e2 * D d1) + B b) Cert.Spec.zeroW = G1_6 R A H D B e := by
  subst h0 h1 h2 hd0 hd1 hb; rfl

/-- The printed index maps, decided over the grid: a row-block window is at block (t, 0) at point t, the bias and weight
    windows at block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0
    ∧ win1_8.index t (0 : Fin 2) = t.val ∧ win1_8.index t (1 : Fin 2) = 0 :=
  (by decide +kernel : ∀ t : Fin grid1.N, _)

variable (V : (c : Dev nD) → (b : Ref sig .tc) → Buf (Elt Ideal) ((c : Thread nD τ).loc b))

/-- What point `t` writes back to output 6's array is block `t` of the combine step of the arrays the region finds. -/
theorem flushed1_6_eq (c : Dev nD) (t : Fin cfg1.N) :
    (dat1 (F := Ideal) V c).flushed 6 t = ((cfg1.win 6).blk t).view.read (Elt Ideal)
      (G1_6 (V c main_v22_0) (V c main_v33) (V c main_v22_1) (V c main_v15) (V c main_v17)) := by
  show (cfg1.win 6).cut (grid1.coords t) ((dat1 V c).after 6 t) = _
  rw [after1_6]
  funext j
  obtain ⟨p, q, rfl⟩ : ∃ (p : Fin 2000) (q : Fin 128), j = ix2 p q := ⟨j 0, j 1, eq_ix2 j⟩
  show out1_6 (F := Ideal) (iblk1 V c 0 t) (iblk1 V c 1 t) (iblk1 V c 2 t) (iblk1 V c 3 t) (iblk1 V c 4 t) (ix2 p q) = _
  rw [blk1_6_apply]
  obtain ⟨e00, e01, e10, e11, e20, e21, e30, e31, e40, e41, e50, e51, e60, e61, e70, e71, e80, e81⟩ := idx_facts1 t
  have h0 : (((cfg1.win 0).blk t).view.emb (ix2 p q)) = (((cfg1.win 6).blk t).view.emb (ix2 p q)) := by
    funext a; apply Fin.ext
    match a with
    | ⟨0, _⟩ => show win1_0.index t (0 : Fin 2) * 2000 + 1 * p.val = win1_6.index t (0 : Fin 2) * 2000 + 1 * p.val; omega
    | ⟨1, _⟩ => show win1_0.index t (1 : Fin 2) * 128 + 1 * q.val = win1_6.index t (1 : Fin 2) * 128 + 1 * q.val; omega
  have h1 : (((cfg1.win 1).blk t).view.emb (ix2 p q)) = (((cfg1.win 6).blk t).view.emb (ix2 p q)) := by
    funext a; apply Fin.ext
    match a with
    | ⟨0, _⟩ => show win1_1.index t (0 : Fin 2) * 2000 + 1 * p.val = win1_6.index t (0 : Fin 2) * 2000 + 1 * p.val; omega
    | ⟨1, _⟩ => show win1_1.index t (1 : Fin 2) * 128 + 1 * q.val = win1_6.index t (1 : Fin 2) * 128 + 1 * q.val; omega
  have h2 : (((cfg1.win 2).blk t).view.emb (ix2 p q)) = (((cfg1.win 6).blk t).view.emb (ix2 p q)) := by
    funext a; apply Fin.ext
    match a with
    | ⟨0, _⟩ => show win1_2.index t (0 : Fin 2) * 2000 + 1 * p.val = win1_6.index t (0 : Fin 2) * 2000 + 1 * p.val; omega
    | ⟨1, _⟩ => show win1_2.index t (1 : Fin 2) * 128 + 1 * q.val = win1_6.index t (1 : Fin 2) * 128 + 1 * q.val; omega
  have h3_0 : (((cfg1.win 3).blk t).view.emb (ix2 p (0 : Fin 2))) = ix2 (n0 := 50000) (n1 := 2) ((((cfg1.win 6).blk t).view.emb (ix2 p q)) 0) (0 : Fin 2) := by
    funext a; apply Fin.ext
    match a with
    | ⟨0, _⟩ => show win1_3.index t (0 : Fin 2) * 2000 + 1 * p.val = win1_6.index t (0 : Fin 2) * 2000 + 1 * p.val; omega
    | ⟨1, _⟩ => show win1_3.index t (1 : Fin 2) * 2 + 1 * 0 = 0; omega
  have h3_1 : (((cfg1.win 3).blk t).view.emb (ix2 p (1 : Fin 2))) = ix2 (n0 := 50000) (n1 := 2) ((((cfg1.win 6).blk t).view.emb (ix2 p q)) 0) (1 : Fin 2) := by
    funext a; apply Fin.ext
    match a with
    | ⟨0, _⟩ => show win1_3.index t (0 : Fin 2) * 2000 + 1 * p.val = win1_6.index t (0 : Fin 2) * 2000 + 1 * p.val; omega
    | ⟨1, _⟩ => show win1_3.index t (1 : Fin 2) * 2 + 1 * 1 = 1; omega
  have h4 : (((cfg1.win 4).blk t).view.emb (ix2 (0 : Fin 1) q)) = ix2 (n0 := 1) (n1 := 128) (0 : Fin 1) ((((cfg1.win 6).blk t).view.emb (ix2 p q)) 1) := by
    funext a; apply Fin.ext
    match a with
    | ⟨0, _⟩ => show win1_4.index t (0 : Fin 2) * 1 + 1 * 0 = 0; omega
    | ⟨1, _⟩ => show win1_4.index t (1 : Fin 2) * 128 + 1 * q.val = win1_6.index t (1 : Fin 2) * 128 + 1 * q.val; omega
  exact G1_6_congr (V c main_v22_0) (V c main_v33) (V c main_v22_1) (V c main_v15) (V c main_v17) (((cfg1.win 6).blk t).view.emb (ix2 p q))
    (((cfg1.win 0).blk t).view.emb (ix2 p q)) (((cfg1.win 1).blk t).view.emb (ix2 p q)) (((cfg1.win 2).blk t).view.emb (ix2 p q)) (((cfg1.win 3).blk t).view.emb (ix2 p (0 : Fin 2))) (((cfg1.win 3).blk t).view.emb (ix2 p (1 : Fin 2))) (((cfg1.win 4).blk t).view.emb (ix2 (0 : Fin 1) q))
    h0 h1 h2 h3_0 h3_1 h4

/-- An index of output 6's array is in point `t`'s block iff each coordinate is in the block's range on its axis. -/
theorem mem_blk1_6 (t : Fin cfg1.N) (i : S50000x128.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole main_v34_0).slice (win1_6.rect t)).set ↔ _
  rw [View.set_slice_whole, Rect.mem_set_unit]
  exact Iff.rfl

/-- Every index of output 6's array is in the block of the point its row falls in (row r in block r / 2000). -/
theorem covered1_6 (i : S50000x128.Idx) : ∃ t : Fin cfg1.N, (cfg1.win 6).flush t = true ∧ i ∈ ((cfg1.win 6).blk t).view.set := by
  have hi0 : (i 0).val < 50000 := (i 0).isLt
  have hi1 : (i 1).val < 128 := (i 1).isLt
  obtain ⟨t, ht⟩ : ∃ t : Fin cfg1.N, t.val = (i 0).val / 2000 :=
    ⟨⟨(i 0).val / 2000, by show (i 0).val / 2000 < grid1.N; rw [N_1]; omega⟩, rfl⟩
  obtain ⟨e00, e01, e10, e11, e20, e21, e30, e31, e40, e41, e50, e51, e60, e61, e70, e71, e80, e81⟩ := idx_facts1 t
  refine ⟨t, flush1_6 t, ?_⟩
  rw [mem_blk1_6]
  intro a
  match a with
  | ⟨0, _⟩ =>
    show win1_6.index t (0 : Fin 2) * 2000 ≤ (i 0).val ∧ (i 0).val < win1_6.index t (0 : Fin 2) * 2000 + 2000
    omega
  | ⟨1, _⟩ =>
    show win1_6.index t (1 : Fin 2) * 128 ≤ (i 1).val ∧ (i 1).val < win1_6.index t (1 : Fin 2) * 128 + 128
    omega

/-- OUTPUT 6's ARRAY after the region: the combine step of the arrays the region finds, index by index. -/
theorem fin1_6 (c : Dev nD) :
    (dat1 (F := Ideal) V c).arrAt 6 cfg1.N
      = G1_6 (V c main_v22_0) (V c main_v33) (V c main_v22_1) (V c main_v15) (V c main_v17) :=
  (dat1 V c).arrAt_eq_of_cover 6 _ (fun t _ => flushed1_6_eq V c t) covered1_6

/-! ## Outputs 7 and 8 -/

section Over
theorem blk1_7_apply (x0 x1 x2 : Vec Ideal S2000x128 .f32) (x3 : Vec Ideal S2000x2 .f32) (x4 : Vec Ideal S1x128 .f32) (x5 : Vec Ideal S128x128 .f32) (p : Fin 2000) (q : Fin 128) :
    out1_7 (F := Ideal) x0 x1 x2 x3 x4 x5 (ix2 p q) = ∑ k : Fin 128, max (((x0 (ix2 p k) + x3 (ix2 p (0 : Fin 2)) * x1 (ix2 p k)) + x2 (ix2 p k) * x3 (ix2 p (1 : Fin 2))) + x4 (ix2 (0 : Fin 1) k)) Cert.Spec.zeroW * x5 (ix2 k q) := by
  unfold out1_7
  rw [View.canon_unit_zero hz1]
  simp only [View.ld_unit_zero (S := S2000x128) hz1, View.ld_unit_zero (S := S2000x2) hz1, View.ld_unit_zero (S := S1x128) hz1,
    View.ld_unit_zero (S := S128x128) hz1]
  exact (pay1_4_apply x3 x0 x1 x2 x4 x5 p q).trans (Finset.sum_congr rfl fun k _ => by rw [pay1_3_apply])

theorem blk1_8_apply (x0 x1 x2 : Vec Ideal S2000x128 .f32) (x3 : Vec Ideal S2000x2 .f32) (x4 : Vec Ideal S1x128 .f32) (x5 : Vec Ideal S128x128 .f32) (p : Fin 2000) (q : Fin 128) :
    out1_8 (F := Ideal) x0 x1 x2 x3 x4 x5 (ix2 p q) = (∑ k : Fin 128, max (((x0 (ix2 p k) + x3 (ix2 p (0 : Fin 2)) * x1 (ix2 p k)) + x2 (ix2 p k) * x3 (ix2 p (1 : Fin 2))) + x4 (ix2 (0 : Fin 1) k)) Cert.Spec.zeroW * x5 (ix2 k q)) * x3 (ix2 p (0 : Fin 2)) := by
  unfold out1_8
  rw [View.canon_unit_zero hz1]
  simp only [View.ld_unit_zero (S := S2000x128) hz1, View.ld_unit_zero (S := S2000x2) hz1, View.ld_unit_zero (S := S1x128) hz1,
    View.ld_unit_zero (S := S128x128) hz1]
  rw [pay1_5_apply, pay1_4_apply]
  exact congrArg (· * x3 (ix2 p (0 : Fin 2))) (Finset.sum_congr rfl fun k _ => by rw [pay1_3_apply])

/-- The combine step's rows times the weight matrix, as a plain sum. -/
abbrev G1_7 (R A H : S50000x128.Idx → EReal) (D : S50000x2.Idx → EReal) (B : S1x128.Idx → EReal) (W : S128x128.Idx → EReal) : S50000x128.Idx → EReal :=
  fun i => ∑ k : Fin 128, G1_6 R A H D B (ix2 (i 0) k) * W (ix2 k (i 1))

/-- That product scaled, row by row, by the first of the two columns. -/
abbrev G1_8 (R A H : S50000x128.Idx → EReal) (D : S50000x2.Idx → EReal) (B : S1x128.Idx → EReal) (W : S128x128.Idx → EReal) : S50000x128.Idx → EReal :=
  fun i => G1_7 R A H D B W i * D (ix2 (i 0) (0 : Fin 2))

theorem G1_7_congr (R A H : S50000x128.Idx → EReal) (D : S50000x2.Idx → EReal) (B : S1x128.Idx → EReal) (W : S128x128.Idx → EReal)
    (e : S50000x128.Idx) (e0 e1 e2 : Fin 128 → S50000x128.Idx) (d0 d1 : S50000x2.Idx) (b : Fin 128 → S1x128.Idx) (w : Fin 128 → S128x128.Idx)
    (h0 : ∀ k, e0 k = ix2 (e 0) k) (h1 : ∀ k, e1 k = ix2 (e 0) k) (h2 : ∀ k, e2 k = ix2 (e 0) k)
    (hd0 : d0 = ix2 (e 0) (0 : Fin 2)) (hd1 : d1 = ix2 (e 0) (1 : Fin 2)) (hb : ∀ k, b k = ix2 (0 : Fin 1) k) (hw : ∀ k, w k = ix2 k (e 1)) :
    ∑ k : Fin 128, max (((R (e0 k) + D d0 * A (e1 k)) + H (e2 k) * D d1) + B (b k)) Cert.Spec.zeroW * W (w k) = G1_7 R A H D B W e := by
  refine Finset.sum_congr rfl fun k _ => ?_
  rw [h0 k, h1 k, h2 k, hd0, hd1, hb k, hw k]
  rfl

theorem G1_8_congr (R A H : S50000x128.Idx → EReal) (D : S50000x2.Idx → EReal) (B : S1x128.Idx → EReal) (W : S128x128.Idx → EReal)
    (e : S50000x128.Idx) (e0 e1 e2 : Fin 128 → S50000x128.Idx) (d0 d1 : S50000x2.Idx) (b : Fin 128 → S1x128.Idx) (w : Fin 128 → S128x128.Idx)
    (h0 : ∀ k, e0 k = ix2 (e 0) k) (h1 : ∀ k, e1 k = ix2 (e 0) k) (h2 : ∀ k, e2 k = ix2 (e 0) k)
    (hd0 : d0 = ix2 (e 0) (0 : Fin 2)) (hd1 : d1 = ix2 (e 0) (1 : Fin 2)) (hb : ∀ k, b k = ix2 (0 : Fin 1) k) (hw : ∀ k, w k = ix2 k (e 1)) :
    (∑ k : Fin 128, max (((R (e0 k) + D d0 * A (e1 k)) + H (e2 k) * D d1) + B (b k)) Cert.Spec.zeroW * W (w k)) * D d0 = G1_8 R A H D B W e := by
  rw [G1_7_congr R A H D B W e e0 e1 e2 d0 d1 b w h0 h1 h2 hd0 hd1 hb hw, hd0]
  rfl
end Over

/-- What point `t` writes back to output 7's array is block `t` of the product of the arrays the region finds. -/
theorem flushed1_7_eq (c : Dev nD) (t : Fin cfg1.N) :
    (dat1 (F := Ideal) V c).flushed 7 t = ((cfg1.win 7).blk t).view.read (Elt Ideal) (G1_7 (V c main_v22_0) (V c main_v33) (V c main_v22_1) (V c main_v15) (V c main_v17) (V c main_arg7)) := by
  show (cfg1.win 7).cut (grid1.coords t) ((dat1 V c).after 7 t) = _
  rw [after1_7]
  funext j
  obtain ⟨p, q, rfl⟩ : ∃ (p : Fin 2000) (q : Fin 128), j = ix2 p q := ⟨j 0, j 1, eq_ix2 j⟩
  show out1_7 (F := Ideal) (iblk1 V c 0 t) (iblk1 V c 1 t) (iblk1 V c 2 t) (iblk1 V c 3 t) (iblk1 V c 4 t) (iblk1 V c 5 t) (ix2 p q) = _
  rw [blk1_7_apply]
  obtain ⟨e00, e01, e10, e11, e20, e21, e30, e31, e40, e41, e50, e51, e60, e61, e70, e71, e80, e81⟩ := idx_facts1 t
  have h0 : ∀ k : Fin 128, (((cfg1.win 0).blk t).view.emb (ix2 p k)) = ix2 (n0 := 50000) (n1 := 128) ((((cfg1.win 7).blk t).view.emb (ix2 p q)) 0) k := fun k => by
    funext a; apply Fin.ext
    match a with
    | ⟨0, _⟩ => show win1_0.index t (0 : Fin 2) * 2000 + 1 * p.val = win1_7.index t (0 : Fin 2) * 2000 + 1 * p.val; omega
    | ⟨1, _⟩ => show win1_0.index t (1 : Fin 2) * 128 + 1 * k.val = k.val; omega
  have h1 : ∀ k : Fin 128, (((cfg1.win 1).blk t).view.emb (ix2 p k)) = ix2 (n0 := 50000) (n1 := 128) ((((cfg1.win 7).blk t).view.emb (ix2 p q)) 0) k := fun k => by
    funext a; apply Fin.ext
    match a with
    | ⟨0, _⟩ => show win1_1.index t (0 : Fin 2) * 2000 + 1 * p.val = win1_7.index t (0 : Fin 2) * 2000 + 1 * p.val; omega
    | ⟨1, _⟩ => show win1_1.index t (1 : Fin 2) * 128 + 1 * k.val = k.val; omega
  have h2 : ∀ k : Fin 128, (((cfg1.win 2).blk t).view.emb (ix2 p k)) = ix2 (n0 := 50000) (n1 := 128) ((((cfg1.win 7).blk t).view.emb (ix2 p q)) 0) k := fun k => by
    funext a; apply Fin.ext
    match a with
    | ⟨0, _⟩ => show win1_2.index t (0 : Fin 2) * 2000 + 1 * p.val = win1_7.index t (0 : Fin 2) * 2000 + 1 * p.val; omega
    | ⟨1, _⟩ => show win1_2.index t (1 : Fin 2) * 128 + 1 * k.val = k.val; omega
  have h3_0 : (((cfg1.win 3).blk t).view.emb (ix2 p (0 : Fin 2))) = ix2 (n0 := 50000) (n1 := 2) ((((cfg1.win 7).blk t).view.emb (ix2 p q)) 0) (0 : Fin 2) := by
    funext a; apply Fin.ext
    match a with
    | ⟨0, _⟩ => show win1_3.index t (0 : Fin 2) * 2000 + 1 * p.val = win1_7.index t (0 : Fin 2) * 2000 + 1 * p.val; omega
    | ⟨1, _⟩ => show win1_3.index t (1 : Fin 2) * 2 + 1 * 0 = 0; omega
  have h3_1 : (((cfg1.win 3).blk t).view.emb (ix2 p (1 : Fin 2))) = ix2 (n0 := 50000) (n1 := 2) ((((cfg1.win 7).blk t).view.emb (ix2 p q)) 0) (1 : Fin 2) := by
    funext a; apply Fin.ext
    match a with
    | ⟨0, _⟩ => show win1_3.index t (0 : Fin 2) * 2000 + 1 * p.val = win1_7.index t (0 : Fin 2) * 2000 + 1 * p.val; omega
    | ⟨1, _⟩ => show win1_3.index t (1 : Fin 2) * 2 + 1 * 1 = 1; omega
  have h4 : ∀ k : Fin 128, (((cfg1.win 4).blk t).view.emb (ix2 (0 : Fin 1) k)) = ix2 (n0 := 1) (n1 := 128) (0 : Fin 1) k := fun k => by
    funext a; apply Fin.ext
    match a with
    | ⟨0, _⟩ => show win1_4.index t (0 : Fin 2) * 1 + 1 * 0 = 0; omega
    | ⟨1, _⟩ => show win1_4.index t (1 : Fin 2) * 128 + 1 * k.val = k.val; omega
  have h5 : ∀ k : Fin 128, (((cfg1.win 5).blk t).view.emb (ix2 k q)) = ix2 (n0 := 128) (n1 := 128) k ((((cfg1.win 7).blk t).view.emb (ix2 p q)) 1) := fun k => by
    funext a; apply Fin.ext
    match a with
    | ⟨0, _⟩ => show win1_5.index t (0 : Fin 2) * 128 + 1 * k.val = k.val; omega
    | ⟨1, _⟩ => show win1_5.index t (1 : Fin 2) * 128 + 1 * q.val = win1_7.index t (1 : Fin 2) * 128 + 1 * q.val; omega
  exact G1_7_congr (V c main_v22_0) (V c main_v33) (V c main_v22_1) (V c main_v15) (V c main_v17) (V c main_arg7) (((cfg1.win 7).blk t).view.emb (ix2 p q))
    (fun k => (((cfg1.win 0).blk t).view.emb (ix2 p k))) (fun k => (((cfg1.win 1).blk t).view.emb (ix2 p k))) (fun k => (((cfg1.win 2).blk t).view.emb (ix2 p k)))
    (((cfg1.win 3).blk t).view.emb (ix2 p (0 : Fin 2))) (((cfg1.win 3).blk t).view.emb (ix2 p (1 : Fin 2))) (fun k => (((cfg1.win 4).blk t).view.emb (ix2 (0 : Fin 1) k))) (fun k => (((cfg1.win 5).blk t).view.emb (ix2 k q)))
    h0 h1 h2 h3_0 h3_1 h4 h5

/-- What point `t` writes back to output 8's array is block `t` of the scaled product of the arrays the region finds. -/
theorem flushed1_8_eq (c : Dev nD) (t : Fin cfg1.N) :
    (dat1 (F := Ideal) V c).flushed 8 t = ((cfg1.win 8).blk t).view.read (Elt Ideal) (G1_8 (V c main_v22_0) (V c main_v33) (V c main_v22_1) (V c main_v15) (V c main_v17) (V c main_arg7)) := by
  show (cfg1.win 8).cut (grid1.coords t) ((dat1 V c).after 8 t) = _
  rw [after1_8]
  funext j
  obtain ⟨p, q, rfl⟩ : ∃ (p : Fin 2000) (q : Fin 128), j = ix2 p q := ⟨j 0, j 1, eq_ix2 j⟩
  show out1_8 (F := Ideal) (iblk1 V c 0 t) (iblk1 V c 1 t) (iblk1 V c 2 t) (iblk1 V c 3 t) (iblk1 V c 4 t) (iblk1 V c 5 t) (ix2 p q) = _
  rw [blk1_8_apply]
  obtain ⟨e00, e01, e10, e11, e20, e21, e30, e31, e40, e41, e50, e51, e60, e61, e70, e71, e80, e81⟩ := idx_facts1 t
  have h0 : ∀ k : Fin 128, (((cfg1.win 0).blk t).view.emb (ix2 p k)) = ix2 (n0 := 50000) (n1 := 128) ((((cfg1.win 8).blk t).view.emb (ix2 p q)) 0) k := fun k => by
    funext a; apply Fin.ext
    match a with
    | ⟨0, _⟩ => show win1_0.index t (0 : Fin 2) * 2000 + 1 * p.val = win1_8.index t (0 : Fin 2) * 2000 + 1 * p.val; omega
    | ⟨1, _⟩ => show win1_0.index t (1 : Fin 2) * 128 + 1 * k.val = k.val; omega
  have h1 : ∀ k : Fin 128, (((cfg1.win 1).blk t).view.emb (ix2 p k)) = ix2 (n0 := 50000) (n1 := 128) ((((cfg1.win 8).blk t).view.emb (ix2 p q)) 0) k := fun k => by
    funext a; apply Fin.ext
    match a with
    | ⟨0, _⟩ => show win1_1.index t (0 : Fin 2) * 2000 + 1 * p.val = win1_8.index t (0 : Fin 2) * 2000 + 1 * p.val; omega
    | ⟨1, _⟩ => show win1_1.index t (1 : Fin 2) * 128 + 1 * k.val = k.val; omega
  have h2 : ∀ k : Fin 128, (((cfg1.win 2).blk t).view.emb (ix2 p k)) = ix2 (n0 := 50000) (n1 := 128) ((((cfg1.win 8).blk t).view.emb (ix2 p q)) 0) k := fun k => by
    funext a; apply Fin.ext
    match a with
    | ⟨0, _⟩ => show win1_2.index t (0 : Fin 2) * 2000 + 1 * p.val = win1_8.index t (0 : Fin 2) * 2000 + 1 * p.val; omega
    | ⟨1, _⟩ => show win1_2.index t (1 : Fin 2) * 128 + 1 * k.val = k.val; omega
  have h3_0 : (((cfg1.win 3).blk t).view.emb (ix2 p (0 : Fin 2))) = ix2 (n0 := 50000) (n1 := 2) ((((cfg1.win 8).blk t).view.emb (ix2 p q)) 0) (0 : Fin 2) := by
    funext a; apply Fin.ext
    match a with
    | ⟨0, _⟩ => show win1_3.index t (0 : Fin 2) * 2000 + 1 * p.val = win1_8.index t (0 : Fin 2) * 2000 + 1 * p.val; omega
    | ⟨1, _⟩ => show win1_3.index t (1 : Fin 2) * 2 + 1 * 0 = 0; omega
  have h3_1 : (((cfg1.win 3).blk t).view.emb (ix2 p (1 : Fin 2))) = ix2 (n0 := 50000) (n1 := 2) ((((cfg1.win 8).blk t).view.emb (ix2 p q)) 0) (1 : Fin 2) := by
    funext a; apply Fin.ext
    match a with
    | ⟨0, _⟩ => show win1_3.index t (0 : Fin 2) * 2000 + 1 * p.val = win1_8.index t (0 : Fin 2) * 2000 + 1 * p.val; omega
    | ⟨1, _⟩ => show win1_3.index t (1 : Fin 2) * 2 + 1 * 1 = 1; omega
  have h4 : ∀ k : Fin 128, (((cfg1.win 4).blk t).view.emb (ix2 (0 : Fin 1) k)) = ix2 (n0 := 1) (n1 := 128) (0 : Fin 1) k := fun k => by
    funext a; apply Fin.ext
    match a with
    | ⟨0, _⟩ => show win1_4.index t (0 : Fin 2) * 1 + 1 * 0 = 0; omega
    | ⟨1, _⟩ => show win1_4.index t (1 : Fin 2) * 128 + 1 * k.val = k.val; omega
  have h5 : ∀ k : Fin 128, (((cfg1.win 5).blk t).view.emb (ix2 k q)) = ix2 (n0 := 128) (n1 := 128) k ((((cfg1.win 8).blk t).view.emb (ix2 p q)) 1) := fun k => by
    funext a; apply Fin.ext
    match a with
    | ⟨0, _⟩ => show win1_5.index t (0 : Fin 2) * 128 + 1 * k.val = k.val; omega
    | ⟨1, _⟩ => show win1_5.index t (1 : Fin 2) * 128 + 1 * q.val = win1_8.index t (1 : Fin 2) * 128 + 1 * q.val; omega
  exact G1_8_congr (V c main_v22_0) (V c main_v33) (V c main_v22_1) (V c main_v15) (V c main_v17) (V c main_arg7) (((cfg1.win 8).blk t).view.emb (ix2 p q))
    (fun k => (((cfg1.win 0).blk t).view.emb (ix2 p k))) (fun k => (((cfg1.win 1).blk t).view.emb (ix2 p k))) (fun k => (((cfg1.win 2).blk t).view.emb (ix2 p k)))
    (((cfg1.win 3).blk t).view.emb (ix2 p (0 : Fin 2))) (((cfg1.win 3).blk t).view.emb (ix2 p (1 : Fin 2))) (fun k => (((cfg1.win 4).blk t).view.emb (ix2 (0 : Fin 1) k))) (fun k => (((cfg1.win 5).blk t).view.emb (ix2 k q)))
    h0 h1 h2 h3_0 h3_1 h4 h5

/-- An index of output 7's array is in point `t`'s block iff each coordinate is in the block's range on its axis. -/
theorem mem_blk1_7 (t : Fin cfg1.N) (i : S50000x128.Idx) :
    i ∈ ((cfg1.win 7).blk t).view.set ↔ ∀ a : Fin 2, win1_7.index t a * S2000x128.size a ≤ (i a).val ∧ (i a).val < win1_7.index t a * S2000x128.size a + S2000x128.size a := by
  show i ∈ ((View.whole main_v34_1).slice (win1_7.rect t)).set ↔ _
  rw [View.set_slice_whole, Rect.mem_set_unit]
  exact Iff.rfl

/-- Every index of output 7's array is in the block of the point its row falls in (row r in block r / 2000). -/
theorem covered1_7 (i : S50000x128.Idx) : ∃ t : Fin cfg1.N, (cfg1.win 7).flush t = true ∧ i ∈ ((cfg1.win 7).blk t).view.set := by
  have hi0 : (i 0).val < 50000 := (i 0).isLt
  have hi1 : (i 1).val < 128 := (i 1).isLt
  obtain ⟨t, ht⟩ : ∃ t : Fin cfg1.N, t.val = (i 0).val / 2000 :=
    ⟨⟨(i 0).val / 2000, by show (i 0).val / 2000 < grid1.N; rw [N_1]; omega⟩, rfl⟩
  obtain ⟨e00, e01, e10, e11, e20, e21, e30, e31, e40, e41, e50, e51, e60, e61, e70, e71, e80, e81⟩ := idx_facts1 t
  refine ⟨t, flush1_7 t, ?_⟩
  rw [mem_blk1_7]
  intro a
  match a with
  | ⟨0, _⟩ =>
    show win1_7.index t (0 : Fin 2) * 2000 ≤ (i 0).val ∧ (i 0).val < win1_7.index t (0 : Fin 2) * 2000 + 2000
    omega
  | ⟨1, _⟩ =>
    show win1_7.index t (1 : Fin 2) * 128 ≤ (i 1).val ∧ (i 1).val < win1_7.index t (1 : Fin 2) * 128 + 128
    omega

/-- An index of output 8's array is in point `t`'s block iff each coordinate is in the block's range on its axis. -/
theorem mem_blk1_8 (t : Fin cfg1.N) (i : S50000x128.Idx) :
    i ∈ ((cfg1.win 8).blk t).view.set ↔ ∀ a : Fin 2, win1_8.index t a * S2000x128.size a ≤ (i a).val ∧ (i a).val < win1_8.index t a * S2000x128.size a + S2000x128.size a := by
  show i ∈ ((View.whole main_v34_2).slice (win1_8.rect t)).set ↔ _
  rw [View.set_slice_whole, Rect.mem_set_unit]
  exact Iff.rfl

/-- Every index of output 8's array is in the block of the point its row falls in (row r in block r / 2000). -/
theorem covered1_8 (i : S50000x128.Idx) : ∃ t : Fin cfg1.N, (cfg1.win 8).flush t = true ∧ i ∈ ((cfg1.win 8).blk t).view.set := by
  have hi0 : (i 0).val < 50000 := (i 0).isLt
  have hi1 : (i 1).val < 128 := (i 1).isLt
  obtain ⟨t, ht⟩ : ∃ t : Fin cfg1.N, t.val = (i 0).val / 2000 :=
    ⟨⟨(i 0).val / 2000, by show (i 0).val / 2000 < grid1.N; rw [N_1]; omega⟩, rfl⟩
  obtain ⟨e00, e01, e10, e11, e20, e21, e30, e31, e40, e41, e50, e51, e60, e61, e70, e71, e80, e81⟩ := idx_facts1 t
  refine ⟨t, flush1_8 t, ?_⟩
  rw [mem_blk1_8]
  intro a
  match a with
  | ⟨0, _⟩ =>
    show win1_8.index t (0 : Fin 2) * 2000 ≤ (i 0).val ∧ (i 0).val < win1_8.index t (0 : Fin 2) * 2000 + 2000
    omega
  | ⟨1, _⟩ =>
    show win1_8.index t (1 : Fin 2) * 128 ≤ (i 1).val ∧ (i 1).val < win1_8.index t (1 : Fin 2) * 128 + 128
    omega

/-- OUTPUT 7's ARRAY after the region: the combine step's rows times the weight matrix. -/
theorem fin1_7 (c : Dev nD) :
    (dat1 (F := Ideal) V c).arrAt 7 cfg1.N = G1_7 (V c main_v22_0) (V c main_v33) (V c main_v22_1) (V c main_v15) (V c main_v17) (V c main_arg7) :=
  (dat1 V c).arrAt_eq_of_cover 7 _ (fun t _ => flushed1_7_eq V c t) covered1_7

/-- OUTPUT 8's ARRAY after the region: that product scaled by the first of the two columns. -/
theorem fin1_8 (c : Dev nD) :
    (dat1 (F := Ideal) V c).arrAt 8 cfg1.N = G1_8 (V c main_v22_0) (V c main_v33) (V c main_v22_1) (V c main_v15) (V c main_v17) (V c main_arg7) :=
  (dat1 V c).arrAt_eq_of_cover 8 _ (fun t _ => flushed1_8_eq V c t) covered1_8

end Cert.KernelIdeal.Hand

end
-- ==== Proof.IdealFin2.lean ====
/-
  Region 2 of the host program, read on the extended reals: what each output window's ARRAY holds once the region has
  run over its 25 blocks of 2000 rows, as one function of the arrays the region finds, index by index.
  With R, A, H the three 50000 by 128 input arrays, D the 50000 by 2 array of two columns, B the bias row and W the
  128 by 128 weight matrix:
      output 6 at (n, j) is  max (((R[n,j] + D[n,0] · A[n,j]) + H[n,j] · D[n,1]) + B[0,j], 0),
      output 7 at (n, j) is  the sum over k of output 6 at (n, k) times W[k, j],
      output 8 at (n, j) is  output 7 at (n, j) times D[n,0].
  First the body's payloads are read at an index over variables; then the block each point writes back is identified
  with a block of those functions (a block's coordinate is its block index times the block size plus the coordinate
  inside the block); then the blocks cover the arrays (row r lies in block r / 2000).
-/
import proofs.«111900_j74998718923370_2_alg».proof.Proof.IdealReg2
import proofs.«111900_j74998718923370_2_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«111900_j74998718923370_2_alg».proof.Proof.LibPlainDot
import proofs.«111900_j74998718923370_2_alg».proof.Proof.LibKeepdims

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.ShloMosaic.Pipeline (Dat Cfg Window BodyObligation cellOf)

variable {α : Type}

/-! ## The payloads at an index -/

theorem hz2 : (![0, 0] : Fin 2 → Nat) = fun _ => 0 := funext fun a => by fin_cases a <;> rfl

/-- Column 0 of a two-column block, kept as a column, read at a row. -/
theorem col0_2_apply (x : Vec Ideal S2000x2 .f32) (p : Fin 2000) (u : Fin 1) :
    extractStridedSlice S2000x1 ![0, 0] x slices_S2000x2_o0_0_S2000x1 (ix2 p u) = x (ix2 p (0 : Fin 2)) :=
  extractStridedSlice_apply _ x _ _ _ fun a => by
    match a with
    | ⟨0, _⟩ => show p.val = 0 + p.val; omega
    | ⟨1, _⟩ => show 0 = 0 + u.val; omega

/-- Column 1 of a two-column block, kept as a column, read at a row. -/
theorem col1_2_apply (x : Vec Ideal S2000x2 .f32) (p : Fin 2000) (u : Fin 1) :
    extractStridedSlice S2000x1 ![0, 1] x slices_S2000x2_o0_1_S2000x1 (ix2 p u) = x (ix2 p (1 : Fin 2)) :=
  extractStridedSlice_apply _ x _ _ _ fun a => by
    match a with
    | ⟨0, _⟩ => show p.val = 0 + p.val; omega
    | ⟨1, _⟩ => show 1 = 1 + u.val; omega

/-- The combine step at (p, q): the first block plus the first column times the second block, plus the third block times
    the second column, plus the bias, floored at zero. -/
theorem pay2_3_apply (xd : Vec Ideal S2000x2 .f32) (xr xa xh : Vec Ideal S2000x128 .f32) (xb : Vec Ideal S1x128 .f32) (p : Fin 2000) (q : Fin 128) :
    k2_pay3 (F := Ideal) xd xr xa xh xb (ix2 p q)
      = max (((xr (ix2 p q) + xd (ix2 p (0 : Fin 2)) * xa (ix2 p q)) + xh (ix2 p q) * xd (ix2 p (1 : Fin 2))) + xb (ix2 (0 : Fin 1) q)) Cert.Spec.zeroW := by
  unfold k2_pay3 k2_pay2 k2_pay1
  simp only [maximumf_apply, addf_apply, mulf_apply, broadcast_apply, shapeCast_self]
  rw [Cert.LibKeepdims.broadcastTo_a1_ab_apply, Cert.LibKeepdims.broadcastTo_a1_ab_apply, broadcastTo_1b_ab_apply,
    col0_2_apply, col1_2_apply]
  rfl

/-- The product with the weight block at (p, q): the plain sum over the contracted coordinate (the changes of format are
    the identity on the extended reals, and the accumulator starts at zero). -/
theorem pay2_4_apply (xd : Vec Ideal S2000x2 .f32) (xr xa xh : Vec Ideal S2000x128 .f32) (xb : Vec Ideal S1x128 .f32) (xw : Vec Ideal S128x128 .f32)
    (p : Fin 2000) (q : Fin 128) :
    k2_pay4 (F := Ideal) xd xr xa xh xb xw (ix2 p q) = ∑ k : Fin 128, k2_pay3 (F := Ideal) xd xr xa xh xb (ix2 p k) * xw (ix2 k q) := by
  unfold k2_pay4
  exact Cert.LibPlainDot.matmul_zero_apply dot_S2000x128_S128x128_S2000x128_1_0_0_1_n_n_wf none _ _ p q

/-- The scaled product at (p, q). -/
theorem pay2_5_apply (xd : Vec Ideal S2000x2 .f32) (xr xa xh : Vec Ideal S2000x128 .f32) (xb : Vec Ideal S1x128 .f32) (xw : Vec Ideal S128x128 .f32)
    (p : Fin 2000) (q : Fin 128) :
    k2_pay5 (F := Ideal) xd xr xa xh xb xw (ix2 p q) = k2_pay4 (F := Ideal) xd xr xa xh xb xw (ix2 p q) * xd (ix2 p (0 : Fin 2)) := by
  unfold k2_pay5 k2_pay2 k2_pay1
  simp only [truncf_apply, mulf_apply, shapeCast_self]
  rw [Cert.LibKeepdims.broadcastTo_a1_ab_apply, col0_2_apply]

/-! ## The blocks the body leaves, over variables -/

theorem blk2_6_apply (x0 x1 x2 : Vec Ideal S2000x128 .f32) (x3 : Vec Ideal S2000x2 .f32) (x4 : Vec Ideal S1x128 .f32) (p : Fin 2000) (q : Fin 128) :
    out2_6 (F := Ideal) x0 x1 x2 x3 x4 (ix2 p q)
      = max (((x0 (ix2 p q) + x3 (ix2 p (0 : Fin 2)) * x1 (ix2 p q)) + x2 (ix2 p q) * x3 (ix2 p (1 : Fin 2))) + x4 (ix2 (0 : Fin 1) q)) Cert.Spec.zeroW := by
  unfold out2_6
  rw [View.canon_unit_zero hz2]
  simp only [View.ld_unit_zero (S := S2000x128) hz2, View.ld_unit_zero (S := S2000x2) hz2, View.ld_unit_zero (S := S1x128) hz2]
  exact pay2_3_apply x3 x0 x1 x2 x4 p q

/-! ## From blocks to arrays -/

/-- The combine step on whole arrays, index by index. -/
abbrev G2_6 (R A H : S50000x128.Idx → EReal) (D : S50000x2.Idx → EReal) (B : S1x128.Idx → EReal) : S50000x128.Idx → EReal :=
  fun i => max (((R i + D (ix2 (i 0) (0 : Fin 2)) * A i) + H i * D (ix2 (i 0) (1 : Fin 2))) + B (ix2 (0 : Fin 1) (i 1))) Cert.Spec.zeroW

/-- The combine step read at indices that name one array index `e`: its row in the two-column array, its column in the bias row. -/
theorem G2_6_congr (R A H : S50000x128.Idx → EReal) (D : S50000x2.Idx → EReal) (B : S1x128.Idx → EReal)
    (e e0 e1 e2 : S50000x128.Idx) (d0 d1 : S50000x2.Idx) (b : S1x128.Idx)
    (h0 : e0 = e) (h1 : e1 = e) (h2 : e2 = e) (hd0 : d0 = ix2 (e 0) (0 : Fin 2)) (hd1 : d1 = ix2 (e 0) (1 : Fin 2)) (hb : b = ix2 (0 : Fin 1) (e 1)) :
    max (((R e0 + D d0 * A e1) + H e2 * D d1) + B b) Cert.Spec.zeroW = G2_6 R A H D B e := by
  subst h0 h1 h2 hd0 hd1 hb; rfl

/-- The printed index maps, decided over the grid: a row-block window is at block (t, 0) at point t, the bias and weight
    windows at block (0, 0). -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 2) = t.val ∧ win2_7.index t (1 : Fin 2) = 0
    ∧ win2_8.index t (0 : Fin 2) = t.val ∧ win2_8.index t (1 : Fin 2) = 0 :=
  (by decide +kernel : ∀ t : Fin grid2.N, _)

variable (V : (c : Dev nD) → (b : Ref sig .tc) → Buf (Elt Ideal) ((c : Thread nD τ).loc b))

set_option maxHeartbeats 2000000 in
/-- What point `t` writes back to output 6's array is block `t` of the combine step of the arrays the region finds. -/
theorem flushed2_6_eq (c : Dev nD) (t : Fin cfg2.N) :
    (dat2 (F := Ideal) V c).flushed 6 t = ((cfg2.win 6).blk t).view.read (Elt Ideal)
      (G2_6 (V c main_v34_0) (V c main_v45) (V c main_v34_1) (V c main_v15) (V c main_v18)) := by
  show (cfg2.win 6).cut (grid2.coords t) ((dat2 V c).after 6 t) = _
  rw [after2_6]
  funext j
  obtain ⟨p, q, rfl⟩ : ∃ (p : Fin 2000) (q : Fin 128), j = ix2 p q := ⟨j 0, j 1, eq_ix2 j⟩
  show out2_6 (F := Ideal) (iblk2 V c 0 t) (iblk2 V c 1 t) (iblk2 V c 2 t) (iblk2 V c 3 t) (iblk2 V c 4 t) (ix2 p q) = _
  rw [blk2_6_apply]
  obtain ⟨e00, e01, e10, e11, e20, e21, e30, e31, e40, e41, e50, e51, e60, e61, e70, e71, e80, e81⟩ := idx_facts2 t
  have h0 : (((cfg2.win 0).blk t).view.emb (ix2 p q)) = (((cfg2.win 6).blk t).view.emb (ix2 p q)) := by
    funext a; apply Fin.ext
    match a with
    | ⟨0, _⟩ => show win2_0.index t (0 : Fin 2) * 2000 + 1 * p.val = win2_6.index t (0 : Fin 2) * 2000 + 1 * p.val; omega
    | ⟨1, _⟩ => show win2_0.index t (1 : Fin 2) * 128 + 1 * q.val = win2_6.index t (1 : Fin 2) * 128 + 1 * q.val; omega
  have h1 : (((cfg2.win 1).blk t).view.emb (ix2 p q)) = (((cfg2.win 6).blk t).view.emb (ix2 p q)) := by
    funext a; apply Fin.ext
    match a with
    | ⟨0, _⟩ => show win2_1.index t (0 : Fin 2) * 2000 + 1 * p.val = win2_6.index t (0 : Fin 2) * 2000 + 1 * p.val; omega
    | ⟨1, _⟩ => show win2_1.index t (1 : Fin 2) * 128 + 1 * q.val = win2_6.index t (1 : Fin 2) * 128 + 1 * q.val; omega
  have h2 : (((cfg2.win 2).blk t).view.emb (ix2 p q)) = (((cfg2.win 6).blk t).view.emb (ix2 p q)) := by
    funext a; apply Fin.ext
    match a with
    | ⟨0, _⟩ => show win2_2.index t (0 : Fin 2) * 2000 + 1 * p.val = win2_6.index t (0 : Fin 2) * 2000 + 1 * p.val; omega
    | ⟨1, _⟩ => show win2_2.index t (1 : Fin 2) * 128 + 1 * q.val = win2_6.index t (1 : Fin 2) * 128 + 1 * q.val; omega
  have h3_0 : (((cfg2.win 3).blk t).view.emb (ix2 p (0 : Fin 2))) = ix2 (n0 := 50000) (n1 := 2) ((((cfg2.win 6).blk t).view.emb (ix2 p q)) 0) (0 : Fin 2) := by
    funext a; apply Fin.ext
    match a with
    | ⟨0, _⟩ => show win2_3.index t (0 : Fin 2) * 2000 + 1 * p.val = win2_6.index t (0 : Fin 2) * 2000 + 1 * p.val; omega
    | ⟨1, _⟩ => show win2_3.index t (1 : Fin 2) * 2 + 1 * 0 = 0; omega
  have h3_1 : (((cfg2.win 3).blk t).view.emb (ix2 p (1 : Fin 2))) = ix2 (n0 := 50000) (n1 := 2) ((((cfg2.win 6).blk t).view.emb (ix2 p q)) 0) (1 : Fin 2) := by
    funext a; apply Fin.ext
    match a with
    | ⟨0, _⟩ => show win2_3.index t (0 : Fin 2) * 2000 + 1 * p.val = win2_6.index t (0 : Fin 2) * 2000 + 1 * p.val; omega
    | ⟨1, _⟩ => show win2_3.index t (1 : Fin 2) * 2 + 1 * 1 = 1; omega
  have h4 : (((cfg2.win 4).blk t).view.emb (ix2 (0 : Fin 1) q)) = ix2 (n0 := 1) (n1 := 128) (0 : Fin 1) ((((cfg2.win 6).blk t).view.emb (ix2 p q)) 1) := by
    funext a; apply Fin.ext
    match a with
    | ⟨0, _⟩ => show win2_4.index t (0 : Fin 2) * 1 + 1 * 0 = 0; omega
    | ⟨1, _⟩ => show win2_4.index t (1 : Fin 2) * 128 + 1 * q.val = win2_6.index t (1 : Fin 2) * 128 + 1 * q.val; omega
  exact G2_6_congr (V c main_v34_0) (V c main_v45) (V c main_v34_1) (V c main_v15) (V c main_v18) (((cfg2.win 6).blk t).view.emb (ix2 p q))
    (((cfg2.win 0).blk t).view.emb (ix2 p q)) (((cfg2.win 1).blk t).view.emb (ix2 p q)) (((cfg2.win 2).blk t).view.emb (ix2 p q)) (((cfg2.win 3).blk t).view.emb (ix2 p (0 : Fin 2))) (((cfg2.win 3).blk t).view.emb (ix2 p (1 : Fin 2))) (((cfg2.win 4).blk t).view.emb (ix2 (0 : Fin 1) q))
    h0 h1 h2 h3_0 h3_1 h4

/-- An index of output 6's array is in point `t`'s block iff each coordinate is in the block's range on its axis. -/
theorem mem_blk2_6 (t : Fin cfg2.N) (i : S50000x128.Idx) :
    i ∈ ((cfg2.win 6).blk t).view.set ↔ ∀ a : Fin 2, win2_6.index t a * S2000x128.size a ≤ (i a).val ∧ (i a).val < win2_6.index t a * S2000x128.size a + S2000x128.size a := by
  show i ∈ ((View.whole main_v46_0).slice (win2_6.rect t)).set ↔ _
  rw [View.set_slice_whole, Rect.mem_set_unit]
  exact Iff.rfl

/-- Every index of output 6's array is in the block of the point its row falls in (row r in block r / 2000). -/
theorem covered2_6 (i : S50000x128.Idx) : ∃ t : Fin cfg2.N, (cfg2.win 6).flush t = true ∧ i ∈ ((cfg2.win 6).blk t).view.set := by
  have hi0 : (i 0).val < 50000 := (i 0).isLt
  have hi1 : (i 1).val < 128 := (i 1).isLt
  obtain ⟨t, ht⟩ : ∃ t : Fin cfg2.N, t.val = (i 0).val / 2000 :=
    ⟨⟨(i 0).val / 2000, by show (i 0).val / 2000 < grid2.N; rw [N_2]; omega⟩, rfl⟩
  obtain ⟨e00, e01, e10, e11, e20, e21, e30, e31, e40, e41, e50, e51, e60, e61, e70, e71, e80, e81⟩ := idx_facts2 t
  refine ⟨t, flush2_6 t, ?_⟩
  rw [mem_blk2_6]
  intro a
  match a with
  | ⟨0, _⟩ =>
    show win2_6.index t (0 : Fin 2) * 2000 ≤ (i 0).val ∧ (i 0).val < win2_6.index t (0 : Fin 2) * 2000 + 2000
    omega
  | ⟨1, _⟩ =>
    show win2_6.index t (1 : Fin 2) * 128 ≤ (i 1).val ∧ (i 1).val < win2_6.index t (1 : Fin 2) * 128 + 128
    omega

/-- OUTPUT 6's ARRAY after the region: the combine step of the arrays the region finds, index by index. -/
theorem fin2_6 (c : Dev nD) :
    (dat2 (F := Ideal) V c).arrAt 6 cfg2.N
      = G2_6 (V c main_v34_0) (V c main_v45) (V c main_v34_1) (V c main_v15) (V c main_v18) :=
  (dat2 V c).arrAt_eq_of_cover 6 _ (fun t _ => flushed2_6_eq V c t) covered2_6

/-! ## Outputs 7 and 8 -/

section Over
theorem blk2_7_apply (x0 x1 x2 : Vec Ideal S2000x128 .f32) (x3 : Vec Ideal S2000x2 .f32) (x4 : Vec Ideal S1x128 .f32) (x5 : Vec Ideal S128x128 .f32) (p : Fin 2000) (q : Fin 128) :
    out2_7 (F := Ideal) x0 x1 x2 x3 x4 x5 (ix2 p q) = ∑ k : Fin 128, max (((x0 (ix2 p k) + x3 (ix2 p (0 : Fin 2)) * x1 (ix2 p k)) + x2 (ix2 p k) * x3 (ix2 p (1 : Fin 2))) + x4 (ix2 (0 : Fin 1) k)) Cert.Spec.zeroW * x5 (ix2 k q) := by
  unfold out2_7
  rw [View.canon_unit_zero hz2]
  simp only [View.ld_unit_zero (S := S2000x128) hz2, View.ld_unit_zero (S := S2000x2) hz2, View.ld_unit_zero (S := S1x128) hz2,
    View.ld_unit_zero (S := S128x128) hz2]
  exact (pay2_4_apply x3 x0 x1 x2 x4 x5 p q).trans (Finset.sum_congr rfl fun k _ => by rw [pay2_3_apply])

theorem blk2_8_apply (x0 x1 x2 : Vec Ideal S2000x128 .f32) (x3 : Vec Ideal S2000x2 .f32) (x4 : Vec Ideal S1x128 .f32) (x5 : Vec Ideal S128x128 .f32) (p : Fin 2000) (q : Fin 128) :
    out2_8 (F := Ideal) x0 x1 x2 x3 x4 x5 (ix2 p q) = (∑ k : Fin 128, max (((x0 (ix2 p k) + x3 (ix2 p (0 : Fin 2)) * x1 (ix2 p k)) + x2 (ix2 p k) * x3 (ix2 p (1 : Fin 2))) + x4 (ix2 (0 : Fin 1) k)) Cert.Spec.zeroW * x5 (ix2 k q)) * x3 (ix2 p (0 : Fin 2)) := by
  unfold out2_8
  rw [View.canon_unit_zero hz2]
  simp only [View.ld_unit_zero (S := S2000x128) hz2, View.ld_unit_zero (S := S2000x2) hz2, View.ld_unit_zero (S := S1x128) hz2,
    View.ld_unit_zero (S := S128x128) hz2]
  rw [pay2_5_apply, pay2_4_apply]
  exact congrArg (· * x3 (ix2 p (0 : Fin 2))) (Finset.sum_congr rfl fun k _ => by rw [pay2_3_apply])

/-- The combine step's rows times the weight matrix, as a plain sum. -/
abbrev G2_7 (R A H : S50000x128.Idx → EReal) (D : S50000x2.Idx → EReal) (B : S1x128.Idx → EReal) (W : S128x128.Idx → EReal) : S50000x128.Idx → EReal :=
  fun i => ∑ k : Fin 128, G2_6 R A H D B (ix2 (i 0) k) * W (ix2 k (i 1))

/-- That product scaled, row by row, by the first of the two columns. -/
abbrev G2_8 (R A H : S50000x128.Idx → EReal) (D : S50000x2.Idx → EReal) (B : S1x128.Idx → EReal) (W : S128x128.Idx → EReal) : S50000x128.Idx → EReal :=
  fun i => G2_7 R A H D B W i * D (ix2 (i 0) (0 : Fin 2))

theorem G2_7_congr (R A H : S50000x128.Idx → EReal) (D : S50000x2.Idx → EReal) (B : S1x128.Idx → EReal) (W : S128x128.Idx → EReal)
    (e : S50000x128.Idx) (e0 e1 e2 : Fin 128 → S50000x128.Idx) (d0 d1 : S50000x2.Idx) (b : Fin 128 → S1x128.Idx) (w : Fin 128 → S128x128.Idx)
    (h0 : ∀ k, e0 k = ix2 (e 0) k) (h1 : ∀ k, e1 k = ix2 (e 0) k) (h2 : ∀ k, e2 k = ix2 (e 0) k)
    (hd0 : d0 = ix2 (e 0) (0 : Fin 2)) (hd1 : d1 = ix2 (e 0) (1 : Fin 2)) (hb : ∀ k, b k = ix2 (0 : Fin 1) k) (hw : ∀ k, w k = ix2 k (e 1)) :
    ∑ k : Fin 128, max (((R (e0 k) + D d0 * A (e1 k)) + H (e2 k) * D d1) + B (b k)) Cert.Spec.zeroW * W (w k) = G2_7 R A H D B W e := by
  refine Finset.sum_congr rfl fun k _ => ?_
  rw [h0 k, h1 k, h2 k, hd0, hd1, hb k, hw k]
  rfl

theorem G2_8_congr (R A H : S50000x128.Idx → EReal) (D : S50000x2.Idx → EReal) (B : S1x128.Idx → EReal) (W : S128x128.Idx → EReal)
    (e : S50000x128.Idx) (e0 e1 e2 : Fin 128 → S50000x128.Idx) (d0 d1 : S50000x2.Idx) (b : Fin 128 → S1x128.Idx) (w : Fin 128 → S128x128.Idx)
    (h0 : ∀ k, e0 k = ix2 (e 0) k) (h1 : ∀ k, e1 k = ix2 (e 0) k) (h2 : ∀ k, e2 k = ix2 (e 0) k)
    (hd0 : d0 = ix2 (e 0) (0 : Fin 2)) (hd1 : d1 = ix2 (e 0) (1 : Fin 2)) (hb : ∀ k, b k = ix2 (0 : Fin 1) k) (hw : ∀ k, w k = ix2 k (e 1)) :
    (∑ k : Fin 128, max (((R (e0 k) + D d0 * A (e1 k)) + H (e2 k) * D d1) + B (b k)) Cert.Spec.zeroW * W (w k)) * D d0 = G2_8 R A H D B W e := by
  rw [G2_7_congr R A H D B W e e0 e1 e2 d0 d1 b w h0 h1 h2 hd0 hd1 hb hw, hd0]
  rfl
end Over

set_option maxHeartbeats 2000000 in
/-- What point `t` writes back to output 7's array is block `t` of the product of the arrays the region finds. -/
theorem flushed2_7_eq (c : Dev nD) (t : Fin cfg2.N) :
    (dat2 (F := Ideal) V c).flushed 7 t = ((cfg2.win 7).blk t).view.read (Elt Ideal) (G2_7 (V c main_v34_0) (V c main_v45) (V c main_v34_1) (V c main_v15) (V c main_v18) (V c main_arg9)) := by
  show (cfg2.win 7).cut (grid2.coords t) ((dat2 V c).after 7 t) = _
  rw [after2_7]
  funext j
  obtain ⟨p, q, rfl⟩ : ∃ (p : Fin 2000) (q : Fin 128), j = ix2 p q := ⟨j 0, j 1, eq_ix2 j⟩
  show out2_7 (F := Ideal) (iblk2 V c 0 t) (iblk2 V c 1 t) (iblk2 V c 2 t) (iblk2 V c 3 t) (iblk2 V c 4 t) (iblk2 V c 5 t) (ix2 p q) = _
  rw [blk2_7_apply]
  obtain ⟨e00, e01, e10, e11, e20, e21, e30, e31, e40, e41, e50, e51, e60, e61, e70, e71, e80, e81⟩ := idx_facts2 t
  have h0 : ∀ k : Fin 128, (((cfg2.win 0).blk t).view.emb (ix2 p k)) = ix2 (n0 := 50000) (n1 := 128) ((((cfg2.win 7).blk t).view.emb (ix2 p q)) 0) k := fun k => by
    funext a; apply Fin.ext
    match a with
    | ⟨0, _⟩ => show win2_0.index t (0 : Fin 2) * 2000 + 1 * p.val = win2_7.index t (0 : Fin 2) * 2000 + 1 * p.val; omega
    | ⟨1, _⟩ => show win2_0.index t (1 : Fin 2) * 128 + 1 * k.val = k.val; omega
  have h1 : ∀ k : Fin 128, (((cfg2.win 1).blk t).view.emb (ix2 p k)) = ix2 (n0 := 50000) (n1 := 128) ((((cfg2.win 7).blk t).view.emb (ix2 p q)) 0) k := fun k => by
    funext a; apply Fin.ext
    match a with
    | ⟨0, _⟩ => show win2_1.index t (0 : Fin 2) * 2000 + 1 * p.val = win2_7.index t (0 : Fin 2) * 2000 + 1 * p.val; omega
    | ⟨1, _⟩ => show win2_1.index t (1 : Fin 2) * 128 + 1 * k.val = k.val; omega
  have h2 : ∀ k : Fin 128, (((cfg2.win 2).blk t).view.emb (ix2 p k)) = ix2 (n0 := 50000) (n1 := 128) ((((cfg2.win 7).blk t).view.emb (ix2 p q)) 0) k := fun k => by
    funext a; apply Fin.ext
    match a with
    | ⟨0, _⟩ => show win2_2.index t (0 : Fin 2) * 2000 + 1 * p.val = win2_7.index t (0 : Fin 2) * 2000 + 1 * p.val; omega
    | ⟨1, _⟩ => show win2_2.index t (1 : Fin 2) * 128 + 1 * k.val = k.val; omega
  have h3_0 : (((cfg2.win 3).blk t).view.emb (ix2 p (0 : Fin 2))) = ix2 (n0 := 50000) (n1 := 2) ((((cfg2.win 7).blk t).view.emb (ix2 p q)) 0) (0 : Fin 2) := by
    funext a; apply Fin.ext
    match a with
    | ⟨0, _⟩ => show win2_3.index t (0 : Fin 2) * 2000 + 1 * p.val = win2_7.index t (0 : Fin 2) * 2000 + 1 * p.val; omega
    | ⟨1, _⟩ => show win2_3.index t (1 : Fin 2) * 2 + 1 * 0 = 0; omega
  have h3_1 : (((cfg2.win 3).blk t).view.emb (ix2 p (1 : Fin 2))) = ix2 (n0 := 50000) (n1 := 2) ((((cfg2.win 7).blk t).view.emb (ix2 p q)) 0) (1 : Fin 2) := by
    funext a; apply Fin.ext
    match a with
    | ⟨0, _⟩ => show win2_3.index t (0 : Fin 2) * 2000 + 1 * p.val = win2_7.index t (0 : Fin 2) * 2000 + 1 * p.val; omega
    | ⟨1, _⟩ => show win2_3.index t (1 : Fin 2) * 2 + 1 * 1 = 1; omega
  have h4 : ∀ k : Fin 128, (((cfg2.win 4).blk t).view.emb (ix2 (0 : Fin 1) k)) = ix2 (n0 := 1) (n1 := 128) (0 : Fin 1) k := fun k => by
    funext a; apply Fin.ext
    match a with
    | ⟨0, _⟩ => show win2_4.index t (0 : Fin 2) * 1 + 1 * 0 = 0; omega
    | ⟨1, _⟩ => show win2_4.index t (1 : Fin 2) * 128 + 1 * k.val = k.val; omega
  have h5 : ∀ k : Fin 128, (((cfg2.win 5).blk t).view.emb (ix2 k q)) = ix2 (n0 := 128) (n1 := 128) k ((((cfg2.win 7).blk t).view.emb (ix2 p q)) 1) := fun k => by
    funext a; apply Fin.ext
    match a with
    | ⟨0, _⟩ => show win2_5.index t (0 : Fin 2) * 128 + 1 * k.val = k.val; omega
    | ⟨1, _⟩ => show win2_5.index t (1 : Fin 2) * 128 + 1 * q.val = win2_7.index t (1 : Fin 2) * 128 + 1 * q.val; omega
  exact G2_7_congr (V c main_v34_0) (V c main_v45) (V c main_v34_1) (V c main_v15) (V c main_v18) (V c main_arg9) (((cfg2.win 7).blk t).view.emb (ix2 p q))
    (fun k => (((cfg2.win 0).blk t).view.emb (ix2 p k))) (fun k => (((cfg2.win 1).blk t).view.emb (ix2 p k))) (fun k => (((cfg2.win 2).blk t).view.emb (ix2 p k)))
    (((cfg2.win 3).blk t).view.emb (ix2 p (0 : Fin 2))) (((cfg2.win 3).blk t).view.emb (ix2 p (1 : Fin 2))) (fun k => (((cfg2.win 4).blk t).view.emb (ix2 (0 : Fin 1) k))) (fun k => (((cfg2.win 5).blk t).view.emb (ix2 k q)))
    h0 h1 h2 h3_0 h3_1 h4 h5

set_option maxHeartbeats 2000000 in
/-- What point `t` writes back to output 8's array is block `t` of the scaled product of the arrays the region finds. -/
theorem flushed2_8_eq (c : Dev nD) (t : Fin cfg2.N) :
    (dat2 (F := Ideal) V c).flushed 8 t = ((cfg2.win 8).blk t).view.read (Elt Ideal) (G2_8 (V c main_v34_0) (V c main_v45) (V c main_v34_1) (V c main_v15) (V c main_v18) (V c main_arg9)) := by
  show (cfg2.win 8).cut (grid2.coords t) ((dat2 V c).after 8 t) = _
  rw [after2_8]
  funext j
  obtain ⟨p, q, rfl⟩ : ∃ (p : Fin 2000) (q : Fin 128), j = ix2 p q := ⟨j 0, j 1, eq_ix2 j⟩
  show out2_8 (F := Ideal) (iblk2 V c 0 t) (iblk2 V c 1 t) (iblk2 V c 2 t) (iblk2 V c 3 t) (iblk2 V c 4 t) (iblk2 V c 5 t) (ix2 p q) = _
  rw [blk2_8_apply]
  obtain ⟨e00, e01, e10, e11, e20, e21, e30, e31, e40, e41, e50, e51, e60, e61, e70, e71, e80, e81⟩ := idx_facts2 t
  have h0 : ∀ k : Fin 128, (((cfg2.win 0).blk t).view.emb (ix2 p k)) = ix2 (n0 := 50000) (n1 := 128) ((((cfg2.win 8).blk t).view.emb (ix2 p q)) 0) k := fun k => by
    funext a; apply Fin.ext
    match a with
    | ⟨0, _⟩ => show win2_0.index t (0 : Fin 2) * 2000 + 1 * p.val = win2_8.index t (0 : Fin 2) * 2000 + 1 * p.val; omega
    | ⟨1, _⟩ => show win2_0.index t (1 : Fin 2) * 128 + 1 * k.val = k.val; omega
  have h1 : ∀ k : Fin 128, (((cfg2.win 1).blk t).view.emb (ix2 p k)) = ix2 (n0 := 50000) (n1 := 128) ((((cfg2.win 8).blk t).view.emb (ix2 p q)) 0) k := fun k => by
    funext a; apply Fin.ext
    match a with
    | ⟨0, _⟩ => show win2_1.index t (0 : Fin 2) * 2000 + 1 * p.val = win2_8.index t (0 : Fin 2) * 2000 + 1 * p.val; omega
    | ⟨1, _⟩ => show win2_1.index t (1 : Fin 2) * 128 + 1 * k.val = k.val; omega
  have h2 : ∀ k : Fin 128, (((cfg2.win 2).blk t).view.emb (ix2 p k)) = ix2 (n0 := 50000) (n1 := 128) ((((cfg2.win 8).blk t).view.emb (ix2 p q)) 0) k := fun k => by
    funext a; apply Fin.ext
    match a with
    | ⟨0, _⟩ => show win2_2.index t (0 : Fin 2) * 2000 + 1 * p.val = win2_8.index t (0 : Fin 2) * 2000 + 1 * p.val; omega
    | ⟨1, _⟩ => show win2_2.index t (1 : Fin 2) * 128 + 1 * k.val = k.val; omega
  have h3_0 : (((cfg2.win 3).blk t).view.emb (ix2 p (0 : Fin 2))) = ix2 (n0 := 50000) (n1 := 2) ((((cfg2.win 8).blk t).view.emb (ix2 p q)) 0) (0 : Fin 2) := by
    funext a; apply Fin.ext
    match a with
    | ⟨0, _⟩ => show win2_3.index t (0 : Fin 2) * 2000 + 1 * p.val = win2_8.index t (0 : Fin 2) * 2000 + 1 * p.val; omega
    | ⟨1, _⟩ => show win2_3.index t (1 : Fin 2) * 2 + 1 * 0 = 0; omega
  have h3_1 : (((cfg2.win 3).blk t).view.emb (ix2 p (1 : Fin 2))) = ix2 (n0 := 50000) (n1 := 2) ((((cfg2.win 8).blk t).view.emb (ix2 p q)) 0) (1 : Fin 2) := by
    funext a; apply Fin.ext
    match a with
    | ⟨0, _⟩ => show win2_3.index t (0 : Fin 2) * 2000 + 1 * p.val = win2_8.index t (0 : Fin 2) * 2000 + 1 * p.val; omega
    | ⟨1, _⟩ => show win2_3.index t (1 : Fin 2) * 2 + 1 * 1 = 1; omega
  have h4 : ∀ k : Fin 128, (((cfg2.win 4).blk t).view.emb (ix2 (0 : Fin 1) k)) = ix2 (n0 := 1) (n1 := 128) (0 : Fin 1) k := fun k => by
    funext a; apply Fin.ext
    match a with
    | ⟨0, _⟩ => show win2_4.index t (0 : Fin 2) * 1 + 1 * 0 = 0; omega
    | ⟨1, _⟩ => show win2_4.index t (1 : Fin 2) * 128 + 1 * k.val = k.val; omega
  have h5 : ∀ k : Fin 128, (((cfg2.win 5).blk t).view.emb (ix2 k q)) = ix2 (n0 := 128) (n1 := 128) k ((((cfg2.win 8).blk t).view.emb (ix2 p q)) 1) := fun k => by
    funext a; apply Fin.ext
    match a with
    | ⟨0, _⟩ => show win2_5.index t (0 : Fin 2) * 128 + 1 * k.val = k.val; omega
    | ⟨1, _⟩ => show win2_5.index t (1 : Fin 2) * 128 + 1 * q.val = win2_8.index t (1 : Fin 2) * 128 + 1 * q.val; omega
  exact G2_8_congr (V c main_v34_0) (V c main_v45) (V c main_v34_1) (V c main_v15) (V c main_v18) (V c main_arg9) (((cfg2.win 8).blk t).view.emb (ix2 p q))
    (fun k => (((cfg2.win 0).blk t).view.emb (ix2 p k))) (fun k => (((cfg2.win 1).blk t).view.emb (ix2 p k))) (fun k => (((cfg2.win 2).blk t).view.emb (ix2 p k)))
    (((cfg2.win 3).blk t).view.emb (ix2 p (0 : Fin 2))) (((cfg2.win 3).blk t).view.emb (ix2 p (1 : Fin 2))) (fun k => (((cfg2.win 4).blk t).view.emb (ix2 (0 : Fin 1) k))) (fun k => (((cfg2.win 5).blk t).view.emb (ix2 k q)))
    h0 h1 h2 h3_0 h3_1 h4 h5

/-- An index of output 7's array is in point `t`'s block iff each coordinate is in the block's range on its axis. -/
theorem mem_blk2_7 (t : Fin cfg2.N) (i : S50000x128.Idx) :
    i ∈ ((cfg2.win 7).blk t).view.set ↔ ∀ a : Fin 2, win2_7.index t a * S2000x128.size a ≤ (i a).val ∧ (i a).val < win2_7.index t a * S2000x128.size a + S2000x128.size a := by
  show i ∈ ((View.whole main_v46_1).slice (win2_7.rect t)).set ↔ _
  rw [View.set_slice_whole, Rect.mem_set_unit]
  exact Iff.rfl

/-- Every index of output 7's array is in the block of the point its row falls in (row r in block r / 2000). -/
theorem covered2_7 (i : S50000x128.Idx) : ∃ t : Fin cfg2.N, (cfg2.win 7).flush t = true ∧ i ∈ ((cfg2.win 7).blk t).view.set := by
  have hi0 : (i 0).val < 50000 := (i 0).isLt
  have hi1 : (i 1).val < 128 := (i 1).isLt
  obtain ⟨t, ht⟩ : ∃ t : Fin cfg2.N, t.val = (i 0).val / 2000 :=
    ⟨⟨(i 0).val / 2000, by show (i 0).val / 2000 < grid2.N; rw [N_2]; omega⟩, rfl⟩
  obtain ⟨e00, e01, e10, e11, e20, e21, e30, e31, e40, e41, e50, e51, e60, e61, e70, e71, e80, e81⟩ := idx_facts2 t
  refine ⟨t, flush2_7 t, ?_⟩
  rw [mem_blk2_7]
  intro a
  match a with
  | ⟨0, _⟩ =>
    show win2_7.index t (0 : Fin 2) * 2000 ≤ (i 0).val ∧ (i 0).val < win2_7.index t (0 : Fin 2) * 2000 + 2000
    omega
  | ⟨1, _⟩ =>
    show win2_7.index t (1 : Fin 2) * 128 ≤ (i 1).val ∧ (i 1).val < win2_7.index t (1 : Fin 2) * 128 + 128
    omega

/-- An index of output 8's array is in point `t`'s block iff each coordinate is in the block's range on its axis. -/
theorem mem_blk2_8 (t : Fin cfg2.N) (i : S50000x128.Idx) :
    i ∈ ((cfg2.win 8).blk t).view.set ↔ ∀ a : Fin 2, win2_8.index t a * S2000x128.size a ≤ (i a).val ∧ (i a).val < win2_8.index t a * S2000x128.size a + S2000x128.size a := by
  show i ∈ ((View.whole main_v46_2).slice (win2_8.rect t)).set ↔ _
  rw [View.set_slice_whole, Rect.mem_set_unit]
  exact Iff.rfl

/-- Every index of output 8's array is in the block of the point its row falls in (row r in block r / 2000). -/
theorem covered2_8 (i : S50000x128.Idx) : ∃ t : Fin cfg2.N, (cfg2.win 8).flush t = true ∧ i ∈ ((cfg2.win 8).blk t).view.set := by
  have hi0 : (i 0).val < 50000 := (i 0).isLt
  have hi1 : (i 1).val < 128 := (i 1).isLt
  obtain ⟨t, ht⟩ : ∃ t : Fin cfg2.N, t.val = (i 0).val / 2000 :=
    ⟨⟨(i 0).val / 2000, by show (i 0).val / 2000 < grid2.N; rw [N_2]; omega⟩, rfl⟩
  obtain ⟨e00, e01, e10, e11, e20, e21, e30, e31, e40, e41, e50, e51, e60, e61, e70, e71, e80, e81⟩ := idx_facts2 t
  refine ⟨t, flush2_8 t, ?_⟩
  rw [mem_blk2_8]
  intro a
  match a with
  | ⟨0, _⟩ =>
    show win2_8.index t (0 : Fin 2) * 2000 ≤ (i 0).val ∧ (i 0).val < win2_8.index t (0 : Fin 2) * 2000 + 2000
    omega
  | ⟨1, _⟩ =>
    show win2_8.index t (1 : Fin 2) * 128 ≤ (i 1).val ∧ (i 1).val < win2_8.index t (1 : Fin 2) * 128 + 128
    omega

/-- OUTPUT 7's ARRAY after the region: the combine step's rows times the weight matrix. -/
theorem fin2_7 (c : Dev nD) :
    (dat2 (F := Ideal) V c).arrAt 7 cfg2.N = G2_7 (V c main_v34_0) (V c main_v45) (V c main_v34_1) (V c main_v15) (V c main_v18) (V c main_arg9) :=
  (dat2 V c).arrAt_eq_of_cover 7 _ (fun t _ => flushed2_7_eq V c t) covered2_7

/-- OUTPUT 8's ARRAY after the region: that product scaled by the first of the two columns. -/
theorem fin2_8 (c : Dev nD) :
    (dat2 (F := Ideal) V c).arrAt 8 cfg2.N = G2_8 (V c main_v34_0) (V c main_v45) (V c main_v34_1) (V c main_v15) (V c main_v18) (V c main_arg9) :=
  (dat2 V c).arrAt_eq_of_cover 8 _ (fun t _ => flushed2_8_eq V c t) covered2_8

end Cert.KernelIdeal.Hand

end
-- ==== Proof.IdealFin3.lean ====
/-
  Region 3 of the host program, read on the extended reals: what the output window's ARRAY holds once the region has run
  over its 25 blocks of 2000 rows, as one function of the arrays the region finds, index by index.
  With R, A, H the three 50000 by 128 input arrays, D the 50000 by 2 array of two columns and B the bias row, the output
  at (n, j) is  max (((R[n,j] + D[n,0] · A[n,j]) + H[n,j] · D[n,1]) + B[0,j], 0).
  First the body's payload is read at an index over variables; then the block each point writes back is identified with
  a block of that function (a block's coordinate is its block index times the block size plus the coordinate inside the
  block); then the blocks cover the array (row r lies in block r / 2000).
-/
import proofs.«111900_j74998718923370_2_alg».proof.Proof.IdealReg3
import proofs.«111900_j74998718923370_2_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«111900_j74998718923370_2_alg».proof.Proof.LibPlainDot
import proofs.«111900_j74998718923370_2_alg».proof.Proof.LibKeepdims

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.ShloMosaic.Pipeline (Dat Cfg Window BodyObligation cellOf)

variable {α : Type}

/-! ## The payload at an index -/

theorem hz3 : (![0, 0] : Fin 2 → Nat) = fun _ => 0 := funext fun a => by fin_cases a <;> rfl

/-- Column 0 of a two-column block, kept as a column, read at a row. -/
theorem col0_3_apply (x : Vec Ideal S2000x2 .f32) (p : Fin 2000) (u : Fin 1) :
    extractStridedSlice S2000x1 ![0, 0] x slices_S2000x2_o0_0_S2000x1 (ix2 p u) = x (ix2 p (0 : Fin 2)) :=
  extractStridedSlice_apply _ x _ _ _ fun a => by
    match a with
    | ⟨0, _⟩ => show p.val = 0 + p.val; omega
    | ⟨1, _⟩ => show 0 = 0 + u.val; omega

/-- Column 1 of a two-column block, kept as a column, read at a row. -/
theorem col1_3_apply (x : Vec Ideal S2000x2 .f32) (p : Fin 2000) (u : Fin 1) :
    extractStridedSlice S2000x1 ![0, 1] x slices_S2000x2_o0_1_S2000x1 (ix2 p u) = x (ix2 p (1 : Fin 2)) :=
  extractStridedSlice_apply _ x _ _ _ fun a => by
    match a with
    | ⟨0, _⟩ => show p.val = 0 + p.val; omega
    | ⟨1, _⟩ => show 1 = 1 + u.val; omega

/-- The combine step at (p, q): the first block plus the first column times the second block, plus the third block times
    the second column, plus the bias, floored at zero. -/
theorem pay3_1_apply (xd : Vec Ideal S2000x2 .f32) (xr xa xh : Vec Ideal S2000x128 .f32) (xb : Vec Ideal S1x128 .f32) (p : Fin 2000) (q : Fin 128) :
    k3_pay1 (F := Ideal) xd xr xa xh xb (ix2 p q)
      = max (((xr (ix2 p q) + xd (ix2 p (0 : Fin 2)) * xa (ix2 p q)) + xh (ix2 p q) * xd (ix2 p (1 : Fin 2))) + xb (ix2 (0 : Fin 1) q)) Cert.Spec.zeroW := by
  unfold k3_pay1
  simp only [maximumf_apply, addf_apply, mulf_apply, broadcast_apply, shapeCast_self]
  rw [Cert.LibKeepdims.broadcastTo_a1_ab_apply, Cert.LibKeepdims.broadcastTo_a1_ab_apply, broadcastTo_1b_ab_apply,
    col0_3_apply, col1_3_apply]
  rfl

/-! ## The block the body leaves, over variables -/

theorem blk3_5_apply (x0 x1 x2 : Vec Ideal S2000x128 .f32) (x3 : Vec Ideal S2000x2 .f32) (x4 : Vec Ideal S1x128 .f32) (p : Fin 2000) (q : Fin 128) :
    out3_5 (F := Ideal) x0 x1 x2 x3 x4 (ix2 p q)
      = max (((x0 (ix2 p q) + x3 (ix2 p (0 : Fin 2)) * x1 (ix2 p q)) + x2 (ix2 p q) * x3 (ix2 p (1 : Fin 2))) + x4 (ix2 (0 : Fin 1) q)) Cert.Spec.zeroW := by
  unfold out3_5
  rw [View.canon_unit_zero hz3]
  simp only [View.ld_unit_zero (S := S2000x128) hz3, View.ld_unit_zero (S := S2000x2) hz3, View.ld_unit_zero (S := S1x128) hz3]
  exact pay3_1_apply x3 x0 x1 x2 x4 p q

/-! ## From blocks to the array -/

/-- The combine step on whole arrays, index by index. -/
abbrev G3_5 (R A H : S50000x128.Idx → EReal) (D : S50000x2.Idx → EReal) (B : S1x128.Idx → EReal) : S50000x128.Idx → EReal :=
  fun i => max (((R i + D (ix2 (i 0) (0 : Fin 2)) * A i) + H i * D (ix2 (i 0) (1 : Fin 2))) + B (ix2 (0 : Fin 1) (i 1))) Cert.Spec.zeroW

/-- The combine step read at indices that name one array index `e`: its row in the two-column array, its column in the bias row. -/
theorem G3_5_congr (R A H : S50000x128.Idx → EReal) (D : S50000x2.Idx → EReal) (B : S1x128.Idx → EReal)
    (e e0 e1 e2 : S50000x128.Idx) (d0 d1 : S50000x2.Idx) (b : S1x128.Idx)
    (h0 : e0 = e) (h1 : e1 = e) (h2 : e2 = e) (hd0 : d0 = ix2 (e 0) (0 : Fin 2)) (hd1 : d1 = ix2 (e 0) (1 : Fin 2)) (hb : b = ix2 (0 : Fin 1) (e 1)) :
    max (((R e0 + D d0 * A e1) + H e2 * D d1) + B b) Cert.Spec.zeroW = G3_5 R A H D B e := by
  subst h0 h1 h2 hd0 hd1 hb; rfl

/-- The printed index maps, decided over the grid: a row-block window is at block (t, 0) at point t, the bias window at
    block (0, 0). -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

variable (V : (c : Dev nD) → (b : Ref sig .tc) → Buf (Elt Ideal) ((c : Thread nD τ).loc b))

set_option maxHeartbeats 2000000 in
/-- What point `t` writes back to the output's array is block `t` of the combine step of the arrays the region finds. -/
theorem flushed3_5_eq (c : Dev nD) (t : Fin cfg3.N) :
    (dat3 (F := Ideal) V c).flushed 5 t = ((cfg3.win 5).blk t).view.read (Elt Ideal)
      (G3_5 (V c main_v46_0) (V c main_v57) (V c main_v46_1) (V c main_v15) (V c main_v19)) := by
  show (cfg3.win 5).cut (grid3.coords t) ((dat3 V c).after 5 t) = _
  rw [after3_5]
  funext j
  obtain ⟨p, q, rfl⟩ : ∃ (p : Fin 2000) (q : Fin 128), j = ix2 p q := ⟨j 0, j 1, eq_ix2 j⟩
  show out3_5 (F := Ideal) (iblk3 V c 0 t) (iblk3 V c 1 t) (iblk3 V c 2 t) (iblk3 V c 3 t) (iblk3 V c 4 t) (ix2 p q) = _
  rw [blk3_5_apply]
  obtain ⟨e00, e01, e10, e11, e20, e21, e30, e31, e40, e41, e50, e51⟩ := idx_facts3 t
  have h0 : (((cfg3.win 0).blk t).view.emb (ix2 p q)) = (((cfg3.win 5).blk t).view.emb (ix2 p q)) := by
    funext a; apply Fin.ext
    match a with
    | ⟨0, _⟩ => show win3_0.index t (0 : Fin 2) * 2000 + 1 * p.val = win3_5.index t (0 : Fin 2) * 2000 + 1 * p.val; omega
    | ⟨1, _⟩ => show win3_0.index t (1 : Fin 2) * 128 + 1 * q.val = win3_5.index t (1 : Fin 2) * 128 + 1 * q.val; omega
  have h1 : (((cfg3.win 1).blk t).view.emb (ix2 p q)) = (((cfg3.win 5).blk t).view.emb (ix2 p q)) := by
    funext a; apply Fin.ext
    match a with
    | ⟨0, _⟩ => show win3_1.index t (0 : Fin 2) * 2000 + 1 * p.val = win3_5.index t (0 : Fin 2) * 2000 + 1 * p.val; omega
    | ⟨1, _⟩ => show win3_1.index t (1 : Fin 2) * 128 + 1 * q.val = win3_5.index t (1 : Fin 2) * 128 + 1 * q.val; omega
  have h2 : (((cfg3.win 2).blk t).view.emb (ix2 p q)) = (((cfg3.win 5).blk t).view.emb (ix2 p q)) := by
    funext a; apply Fin.ext
    match a with
    | ⟨0, _⟩ => show win3_2.index t (0 : Fin 2) * 2000 + 1 * p.val = win3_5.index t (0 : Fin 2) * 2000 + 1 * p.val; omega
    | ⟨1, _⟩ => show win3_2.index t (1 : Fin 2) * 128 + 1 * q.val = win3_5.index t (1 : Fin 2) * 128 + 1 * q.val; omega
  have h3_0 : (((cfg3.win 3).blk t).view.emb (ix2 p (0 : Fin 2))) = ix2 (n0 := 50000) (n1 := 2) ((((cfg3.win 5).blk t).view.emb (ix2 p q)) 0) (0 : Fin 2) := by
    funext a; apply Fin.ext
    match a with
    | ⟨0, _⟩ => show win3_3.index t (0 : Fin 2) * 2000 + 1 * p.val = win3_5.index t (0 : Fin 2) * 2000 + 1 * p.val; omega
    | ⟨1, _⟩ => show win3_3.index t (1 : Fin 2) * 2 + 1 * 0 = 0; omega
  have h3_1 : (((cfg3.win 3).blk t).view.emb (ix2 p (1 : Fin 2))) = ix2 (n0 := 50000) (n1 := 2) ((((cfg3.win 5).blk t).view.emb (ix2 p q)) 0) (1 : Fin 2) := by
    funext a; apply Fin.ext
    match a with
    | ⟨0, _⟩ => show win3_3.index t (0 : Fin 2) * 2000 + 1 * p.val = win3_5.index t (0 : Fin 2) * 2000 + 1 * p.val; omega
    | ⟨1, _⟩ => show win3_3.index t (1 : Fin 2) * 2 + 1 * 1 = 1; omega
  have h4 : (((cfg3.win 4).blk t).view.emb (ix2 (0 : Fin 1) q)) = ix2 (n0 := 1) (n1 := 128) (0 : Fin 1) ((((cfg3.win 5).blk t).view.emb (ix2 p q)) 1) := by
    funext a; apply Fin.ext
    match a with
    | ⟨0, _⟩ => show win3_4.index t (0 : Fin 2) * 1 + 1 * 0 = 0; omega
    | ⟨1, _⟩ => show win3_4.index t (1 : Fin 2) * 128 + 1 * q.val = win3_5.index t (1 : Fin 2) * 128 + 1 * q.val; omega
  exact G3_5_congr (V c main_v46_0) (V c main_v57) (V c main_v46_1) (V c main_v15) (V c main_v19) (((cfg3.win 5).blk t).view.emb (ix2 p q))
    (((cfg3.win 0).blk t).view.emb (ix2 p q)) (((cfg3.win 1).blk t).view.emb (ix2 p q)) (((cfg3.win 2).blk t).view.emb (ix2 p q)) (((cfg3.win 3).blk t).view.emb (ix2 p (0 : Fin 2))) (((cfg3.win 3).blk t).view.emb (ix2 p (1 : Fin 2))) (((cfg3.win 4).blk t).view.emb (ix2 (0 : Fin 1) q))
    h0 h1 h2 h3_0 h3_1 h4

/-- An index of the output's array is in point `t`'s block iff each coordinate is in the block's range on its axis. -/
theorem mem_blk3_5 (t : Fin cfg3.N) (i : S50000x128.Idx) :
    i ∈ ((cfg3.win 5).blk t).view.set ↔ ∀ a : Fin 2, win3_5.index t a * S2000x128.size a ≤ (i a).val ∧ (i a).val < win3_5.index t a * S2000x128.size a + S2000x128.size a := by
  show i ∈ ((View.whole main_v58).slice (win3_5.rect t)).set ↔ _
  rw [View.set_slice_whole, Rect.mem_set_unit]
  exact Iff.rfl

/-- Every index of the output's array is in the block of the point its row falls in (row r in block r / 2000). -/
theorem covered3_5 (i : S50000x128.Idx) : ∃ t : Fin cfg3.N, (cfg3.win 5).flush t = true ∧ i ∈ ((cfg3.win 5).blk t).view.set := by
  have hi0 : (i 0).val < 50000 := (i 0).isLt
  have hi1 : (i 1).val < 128 := (i 1).isLt
  obtain ⟨t, ht⟩ : ∃ t : Fin cfg3.N, t.val = (i 0).val / 2000 :=
    ⟨⟨(i 0).val / 2000, by show (i 0).val / 2000 < grid3.N; rw [N_3]; omega⟩, rfl⟩
  obtain ⟨e00, e01, e10, e11, e20, e21, e30, e31, e40, e41, e50, e51⟩ := idx_facts3 t
  refine ⟨t, flush3_5 t, ?_⟩
  rw [mem_blk3_5]
  intro a
  match a with
  | ⟨0, _⟩ =>
    show win3_5.index t (0 : Fin 2) * 2000 ≤ (i 0).val ∧ (i 0).val < win3_5.index t (0 : Fin 2) * 2000 + 2000
    omega
  | ⟨1, _⟩ =>
    show win3_5.index t (1 : Fin 2) * 128 ≤ (i 1).val ∧ (i 1).val < win3_5.index t (1 : Fin 2) * 128 + 128
    omega

/-- THE OUTPUT's ARRAY after the region: the combine step of the arrays the region finds, index by index. -/
theorem fin3_5 (c : Dev nD) :
    (dat3 (F := Ideal) V c).arrAt 5 cfg3.N
      = G3_5 (V c main_v46_0) (V c main_v57) (V c main_v46_1) (V c main_v15) (V c main_v19) :=
  (dat3 V c).arrAt_eq_of_cover 5 _ (fun t _ => flushed3_5_eq V c t) covered3_5

end Cert.KernelIdeal.Hand

end
-- ==== Proof.IdealFin4.lean ====
/-
  Region 4 of the host program, read at the ideal values: what its output array holds after the region, index by index,
  as a function of the arrays the region finds.

  With P the pooled features (512 x 384), W and b the first weights and bias row (1 x 128), W' and b' the second:
      y (r, c) = (∑ k, max ((∑ j, P (r, j) · W (j, k)) + b (0, k), 0) · W' (k, c)) + b' (0, c)
      output (r, c) = y (r, c) / max (sqrt (0 + ∑ j, y (r, j) · y (r, j)), floor)
  (a change of float format is the identity on the extended reals, the matrix unit's product into a zero accumulator is
  the plain sum, and the lane reduction is the sum along the row).

  The steps: the payload read at an index, over variables — its value before normalisation first, then the row norm;
  the grid has one point and every window's block is its whole array; so the one point writes the whole output array.
-/
import proofs.«111900_j74998718923370_2_alg».proof.Proof.IdealReg4
import proofs.«111900_j74998718923370_2_alg».proof.Proof.Spec
import proofs.«111900_j74998718923370_2_alg».proof.Proof.LibPlainDot
import proofs.«111900_j74998718923370_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

theorem rowsum4 (v : FVec Ideal S512x128 .f32) (hacc : (0x00000000#32 : BitVec 32) = 0x00000000#32) (r : Fin 512) :
    multiReduction (F := Ideal) .add [1] S512 v 0x00000000#32 reduces_S512x128_S512 (.inl rfl) hacc (ix1 r) = ∑ j : Fin 128, v (ix2 r j) := by
  refine (Ideal.multiReduction_add_single v 0x00000000#32 reduces_S512x128_S512 (.inl rfl) hacc (ix1 r)).trans ?_
  refine Finset.sum_congr rfl fun j _ => ?_
  congr 1
  funext a
  match a with
  | ⟨0, _⟩ => rfl
  | ⟨1, _⟩ => rfl

/-- A row added to every row, the row kept as a one-row array. -/
abbrev addRow2 {a b : Nat} (x : Cert.Spec.A2 a b) (r : (⟨2, ![1, b]⟩ : Shape).Idx → EReal) : Cert.Spec.A2 a b :=
  fun i => x i + r (ix2 (0 : Fin 1) (i 1))

/-- The head before its normalisation: two affine maps with a rectifier between. -/
abbrev headQ (P : Cert.Spec.A2 512 384) (W1 : Cert.Spec.A2 384 128) (b1 : (⟨2, ![1, 128]⟩ : Shape).Idx → EReal)
    (W2 : Cert.Spec.A2 128 128) (b2 : (⟨2, ![1, 128]⟩ : Shape).Idx → EReal) : Cert.Spec.A2 512 128 :=
  addRow2 (Cert.Spec.lin (Cert.Spec.relu (addRow2 (Cert.Spec.lin P W1) b1)) W2) b2

/-- The head: each row of `headQ` divided by the larger of its Euclidean norm and the floor. -/
abbrev headF (P : Cert.Spec.A2 512 384) (W1 : Cert.Spec.A2 384 128) (b1 : (⟨2, ![1, 128]⟩ : Shape).Idx → EReal)
    (W2 : Cert.Spec.A2 128 128) (b2 : (⟨2, ![1, 128]⟩ : Shape).Idx → EReal) : Cert.Spec.A2 512 128 := fun i =>
  Ideal.div (headQ P W1 b1 W2 b2 i)
    (max (Ideal.sqrt (Cert.Spec.zeroW + ∑ j : Fin 128, headQ P W1 b1 W2 b2 (ix2 (i 0) j) * headQ P W1 b1 W2 b2 (ix2 (i 0) j))) Cert.Spec.tinyW)

/-- The payload's value before normalisation, as the body computes it. -/
def q4 (x0 : Vec Ideal S512x384 .f32) (x1 : Vec Ideal S384x128 .f32) (x2 : Vec Ideal S1x128 .f32) (x3 : Vec Ideal S128x128 .f32) (x4 : Vec Ideal S1x128 .f32) : FVec Ideal S512x128 .f32 :=
  addf (matmul dot_S512x128_S128x128_S512x128_1_0_0_1_n_n none
      (truncf .bf16 (maximumf (addf (matmul dot_S512x384_S384x128_S512x128_1_0_0_1_n_n none (truncf .bf16 (shapeCast S512x384 x0 shapeCasts_S512x384_S512x384) bitsLt_bf16_f32) (truncf .bf16 x1 bitsLt_bf16_f32) (constant S512x128 .f32 0x00000000#32)) (broadcastTo S512x128 (shapeCast S1x128 x2 shapeCasts_S1x128_S1x128) broadcasts_S1x128_S512x128)) (broadcast S512x128 (Scalar.ofBits .f32 0x00000000#32))) bitsLt_bf16_f32)
      (truncf .bf16 x3 bitsLt_bf16_f32) (constant S512x128 .f32 0x00000000#32))
    (broadcastTo S512x128 (shapeCast S1x128 x4 shapeCasts_S1x128_S1x128) broadcasts_S1x128_S512x128)

theorem q4_apply (x0 : Vec Ideal S512x384 .f32) (x1 : Vec Ideal S384x128 .f32) (x2 : Vec Ideal S1x128 .f32) (x3 : Vec Ideal S128x128 .f32) (x4 : Vec Ideal S1x128 .f32) (p : Fin 512) (q : Fin 128) :
    q4 x0 x1 x2 x3 x4 (ix2 p q) = headQ x0 x1 x2 x3 x4 (ix2 p q) := by
  unfold q4 headQ addRow2 Cert.Spec.lin Cert.Spec.relu
  simp only [shapeCast_self]
  rw [addf_apply, broadcastTo_1b_ab_apply]
  congr 1
  refine (Cert.LibPlainDot.matmul_zero_apply dot_S512x128_S128x128_S512x128_1_0_0_1_n_n_wf none _ _ p q).trans ?_
  refine Finset.sum_congr rfl fun k _ => ?_
  rw [truncf_apply, truncf_apply, maximumf_apply, broadcast_apply, addf_apply, broadcastTo_1b_ab_apply]
  congr 2
  congr 1
  exact Cert.LibPlainDot.matmul_zero_apply dot_S512x384_S384x128_S512x128_1_0_0_1_n_n_wf none (truncf .bf16 x0 bitsLt_bf16_f32) (truncf .bf16 x1 bitsLt_bf16_f32) p k

theorem pay4_1_eq (x0 : Vec Ideal S512x384 .f32) (x1 : Vec Ideal S384x128 .f32) (x2 : Vec Ideal S1x128 .f32) (x3 : Vec Ideal S128x128 .f32) (x4 : Vec Ideal S1x128 .f32) :
    k4_pay1 (F := Ideal) x0 x1 x2 x3 x4
      = divf (q4 x0 x1 x2 x3 x4) (broadcastTo S512x128 (maximumf (sqrt (shapeCast S512x1 (multiReduction (F := Ideal) .add [1] S512 (mulf (q4 x0 x1 x2 x3 x4) (q4 x0 x1 x2 x3 x4)) 0x00000000#32 reduces_S512x128_S512 (.inl rfl) rfl) shapeCasts_S512_S512x1)) (broadcast S512x1 (Scalar.ofBits .f32 0x2B8CBCCC#32))) broadcasts_S512x1_S512x128) := rfl

/-- The payload at an index: the head's function of the loaded arrays. -/
theorem pay4_1_apply (x0 : Vec Ideal S512x384 .f32) (x1 : Vec Ideal S384x128 .f32) (x2 : Vec Ideal S1x128 .f32) (x3 : Vec Ideal S128x128 .f32) (x4 : Vec Ideal S1x128 .f32) (p : Fin 512) (q : Fin 128) :
    k4_pay1 (F := Ideal) x0 x1 x2 x3 x4 (ix2 p q) = headF x0 x1 x2 x3 x4 (ix2 p q) := by
  rw [pay4_1_eq, divf_apply, Cert.LibKeepdims.broadcastTo_a1_ab_apply, maximumf_apply, broadcast_apply]
  show Ideal.div _ (max (Ideal.sqrt (shapeCast S512x1 _ shapeCasts_S512_S512x1 (ix2 p (0 : Fin 1)))) _) = _
  rw [Cert.LibKeepdims.shapeCast_a_a1_apply, rowsum4]
  simp only [mulf_apply, q4_apply]
  unfold headF
  rw [Cert.Spec.zeroW, Ideal.ofBits_zero_f32, zero_add]
  rfl

/-! ## The index maps, decided over the grid -/

theorem idx_facts4 : ∀ t : Fin cfg4.N,
    win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0 :=
  (by decide +kernel : ∀ t : Fin grid4.N, _)

section Blocks
variable {F : FTy → Type} [FloatOps F]
variable (V : (c : Dev nD) → (b : Ref sig .tc) → Buf (Elt F) ((c : Thread nD τ).loc b))

/-- Input window 0's block is its whole array. -/
theorem iblk4_0_apply (c : Dev nD) (t : Fin cfg4.N) (x k : S512x384.Idx) (hk0 : (k 0).val = (x 0).val) (hk1 : (k 1).val = (x 1).val) :
    (iblk4 V c 0 t : Vec F S512x384 .f32) x = (V c main_v81 : S512x384.Idx → Elt F .f32) k := by
  obtain ⟨e0, e1, -⟩ := idx_facts4 t
  unfold iblk4
  rw [View.read_apply]
  show V c main_v81 _ = V c main_v81 _
  congr 1
  funext a
  apply Fin.ext
  match a with
  | ⟨0, _⟩ => show win4_0.index t 0 * 512 + 1 * (x 0).val = (k 0).val; rw [e0, hk0]; omega
  | ⟨1, _⟩ => show win4_0.index t 1 * 384 + 1 * (x 1).val = (k 1).val; rw [e1, hk1]; omega

/-- Input window 1's block is its whole array. -/
theorem iblk4_1_apply (c : Dev nD) (t : Fin cfg4.N) (x k : S384x128.Idx) (hk0 : (k 0).val = (x 0).val) (hk1 : (k 1).val = (x 1).val) :
    (iblk4 V c 1 t : Vec F S384x128 .f32) x = (V c main_arg11 : S384x128.Idx → Elt F .f32) k := by
  obtain ⟨-, -, e0, e1, -⟩ := idx_facts4 t
  unfold iblk4
  rw [View.read_apply]
  show V c main_arg11 _ = V c main_arg11 _
  congr 1
  funext a
  apply Fin.ext
  match a with
  | ⟨0, _⟩ => show win4_1.index t 0 * 384 + 1 * (x 0).val = (k 0).val; rw [e0, hk0]; omega
  | ⟨1, _⟩ => show win4_1.index t 1 * 128 + 1 * (x 1).val = (k 1).val; rw [e1, hk1]; omega

/-- Input window 2's block is its whole array. -/
theorem iblk4_2_apply (c : Dev nD) (t : Fin cfg4.N) (x k : S1x128.Idx) (hk0 : (k 0).val = (x 0).val) (hk1 : (k 1).val = (x 1).val) :
    (iblk4 V c 2 t : Vec F S1x128 .f32) x = (V c main_v20 : S1x128.Idx → Elt F .f32) k := by
  obtain ⟨-, -, -, -, e0, e1, -⟩ := idx_facts4 t
  unfold iblk4
  rw [View.read_apply]
  show V c main_v20 _ = V c main_v20 _
  congr 1
  funext a
  apply Fin.ext
  match a with
  | ⟨0, _⟩ => show win4_2.index t 0 * 1 + 1 * (x 0).val = (k 0).val; rw [e0, hk0]; omega
  | ⟨1, _⟩ => show win4_2.index t 1 * 128 + 1 * (x 1).val = (k 1).val; rw [e1, hk1]; omega

/-- Input window 3's block is its whole array. -/
theorem iblk4_3_apply (c : Dev nD) (t : Fin cfg4.N) (x k : S128x128.Idx) (hk0 : (k 0).val = (x 0).val) (hk1 : (k 1).val = (x 1).val) :
    (iblk4 V c 3 t : Vec F S128x128 .f32) x = (V c main_arg13 : S128x128.Idx → Elt F .f32) k := by
  obtain ⟨-, -, -, -, -, -, e0, e1, -⟩ := idx_facts4 t
  unfold iblk4
  rw [View.read_apply]
  show V c main_arg13 _ = V c main_arg13 _
  congr 1
  funext a
  apply Fin.ext
  match a with
  | ⟨0, _⟩ => show win4_3.index t 0 * 128 + 1 * (x 0).val = (k 0).val; rw [e0, hk0]; omega
  | ⟨1, _⟩ => show win4_3.index t 1 * 128 + 1 * (x 1).val = (k 1).val; rw [e1, hk1]; omega

/-- Input window 4's block is its whole array. -/
theorem iblk4_4_apply (c : Dev nD) (t : Fin cfg4.N) (x k : S1x128.Idx) (hk0 : (k 0).val = (x 0).val) (hk1 : (k 1).val = (x 1).val) :
    (iblk4 V c 4 t : Vec F S1x128 .f32) x = (V c main_v21 : S1x128.Idx → Elt F .f32) k := by
  obtain ⟨-, -, -, -, -, -, -, -, e0, e1, -⟩ := idx_facts4 t
  unfold iblk4
  rw [View.read_apply]
  show V c main_v21 _ = V c main_v21 _
  congr 1
  funext a
  apply Fin.ext
  match a with
  | ⟨0, _⟩ => show win4_4.index t 0 * 1 + 1 * (x 0).val = (k 0).val; rw [e0, hk0]; omega
  | ⟨1, _⟩ => show win4_4.index t 1 * 128 + 1 * (x 1).val = (k 1).val; rw [e1, hk1]; omega

end Blocks

theorem hz4 : (![0, 0] : Fin 2 → Nat) = fun _ => 0 := funext fun a => by fin_cases a <;> rfl

variable (V : (c : Dev nD) → (b : Ref sig .tc) → Buf (Elt Ideal) ((c : Thread nD τ).loc b))

/-- The input windows' blocks are their arrays. -/
theorem iblk4_0_eq (c : Dev nD) (t : Fin cfg4.N) : (iblk4 V c 0 t : Vec Ideal S512x384 .f32) = (V c main_v81 : S512x384.Idx → Elt Ideal .f32) :=
  funext fun x => iblk4_0_apply V c t x x rfl rfl
theorem iblk4_1_eq (c : Dev nD) (t : Fin cfg4.N) : (iblk4 V c 1 t : Vec Ideal S384x128 .f32) = (V c main_arg11 : S384x128.Idx → Elt Ideal .f32) :=
  funext fun x => iblk4_1_apply V c t x x rfl rfl
theorem iblk4_2_eq (c : Dev nD) (t : Fin cfg4.N) : (iblk4 V c 2 t : Vec Ideal S1x128 .f32) = (V c main_v20 : S1x128.Idx → Elt Ideal .f32) :=
  funext fun x => iblk4_2_apply V c t x x rfl rfl
theorem iblk4_3_eq (c : Dev nD) (t : Fin cfg4.N) : (iblk4 V c 3 t : Vec Ideal S128x128 .f32) = (V c main_arg13 : S128x128.Idx → Elt Ideal .f32) :=
  funext fun x => iblk4_3_apply V c t x x rfl rfl
theorem iblk4_4_eq (c : Dev nD) (t : Fin cfg4.N) : (iblk4 V c 4 t : Vec Ideal S1x128 .f32) = (V c main_v21 : S1x128.Idx → Elt Ideal .f32) :=
  funext fun x => iblk4_4_apply V c t x x rfl rfl

/-- The payload on the blocks at the one point, read at `(p, q)`, is the head's function at `(p, q)`. -/
theorem pay4_1_blocks (c : Dev nD) (t : Fin cfg4.N) (p : Fin 512) (q : Fin 128) (i : S512x128.Idx)
    (hi0 : (i 0).val = p.val) (hi1 : (i 1).val = q.val) :
    k4_pay1 (F := Ideal) (iblk4 V c 0 t) (iblk4 V c 1 t) (iblk4 V c 2 t) (iblk4 V c 3 t) (iblk4 V c 4 t) (ix2 p q)
      = headF (V c main_v81) (V c main_arg11) (V c main_v20) (V c main_arg13) (V c main_v21) i := by
  rw [pay4_1_apply, iblk4_0_eq, iblk4_1_eq, iblk4_2_eq, iblk4_3_eq, iblk4_4_eq]
  congr 1
  funext a
  apply Fin.ext
  match a with
  | ⟨0, _⟩ => exact hi0.symm
  | ⟨1, _⟩ => exact hi1.symm

/-- What the one point writes back to the output window's array is `headF` of the arrays as the region finds them. -/
theorem flushed4_5_eq (c : Dev nD) (t : Fin cfg4.N) :
    (dat4 (F := Ideal) V c).flushed 5 t = ((cfg4.win 5).blk t).view.read (Elt Ideal) (headF (V c main_v81) (V c main_arg11) (V c main_v20) (V c main_arg13) (V c main_v21)) := by
  show (cfg4.win 5).cut (grid4.coords t) ((dat4 V c).after 5 t) = _
  rw [after4_5]
  unfold out4_5
  rw [View.canon_unit_zero hz4]
  simp only [View.ld_unit_zero (S := S512x384) hz4, View.ld_unit_zero (S := S384x128) hz4, View.ld_unit_zero (S := S1x128) hz4, View.ld_unit_zero (S := S128x128) hz4]
  obtain ⟨-, -, -, -, -, -, -, -, -, -, e0, e1⟩ := idx_facts4 t
  funext j
  obtain ⟨p, q, rfl⟩ : ∃ (p : Fin 512) (q : Fin 128), j = ix2 p q := ⟨j 0, j 1, eq_ix2 j⟩
  show k4_pay1 (F := Ideal) (iblk4 V c 0 t) (iblk4 V c 1 t) (iblk4 V c 2 t) (iblk4 V c 3 t) (iblk4 V c 4 t) (ix2 p q) = headF (V c main_v81) (V c main_arg11) (V c main_v20) (V c main_arg13) (V c main_v21) (((cfg4.win 5).blk t).view.emb (ix2 p q))
  refine pay4_1_blocks V c t p q _ ?_ ?_
  · show win4_5.index t 0 * 512 + 1 * p.val = _; rw [e0]; omega
  · show win4_5.index t 1 * 128 + 1 * q.val = _; rw [e1]; omega

/-- An index of the array is in the point's block iff each coordinate is in the block's range on its axis. -/
theorem mem_blk4_5 (t : Fin cfg4.N) (i : S512x128.Idx) :
    i ∈ ((cfg4.win 5).blk t).view.set ↔ ∀ a : Fin 2, win4_5.index t a * S512x128.size a ≤ (i a).val ∧ (i a).val < win4_5.index t a * S512x128.size a + S512x128.size a := by
  show i ∈ ((View.whole main_v82).slice (win4_5.rect t)).set ↔ _
  rw [View.set_slice_whole, Rect.mem_set_unit]
  exact Iff.rfl

/-- The one block is the whole array. -/
theorem covered4_5 (i : S512x128.Idx) : ∃ t : Fin cfg4.N, (cfg4.win 5).flush t = true ∧ i ∈ ((cfg4.win 5).blk t).view.set := by
  have hi0 : (i 0).val < 512 := idx2_lt0 i
  have hi1 : (i 1).val < 128 := idx2_lt1 i
  refine ⟨t4_0, flush4_5 _, ?_⟩
  rw [mem_blk4_5]
  obtain ⟨-, -, -, -, -, -, -, -, -, -, e0, e1⟩ := idx_facts4 t4_0
  intro a
  match a with
  | ⟨0, _⟩ => show win4_5.index _ 0 * 512 ≤ (i 0).val ∧ (i 0).val < win4_5.index _ 0 * 512 + 512; rw [e0]; omega
  | ⟨1, _⟩ => show win4_5.index _ 1 * 128 ≤ (i 1).val ∧ (i 1).val < win4_5.index _ 1 * 128 + 128; rw [e1]; omega

/-- The output window's array after the whole region. -/
theorem fin4_5 (c : Dev nD) : (dat4 (F := Ideal) V c).arrAt 5 cfg4.N = headF (V c main_v81) (V c main_arg11) (V c main_v20) (V c main_arg13) (V c main_v21) :=
  (dat4 (F := Ideal) V c).arrAt_eq_of_cover 5 (headF (V c main_v81) (V c main_arg11) (V c main_v20) (V c main_arg13) (V c main_v21)) (fun t _ => flushed4_5_eq V c t) (fun i => covered4_5 i)

/-- With each bias row read as a vector, `headF` is the head of the two computations' common vocabulary. -/
theorem headF_eq_head (P : Cert.Spec.A2 512 384) (W1 : Cert.Spec.A2 384 128) (b1 : (⟨2, ![1, 128]⟩ : Shape).Idx → EReal)
    (W2 : Cert.Spec.A2 128 128) (b2 : (⟨2, ![1, 128]⟩ : Shape).Idx → EReal) :
    headF P W1 b1 W2 b2 = Cert.Spec.head P W1 (fun m => b1 (ix2 (0 : Fin 1) (m 0))) W2 (fun m => b2 (ix2 (0 : Fin 1) (m 0))) := rfl

end Cert.KernelIdeal.Hand

end
-- ==== Proof.LibRowGather.lean ====
/-
  A gather of rows, read at an index.

  The operand is an [N, C] array and the start indices an [E, 1] array of row numbers; the result is the [E, C]
  array whose row `e` is the operand's row `idx[e, 0]`, the row number read as a signed integer and clamped
  into `[0, N − 1]`. This is what `x[rows]` of a matrix lowers to: offset_dims [1], collapsed_slice_dims [0],
  start_index_map [0], index_vector_dim 1, slice_sizes [1, C].

  So column `c` of the result reads column `c` of the operand, at a row that depends on the row numbers only.
-/
import Idealize.ShloMosaic.Lib.ValueIdx

noncomputable section

namespace Idealize.ShloMosaic.RowGather

open Idealize.ShloMosaic Idealize.ShloMosaic.ValueIdx

variable {N E C : Nat} {α : Type}

/-- Of the two axes, only the row axis is named by the gather's start index map … -/
private theorem one_not_mem : (1 : Fin 2) ∉ ([0] : List (Fin 2)) := by decide
/-- … and only the column axis is kept as an offset axis. -/
private theorem zero_not_kept : (0 : Fin 2) ∉ (List.finRange 2).filter (fun a : Fin 2 => a ∉ ([0] ++ [] : List (Fin 2))) := by decide
private theorem one_kept : (1 : Fin 2) ∈ (List.finRange 2).filter (fun a : Fin 2 => a ∉ ([0] ++ [] : List (Fin 2))) := by decide

/-- The dimension numbers of a gather of [E, 1] row numbers out of an [N, C] operand. -/
abbrev dims (N E C : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

variable (wf : GatherDims.WF ⟨2, ![N, C]⟩ ⟨2, ![E, 1]⟩ ⟨2, ![E, C]⟩ [1] [0] [] [0] [] 1 ![1, C])

/-- The operand row a result row reads: its row number, read signed and clamped into `[0, N − 1]`. -/
def row {w : Nat} (hN : 0 < N) (idx : IVec ⟨2, ![E, 1]⟩ w) (e : Fin E) : Fin N :=
  ⟨min (idx (ix2 e (0 : Fin 1))).toInt.toNat (N - 1), by omega⟩

/-- Result index (e, c) reads its row number at start-indices index (e, 0). -/
theorem siIdx_eq (j : (⟨2, ![E, C]⟩ : Shape).Idx) :
    (dims N E C wf).siIdx j ⟨List.idxOf (0 : Fin 2) (dims N E C wf).startIndexMap,
      List.idxOf_lt_length_iff.2 (List.mem_singleton.mpr rfl)⟩ = ix2 (j 0) (0 : Fin 1) := by
  funext b; refine Fin.ext ?_
  match b with
  | ⟨0, _⟩ => rfl
  | ⟨1, _⟩ => rfl

/-- THE GATHER READ AT (e, c): the operand at (row e, c). -/
theorem gather_apply {w : Nat} (hN : 0 < N) (x : (⟨2, ![N, C]⟩ : Shape).Idx → α) (idx : IVec ⟨2, ![E, 1]⟩ w)
    (e : Fin E) (c : Fin C) :
    Host.gather (dims N E C wf) x idx (ix2 e c) = x (ix2 (row hN idx e) c) := by
  unfold Host.gather
  congr 1
  funext a
  refine Fin.ext ?_
  match a with
  | ⟨0, _⟩ =>
    show (dims N E C wf).start (ix2 e c) idx 0 + (dims N E C wf).batchCoord (ix2 e c) 0 + (dims N E C wf).offCoord (ix2 e c) 0 = _
    rw [GatherDims.batchCoord_eq_zero _ _ _ List.not_mem_nil, Nat.add_zero,
      GatherDims.offCoord_eq_zero _ _ _ (show (0 : Fin 2) ∉ (dims N E C wf).sKept from zero_not_kept), Nat.add_zero]
    unfold GatherDims.start
    rw [dif_pos (show (0 : Fin 2) ∈ (dims N E C wf).startIndexMap from List.mem_singleton.mpr rfl), siIdx_eq]
    rfl
  | ⟨1, _⟩ =>
    show (dims N E C wf).start (ix2 e c) idx 1 + (dims N E C wf).batchCoord (ix2 e c) 1 + (dims N E C wf).offCoord (ix2 e c) 1 = _
    rw [GatherDims.batchCoord_eq_zero _ _ _ List.not_mem_nil, Nat.add_zero]
    unfold GatherDims.start
    rw [dif_neg (show (1 : Fin 2) ∉ (dims N E C wf).startIndexMap from one_not_mem), Nat.zero_add]
    unfold GatherDims.offCoord
    rw [dif_pos (show (1 : Fin 2) ∈ (dims N E C wf).sKept from one_kept)]
    rfl

end Idealize.ShloMosaic.RowGather

end
-- ==== Proof.LibRowScatter.lean ====
/-
  A scatter-add of rows, read at an index, on the extended reals.

  The operand is an [N, C] array, the scatter indices an [E, 1] array of row numbers, the updates an [E, C]
  array: update row `e` is added onto operand row `idx[e, 0]` (read as a signed integer), column by column,
  and dropped when that row number is outside `[0, N)`. This is what `jax.ops.segment_sum` of an [E, C] array
  (and `x.at[rows].add(u)`) lowers to: update_window_dims [1], inserted_window_dims [0],
  scatter_dims_to_operand_dims [0], index_vector_dim 1.

  On the extended reals the result at (n, c) is the operand there plus the sum, over the update rows `e` whose
  row number is `n`, of the update at (e, c): a column of the result depends on the same column of the
  operand and the updates and on nothing else.
-/
import Idealize.ShloMosaic.Lib.ValueIdx
import Idealize.ShloMosaic.PureOps.Contract
import Idealize.ShloMosaic.PureOps.Ideal

noncomputable section

namespace Idealize.ShloMosaic.RowScatter

open Idealize.ShloMosaic Idealize.ShloMosaic.ValueIdx

variable {N E C : Nat}

/-- Of the two axes, only the row axis is named by the scatter's index map … -/
private theorem one_not_mem : (1 : Fin 2) ∉ ([0] : List (Fin 2)) := by decide
/-- … and only the column axis is kept as a window axis. -/
private theorem zero_not_kept : (0 : Fin 2) ∉ (List.finRange 2).filter (fun a : Fin 2 => a ∉ ([0] : List (Fin 2))) := by decide
private theorem one_kept : (1 : Fin 2) ∈ (List.finRange 2).filter (fun a : Fin 2 => a ∉ ([0] : List (Fin 2))) := by decide

/-- The dimension numbers of a scatter of [E, C] update rows into an [N, C] operand at [E, 1] row numbers. -/
abbrev dims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable (wf : ScatterDims.WF ⟨2, ![N, C]⟩ ⟨2, ![E, 1]⟩ ⟨2, ![E, C]⟩ [1] [0] [0] 1)

/-- Update index (e, c) reads its row number at scatter-indices index (e, 0). -/
theorem siIdx_eq (j : (⟨2, ![E, C]⟩ : Shape).Idx) :
    (dims N E C wf).siIdx j ⟨List.idxOf (0 : Fin 2) (dims N E C wf).scatterDimsToOperandDims,
      List.idxOf_lt_length_iff.2 (List.mem_singleton.mpr rfl)⟩ = ix2 (j 0) (0 : Fin 1) := by
  funext b; refine Fin.ext ?_
  match b with
  | ⟨0, _⟩ => rfl
  | ⟨1, _⟩ => rfl

/-- On the row axis the window starts at the row number, read signed. -/
theorem start_zero {w : Nat} (j : (⟨2, ![E, C]⟩ : Shape).Idx) (idx : IVec ⟨2, ![E, 1]⟩ w) :
    (dims N E C wf).start j idx 0 = (idx (ix2 (j 0) (0 : Fin 1))).toInt := by
  unfold ScatterDims.start
  rw [dif_pos (show (0 : Fin 2) ∈ (dims N E C wf).scatterDimsToOperandDims from List.mem_singleton.mpr rfl), siIdx_eq]
  rfl

/-- On the column axis it starts at zero. -/
theorem start_one {w : Nat} (j : (⟨2, ![E, C]⟩ : Shape).Idx) (idx : IVec ⟨2, ![E, 1]⟩ w) :
    (dims N E C wf).start j idx 1 = 0 := by
  unfold ScatterDims.start
  rw [dif_neg (show (1 : Fin 2) ∉ (dims N E C wf).scatterDimsToOperandDims from one_not_mem)]

/-- The window has one row … -/
theorem window_zero (j : (⟨2, ![E, C]⟩ : Shape).Idx) : (dims N E C wf).window j 0 = 0 := by
  unfold ScatterDims.window
  rw [dif_neg (show (0 : Fin 2) ∉ (dims N E C wf).sKept from zero_not_kept)]

/-- … and the update's columns. -/
theorem window_one (j : (⟨2, ![E, C]⟩ : Shape).Idx) : (dims N E C wf).window j 1 = (j 1).val := by
  unfold ScatterDims.window
  rw [dif_pos (show (1 : Fin 2) ∈ (dims N E C wf).sKept from one_kept)]
  rfl

/-- Update index `j` lands on operand index (n, c) exactly when its row number is `n` and its column is `c`. -/
theorem resultIdx?_eq_some_iff {w : Nat} (j : (⟨2, ![E, C]⟩ : Shape).Idx) (idx : IVec ⟨2, ![E, 1]⟩ w) (n : Fin N) (c : Fin C) :
    (dims N E C wf).resultIdx? j idx = some (ix2 n c) ↔
      (idx (ix2 (j 0) (0 : Fin 1))).toInt = (n.val : Int) ∧ (j 1).val = c.val := by
  have hn := n.isLt
  have hc := c.isLt
  have hj1 : (j 1).val < C := (j 1).isLt
  unfold ScatterDims.resultIdx?
  split
  · next h =>
    have h0 := h 0
    have h1 := h 1
    rw [start_zero, window_zero] at h0
    rw [start_one, window_one] at h1
    rw [Option.some.injEq]
    constructor
    · intro hf
      have e0 := congrArg (fun f => (f 0).val) hf
      have e1 := congrArg (fun f => (f 1).val) hf
      simp only [start_zero, window_zero, start_one, window_one] at e0 e1
      have e0' : ((idx (ix2 (j 0) (0 : Fin 1))).toInt + ((0 : Nat) : Int)).toNat = n.val := e0
      have e1' : ((0 : Int) + ((j 1).val : Int)).toNat = c.val := e1
      constructor
      · omega
      · omega
    · rintro ⟨e0, e1⟩
      funext a; refine Fin.ext ?_
      match a with
      | ⟨0, _⟩ =>
        show ((dims N E C wf).start j idx 0 + ((dims N E C wf).window j 0 : Int)).toNat = n.val
        rw [start_zero, window_zero]; omega
      | ⟨1, _⟩ =>
        show ((dims N E C wf).start j idx 1 + ((dims N E C wf).window j 1 : Int)).toNat = c.val
        rw [start_one, window_one]; omega
  · next h =>
    constructor
    · intro hf; exact absurd hf (by simp)
    · rintro ⟨e0, e1⟩
      exfalso; apply h
      intro a
      match a with
      | ⟨0, _⟩ =>
        show 0 ≤ (dims N E C wf).start j idx 0 + ((dims N E C wf).window j 0 : Int) ∧
          (dims N E C wf).start j idx 0 + ((dims N E C wf).window j 0 : Int) < (N : Int)
        rw [start_zero, window_zero]; omega
      | ⟨1, _⟩ =>
        show 0 ≤ (dims N E C wf).start j idx 1 + ((dims N E C wf).window j 1 : Int) ∧
          (dims N E C wf).start j idx 1 + ((dims N E C wf).window j 1 : Int) < (C : Int)
        rw [start_one, window_one]; omega

/-- THE SCATTER-ADD READ AT (n, c), on the extended reals: the operand there plus the sum of column `c` of the update
    rows whose row number is `n`. -/
theorem scatterAdd_apply {φ : FTy} {w : Nat} (x : FVec Ideal ⟨2, ![N, C]⟩ φ) (idx : IVec ⟨2, ![E, 1]⟩ w)
    (upd : FVec Ideal ⟨2, ![E, C]⟩ φ) (n : Fin N) (c : Fin C) :
    Host.scatterAdd (dims N E C wf) x idx upd (ix2 n c)
      = x (ix2 n c) + ∑ e ∈ Finset.univ.filter (fun e : Fin E => (idx (ix2 e (0 : Fin 1))).toInt = (n.val : Int)), upd (ix2 e c) := by
  show Ideal.hostScatterAdd (dims N E C wf) x idx upd (ix2 n c) = _
  unfold Ideal.hostScatterAdd
  congr 1
  refine Finset.sum_nbij' (fun j => (j 0 : Fin E)) (fun e => ix2 e c) ?_ ?_ ?_ ?_ ?_
  · intro j hj
    have hj' := (Finset.mem_filter.1 hj).2
    exact Finset.mem_filter.2 ⟨Finset.mem_univ _, ((resultIdx?_eq_some_iff wf j idx n c).1 hj').1⟩
  · intro e he
    have he' := (Finset.mem_filter.1 he).2
    exact Finset.mem_filter.2 ⟨Finset.mem_univ _, (resultIdx?_eq_some_iff wf (ix2 e c) idx n c).2 ⟨he', rfl⟩⟩
  · intro j hj
    have h1 := ((resultIdx?_eq_some_iff wf j idx n c).1 (Finset.mem_filter.1 hj).2).2
    have hc : (j 1 : Fin C) = c := Fin.ext h1
    show ix2 (j 0 : Fin E) c = j
    rw [← hc]; exact (eq_ix2 j).symm
  · intro e _; rfl
  · intro j hj
    have h1 := ((resultIdx?_eq_some_iff wf j idx n c).1 (Finset.mem_filter.1 hj).2).2
    have hc : (j 1 : Fin C) = c := Fin.ext h1
    show upd j = upd (ix2 (j 0 : Fin E) c)
    rw [← hc]; exact congrArg upd (eq_ix2 j)

end Idealize.ShloMosaic.RowScatter

end
-- ==== Proof.IdealHost1.lean ====
/-
  The host stretches that propagate along the edges, read at an index.

  Between two layers the host program turns the layer's scaled features x (50000 × 128), the edges' source numbers and
  destination numbers into the array whose entry (n, c) is the sum, over the edges whose destination number is n, of
  x at (row of the edge's source, c): the source number is increased by 50000 when it is negative, the gather clamps it
  into the node range, the widening of the format is the identity on the extended reals, and the scatter-add onto a
  zero array drops the edges whose destination is outside the node range.
-/
import proofs.«111900_j74998718923370_2_alg».proof.Proof.Gen.KernelIdeal.Launch
import proofs.«111900_j74998718923370_2_alg».proof.Proof.Spec
import proofs.«111900_j74998718923370_2_alg».proof.Proof.LibRowGather
import proofs.«111900_j74998718923370_2_alg».proof.Proof.LibRowScatter
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx Idealize.ShloMosaic.StableHlo

/-- A vector [E] seen as a column [E, 1] reads, at (e, u), the vector at e. -/
theorem bcastCol_apply {α : Type} {E : Nat} (bc : (⟨1, ![E]⟩ : Shape).BroadcastsInDim ⟨2, ![E, 1]⟩ ![0])
    (v : (⟨1, ![E]⟩ : Shape).Idx → α) (e : Fin E) (u : Fin 1) :
    broadcastInDim ⟨2, ![E, 1]⟩ ![0] bc v (ix2 e u) = v (ix1 e) := by
  refine broadcastInDim_apply _ bc v (ix2 e u) (ix1 e) fun a => ?_
  match a with
  | ⟨0, _⟩ =>
    show e.val = if E = 1 then 0 else e.val
    have := e.isLt
    split <;> omega

/-- Choosing s + 50000 when s is negative and s otherwise is the wrap-around of a row number. -/
theorem select_wrap (s : BitVec 32) :
    Scalar.select (IntOp.cmpi .slt s 0#32) (IntOp.addi s 50000#32) s = Cert.Spec.wrap s := by
  unfold Scalar.select IntOp.cmpi IntOp.addi Cert.Spec.wrap
  cases s.slt 0#32 <;> rfl

/-- The source numbers, each increased by 50000 when negative. -/
def wrapVec (src : IVec S800000 32) : IVec S800000 32 :=
  select (cmpi .slt src (broadcastInDim S800000 ![] bcast_S_S800000 (constantI S_ 32 0#32)))
    (addi src (broadcastInDim S800000 ![] bcast_S_S800000 (constantI S_ 32 50000#32))) src

/-- Entry e of the wrapped source numbers is the wrap-around of source number e. -/
theorem wrapVec_apply (src : IVec S800000 32) (e : Fin 800000) : wrapVec src (ix1 e) = Cert.Spec.wrap (src (ix1 e)) := by
  show Scalar.select (IntOp.cmpi .slt (src (ix1 e)) 0#32) (IntOp.addi (src (ix1 e)) 50000#32) (src (ix1 e)) = _
  exact select_wrap _

/-- One propagation stretch as a function of the scaled features, the source numbers and the destination numbers. -/
def aggFn (x : FVec Ideal S50000x128 .bf16) (src dst : IVec S800000 32) : FVec Ideal S50000x128 .f32 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (extf .f32 (Host.gather gather_S50000x128_S800000x1_S800000x128_1_0_n_n_0_1_1128 x
      (broadcastInDim S800000x1 ![0] bcast_S800000_S800000x1_0 (wrapVec src))) bitsLt_bf16_f32)

/-- The edge sums: entry (n, c) is zero plus the sum, over the edges whose destination number is n, of the features at the
    edge's wrapped and clamped source row, column c. -/
def aggSpec (x : Cert.Spec.A2 50000 128) (src dst : S800000.Idx → BitVec 32) : Cert.Spec.A2 50000 128 := fun i =>
  Cert.Spec.zeroW + ∑ e ∈ Finset.univ.filter (fun e : Fin 800000 => (dst (ix1 e)).toInt = ((i 0).val : Int)),
    x (ix2 (Cert.Spec.clampRow (Cert.Spec.wrap (src (ix1 e)))) (i 1))

/-- The stretch computes the edge sums. -/
theorem aggFn_eq (x : FVec Ideal S50000x128 .bf16) (src dst : IVec S800000 32) : aggFn x src dst = aggSpec x src dst := by
  funext i
  obtain ⟨n, c, rfl⟩ : ∃ (n : Fin 50000) (c : Fin 128), i = ix2 n c := ⟨i 0, i 1, eq_ix2 i⟩
  unfold aggFn aggSpec
  have hs : scatter_S50000x128_S800000x1_S800000x128_1_0_0_1
      = RowScatter.dims 50000 800000 128 scatter_S50000x128_S800000x1_S800000x128_1_0_0_1_wf := rfl
  have hg : gather_S50000x128_S800000x1_S800000x128_1_0_n_n_0_1_1128
      = RowGather.dims 50000 800000 128 gather_S50000x128_S800000x1_S800000x128_1_0_n_n_0_1_1128_wf := rfl
  rw [hs, hg, RowScatter.scatterAdd_apply]
  refine congrArg₂ (· + ·) rfl ?_
  have hf : ∀ e : Fin 800000,
      (broadcastInDim S800000x1 ![0] bcast_S800000_S800000x1_0 dst (ix2 e (0 : Fin 1))).toInt = (n.val : Int)
        ↔ (dst (ix1 e)).toInt = (n.val : Int) := fun e => by rw [bcastCol_apply]
  rw [Finset.filter_congr (fun e _ => hf e)]
  refine Finset.sum_congr rfl fun e _ => ?_
  rw [extf_apply, RowGather.gather_apply _ (by decide : 0 < 50000)]
  refine congrArg x (congrArg (fun r => ix2 r c) (Fin.ext ?_))
  show min (broadcastInDim S800000x1 ![0] bcast_S800000_S800000x1_0 (wrapVec src) (ix2 e (0 : Fin 1))).toInt.toNat (50000 - 1)
    = min (Cert.Spec.wrap (src (ix1 e))).toInt.toNat 49999
  rw [bcastCol_apply, wrapVec_apply]

variable (W : Valuation τ sig (Elt Ideal))

/-- What propagation stretch 1 leaves in its result array, as the stretch's function of what it reads. -/
theorem h1_term :
    (StableHlo.after hostOps1 W (Proc.devRef .tc main_v33) : S50000x128.Idx → EReal)
      = aggFn (W (Proc.devRef .tc main_v22_2)) (W (Proc.devRef .tc main_v1)) (W (Proc.devRef .tc main_v3)) := by
  dsimp only [hostOps1]; after_results; rfl

/-- Propagation stretch 1 leaves the edge sums of the scaled features it reads. -/
theorem h1_agg :
    (StableHlo.after hostOps1 W (Proc.devRef .tc main_v33) : S50000x128.Idx → EReal)
      = aggSpec (W (Proc.devRef .tc main_v22_2)) (W (Proc.devRef .tc main_v1)) (W (Proc.devRef .tc main_v3)) :=
  (h1_term W).trans (aggFn_eq _ _ _)

/-- What propagation stretch 2 leaves in its result array, as the stretch's function of what it reads. -/
theorem h2_term :
    (StableHlo.after hostOps2 W (Proc.devRef .tc main_v45) : S50000x128.Idx → EReal)
      = aggFn (W (Proc.devRef .tc main_v34_2)) (W (Proc.devRef .tc main_v1)) (W (Proc.devRef .tc main_v3)) := by
  dsimp only [hostOps2]; after_results; rfl

/-- Propagation stretch 2 leaves the edge sums of the scaled features it reads. -/
theorem h2_agg :
    (StableHlo.after hostOps2 W (Proc.devRef .tc main_v45) : S50000x128.Idx → EReal)
      = aggSpec (W (Proc.devRef .tc main_v34_2)) (W (Proc.devRef .tc main_v1)) (W (Proc.devRef .tc main_v3)) :=
  (h2_term W).trans (aggFn_eq _ _ _)

/-- What propagation stretch 3 leaves in its result array, as the stretch's function of what it reads. -/
theorem h3_term :
    (StableHlo.after hostOps3 W (Proc.devRef .tc main_v57) : S50000x128.Idx → EReal)
      = aggFn (W (Proc.devRef .tc main_v46_2)) (W (Proc.devRef .tc main_v1)) (W (Proc.devRef .tc main_v3)) := by
  dsimp only [hostOps3]; after_results; rfl

/-- Propagation stretch 3 leaves the edge sums of the scaled features it reads. -/
theorem h3_agg :
    (StableHlo.after hostOps3 W (Proc.devRef .tc main_v57) : S50000x128.Idx → EReal)
      = aggSpec (W (Proc.devRef .tc main_v46_2)) (W (Proc.devRef .tc main_v1)) (W (Proc.devRef .tc main_v3)) :=
  (h3_term W).trans (aggFn_eq _ _ _)

end Cert.KernelIdeal.Hand

end
-- ==== Proof.IdealHost0.lean ====
/-
  The first host stretch, read at an index: the rows of the edge array and the bias rows.

  Before the first layer the host program splits the edge array into its row of source numbers and its row of
  destination numbers (a slice of one row, flattened), and turns each bias vector into a one-row matrix.
-/
import proofs.«111900_j74998718923370_2_alg».proof.Proof.IdealHost1

set_option maxRecDepth 16384

noncomputable section

namespace Cert.KernelIdeal.Hand

open Cert.KernelIdeal Cert.KernelIdeal.Gen
open Idealize.ShloMosaic Idealize.ShloMosaic.ValueIdx Idealize.ShloMosaic.StableHlo

/-! ## The rows of the edge array -/

/-- Row r of the edge array, as a vector. -/
def rowOf (r : Fin 2) (ei : Cert.Spec.EI) : S800000.Idx → BitVec 32 := fun i => ei (ix2 r (i 0))

/-- The host's row 0: a slice of one row, flattened. -/
def edgeRow0 (ei : IVec S2x800000 32) : IVec S800000 32 :=
  shapeCast S800000 (extractStridedSlice S1x800000 ![0, 0] ei slices_S2x800000_S1x800000_0_0) shapeCasts_S1x800000_S800000
/-- The host's row 1. -/
def edgeRow1 (ei : IVec S2x800000 32) : IVec S800000 32 :=
  shapeCast S800000 (extractStridedSlice S1x800000 ![1, 0] ei slices_S2x800000_S1x800000_1_0) shapeCasts_S1x800000_S800000

/-- Entry e of the flattened slice of row 0 is the edge array at (0, e). -/
theorem edgeRow0_apply (ei : IVec S2x800000 32) (e : Fin 800000) : edgeRow0 ei (ix1 e) = ei (ix2 (0 : Fin 2) e) := by
  unfold edgeRow0
  rw [shapeCast_apply _ shapeCasts_S1x800000_S800000 (ix1 e) (ix2 (0 : Fin 1) e) (by
    rw [Shape.rowMajor_val_two, Shape.rowMajor_val_one]
    show 0 * 800000 + e.val = e.val
    omega)]
  exact extractStridedSlice_apply ![0, 0] ei slices_S2x800000_S1x800000_0_0 (ix2 (0 : Fin 1) e) (ix2 (0 : Fin 2) e) (fun a => by
    match a with
    | ⟨0, _⟩ => rfl
    | ⟨1, _⟩ => show e.val = 0 + e.val; omega)

/-- Entry e of the flattened slice of row 1 is the edge array at (1, e). -/
theorem edgeRow1_apply (ei : IVec S2x800000 32) (e : Fin 800000) : edgeRow1 ei (ix1 e) = ei (ix2 (1 : Fin 2) e) := by
  unfold edgeRow1
  rw [shapeCast_apply _ shapeCasts_S1x800000_S800000 (ix1 e) (ix2 (0 : Fin 1) e) (by
    rw [Shape.rowMajor_val_two, Shape.rowMajor_val_one]
    show 0 * 800000 + e.val = e.val
    omega)]
  exact extractStridedSlice_apply ![1, 0] ei slices_S2x800000_S1x800000_1_0 (ix2 (0 : Fin 1) e) (ix2 (1 : Fin 2) e) (fun a => by
    match a with
    | ⟨0, _⟩ => rfl
    | ⟨1, _⟩ => show e.val = 0 + e.val; omega)

theorem edgeRow0_eq (ei : IVec S2x800000 32) : edgeRow0 ei = rowOf 0 ei := by
  funext i; rw [eq_ix1 i]; exact edgeRow0_apply ei (i 0)
theorem edgeRow1_eq (ei : IVec S2x800000 32) : edgeRow1 ei = rowOf 1 ei := by
  funext i; rw [eq_ix1 i]; exact edgeRow1_apply ei (i 0)

/-- A vector as a one-row matrix. -/
def asRow (b : Cert.Spec.A1 128) : Cert.Spec.A2 1 128 := fun i => b (ix1 (i 1))

/-- A bias vector cast to one row reads, at (0, c), the vector at c. -/
theorem asRow_eq (b : FVec Ideal S128 .f32) : shapeCast S1x128 b shapeCasts_S128_S1x128 = asRow b := by
  funext i
  obtain ⟨u, c, rfl⟩ : ∃ (u : Fin 1) (c : Fin 128), i = ix2 u c := ⟨i 0, i 1, eq_ix2 i⟩
  refine shapeCast_apply b shapeCasts_S128_S1x128 (ix2 u c) (ix1 c) ?_
  have hu : u.val = 0 := by omega
  rw [Shape.rowMajor_val_two, Shape.rowMajor_val_one]
  show c.val = u.val * 128 + c.val
  rw [hu]; omega

variable (W : Valuation τ sig (Elt Ideal))

/-- The source numbers after the first stretch: row 0 of the edge array. -/
theorem h0_src :
    (StableHlo.after hostOps0 W (Proc.devRef .tc main_v1) : S800000.Idx → BitVec 32)
      = fun i => W (Proc.devRef .tc main_arg1) (ix2 (0 : Fin 2) (i 0)) := by
  have e : (StableHlo.after hostOps0 W (Proc.devRef .tc main_v1) : S800000.Idx → BitVec 32)
      = edgeRow0 (W (Proc.devRef .tc main_arg1)) := by dsimp only [hostOps0]; after_results; rfl
  rw [e, edgeRow0_eq]
  rfl

/-- The destination numbers after the first stretch: row 1 of the edge array. -/
theorem h0_dst :
    (StableHlo.after hostOps0 W (Proc.devRef .tc main_v3) : S800000.Idx → BitVec 32)
      = fun i => W (Proc.devRef .tc main_arg1) (ix2 (1 : Fin 2) (i 0)) := by
  have e : (StableHlo.after hostOps0 W (Proc.devRef .tc main_v3) : S800000.Idx → BitVec 32)
      = edgeRow1 (W (Proc.devRef .tc main_arg1)) := by dsimp only [hostOps0]; after_results; rfl
  rw [e, edgeRow1_eq]
  rfl

/-- Bias row 16 after the first stretch: the bias vector as one row. -/
theorem h0_bias16 :
    (StableHlo.after hostOps0 W (Proc.devRef .tc main_v16) : S1x128.Idx → EReal)
      = fun i => W (Proc.devRef .tc main_arg4) (ix1 (i 1)) := by
  have e : (StableHlo.after hostOps0 W (Proc.devRef .tc main_v16) : S1x128.Idx → EReal)
      = shapeCast S1x128 (W (Proc.devRef .tc main_arg4)) shapeCasts_S128_S1x128 := by dsimp only [hostOps0]; after_results; rfl
  rw [e, asRow_eq]
  rfl

/-- Bias row 17 after the first stretch: the bias vector as one row. -/
theorem h0_bias17 :
    (StableHlo.after hostOps0 W (Proc.devRef .tc main_v17) : S1x128.Idx → EReal)
      = fun i => W (Proc.devRef .tc main_arg6) (ix1 (i 1)) := by
  have e : (StableHlo.after hostOps0 W (Proc.devRef .tc main_v17) : S1x128.Idx → EReal)
      = shapeCast S1x128 (W (Proc.devRef .tc main_arg6)) shapeCasts_S128_S1x128 := by dsimp only [hostOps0]; after_results; rfl
  rw [e, asRow_eq]
  rfl

/-- Bias row 18 after the first stretch: the bias vector as one row. -/
theorem h0_bias18 :
    (StableHlo.after hostOps0 W (Proc.devRef .tc main_v18) : S1x128.Idx → EReal)
      = fun i => W (Proc.devRef .tc main_arg8) (ix1 (i 1)) := by
  have e : (StableHlo.after hostOps0 W (Proc.devRef .tc main_v18) : S1x128.Idx → EReal)
      = shapeCast S1x128 (W (Proc.devRef .tc main_arg8)) shapeCasts_S128_S1x128 := by dsimp only [hostOps0]; after_results; rfl
  rw [e, asRow_eq]
  rfl

/-- Bias row 19 after the first stretch: the bias vector as one row. -/
theorem h0_bias19 :
    (StableHlo.after hostOps0 W (Proc.devRef .tc main_v19) : S1x128.Idx → EReal)
      = fun i => W (Proc.devRef .tc main_arg10) (ix1 (i 1)) := by
  have e : (StableHlo.after hostOps0 W (Proc.devRef .tc main_v19) : S1x128.Idx → EReal)
      = shapeCast S1x128 (W (Proc.devRef .tc main_arg10)) shapeCasts_S128_S1x128 := by dsimp only [hostOps0]; after_results; rfl
  rw [e, asRow_eq]
  rfl

/-- Bias row 20 after the first stretch: the bias vector as one row. -/
theorem h0_bias20 :
    (StableHlo.after hostOps0 W (Proc.devRef .tc main_v20) : S1x128.Idx → EReal)
      = fun i => W (Proc.devRef .tc main_arg12) (ix1 (i 1)) := by
  have e : (StableHlo.after hostOps0 W (Proc.devRef .tc main_v20) : S1x128.Idx → EReal)
      = shapeCast S1x128 (W (Proc.devRef .tc main_arg12)) shapeCasts_S128_S1x128 := by dsimp only [hostOps0]; after_results; rfl
  rw [e, asRow_eq]
  rfl

/-- Bias row 21 after the first stretch: the bias vector as one row. -/
theorem h0_bias21 :
    (StableHlo.after hostOps0 W (Proc.devRef .tc main_v21) : S1x128.Idx → EReal)
      = fun i => W (Proc.devRef .tc main_arg14) (ix1 (i 1)) := by
  have e : (StableHlo.after hostOps0 W (Proc.devRef .tc main_v21) : S1x128.Idx → EReal)
      = shapeCast S1x128 (W (Proc.devRef .tc main_arg14)) shapeCasts_S128_S1x128 := by dsimp only [hostOps0]; after_results; rfl
  rw [e, asRow_eq]
  rfl

end Cert.KernelIdeal.Hand

end
-- ==== Proof.IdealForms.lean ====
/-
  The readings of the kernel program's pieces, recognised as the specification's pieces.
-/
import proofs.«111900_j74998718923370_2_alg».proof.Proof.Spec
import proofs.«111900_j74998718923370_2_alg».proof.Proof.IdealHost1

set_option maxRecDepth 16384

noncomputable section

namespace Cert.KernelIdeal.Hand

open Idealize.ShloMosaic Idealize.ShloMosaic.ValueIdx Cert.Spec

/-- Gathering rows of the pre-scaled features and summing over the landing edges is the kernel-shaped aggregate:
    entry (row, c) of the pre-scaled array is the feature there times the row's normaliser. -/
theorem agg_form (ei : EI) (hm : A2 50000 128) :
    aggSpec (fun i => hm i * dis ei (i 0)) (fun i => ei (ix2 (0 : Fin 2) (i 0))) (fun i => ei (ix2 (1 : Fin 2) (i 0)))
      = aggK ei hm := by
  funext i
  unfold aggSpec aggK lands srcRow
  rfl

/-- The two normaliser columns side by side. -/
def disb (ei : EI) : (⟨2, ![50000, 2]⟩ : Shape).Idx → EReal := fun i =>
  if (i 1).val = 0 then dis ei (i 0) else dis ei (i 0) * dis ei (i 0)

theorem disb_zero (ei : EI) (n : Fin 50000) : disb ei (ix2 n (0 : Fin 2)) = dis ei n := by
  unfold disb; rw [if_pos (by rfl)]
theorem disb_one (ei : EI) (n : Fin 50000) : disb ei (ix2 n (1 : Fin 2)) = dis ei n * dis ei n := by
  unfold disb
  have h : ¬ ((ix2 n (1 : Fin 2)) 1).val = 0 := by show ¬ (1 : Nat) = 0; decide
  rw [if_neg h]

/-- One layer's combine step, with the aggregate and the two normaliser columns in place, is the kernel-shaped layer. -/
theorem layer_form (ei : EI) (r : A2 50000 128) (W : A2 128 128) (b : A1 128) :
    (fun i : (⟨2, ![50000, 128]⟩ : Shape).Idx =>
        max (((r i + disb ei (ix2 (i 0) (0 : Fin 2)) * aggK ei (lin r W) i) + lin r W i * disb ei (ix2 (i 0) (1 : Fin 2)))
          + (fun j : (⟨2, ![1, 128]⟩ : Shape).Idx => b (ix1 (j 1))) (ix2 (0 : Fin 1) (i 1))) zeroW)
      = layerK ei r W b := by
  funext i
  obtain ⟨p, q, rfl⟩ : ∃ (p : Fin 50000) (q : Fin 128), i = ix2 p q := ⟨i 0, i 1, eq_ix2 i⟩
  show max (((r (ix2 p q) + disb ei (ix2 p (0 : Fin 2)) * aggK ei (lin r W) (ix2 p q)) + lin r W (ix2 p q) * disb ei (ix2 p (1 : Fin 2)))
      + b (ix1 q)) zeroW = layerK ei r W b (ix2 p q)
  rw [disb_zero, disb_one]
  rfl

/-- The pre-scaled features of the next layer: the projected features times the row's normaliser. -/
theorem scaled_form (ei : EI) (hm : A2 50000 128) :
    (fun i : (⟨2, ![50000, 128]⟩ : Shape).Idx => hm i * disb ei (ix2 (i 0) (0 : Fin 2))) = fun i => hm i * dis ei (i 0) := by
  funext i
  obtain ⟨p, q, rfl⟩ : ∃ (p : Fin 50000) (q : Fin 128), i = ix2 p q := ⟨i 0, i 1, eq_ix2 i⟩
  show hm (ix2 p q) * disb ei (ix2 p (0 : Fin 2)) = hm (ix2 p q) * dis ei p
  rw [disb_zero]

end Cert.KernelIdeal.Hand

end
-- ==== Proof.LibVecGatherScatter.lean ====
/-
  A gather out of a vector and a scatter-add into a vector, read at an index.

  GATHER. The operand is a vector of N elements and the start indices an [E, 1] array of element numbers; the
  result is the vector of E elements whose element `e` is the operand's element `idx[e, 0]`, the number read as a
  signed integer and clamped into `[0, N − 1]`. This is the shape indexing a vector by an array of numbers takes: no offset axes,
  collapsed_slice_dims [0], start_index_map [0], index_vector_dim 1, slice_sizes [1].

  SCATTER-ADD. The operand is a vector of N elements, the scatter indices an [E, 1] array of element numbers, the
  updates a vector of E elements: update `e` is added onto operand element `idx[e, 0]` (read as a signed integer),
  and dropped when that number is outside `[0, N)`. This is the shape a segment sum of a vector takes: no
  update window axes, inserted_window_dims [0], scatter_dims_to_operand_dims [0], index_vector_dim 1.
  On the extended reals the result at `n` is the operand there plus the sum of the updates whose number is `n`.
-/
import Idealize.ShloMosaic.Lib.ValueIdx
import Idealize.ShloMosaic.PureOps.Contract
import Idealize.ShloMosaic.PureOps.Ideal

noncomputable section

namespace Idealize.ShloMosaic.VecGS

open Idealize.ShloMosaic Idealize.ShloMosaic.ValueIdx

variable {N E : Nat} {α : Type}

/-- The operand's one axis is collapsed (gather) or inserted (scatter): no operand axis is kept. -/
private theorem zero_not_keptG : (0 : Fin 1) ∉ (List.finRange 1).filter (fun a : Fin 1 => a ∉ ([0] ++ [] : List (Fin 1))) := by decide
private theorem zero_not_keptS : (0 : Fin 1) ∉ (List.finRange 1).filter (fun a : Fin 1 => a ∉ ([0] : List (Fin 1))) := by decide

/-! ## The gather -/

/-- The dimension numbers of a gather of [E, 1] element numbers out of a vector of N elements. -/
abbrev gdims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

section gather
variable (wf : GatherDims.WF ⟨1, ![N]⟩ ⟨2, ![E, 1]⟩ ⟨1, ![E]⟩ [] [0] [] [0] [] 1 ![1])

/-- The operand element a result element reads: its number, read signed and clamped into `[0, N − 1]`. -/
def row {w : Nat} (hN : 0 < N) (idx : IVec ⟨2, ![E, 1]⟩ w) (e : Fin E) : Fin N :=
  ⟨min (idx (ix2 e (0 : Fin 1))).toInt.toNat (N - 1), by omega⟩

/-- Result index e reads its number at start-indices index (e, 0). -/
theorem gsiIdx_eq (j : (⟨1, ![E]⟩ : Shape).Idx) :
    (gdims N E wf).siIdx j ⟨List.idxOf (0 : Fin 1) (gdims N E wf).startIndexMap,
      List.idxOf_lt_length_iff.2 (List.mem_singleton.mpr rfl)⟩ = ix2 (j 0) (0 : Fin 1) := by
  funext b; refine Fin.ext ?_
  match b with
  | ⟨0, _⟩ => rfl
  | ⟨1, _⟩ => rfl

/-- THE GATHER READ AT e: the operand at (row e). -/
theorem gather_apply {w : Nat} (hN : 0 < N) (x : (⟨1, ![N]⟩ : Shape).Idx → α) (idx : IVec ⟨2, ![E, 1]⟩ w)
    (e : Fin E) :
    Host.gather (gdims N E wf) x idx (ix1 e) = x (ix1 (row hN idx e)) := by
  unfold Host.gather
  congr 1
  funext a
  refine Fin.ext ?_
  match a with
  | ⟨0, _⟩ =>
    show (gdims N E wf).start (ix1 e) idx 0 + (gdims N E wf).batchCoord (ix1 e) 0 + (gdims N E wf).offCoord (ix1 e) 0 = _
    rw [GatherDims.batchCoord_eq_zero _ _ _ List.not_mem_nil, Nat.add_zero,
      GatherDims.offCoord_eq_zero _ _ _ (show (0 : Fin 1) ∉ (gdims N E wf).sKept from zero_not_keptG), Nat.add_zero]
    unfold GatherDims.start
    rw [dif_pos (show (0 : Fin 1) ∈ (gdims N E wf).startIndexMap from List.mem_singleton.mpr rfl), gsiIdx_eq]
    rfl

end gather

/-! ## The scatter-add -/

/-- The dimension numbers of a scatter of a vector of E updates into a vector of N elements at [E, 1] element numbers. -/
abbrev sdims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section scatter
variable (wf : ScatterDims.WF ⟨1, ![N]⟩ ⟨2, ![E, 1]⟩ ⟨1, ![E]⟩ [] [0] [0] 1)

/-- Update index e reads its number at scatter-indices index (e, 0). -/
theorem ssiIdx_eq (j : (⟨1, ![E]⟩ : Shape).Idx) :
    (sdims N E wf).siIdx j ⟨List.idxOf (0 : Fin 1) (sdims N E wf).scatterDimsToOperandDims,
      List.idxOf_lt_length_iff.2 (List.mem_singleton.mpr rfl)⟩ = ix2 (j 0) (0 : Fin 1) := by
  funext b; refine Fin.ext ?_
  match b with
  | ⟨0, _⟩ => rfl
  | ⟨1, _⟩ => rfl

/-- The window starts at the element number, read signed. -/
theorem start_zero {w : Nat} (j : (⟨1, ![E]⟩ : Shape).Idx) (idx : IVec ⟨2, ![E, 1]⟩ w) :
    (sdims N E wf).start j idx 0 = (idx (ix2 (j 0) (0 : Fin 1))).toInt := by
  unfold ScatterDims.start
  rw [dif_pos (show (0 : Fin 1) ∈ (sdims N E wf).scatterDimsToOperandDims from List.mem_singleton.mpr rfl), ssiIdx_eq]
  rfl

/-- The window is one element. -/
theorem window_zero (j : (⟨1, ![E]⟩ : Shape).Idx) : (sdims N E wf).window j 0 = 0 := by
  unfold ScatterDims.window
  rw [dif_neg (show (0 : Fin 1) ∉ (sdims N E wf).sKept from zero_not_keptS)]

/-- Update index `j` lands on operand index n exactly when its number is `n`. -/
theorem resultIdx?_eq_some_iff {w : Nat} (j : (⟨1, ![E]⟩ : Shape).Idx) (idx : IVec ⟨2, ![E, 1]⟩ w) (n : Fin N) :
    (sdims N E wf).resultIdx? j idx = some (ix1 n) ↔ (idx (ix2 (j 0) (0 : Fin 1))).toInt = (n.val : Int) := by
  have hn := n.isLt
  unfold ScatterDims.resultIdx?
  split
  · next h =>
    have h0 := h 0
    rw [start_zero, window_zero] at h0
    rw [Option.some.injEq]
    constructor
    · intro hf
      have e0 := congrArg (fun f => (f 0).val) hf
      simp only [start_zero, window_zero] at e0
      have e0' : ((idx (ix2 (j 0) (0 : Fin 1))).toInt + ((0 : Nat) : Int)).toNat = n.val := e0
      omega
    · intro e0
      funext a; refine Fin.ext ?_
      match a with
      | ⟨0, _⟩ =>
        show ((sdims N E wf).start j idx 0 + ((sdims N E wf).window j 0 : Int)).toNat = n.val
        rw [start_zero, window_zero]; omega
  · next h =>
    constructor
    · intro hf; exact absurd hf (by simp)
    · intro e0
      exfalso; apply h
      intro a
      match a with
      | ⟨0, _⟩ =>
        show 0 ≤ (sdims N E wf).start j idx 0 + ((sdims N E wf).window j 0 : Int) ∧
          (sdims N E wf).start j idx 0 + ((sdims N E wf).window j 0 : Int) < (N : Int)
        rw [start_zero, window_zero]; omega

/-- THE SCATTER-ADD READ AT n, on the extended reals: the operand there plus the sum of the updates whose number is `n`. -/
theorem scatterAdd_apply {φ : FTy} {w : Nat} (x : FVec Ideal ⟨1, ![N]⟩ φ) (idx : IVec ⟨2, ![E, 1]⟩ w)
    (upd : FVec Ideal ⟨1, ![E]⟩ φ) (n : Fin N) :
    Host.scatterAdd (sdims N E wf) x idx upd (ix1 n)
      = x (ix1 n) + ∑ e ∈ Finset.univ.filter (fun e : Fin E => (idx (ix2 e (0 : Fin 1))).toInt = (n.val : Int)), upd (ix1 e) := by
  show Ideal.hostScatterAdd (sdims N E wf) x idx upd (ix1 n) = _
  unfold Ideal.hostScatterAdd
  congr 1
  refine Finset.sum_nbij' (fun j => (j 0 : Fin E)) (fun e => ix1 e) ?_ ?_ ?_ ?_ ?_
  · intro j hj
    have hj' := (Finset.mem_filter.1 hj).2
    exact Finset.mem_filter.2 ⟨Finset.mem_univ _, (resultIdx?_eq_some_iff wf j idx n).1 hj'⟩
  · intro e he
    have he' := (Finset.mem_filter.1 he).2
    exact Finset.mem_filter.2 ⟨Finset.mem_univ _, (resultIdx?_eq_some_iff wf (ix1 e) idx n).2 he'⟩
  · intro j _
    show ix1 (j 0 : Fin E) = j
    exact (eq_ix1 j).symm
  · intro e _; rfl
  · intro j _
    show upd j = upd (ix1 (j 0 : Fin E))
    exact congrArg upd (eq_ix1 j)

end scatter

end Idealize.ShloMosaic.VecGS

end
-- ==== Proof.IdealHost0m.lean ====
/-
  The first host stretch, read at an index: the normalisers.

  Before the first layer the host program counts for every node the edges whose destination number is the node (a
  scatter-add of ones onto zeros), adds one, takes the reciprocal square root — the node's normaliser —, and lays the
  normalisers out as a column, and as the two-column array (normaliser, normaliser squared).
-/
import proofs.«111900_j74998718923370_2_alg».proof.Proof.IdealHost0
import proofs.«111900_j74998718923370_2_alg».proof.Proof.IdealForms
import proofs.«111900_j74998718923370_2_alg».proof.Proof.LibVecGatherScatter
import proofs.«111900_j74998718923370_2_alg».proof.Proof.LibKeepdims

set_option maxRecDepth 16384

noncomputable section

namespace Cert.KernelIdeal.Hand

open Cert.KernelIdeal Cert.KernelIdeal.Gen
open Idealize.ShloMosaic Idealize.ShloMosaic.ValueIdx Idealize.ShloMosaic.StableHlo

/-! ## The normalisers -/

/-- One plus the count of the edges landing on each node, as the host computes it from the destination numbers. -/
def degVec (dst : IVec S800000 32) : FVec Ideal S50000 .f32 :=
  addf (Host.scatterAdd scatter_S50000_S800000x1_S800000_n_0_0_1
      (broadcastInDim S50000 ![] bcast_S_S50000 (constant (F := Ideal) S_ .f32 0x00000000#32))
      (broadcastInDim S800000x1 ![0] bcast_S800000_S800000x1_0 dst)
      (broadcastInDim S800000 ![] bcast_S_S800000 (constant (F := Ideal) S_ .f32 0x3F800000#32)))
    (broadcastInDim S50000 ![] bcast_S_S50000 (constant (F := Ideal) S_ .f32 0x3F800000#32))

/-- The host's reciprocal square root of a vector of extended reals, read at an index. -/
theorem hostRsqrt_apply {s : Shape} {φ : FTy} (v : FVec Ideal s φ) (i : s.Idx) : Host.rsqrt v i = Ideal.rsqrt (v i) := rfl

/-- The normalisers: the reciprocal square roots of the degrees. -/
def disVec (dst : IVec S800000 32) : FVec Ideal S50000 .f32 := Host.rsqrt (degVec dst)

/-- The host's degree of node n is the specification's. -/
theorem degVec_apply (ei : IVec S2x800000 32) (n : Fin 50000) : degVec (edgeRow1 ei) (ix1 n) = Cert.Spec.deg ei n := by
  unfold degVec Cert.Spec.deg
  have hs : scatter_S50000_S800000x1_S800000_n_0_0_1
      = VecGS.sdims 50000 800000 scatter_S50000_S800000x1_S800000_n_0_0_1_wf := rfl
  rw [addf_apply, hs, VecGS.scatterAdd_apply]
  have hf : ∀ e : Fin 800000,
      (broadcastInDim S800000x1 ![0] bcast_S800000_S800000x1_0 (edgeRow1 ei) (ix2 e (0 : Fin 1))).toInt = (n.val : Int)
        ↔ (ei (ix2 (1 : Fin 2) e)).toInt = (n.val : Int) := fun e => by rw [bcastCol_apply, edgeRow1_apply]
  rw [Finset.filter_congr (fun e _ => hf e)]
  unfold Cert.Spec.lands
  exact congrArg₂ (· + ·) (congrArg₂ (· + ·) rfl (Finset.sum_congr rfl fun e _ => rfl)) rfl

/-- The host's normaliser of node n is the specification's. -/
theorem disVec_apply (ei : IVec S2x800000 32) (n : Fin 50000) : disVec (edgeRow1 ei) (ix1 n) = Cert.Spec.dis ei n := by
  unfold disVec Cert.Spec.dis
  rw [hostRsqrt_apply, degVec_apply]

/-- The normalisers as a column. -/
def disCol (ei : Cert.Spec.EI) : Cert.Spec.A2 50000 1 := fun i => Cert.Spec.dis ei (i 0)

/-- The column cast of the host's normalisers is the column of the specification's. -/
theorem disCol_eq (ei : IVec S2x800000 32) :
    shapeCast S50000x1 (disVec (edgeRow1 ei)) shapeCasts_S50000_S50000x1 = disCol ei := by
  funext i
  obtain ⟨n, u, rfl⟩ : ∃ (n : Fin 50000) (u : Fin 1), i = ix2 n u := ⟨i 0, i 1, eq_ix2 i⟩
  unfold disCol
  rw [Cert.LibKeepdims.shapeCast_a_a1_apply, disVec_apply]

/-- The two-column array of the host is the pair (normaliser, normaliser squared). -/
theorem disb_eq (ei : IVec S2x800000 32) :
    concatenate S50000x2 1 [⟨S50000x1, broadcastInDim S50000x1 ![0] bcast_S50000_S50000x1_0 (disVec (edgeRow1 ei))⟩,
        ⟨S50000x1, broadcastInDim S50000x1 ![0] bcast_S50000_S50000x1_0 (mulf (disVec (edgeRow1 ei)) (disVec (edgeRow1 ei)))⟩]
      concatenates_S50000x1_S50000x1_S50000x2_d1 = disb ei := by
  funext i
  obtain ⟨n, k, rfl⟩ : ∃ (n : Fin 50000) (k : Fin 2), i = ix2 n k := ⟨i 0, i 1, eq_ix2 i⟩
  match k with
  | ⟨0, h0⟩ =>
    refine (concatenate_pair_apply_left (t := S50000x2) (s₁ := S50000x1) (s₂ := S50000x1) (1 : Fin 2) _ _
      concatenates_S50000x1_S50000x1_S50000x2_d1 (ix2 n ⟨0, h0⟩) (Eq.refl 2) (ix2 n (0 : Fin 1)) (fun b => by
        match b with
        | ⟨0, _⟩ => rfl
        | ⟨1, _⟩ => rfl)).trans ?_
    rw [bcastCol_apply, disVec_apply]
    exact (disb_zero ei n).symm
  | ⟨1, h1⟩ =>
    refine (concatenate_pair_apply_right (t := S50000x2) (s₁ := S50000x1) (s₂ := S50000x1) (1 : Fin 2) _ _
      concatenates_S50000x1_S50000x1_S50000x2_d1 (ix2 n ⟨1, h1⟩) (Eq.refl 2) (Eq.refl 2) (ix2 n (0 : Fin 1)) (fun b hb => by
        match b with
        | ⟨0, _⟩ => rfl
        | ⟨1, _⟩ => exact absurd rfl hb) rfl).trans ?_
    rw [bcastCol_apply, mulf_apply, disVec_apply]
    exact (disb_one ei n).symm

variable (W : Valuation τ sig (Elt Ideal))

/-- The normaliser column after the first stretch. -/
theorem h0_dis2d :
    (StableHlo.after hostOps0 W (Proc.devRef .tc main_v11) : S50000x1.Idx → EReal) = fun i => Cert.Spec.dis (W (Proc.devRef .tc main_arg1)) (i 0) := by
  have e : (StableHlo.after hostOps0 W (Proc.devRef .tc main_v11) : S50000x1.Idx → EReal)
      = shapeCast S50000x1 (disVec (edgeRow1 (W (Proc.devRef .tc main_arg1)))) shapeCasts_S50000_S50000x1 := by
    dsimp only [hostOps0]; after_results; unfold disVec degVec edgeRow1; rfl
  rw [e, disCol_eq]
  rfl

/-- The (normaliser, normaliser squared) array after the first stretch. -/
theorem h0_disb :
    (StableHlo.after hostOps0 W (Proc.devRef .tc main_v15) : S50000x2.Idx → EReal) = disb (W (Proc.devRef .tc main_arg1)) := by
  have e : (StableHlo.after hostOps0 W (Proc.devRef .tc main_v15) : S50000x2.Idx → EReal)
      = concatenate S50000x2 1 [⟨S50000x1, broadcastInDim S50000x1 ![0] bcast_S50000_S50000x1_0 (disVec (edgeRow1 (W (Proc.devRef .tc main_arg1))))⟩,
        ⟨S50000x1, broadcastInDim S50000x1 ![0] bcast_S50000_S50000x1_0 (mulf (disVec (edgeRow1 (W (Proc.devRef .tc main_arg1)))) (disVec (edgeRow1 (W (Proc.devRef .tc main_arg1)))))⟩]
        concatenates_S50000x1_S50000x1_S50000x2_d1 := by
    dsimp only [hostOps0]; after_results; unfold disVec degVec edgeRow1; rfl
  rw [e, disb_eq]

end Cert.KernelIdeal.Hand

end
-- ==== Proof.IdealHost4.lean ====
/-
  The last host stretch, read at an index: the per-graph means of the three layers' outputs, side by side.

  For each of three node arrays r (50000 x 128) the host program adds row n of r onto row (batch number of n) of a
  zero 512 x 128 array — a node whose batch number is outside the graph range is dropped — and divides row g of the
  result by the larger of one and the number of nodes whose batch number is g (a scatter-add of ones onto zeros); the
  three 512 x 128 quotients are then laid side by side along the columns.
-/
import proofs.«111900_j74998718923370_2_alg».proof.Proof.Gen.KernelIdeal.Launch
import proofs.«111900_j74998718923370_2_alg».proof.Proof.Spec
import proofs.«111900_j74998718923370_2_alg».proof.Proof.LibRowScatter
import proofs.«111900_j74998718923370_2_alg».proof.Proof.LibVecGatherScatter
import proofs.«111900_j74998718923370_2_alg».proof.Proof.LibKeepdims
import Idealize.ShloMosaic.Lib.StableHlo.Run
import Idealize.ShloMosaic.Lib.ValueIdx
import Idealize.ShloMosaic.Lib.IdealHost
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx Idealize.ShloMosaic.StableHlo

/-- The batch vector [N] seen as a column [N, 1] reads, at (n, u), the vector at n. -/
theorem colOfVec_apply {α : Type} {N : Nat} (bc : (⟨1, ![N]⟩ : Shape).BroadcastsInDim ⟨2, ![N, 1]⟩ ![0])
    (v : (⟨1, ![N]⟩ : Shape).Idx → α) (n : Fin N) (u : Fin 1) :
    broadcastInDim ⟨2, ![N, 1]⟩ ![0] bc v (ix2 n u) = v (ix1 n) := by
  refine broadcastInDim_apply _ bc v (ix2 n u) (ix1 n) fun a => ?_
  match a with
  | ⟨0, _⟩ =>
    show n.val = if N = 1 then 0 else n.val
    have := n.isLt
    split <;> omega

/-- A column [G, 1] repeated along the rows to [G, C] reads, at (g, c), the column's entry of row g. -/
theorem rowsOfCol_apply {α : Type} {G C : Nat} (bc : (⟨2, ![G, 1]⟩ : Shape).BroadcastsInDim ⟨2, ![G, C]⟩ ![0, 1])
    (v : (⟨2, ![G, 1]⟩ : Shape).Idx → α) (g : Fin G) (c : Fin C) :
    broadcastInDim ⟨2, ![G, C]⟩ ![0, 1] bc v (ix2 g c) = v (ix2 g (0 : Fin 1)) := by
  refine broadcastInDim_apply _ bc v (ix2 g c) (ix2 g (0 : Fin 1)) fun a => ?_
  match a with
  | ⟨0, _⟩ =>
    show g.val = if G = 1 then 0 else g.val
    have := g.isLt
    split <;> omega
  | ⟨1, _⟩ => rfl

/-- The number of nodes of each graph, as the stretch computes it: ones added onto zeros at the batch numbers. -/
def cntFn (bt : IVec S50000 32) : FVec Ideal S512 .f32 :=
  Host.scatterAdd scatter_S512_S50000x1_S50000_n_0_0_1
    (broadcastInDim S512 ![] bcast_S_S512 (constant (F := Ideal) S_ .f32 0x00000000#32))
    (broadcastInDim S50000x1 ![0] bcast_S50000_S50000x1_0 bt)
    (broadcastInDim S50000 ![] bcast_S_S50000 (constant (F := Ideal) S_ .f32 0x3F800000#32))

/-- Entry g of the counts is the number of nodes of graph g. -/
theorem cntFn_apply (bt : IVec S50000 32) (g : Fin 512) : cntFn bt (ix1 g) = Cert.Spec.cnt bt g := by
  unfold cntFn Cert.Spec.cnt Cert.Spec.members
  have hs : scatter_S512_S50000x1_S50000_n_0_0_1 = VecGS.sdims 512 50000 scatter_S512_S50000x1_S50000_n_0_0_1_wf := rfl
  rw [hs, VecGS.scatterAdd_apply]
  refine congrArg₂ (· + ·) rfl ?_
  have hf : ∀ n : Fin 50000,
      (broadcastInDim S50000x1 ![0] bcast_S50000_S50000x1_0 bt (ix2 n (0 : Fin 1))).toInt = (g.val : Int)
        ↔ (bt (ix1 n)).toInt = (g.val : Int) := fun n => by rw [colOfVec_apply]
  rw [Finset.filter_congr (fun n _ => hf n)]
  rfl

/-- One pooling of the stretch as a function of the batch vector and a node array. -/
def poolFn (bt : IVec S50000 32) (r : FVec Ideal S50000x128 .f32) : FVec Ideal S512x128 .f32 :=
  Host.divf
    (Host.scatterAdd scatter_S512x128_S50000x1_S50000x128_1_0_0_1
      (broadcastInDim S512x128 ![] bcast_S_S512x128 (constant (F := Ideal) S_ .f32 0x00000000#32))
      (broadcastInDim S50000x1 ![0] bcast_S50000_S50000x1_0 bt) r)
    (broadcastInDim S512x128 ![0, 1] bcast_S512x1_S512x128_0_1
      (broadcastInDim S512x1 ![0] bcast_S512_S512x1_0
        (maximumf (cntFn bt) (broadcastInDim S512 ![] bcast_S_S512 (constant (F := Ideal) S_ .f32 0x3F800000#32)))))

/-- The pooling is the per-graph mean. -/
theorem poolFn_eq (bt : IVec S50000 32) (r : FVec Ideal S50000x128 .f32) : poolFn bt r = Cert.Spec.pool bt r := by
  funext i
  obtain ⟨g, c, rfl⟩ : ∃ (g : Fin 512) (c : Fin 128), i = ix2 g c := ⟨i 0, i 1, eq_ix2 i⟩
  unfold poolFn Cert.Spec.pool
  rw [hostDivf_apply]
  have hs : scatter_S512x128_S50000x1_S50000x128_1_0_0_1
      = RowScatter.dims 512 50000 128 scatter_S512x128_S50000x1_S50000x128_1_0_0_1_wf := rfl
  rw [hs, RowScatter.scatterAdd_apply, rowsOfCol_apply, colOfVec_apply, maximumf_apply, cntFn_apply]
  have hf : ∀ n : Fin 50000,
      (broadcastInDim S50000x1 ![0] bcast_S50000_S50000x1_0 bt (ix2 n (0 : Fin 1))).toInt = (g.val : Int)
        ↔ (bt (ix1 n)).toInt = (g.val : Int) := fun n => by rw [colOfVec_apply]
  rw [Finset.filter_congr (fun n _ => hf n)]
  rfl

/-- The whole stretch as a function of the batch vector and the three node arrays. -/
def catFn (bt : IVec S50000 32) (r1 r2 r3 : FVec Ideal S50000x128 .f32) : FVec Ideal S512x384 .f32 :=
  concatenate S512x384 1 [⟨S512x128, poolFn bt r1⟩, ⟨S512x128, poolFn bt r2⟩, ⟨S512x128, poolFn bt r3⟩]
    concatenates_S512x128_S512x128_S512x128_S512x384_d1

/-- The stretch computes the three per-graph means side by side. -/
theorem catFn_eq (bt : IVec S50000 32) (r1 r2 r3 : FVec Ideal S50000x128 .f32) :
    catFn bt r1 r2 r3 = Cert.Spec.cat3 (Cert.Spec.pool bt r1) (Cert.Spec.pool bt r2) (Cert.Spec.pool bt r3) := by
  funext i
  obtain ⟨g, c, rfl⟩ : ∃ (g : Fin 512) (c : Fin 384), i = ix2 g c := ⟨i 0, i 1, eq_ix2 i⟩
  unfold catFn Cert.Spec.cat3
  rw [← poolFn_eq, ← poolFn_eq, ← poolFn_eq]
  split
  · next h =>
    exact concatenate_apply_piece _ _ _ (ix2 g c) 0 (by show (0 : Nat) < 3; omega) S512x128 _ rfl rfl 0 rfl
      (ix2 g ⟨c.val, h⟩) (fun b hb => by match b with | ⟨0, _⟩ => rfl | ⟨1, _⟩ => exact absurd rfl hb)
      (by show 0 + c.val = c.val; omega)
  · next h =>
    have h' : ¬ c.val < 128 := h
    split
    · next h2 =>
      have h2' : c.val < 256 := h2
      exact concatenate_apply_piece _ _ _ (ix2 g c) 1 (by show (1 : Nat) < 3; omega) S512x128 _ rfl rfl 128 rfl
        (ix2 g ⟨c.val - 128, by omega⟩) (fun b hb => by match b with | ⟨0, _⟩ => rfl | ⟨1, _⟩ => exact absurd rfl hb)
        (by show 128 + (c.val - 128) = c.val; omega)
    · next h2 =>
      have h2' : ¬ c.val < 256 := h2
      have h3 : c.val < 384 := c.isLt
      exact concatenate_apply_piece _ _ _ (ix2 g c) 2 (by show (2 : Nat) < 3; omega) S512x128 _ rfl rfl 256 rfl
        (ix2 g ⟨c.val - 256, by omega⟩) (fun b hb => by match b with | ⟨0, _⟩ => rfl | ⟨1, _⟩ => exact absurd rfl hb)
        (by show 256 + (c.val - 256) = c.val; omega)

variable (W : Valuation τ sig (Elt Ideal))

/-- What the stretch leaves in its result array, as the stretch's function of what it reads. -/
theorem h4_term :
    (StableHlo.after hostOps4 W (Proc.devRef .tc main_v81) : S512x384.Idx → EReal)
      = catFn (W (Proc.devRef .tc main_arg2)) (W (Proc.devRef .tc main_v34_0)) (W (Proc.devRef .tc main_v46_0)) (W (Proc.devRef .tc main_v58)) := by
  dsimp only [hostOps4]; after_results; rfl

/-- The stretch leaves the three layers' per-graph means side by side. -/
theorem h4_pooled :
    (StableHlo.after hostOps4 W (Proc.devRef .tc main_v81) : S512x384.Idx → EReal)
      = Cert.Spec.cat3 (Cert.Spec.pool (W (Proc.devRef .tc main_arg2)) (W (Proc.devRef .tc main_v34_0)))
          (Cert.Spec.pool (W (Proc.devRef .tc main_arg2)) (W (Proc.devRef .tc main_v46_0)))
          (Cert.Spec.pool (W (Proc.devRef .tc main_arg2)) (W (Proc.devRef .tc main_v58))) :=
  (h4_term W).trans (catFn_eq _ _ _ _)

end Cert.KernelIdeal.Hand

end
-- ==== Proof.IdealStage.lean ====
/-
  The kernel program's result as the specification's kernel-shaped function of the arguments.
  Boundary by boundary through the ten items: what each buffer that a later item reads holds, as a term of the
  specification over the argument arrays. A host stretch's reading is applied to the boundary's contents; a region's
  output arrays are read by the region's whole-array functions of its input windows' arrays; everything else is carried.
-/
import proofs.«111900_j74998718923370_2_alg».proof.Proof.IdealRun
import proofs.«111900_j74998718923370_2_alg».proof.Proof.IdealCarry
import proofs.«111900_j74998718923370_2_alg».proof.Proof.IdealFin0
import proofs.«111900_j74998718923370_2_alg».proof.Proof.IdealFin1
import proofs.«111900_j74998718923370_2_alg».proof.Proof.IdealFin2
import proofs.«111900_j74998718923370_2_alg».proof.Proof.IdealFin3
import proofs.«111900_j74998718923370_2_alg».proof.Proof.IdealFin4
import proofs.«111900_j74998718923370_2_alg».proof.Proof.IdealHost0
import proofs.«111900_j74998718923370_2_alg».proof.Proof.IdealHost0m
import proofs.«111900_j74998718923370_2_alg».proof.Proof.IdealHost1
import proofs.«111900_j74998718923370_2_alg».proof.Proof.IdealHost4
import proofs.«111900_j74998718923370_2_alg».proof.Proof.IdealForms
import proofs.«111900_j74998718923370_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.ValueIdx Cert.Spec

variable (m : (ℓ : Loc nD τ sig) → Buf (Elt Ideal) ℓ) (ρ : Dev nD → PrngReg) (c : Dev nD)

/-! ## The argument arrays -/

abbrev aX : A2 50000 128 := m ((c : Thread nD τ).loc main_arg0)
abbrev aEI : EI := m ((c : Thread nD τ).loc main_arg1)
abbrev aBT : BT := m ((c : Thread nD τ).loc main_arg2)
abbrev aWin : A2 128 128 := m ((c : Thread nD τ).loc main_arg3)
abbrev abin : A1 128 := m ((c : Thread nD τ).loc main_arg4)
abbrev aW1 : A2 128 128 := m ((c : Thread nD τ).loc main_arg5)
abbrev ab1 : A1 128 := m ((c : Thread nD τ).loc main_arg6)
abbrev aW2 : A2 128 128 := m ((c : Thread nD τ).loc main_arg7)
abbrev ab2 : A1 128 := m ((c : Thread nD τ).loc main_arg8)
abbrev aW3 : A2 128 128 := m ((c : Thread nD τ).loc main_arg9)
abbrev ab3 : A1 128 := m ((c : Thread nD τ).loc main_arg10)
abbrev aWp1 : A2 384 128 := m ((c : Thread nD τ).loc main_arg11)
abbrev abp1 : A1 128 := m ((c : Thread nD τ).loc main_arg12)
abbrev aWp2 : A2 128 128 := m ((c : Thread nD τ).loc main_arg13)
abbrev abp2 : A1 128 := m ((c : Thread nD τ).loc main_arg14)

/-! ## The stages, as terms of the specification -/

abbrev sH : A2 50000 128 := addRow (lin (aX m c) (aWin m c)) (abin m c)
abbrev sHM1 : A2 50000 128 := lin (sH m c) (aW1 m c)
abbrev sR1 : A2 50000 128 := layerK (aEI m c) (sH m c) (aW1 m c) (ab1 m c)
abbrev sHM2 : A2 50000 128 := lin (sR1 m c) (aW2 m c)
abbrev sR2 : A2 50000 128 := layerK (aEI m c) (sR1 m c) (aW2 m c) (ab2 m c)
abbrev sHM3 : A2 50000 128 := lin (sR2 m c) (aW3 m c)
abbrev sR3 : A2 50000 128 := layerK (aEI m c) (sR2 m c) (aW3 m c) (ab3 m c)

/-! ## After the first host stretch -/

theorem s_v1 : W1 m ρ c (Proc.devRef .tc main_v1) = fun i => aEI m c (ix2 (0 : Fin 2) (i 0)) := h0_src (W0 m ρ c)
theorem s_v3 : W1 m ρ c (Proc.devRef .tc main_v3) = fun i => aEI m c (ix2 (1 : Fin 2) (i 0)) := h0_dst (W0 m ρ c)
theorem s_v11 : W1 m ρ c (Proc.devRef .tc main_v11) = fun i => dis (aEI m c) (i 0) := h0_dis2d (W0 m ρ c)
theorem s_v15 : W1 m ρ c (Proc.devRef .tc main_v15) = disb (aEI m c) := h0_disb (W0 m ρ c)
theorem s_main_v16 : W1 m ρ c (Proc.devRef .tc main_v16) = fun i => abin m c (ix1 (i 1)) := h0_bias16 (W0 m ρ c)
theorem s_main_v17 : W1 m ρ c (Proc.devRef .tc main_v17) = fun i => ab1 m c (ix1 (i 1)) := h0_bias17 (W0 m ρ c)
theorem s_main_v18 : W1 m ρ c (Proc.devRef .tc main_v18) = fun i => ab2 m c (ix1 (i 1)) := h0_bias18 (W0 m ρ c)
theorem s_main_v19 : W1 m ρ c (Proc.devRef .tc main_v19) = fun i => ab3 m c (ix1 (i 1)) := h0_bias19 (W0 m ρ c)
theorem s_main_v20 : W1 m ρ c (Proc.devRef .tc main_v20) = fun i => abp1 m c (ix1 (i 1)) := h0_bias20 (W0 m ρ c)
theorem s_main_v21 : W1 m ρ c (Proc.devRef .tc main_v21) = fun i => abp2 m c (ix1 (i 1)) := h0_bias21 (W0 m ρ c)

/-! ## Region 0: the input projection and the first layer's projected and pre-scaled features -/

theorem s_main_v22_0 : W2 m ρ c (Proc.devRef .tc main_v22_0) = sH m c := by
  refine (W2_arr m ρ c 5).trans ((fin0_5 (U1 m ρ) c).trans ?_)
  show h0F (W1 m ρ c (Proc.devRef .tc main_arg0)) (W1 m ρ c (Proc.devRef .tc main_arg3)) (W1 m ρ c (Proc.devRef .tc main_v16)) = _
  rw [carry_main_arg0_0_1 m ρ c, carry_main_arg3_0_1 m ρ c, s_main_v16 m ρ c]
  rfl

theorem s_main_v22_1 : W2 m ρ c (Proc.devRef .tc main_v22_1) = sHM1 m c := by
  refine (W2_arr m ρ c 6).trans ((fin0_6 (U1 m ρ) c).trans ?_)
  show hmmF (W1 m ρ c (Proc.devRef .tc main_arg0)) (W1 m ρ c (Proc.devRef .tc main_arg3)) (W1 m ρ c (Proc.devRef .tc main_v16)) (W1 m ρ c (Proc.devRef .tc main_arg5)) = _
  rw [carry_main_arg0_0_1 m ρ c, carry_main_arg3_0_1 m ρ c, s_main_v16 m ρ c, carry_main_arg5_0_1 m ρ c]
  rfl

theorem s_main_v22_2 : W2 m ρ c (Proc.devRef .tc main_v22_2) = fun i => sHM1 m c i * dis (aEI m c) (i 0) := by
  refine (W2_arr m ρ c 7).trans ((fin0_7 (U1 m ρ) c).trans ?_)
  show hsF (W1 m ρ c (Proc.devRef .tc main_arg0)) (W1 m ρ c (Proc.devRef .tc main_arg3)) (W1 m ρ c (Proc.devRef .tc main_v16)) (W1 m ρ c (Proc.devRef .tc main_arg5)) (W1 m ρ c (Proc.devRef .tc main_v11)) = _
  rw [carry_main_arg0_0_1 m ρ c, carry_main_arg3_0_1 m ρ c, s_main_v16 m ρ c, carry_main_arg5_0_1 m ρ c, s_v11 m ρ c]
  rfl

/-! ### Layer 1 -/

/-- The aggregated messages entering region 1: the kernel-shaped aggregate of the projected features. -/
theorem s_main_v33 : W3 m ρ c (Proc.devRef .tc main_v33) = aggK (aEI m c) (sHM1 m c) := by
  refine (h1_agg (W2 m ρ c)).trans ?_
  rw [s_main_v22_2 m ρ c, carry_main_v1_1_2 m ρ c, carry_main_v3_1_2 m ρ c, s_v1 m ρ c, s_v3 m ρ c]
  exact agg_form (aEI m c) (sHM1 m c)

/-- The layer's output: the kernel-shaped layer of the previous features. -/
theorem s_main_v34_0 : W4 m ρ c (Proc.devRef .tc main_v34_0) = sR1 m c := by
  refine (W4_arr m ρ c 6).trans ((fin1_6 (U3 m ρ) c).trans ?_)
  show G1_6 (W3 m ρ c (Proc.devRef .tc main_v22_0)) (W3 m ρ c (Proc.devRef .tc main_v33)) (W3 m ρ c (Proc.devRef .tc main_v22_1)) (W3 m ρ c (Proc.devRef .tc main_v15)) (W3 m ρ c (Proc.devRef .tc main_v17)) = _
  rw [carry_main_v22_0_2_3 m ρ c, s_main_v22_0 m ρ c, s_main_v33 m ρ c, carry_main_v22_1_2_3 m ρ c, s_main_v22_1 m ρ c, carry_main_v15_1_3 m ρ c, s_v15 m ρ c, carry_main_v17_1_3 m ρ c, s_main_v17 m ρ c]
  exact layer_form (aEI m c) (sH m c) (aW1 m c) (ab1 m c)

/-- The next layer's projected features. -/
theorem s_main_v34_1 : W4 m ρ c (Proc.devRef .tc main_v34_1) = sHM2 m c := by
  refine (W4_arr m ρ c 7).trans ((fin1_7 (U3 m ρ) c).trans ?_)
  show G1_7 (W3 m ρ c (Proc.devRef .tc main_v22_0)) (W3 m ρ c (Proc.devRef .tc main_v33)) (W3 m ρ c (Proc.devRef .tc main_v22_1)) (W3 m ρ c (Proc.devRef .tc main_v15)) (W3 m ρ c (Proc.devRef .tc main_v17)) (W3 m ρ c (Proc.devRef .tc main_arg7)) = _
  rw [carry_main_v22_0_2_3 m ρ c, s_main_v22_0 m ρ c, s_main_v33 m ρ c, carry_main_v22_1_2_3 m ρ c, s_main_v22_1 m ρ c, carry_main_v15_1_3 m ρ c, s_v15 m ρ c, carry_main_v17_1_3 m ρ c, s_main_v17 m ρ c, carry_main_arg7_0_3 m ρ c]
  exact congrArg (fun r : A2 50000 128 => lin r (aW2 m c)) (layer_form (aEI m c) (sH m c) (aW1 m c) (ab1 m c))

/-- The next layer's pre-scaled features: the projected features times the row's normaliser. -/
theorem s_main_v34_2 : W4 m ρ c (Proc.devRef .tc main_v34_2) = fun i => sHM2 m c i * dis (aEI m c) (i 0) := by
  refine (W4_arr m ρ c 8).trans ((fin1_8 (U3 m ρ) c).trans ?_)
  show G1_8 (W3 m ρ c (Proc.devRef .tc main_v22_0)) (W3 m ρ c (Proc.devRef .tc main_v33)) (W3 m ρ c (Proc.devRef .tc main_v22_1)) (W3 m ρ c (Proc.devRef .tc main_v15)) (W3 m ρ c (Proc.devRef .tc main_v17)) (W3 m ρ c (Proc.devRef .tc main_arg7)) = _
  rw [carry_main_v22_0_2_3 m ρ c, s_main_v22_0 m ρ c, s_main_v33 m ρ c, carry_main_v22_1_2_3 m ρ c, s_main_v22_1 m ρ c, carry_main_v15_1_3 m ρ c, s_v15 m ρ c, carry_main_v17_1_3 m ρ c, s_main_v17 m ρ c, carry_main_arg7_0_3 m ρ c]
  exact (congrArg (fun r : A2 50000 128 => fun i : (⟨2, ![50000, 128]⟩ : Shape).Idx =>
      lin r (aW2 m c) i * disb (aEI m c) (ix2 (i 0) (0 : Fin 2))) (layer_form (aEI m c) (sH m c) (aW1 m c) (ab1 m c))).trans
    (scaled_form (aEI m c) (sHM2 m c))

/-! ### Layer 2 -/

/-- The aggregated messages entering region 2: the kernel-shaped aggregate of the projected features. -/
theorem s_main_v45 : W5 m ρ c (Proc.devRef .tc main_v45) = aggK (aEI m c) (sHM2 m c) := by
  refine (h2_agg (W4 m ρ c)).trans ?_
  rw [s_main_v34_2 m ρ c, carry_main_v1_1_4 m ρ c, carry_main_v3_1_4 m ρ c, s_v1 m ρ c, s_v3 m ρ c]
  exact agg_form (aEI m c) (sHM2 m c)

/-- The layer's output: the kernel-shaped layer of the previous features. -/
theorem s_main_v46_0 : W6 m ρ c (Proc.devRef .tc main_v46_0) = sR2 m c := by
  refine (W6_arr m ρ c 6).trans ((fin2_6 (U5 m ρ) c).trans ?_)
  show G2_6 (W5 m ρ c (Proc.devRef .tc main_v34_0)) (W5 m ρ c (Proc.devRef .tc main_v45)) (W5 m ρ c (Proc.devRef .tc main_v34_1)) (W5 m ρ c (Proc.devRef .tc main_v15)) (W5 m ρ c (Proc.devRef .tc main_v18)) = _
  rw [carry_main_v34_0_4_5 m ρ c, s_main_v34_0 m ρ c, s_main_v45 m ρ c, carry_main_v34_1_4_5 m ρ c, s_main_v34_1 m ρ c, carry_main_v15_1_5 m ρ c, s_v15 m ρ c, carry_main_v18_1_5 m ρ c, s_main_v18 m ρ c]
  exact layer_form (aEI m c) (sR1 m c) (aW2 m c) (ab2 m c)

/-- The next layer's projected features. -/
theorem s_main_v46_1 : W6 m ρ c (Proc.devRef .tc main_v46_1) = sHM3 m c := by
  refine (W6_arr m ρ c 7).trans ((fin2_7 (U5 m ρ) c).trans ?_)
  show G2_7 (W5 m ρ c (Proc.devRef .tc main_v34_0)) (W5 m ρ c (Proc.devRef .tc main_v45)) (W5 m ρ c (Proc.devRef .tc main_v34_1)) (W5 m ρ c (Proc.devRef .tc main_v15)) (W5 m ρ c (Proc.devRef .tc main_v18)) (W5 m ρ c (Proc.devRef .tc main_arg9)) = _
  rw [carry_main_v34_0_4_5 m ρ c, s_main_v34_0 m ρ c, s_main_v45 m ρ c, carry_main_v34_1_4_5 m ρ c, s_main_v34_1 m ρ c, carry_main_v15_1_5 m ρ c, s_v15 m ρ c, carry_main_v18_1_5 m ρ c, s_main_v18 m ρ c, carry_main_arg9_0_5 m ρ c]
  exact congrArg (fun r : A2 50000 128 => lin r (aW3 m c)) (layer_form (aEI m c) (sR1 m c) (aW2 m c) (ab2 m c))

/-- The next layer's pre-scaled features: the projected features times the row's normaliser. -/
theorem s_main_v46_2 : W6 m ρ c (Proc.devRef .tc main_v46_2) = fun i => sHM3 m c i * dis (aEI m c) (i 0) := by
  refine (W6_arr m ρ c 8).trans ((fin2_8 (U5 m ρ) c).trans ?_)
  show G2_8 (W5 m ρ c (Proc.devRef .tc main_v34_0)) (W5 m ρ c (Proc.devRef .tc main_v45)) (W5 m ρ c (Proc.devRef .tc main_v34_1)) (W5 m ρ c (Proc.devRef .tc main_v15)) (W5 m ρ c (Proc.devRef .tc main_v18)) (W5 m ρ c (Proc.devRef .tc main_arg9)) = _
  rw [carry_main_v34_0_4_5 m ρ c, s_main_v34_0 m ρ c, s_main_v45 m ρ c, carry_main_v34_1_4_5 m ρ c, s_main_v34_1 m ρ c, carry_main_v15_1_5 m ρ c, s_v15 m ρ c, carry_main_v18_1_5 m ρ c, s_main_v18 m ρ c, carry_main_arg9_0_5 m ρ c]
  exact (congrArg (fun r : A2 50000 128 => fun i : (⟨2, ![50000, 128]⟩ : Shape).Idx =>
      lin r (aW3 m c) i * disb (aEI m c) (ix2 (i 0) (0 : Fin 2))) (layer_form (aEI m c) (sR1 m c) (aW2 m c) (ab2 m c))).trans
    (scaled_form (aEI m c) (sHM3 m c))

/-! ### Layer 3 -/

/-- The aggregated messages entering region 3: the kernel-shaped aggregate of the projected features. -/
theorem s_main_v57 : W7 m ρ c (Proc.devRef .tc main_v57) = aggK (aEI m c) (sHM3 m c) := by
  refine (h3_agg (W6 m ρ c)).trans ?_
  rw [s_main_v46_2 m ρ c, carry_main_v1_1_6 m ρ c, carry_main_v3_1_6 m ρ c, s_v1 m ρ c, s_v3 m ρ c]
  exact agg_form (aEI m c) (sHM3 m c)

/-- The layer's output: the kernel-shaped layer of the previous features. -/
theorem s_main_v58 : W8 m ρ c (Proc.devRef .tc main_v58) = sR3 m c := by
  refine (W8_arr m ρ c 5).trans ((fin3_5 (U7 m ρ) c).trans ?_)
  show G3_5 (W7 m ρ c (Proc.devRef .tc main_v46_0)) (W7 m ρ c (Proc.devRef .tc main_v57)) (W7 m ρ c (Proc.devRef .tc main_v46_1)) (W7 m ρ c (Proc.devRef .tc main_v15)) (W7 m ρ c (Proc.devRef .tc main_v19)) = _
  rw [carry_main_v46_0_6_7 m ρ c, s_main_v46_0 m ρ c, s_main_v57 m ρ c, carry_main_v46_1_6_7 m ρ c, s_main_v46_1 m ρ c, carry_main_v15_1_7 m ρ c, s_v15 m ρ c, carry_main_v19_1_7 m ρ c, s_main_v19 m ρ c]
  exact layer_form (aEI m c) (sR2 m c) (aW3 m c) (ab3 m c)

/-! ## The last host stretch and the head -/

theorem s_main_v81 : W9 m ρ c (Proc.devRef .tc main_v81) = cat3 (pool (aBT m c) (sR1 m c)) (pool (aBT m c) (sR2 m c)) (pool (aBT m c) (sR3 m c)) := by
  refine (h4_pooled (W8 m ρ c)).trans ?_
  rw [carry_main_arg2_0_8 m ρ c, carry_main_v34_0_4_8 m ρ c, s_main_v34_0 m ρ c, carry_main_v46_0_6_8 m ρ c, s_main_v46_0 m ρ c, s_main_v58 m ρ c]

/-- THE KERNEL'S VALUE: the result buffer's final contents are the kernel-shaped function of the arguments. -/
theorem kernel_value : W10 m ρ c (Proc.devRef .tc main_v82)
    = outK (aX m c) (aEI m c) (aBT m c) (aWin m c) (abin m c) (aW1 m c) (ab1 m c) (aW2 m c) (ab2 m c) (aW3 m c) (ab3 m c)
        (aWp1 m c) (abp1 m c) (aWp2 m c) (abp2 m c) := by
  refine (W10_arr m ρ c 5).trans ((fin4_5 (U9 m ρ) c).trans ?_)
  show headF (W9 m ρ c (Proc.devRef .tc main_v81)) (W9 m ρ c (Proc.devRef .tc main_arg11)) (W9 m ρ c (Proc.devRef .tc main_v20)) (W9 m ρ c (Proc.devRef .tc main_arg13)) (W9 m ρ c (Proc.devRef .tc main_v21)) = _
  rw [s_main_v81 m ρ c, carry_main_arg11_0_9 m ρ c, carry_main_v20_1_9 m ρ c, s_main_v20 m ρ c, carry_main_arg13_0_9 m ρ c, carry_main_v21_1_9 m ρ c, s_main_v21 m ρ c]
  rfl

end Cert.KernelIdeal.Hand

end
-- ==== Proof.RefValue2.lean ====
import proofs.«111900_j74998718923370_2_alg».proof.Proof.Gen.ReferenceIdeal.Read
import proofs.«111900_j74998718923370_2_alg».proof.Proof.Spec
import proofs.«111900_j74998718923370_2_alg».proof.Proof.LibVecGatherScatter
import proofs.«111900_j74998718923370_2_alg».proof.Proof.LibRowGather
import proofs.«111900_j74998718923370_2_alg».proof.Proof.LibRowScatter

/-!
  The input projection, read index by index: a matrix product as a plain sum plus a row added to every row.
  Also the word arithmetic the edge rows go through: a negative row number is increased by the node count once.
-/

noncomputable section

namespace Cert.ReferenceIdeal.RefValue

open Cert.ReferenceIdeal Cert.ReferenceIdeal.Gen Cert.ReferenceIdeal.Read Idealize.ShloMosaic Idealize.ShloMosaic.ValueIdx

/-- Choosing `s + 50000` when `s` is negative and `s` otherwise is the wrap. -/
theorem wrap_eq (s : BitVec 32) :
    Scalar.select (IntOp.cmpi .slt s 0#32) (IntOp.addi s 50000#32) s = Cert.Spec.wrap s := by
  unfold Cert.Spec.wrap
  cases h : s.slt 0#32
  · have hc : IntOp.cmpi .slt s 0#32 = 0#1 := by
      show BitVec.ofBool (s.slt 0#32) = 0#1
      rw [h]; rfl
    rw [hc, select_zero]; rfl
  · have hc : IntOp.cmpi .slt s 0#32 = 1#1 := by
      show BitVec.ofBool (s.slt 0#32) = 1#1
      rw [h]; rfl
    rw [hc, select_one]; rfl

/-- Row 0 of the edge array, as a vector, holds each edge's source word. -/
theorem srcWord (a1 : (⟨S2x800000, .i32⟩ : BufTy).Contents (Elt Ideal)) (e : Fin 800000) :
    val_main_v1 (F := Ideal) a1 (ix1 e) = a1 (ix2 (0 : Fin 2) e) := by
  rw [val_main_v1_apply, val_main_v0_apply]
  congr 1
  funext a; refine Fin.ext ?_
  match a with
  | ⟨0, _⟩ => rfl
  | ⟨1, _⟩ => exact Nat.mod_eq_of_lt e.isLt

/-- Row 1 of the edge array, as a vector, holds each edge's destination word. -/
theorem dstWord (a1 : (⟨S2x800000, .i32⟩ : BufTy).Contents (Elt Ideal)) (e : Fin 800000) :
    val_main_v3 (F := Ideal) a1 (ix1 e) = a1 (ix2 (1 : Fin 2) e) := by
  rw [val_main_v3_apply, val_main_v2_apply]
  congr 1
  funext a; refine Fin.ext ?_
  match a with
  | ⟨0, _⟩ => rfl
  | ⟨1, _⟩ => exact Nat.mod_eq_of_lt e.isLt

/-- The printed dimension records are the reading lemmas' records. -/
theorem gathVec_eq : gather_S50000_S800000x1_S800000_n_0_n_n_0_1_1
    = VecGS.gdims 50000 800000 Facts₀.gather_S50000_S800000x1_S800000_n_0_n_n_0_1_1_wf := rfl
theorem gathRow_eq : gather_S50000x128_S800000x1_S800000x128_1_0_n_n_0_1_1128
    = RowGather.dims 50000 800000 128 Facts₀.gather_S50000x128_S800000x1_S800000x128_1_0_n_n_0_1_1128_wf := rfl
theorem scatRow_eq : scatter_S50000x128_S800000x1_S800000x128_1_0_0_1
    = RowScatter.dims 50000 800000 128 Facts₀.scatter_S50000x128_S800000x1_S800000x128_1_0_0_1_wf := rfl

/-- Stage %14 is the input projection. -/
theorem h_eq (a0 : (⟨S50000x128, .f32⟩ : BufTy).Contents (Elt Ideal)) (a3 : (⟨S128x128, .f32⟩ : BufTy).Contents (Elt Ideal))
    (a4 : (⟨S128, .f32⟩ : BufTy).Contents (Elt Ideal)) :
    val_main_v14 (F := Ideal) a0 a3 a4 = Cert.Spec.addRow (Cert.Spec.lin a0 a3) a4 := by
  funext i
  obtain ⟨p, q, rfl⟩ : ∃ (p : Fin 50000) (q : Fin 128), i = ix2 p q := ⟨i 0, i 1, eq_ix2 i⟩
  have e1 : ∀ k : Fin 128, lidx_main_v11 (ix2 p q) k = ix2 p k := fun k =>
    funext fun a => Fin.ext (by match a with | ⟨0, _⟩ => rfl | ⟨1, _⟩ => rfl)
  have e2 : ∀ k : Fin 128, ridx_main_v11 (ix2 p q) k = ix2 k q := fun k =>
    funext fun a => Fin.ext (by match a with | ⟨0, _⟩ => rfl | ⟨1, _⟩ => rfl)
  have e3 : idx_main_v12 (idx_main_v13 (ix2 p q)) = ix1 q :=
    funext fun a => Fin.ext (by match a with | ⟨0, _⟩ => rfl)
  rw [val_main_v14_apply, val_main_v11_apply, val_main_v13_apply, val_main_v12_apply]
  simp only [e1, e2, e3, Ideal.addf_def]
  rfl

end Cert.ReferenceIdeal.RefValue

end
-- ==== Proof.RefValue1.lean ====
import proofs.«111900_j74998718923370_2_alg».proof.Proof.Gen.ReferenceIdeal.Read
import proofs.«111900_j74998718923370_2_alg».proof.Proof.Spec
import proofs.«111900_j74998718923370_2_alg».proof.Proof.LibVecGatherScatter

/-!
  The reference's normaliser, read index by index: the reciprocal square root of one plus the number of
  edges whose destination word, read signed, is the node.
-/

noncomputable section

namespace Cert.ReferenceIdeal.RefValue

open Cert.ReferenceIdeal Cert.ReferenceIdeal.Gen Cert.ReferenceIdeal.Read Idealize.ShloMosaic Idealize.ShloMosaic.ValueIdx

/-- The record of the degree's scatter is the vector scatter's. -/
theorem scatVec_eq : scatter_S50000_S800000x1_S800000_n_0_0_1
    = VecGS.sdims 50000 800000 Facts₀.scatter_S50000_S800000x1_S800000_n_0_0_1_wf := rfl

/-- The destination column, as an [E, 1] array, holds row 1 of the edge array. -/
theorem dstCol (a1 : (⟨S2x800000, .i32⟩ : BufTy).Contents (Elt Ideal)) (e : Fin 800000) :
    val_main_v6 (F := Ideal) a1 (ix2 e (0 : Fin 1)) = a1 (ix2 (1 : Fin 2) e) := by
  rw [val_main_v6_apply, val_main_v3_apply, val_main_v2_apply]
  congr 1
  funext a; refine Fin.ext ?_
  match a with
  | ⟨0, _⟩ => rfl
  | ⟨1, _⟩ => exact Nat.mod_eq_of_lt e.isLt

/-- Stage %10 is the normaliser. -/
theorem dis_eq (a1 : (⟨S2x800000, .i32⟩ : BufTy).Contents (Elt Ideal)) :
    val_main_v10 (F := Ideal) a1 = fun i => Cert.Spec.dis a1 (i 0) := by
  funext i
  obtain ⟨n, rfl⟩ : ∃ n : Fin 50000, i = ix1 n := ⟨i 0, eq_ix1 i⟩
  rw [val_main_v10_apply, val_main_v9_apply]
  unfold val_main_v7
  rw [scatVec_eq, VecGS.scatterAdd_apply, val_main_v5_apply, val_main_cst_0_apply, val_main_v8_apply, val_main_cst_1_apply]
  simp only [dstCol, val_main_v4_apply, val_main_cst_apply, Ideal.addf_def, Ideal.ofBits_def, Ideal.hostUnary_rsqrt_def]
  rfl

end Cert.ReferenceIdeal.RefValue

end
-- ==== Proof.RefValue3.lean ====
import proofs.«111900_j74998718923370_2_alg».proof.Proof.Gen.ReferenceIdeal.Read
import proofs.«111900_j74998718923370_2_alg».proof.Proof.Spec
import proofs.«111900_j74998718923370_2_alg».proof.Proof.RefValue1
import proofs.«111900_j74998718923370_2_alg».proof.Proof.RefValue2

/-!
  Graph layer 1 of the reference, read index by index: the rectifier of the layer's input plus the sum, over the
  edges landing on the node, of the source's projected features times both normalisers, plus the node's own
  projected features times its normaliser squared, plus the bias row.
-/

noncomputable section

namespace Cert.ReferenceIdeal.RefValue

open Cert.ReferenceIdeal Cert.ReferenceIdeal.Gen Cert.ReferenceIdeal.Read Idealize.ShloMosaic Idealize.ShloMosaic.ValueIdx

/-- The layer's projected features are a matrix product as a plain sum. -/
theorem L1_hm (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) : val_main_v15 (F := Ideal) x0 x3 x4 x5 = Cert.Spec.lin (val_main_v14 (F := Ideal) x0 x3 x4) x5 := by
  funext i
  obtain ⟨p, q, rfl⟩ : ∃ (p : Fin 50000) (q : Fin 128), i = ix2 p q := ⟨i 0, i 1, eq_ix2 i⟩
  have el : ∀ k : Fin 128, lidx_main_v15 (ix2 p q) k = ix2 p k := fun k => funext fun a => Fin.ext (by match a with | ⟨0, _⟩ => rfl | ⟨1, _⟩ => rfl)
  have er : ∀ k : Fin 128, ridx_main_v15 (ix2 p q) k = ix2 k q := fun k => funext fun a => Fin.ext (by match a with | ⟨0, _⟩ => rfl | ⟨1, _⟩ => rfl)
  rw [val_main_v15_apply]
  simp only [el, er]
  rfl

/-- The source column the normaliser is read at: the source word, wrapped. -/
theorem L1_srcD (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (e : Fin 800000) :
    val_main_v21 (F := Ideal) x1 (ix2 e (0 : Fin 1)) = Cert.Spec.wrap (x1 (ix2 (0 : Fin 2) e)) := by
  have ei : idx_main_v21 (ix2 e (0 : Fin 1)) = ix1 e := funext fun a => Fin.ext (by match a with | ⟨0, _⟩ => rfl)
  rw [val_main_v21_apply, ei, val_main_v20_apply, val_main_v17_apply, val_main_v19_apply, val_main_v16_apply, val_main_c_apply, val_main_v18_apply, val_main_c_2_apply, srcWord, wrap_eq]

/-- The destination column the normaliser is read at: the destination word, wrapped. -/
theorem L1_dstD (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (e : Fin 800000) :
    val_main_v28 (F := Ideal) x1 (ix2 e (0 : Fin 1)) = Cert.Spec.wrap (x1 (ix2 (1 : Fin 2) e)) := by
  have ei : idx_main_v28 (ix2 e (0 : Fin 1)) = ix1 e := funext fun a => Fin.ext (by match a with | ⟨0, _⟩ => rfl)
  rw [val_main_v28_apply, ei, val_main_v27_apply, val_main_v24_apply, val_main_v26_apply, val_main_v23_apply, val_main_c_3_apply, val_main_v25_apply, val_main_c_4_apply, dstWord, wrap_eq]

/-- The source column the features are read at: the source word, wrapped. -/
theorem L1_srcH (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (e : Fin 800000) :
    val_main_v37 (F := Ideal) x1 (ix2 e (0 : Fin 1)) = Cert.Spec.wrap (x1 (ix2 (0 : Fin 2) e)) := by
  have ei : idx_main_v37 (ix2 e (0 : Fin 1)) = ix1 e := funext fun a => Fin.ext (by match a with | ⟨0, _⟩ => rfl)
  rw [val_main_v37_apply, ei, val_main_v36_apply, val_main_v33_apply, val_main_v35_apply, val_main_v32_apply, val_main_c_5_apply, val_main_v34_apply, val_main_c_6_apply, srcWord, wrap_eq]

/-- The column the sum lands by: the destination word itself. -/
theorem L1_dstRaw (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (e : Fin 800000) :
    val_main_v42 (F := Ideal) x1 (ix2 e (0 : Fin 1)) = x1 (ix2 (1 : Fin 2) e) := by
  have ei : idx_main_v42 (ix2 e (0 : Fin 1)) = ix1 e := funext fun a => Fin.ext (by match a with | ⟨0, _⟩ => rfl)
  rw [val_main_v42_apply, ei, dstWord]

/-- The clamped rows are the specification's. -/
theorem L1_rowSD (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (h : 0 < 50000) (e : Fin 800000) :
    VecGS.row h (val_main_v21 (F := Ideal) x1) e = Cert.Spec.srcRow x1 e :=
  Fin.ext (congrArg (fun s : BitVec 32 => min s.toInt.toNat 49999) (L1_srcD x0 x1 x3 x4 x5 x6 e))
theorem L1_rowDD (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (h : 0 < 50000) (e : Fin 800000) :
    VecGS.row h (val_main_v28 (F := Ideal) x1) e = Cert.Spec.dstRow x1 e :=
  Fin.ext (congrArg (fun s : BitVec 32 => min s.toInt.toNat 49999) (L1_dstD x0 x1 x3 x4 x5 x6 e))
theorem L1_rowSH (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (h : 0 < 50000) (e : Fin 800000) :
    RowGather.row h (val_main_v37 (F := Ideal) x1) e = Cert.Spec.srcRow x1 e :=
  Fin.ext (congrArg (fun s : BitVec 32 => min s.toInt.toNat 49999) (L1_srcH x0 x1 x3 x4 x5 x6 e))

/-- An edge's weight: the product of its source's and its destination's normalisers. -/
theorem L1_norm (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (e : Fin 800000) (c : Fin 128) :
    val_main_v39 (F := Ideal) x1 (ix2 e c) = Cert.Spec.dis x1 (Cert.Spec.srcRow x1 e) * Cert.Spec.dis x1 (Cert.Spec.dstRow x1 e) := by
  have h5 : 0 < 50000 := by omega
  have e39 : idx_main_v39 (ix2 e c) = ix2 e (0 : Fin 1) := funext fun a => Fin.ext (by match a with | ⟨0, _⟩ => rfl | ⟨1, _⟩ => rfl)
  have e31 : idx_main_v31 (ix2 e (0 : Fin 1)) = ix1 e := funext fun a => Fin.ext (by match a with | ⟨0, _⟩ => rfl)
  rw [val_main_v39_apply, e39, val_main_v31_apply, e31, val_main_v30_apply]
  unfold val_main_v22 val_main_v29
  rw [gathVec_eq, VecGS.gather_apply _ h5, VecGS.gather_apply _ h5, L1_rowSD x0 x1 x3 x4 x5 x6 h5, L1_rowDD x0 x1 x3 x4 x5 x6 h5, dis_eq]
  rfl

/-- An edge's message: its source's projected features. -/
theorem L1_msg (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (e : Fin 800000) (c : Fin 128) :
    val_main_v38 (F := Ideal) x0 x1 x3 x4 x5 (ix2 e c) = val_main_v15 (F := Ideal) x0 x3 x4 x5 (ix2 (Cert.Spec.srcRow x1 e) c) := by
  have h5 : 0 < 50000 := by omega
  unfold val_main_v38
  rw [gathRow_eq, RowGather.gather_apply _ h5, L1_rowSH x0 x1 x3 x4 x5 x6 h5]

/-- The sum over the landing edges. -/
theorem L1_agg (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (n : Fin 50000) (c : Fin 128) :
    val_main_v43 (F := Ideal) x0 x1 x3 x4 x5 (ix2 n c) = Cert.Spec.aggR x1 (val_main_v15 (F := Ideal) x0 x3 x4 x5) (ix2 n c) := by
  unfold val_main_v43
  rw [scatRow_eq, RowScatter.scatterAdd_apply, val_main_v41_apply, val_main_cst_7_apply]
  simp only [L1_dstRaw x0 x1 x3 x4 x5 x6, val_main_v40_apply, L1_msg x0 x1 x3 x4 x5 x6, L1_norm x0 x1 x3 x4 x5 x6, Ideal.mulf_def, Ideal.ofBits_def]
  rfl

/-- THE LAYER: its result is the specification's layer of its input. -/
theorem L1_eq (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) :
    val_main_v53 (F := Ideal) x0 x1 x3 x4 x5 x6 = Cert.Spec.layerR x1 (val_main_v14 (F := Ideal) x0 x3 x4) x5 x6 := by
  funext i
  obtain ⟨n, c, rfl⟩ : ∃ (n : Fin 50000) (c : Fin 128), i = ix2 n c := ⟨i 0, i 1, eq_ix2 i⟩
  have e46 : idx_main_v45 (idx_main_v46 (ix2 n c)) = ix1 n := funext fun a => Fin.ext (by match a with | ⟨0, _⟩ => rfl)
  have e50 : idx_main_v49 (idx_main_v50 (ix2 n c)) = ix1 c := funext fun a => Fin.ext (by match a with | ⟨0, _⟩ => rfl)
  rw [val_main_v53_apply, val_main_v52_apply, val_main_v51_apply, val_main_v48_apply, val_main_v47_apply, L1_agg x0 x1 x3 x4 x5 x6, val_main_call0_v0_apply, val_main_call0_cst_apply,
    val_main_v50_apply, val_main_v49_apply, e50, val_main_v46_apply, val_main_v45_apply, e46, val_main_v44_apply, L1_hm x0 x1 x3 x4 x5 x6, dis_eq]
  rfl

end Cert.ReferenceIdeal.RefValue

end
-- ==== Proof.RefValue4.lean ====
import proofs.«111900_j74998718923370_2_alg».proof.Proof.Gen.ReferenceIdeal.Read
import proofs.«111900_j74998718923370_2_alg».proof.Proof.Spec
import proofs.«111900_j74998718923370_2_alg».proof.Proof.RefValue1
import proofs.«111900_j74998718923370_2_alg».proof.Proof.RefValue2

/-!
  Graph layer 2 of the reference, read index by index: the rectifier of the layer's input plus the sum, over the
  edges landing on the node, of the source's projected features times both normalisers, plus the node's own
  projected features times its normaliser squared, plus the bias row.
-/

noncomputable section

namespace Cert.ReferenceIdeal.RefValue

open Cert.ReferenceIdeal Cert.ReferenceIdeal.Gen Cert.ReferenceIdeal.Read Idealize.ShloMosaic Idealize.ShloMosaic.ValueIdx

/-- The layer's projected features are a matrix product as a plain sum. -/
theorem L2_hm (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) : val_main_v54 (F := Ideal) x0 x1 x3 x4 x5 x6 x7 = Cert.Spec.lin (val_main_v53 (F := Ideal) x0 x1 x3 x4 x5 x6) x7 := by
  funext i
  obtain ⟨p, q, rfl⟩ : ∃ (p : Fin 50000) (q : Fin 128), i = ix2 p q := ⟨i 0, i 1, eq_ix2 i⟩
  have el : ∀ k : Fin 128, lidx_main_v54 (ix2 p q) k = ix2 p k := fun k => funext fun a => Fin.ext (by match a with | ⟨0, _⟩ => rfl | ⟨1, _⟩ => rfl)
  have er : ∀ k : Fin 128, ridx_main_v54 (ix2 p q) k = ix2 k q := fun k => funext fun a => Fin.ext (by match a with | ⟨0, _⟩ => rfl | ⟨1, _⟩ => rfl)
  rw [val_main_v54_apply]
  simp only [el, er]
  rfl

/-- The source column the normaliser is read at: the source word, wrapped. -/
theorem L2_srcD (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (e : Fin 800000) :
    val_main_v60 (F := Ideal) x1 (ix2 e (0 : Fin 1)) = Cert.Spec.wrap (x1 (ix2 (0 : Fin 2) e)) := by
  have ei : idx_main_v60 (ix2 e (0 : Fin 1)) = ix1 e := funext fun a => Fin.ext (by match a with | ⟨0, _⟩ => rfl)
  rw [val_main_v60_apply, ei, val_main_v59_apply, val_main_v56_apply, val_main_v58_apply, val_main_v55_apply, val_main_c_8_apply, val_main_v57_apply, val_main_c_9_apply, srcWord, wrap_eq]

/-- The destination column the normaliser is read at: the destination word, wrapped. -/
theorem L2_dstD (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (e : Fin 800000) :
    val_main_v67 (F := Ideal) x1 (ix2 e (0 : Fin 1)) = Cert.Spec.wrap (x1 (ix2 (1 : Fin 2) e)) := by
  have ei : idx_main_v67 (ix2 e (0 : Fin 1)) = ix1 e := funext fun a => Fin.ext (by match a with | ⟨0, _⟩ => rfl)
  rw [val_main_v67_apply, ei, val_main_v66_apply, val_main_v63_apply, val_main_v65_apply, val_main_v62_apply, val_main_c_10_apply, val_main_v64_apply, val_main_c_11_apply, dstWord, wrap_eq]

/-- The source column the features are read at: the source word, wrapped. -/
theorem L2_srcH (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (e : Fin 800000) :
    val_main_v76 (F := Ideal) x1 (ix2 e (0 : Fin 1)) = Cert.Spec.wrap (x1 (ix2 (0 : Fin 2) e)) := by
  have ei : idx_main_v76 (ix2 e (0 : Fin 1)) = ix1 e := funext fun a => Fin.ext (by match a with | ⟨0, _⟩ => rfl)
  rw [val_main_v76_apply, ei, val_main_v75_apply, val_main_v72_apply, val_main_v74_apply, val_main_v71_apply, val_main_c_12_apply, val_main_v73_apply, val_main_c_13_apply, srcWord, wrap_eq]

/-- The column the sum lands by: the destination word itself. -/
theorem L2_dstRaw (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (e : Fin 800000) :
    val_main_v81 (F := Ideal) x1 (ix2 e (0 : Fin 1)) = x1 (ix2 (1 : Fin 2) e) := by
  have ei : idx_main_v81 (ix2 e (0 : Fin 1)) = ix1 e := funext fun a => Fin.ext (by match a with | ⟨0, _⟩ => rfl)
  rw [val_main_v81_apply, ei, dstWord]

/-- The clamped rows are the specification's. -/
theorem L2_rowSD (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (h : 0 < 50000) (e : Fin 800000) :
    VecGS.row h (val_main_v60 (F := Ideal) x1) e = Cert.Spec.srcRow x1 e :=
  Fin.ext (congrArg (fun s : BitVec 32 => min s.toInt.toNat 49999) (L2_srcD x0 x1 x3 x4 x5 x6 x7 x8 e))
theorem L2_rowDD (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (h : 0 < 50000) (e : Fin 800000) :
    VecGS.row h (val_main_v67 (F := Ideal) x1) e = Cert.Spec.dstRow x1 e :=
  Fin.ext (congrArg (fun s : BitVec 32 => min s.toInt.toNat 49999) (L2_dstD x0 x1 x3 x4 x5 x6 x7 x8 e))
theorem L2_rowSH (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (h : 0 < 50000) (e : Fin 800000) :
    RowGather.row h (val_main_v76 (F := Ideal) x1) e = Cert.Spec.srcRow x1 e :=
  Fin.ext (congrArg (fun s : BitVec 32 => min s.toInt.toNat 49999) (L2_srcH x0 x1 x3 x4 x5 x6 x7 x8 e))

/-- An edge's weight: the product of its source's and its destination's normalisers. -/
theorem L2_norm (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (e : Fin 800000) (c : Fin 128) :
    val_main_v78 (F := Ideal) x1 (ix2 e c) = Cert.Spec.dis x1 (Cert.Spec.srcRow x1 e) * Cert.Spec.dis x1 (Cert.Spec.dstRow x1 e) := by
  have h5 : 0 < 50000 := by omega
  have e39 : idx_main_v78 (ix2 e c) = ix2 e (0 : Fin 1) := funext fun a => Fin.ext (by match a with | ⟨0, _⟩ => rfl | ⟨1, _⟩ => rfl)
  have e31 : idx_main_v70 (ix2 e (0 : Fin 1)) = ix1 e := funext fun a => Fin.ext (by match a with | ⟨0, _⟩ => rfl)
  rw [val_main_v78_apply, e39, val_main_v70_apply, e31, val_main_v69_apply]
  unfold val_main_v61 val_main_v68
  rw [gathVec_eq, VecGS.gather_apply _ h5, VecGS.gather_apply _ h5, L2_rowSD x0 x1 x3 x4 x5 x6 x7 x8 h5, L2_rowDD x0 x1 x3 x4 x5 x6 x7 x8 h5, dis_eq]
  rfl

/-- An edge's message: its source's projected features. -/
theorem L2_msg (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (e : Fin 800000) (c : Fin 128) :
    val_main_v77 (F := Ideal) x0 x1 x3 x4 x5 x6 x7 (ix2 e c) = val_main_v54 (F := Ideal) x0 x1 x3 x4 x5 x6 x7 (ix2 (Cert.Spec.srcRow x1 e) c) := by
  have h5 : 0 < 50000 := by omega
  unfold val_main_v77
  rw [gathRow_eq, RowGather.gather_apply _ h5, L2_rowSH x0 x1 x3 x4 x5 x6 x7 x8 h5]

/-- The sum over the landing edges. -/
theorem L2_agg (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (n : Fin 50000) (c : Fin 128) :
    val_main_v82 (F := Ideal) x0 x1 x3 x4 x5 x6 x7 (ix2 n c) = Cert.Spec.aggR x1 (val_main_v54 (F := Ideal) x0 x1 x3 x4 x5 x6 x7) (ix2 n c) := by
  unfold val_main_v82
  rw [scatRow_eq, RowScatter.scatterAdd_apply, val_main_v80_apply, val_main_cst_14_apply]
  simp only [L2_dstRaw x0 x1 x3 x4 x5 x6 x7 x8, val_main_v79_apply, L2_msg x0 x1 x3 x4 x5 x6 x7 x8, L2_norm x0 x1 x3 x4 x5 x6 x7 x8, Ideal.mulf_def, Ideal.ofBits_def]
  rfl

/-- THE LAYER: its result is the specification's layer of its input. -/
theorem L2_eq (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) :
    val_main_v92 (F := Ideal) x0 x1 x3 x4 x5 x6 x7 x8 = Cert.Spec.layerR x1 (val_main_v53 (F := Ideal) x0 x1 x3 x4 x5 x6) x7 x8 := by
  funext i
  obtain ⟨n, c, rfl⟩ : ∃ (n : Fin 50000) (c : Fin 128), i = ix2 n c := ⟨i 0, i 1, eq_ix2 i⟩
  have e46 : idx_main_v84 (idx_main_v85 (ix2 n c)) = ix1 n := funext fun a => Fin.ext (by match a with | ⟨0, _⟩ => rfl)
  have e50 : idx_main_v88 (idx_main_v89 (ix2 n c)) = ix1 c := funext fun a => Fin.ext (by match a with | ⟨0, _⟩ => rfl)
  rw [val_main_v92_apply, val_main_v91_apply, val_main_v90_apply, val_main_v87_apply, val_main_v86_apply, L2_agg x0 x1 x3 x4 x5 x6 x7 x8, val_main_call1_v0_apply, val_main_call1_cst_apply,
    val_main_v89_apply, val_main_v88_apply, e50, val_main_v85_apply, val_main_v84_apply, e46, val_main_v83_apply, L2_hm x0 x1 x3 x4 x5 x6 x7 x8, dis_eq]
  rfl

end Cert.ReferenceIdeal.RefValue

end
-- ==== Proof.RefValue5.lean ====
import proofs.«111900_j74998718923370_2_alg».proof.Proof.Gen.ReferenceIdeal.Read
import proofs.«111900_j74998718923370_2_alg».proof.Proof.Spec
import proofs.«111900_j74998718923370_2_alg».proof.Proof.RefValue1
import proofs.«111900_j74998718923370_2_alg».proof.Proof.RefValue2

/-!
  Graph layer 3 of the reference, read index by index: the rectifier of the layer's input plus the sum, over the
  edges landing on the node, of the source's projected features times both normalisers, plus the node's own
  projected features times its normaliser squared, plus the bias row.
-/

noncomputable section

namespace Cert.ReferenceIdeal.RefValue

open Cert.ReferenceIdeal Cert.ReferenceIdeal.Gen Cert.ReferenceIdeal.Read Idealize.ShloMosaic Idealize.ShloMosaic.ValueIdx

/-- The layer's projected features are a matrix product as a plain sum. -/
theorem L3_hm (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) : val_main_v93 (F := Ideal) x0 x1 x3 x4 x5 x6 x7 x8 x9 = Cert.Spec.lin (val_main_v92 (F := Ideal) x0 x1 x3 x4 x5 x6 x7 x8) x9 := by
  funext i
  obtain ⟨p, q, rfl⟩ : ∃ (p : Fin 50000) (q : Fin 128), i = ix2 p q := ⟨i 0, i 1, eq_ix2 i⟩
  have el : ∀ k : Fin 128, lidx_main_v93 (ix2 p q) k = ix2 p k := fun k => funext fun a => Fin.ext (by match a with | ⟨0, _⟩ => rfl | ⟨1, _⟩ => rfl)
  have er : ∀ k : Fin 128, ridx_main_v93 (ix2 p q) k = ix2 k q := fun k => funext fun a => Fin.ext (by match a with | ⟨0, _⟩ => rfl | ⟨1, _⟩ => rfl)
  rw [val_main_v93_apply]
  simp only [el, er]
  rfl

/-- The source column the normaliser is read at: the source word, wrapped. -/
theorem L3_srcD (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (e : Fin 800000) :
    val_main_v99 (F := Ideal) x1 (ix2 e (0 : Fin 1)) = Cert.Spec.wrap (x1 (ix2 (0 : Fin 2) e)) := by
  have ei : idx_main_v99 (ix2 e (0 : Fin 1)) = ix1 e := funext fun a => Fin.ext (by match a with | ⟨0, _⟩ => rfl)
  rw [val_main_v99_apply, ei, val_main_v98_apply, val_main_v95_apply, val_main_v97_apply, val_main_v94_apply, val_main_c_15_apply, val_main_v96_apply, val_main_c_16_apply, srcWord, wrap_eq]

/-- The destination column the normaliser is read at: the destination word, wrapped. -/
theorem L3_dstD (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (e : Fin 800000) :
    val_main_v106 (F := Ideal) x1 (ix2 e (0 : Fin 1)) = Cert.Spec.wrap (x1 (ix2 (1 : Fin 2) e)) := by
  have ei : idx_main_v106 (ix2 e (0 : Fin 1)) = ix1 e := funext fun a => Fin.ext (by match a with | ⟨0, _⟩ => rfl)
  rw [val_main_v106_apply, ei, val_main_v105_apply, val_main_v102_apply, val_main_v104_apply, val_main_v101_apply, val_main_c_17_apply, val_main_v103_apply, val_main_c_18_apply, dstWord, wrap_eq]

/-- The source column the features are read at: the source word, wrapped. -/
theorem L3_srcH (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (e : Fin 800000) :
    val_main_v115 (F := Ideal) x1 (ix2 e (0 : Fin 1)) = Cert.Spec.wrap (x1 (ix2 (0 : Fin 2) e)) := by
  have ei : idx_main_v115 (ix2 e (0 : Fin 1)) = ix1 e := funext fun a => Fin.ext (by match a with | ⟨0, _⟩ => rfl)
  rw [val_main_v115_apply, ei, val_main_v114_apply, val_main_v111_apply, val_main_v113_apply, val_main_v110_apply, val_main_c_19_apply, val_main_v112_apply, val_main_c_20_apply, srcWord, wrap_eq]

/-- The column the sum lands by: the destination word itself. -/
theorem L3_dstRaw (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (e : Fin 800000) :
    val_main_v120 (F := Ideal) x1 (ix2 e (0 : Fin 1)) = x1 (ix2 (1 : Fin 2) e) := by
  have ei : idx_main_v120 (ix2 e (0 : Fin 1)) = ix1 e := funext fun a => Fin.ext (by match a with | ⟨0, _⟩ => rfl)
  rw [val_main_v120_apply, ei, dstWord]

/-- The clamped rows are the specification's. -/
theorem L3_rowSD (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (h : 0 < 50000) (e : Fin 800000) :
    VecGS.row h (val_main_v99 (F := Ideal) x1) e = Cert.Spec.srcRow x1 e :=
  Fin.ext (congrArg (fun s : BitVec 32 => min s.toInt.toNat 49999) (L3_srcD x0 x1 x3 x4 x5 x6 x7 x8 x9 x10 e))
theorem L3_rowDD (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (h : 0 < 50000) (e : Fin 800000) :
    VecGS.row h (val_main_v106 (F := Ideal) x1) e = Cert.Spec.dstRow x1 e :=
  Fin.ext (congrArg (fun s : BitVec 32 => min s.toInt.toNat 49999) (L3_dstD x0 x1 x3 x4 x5 x6 x7 x8 x9 x10 e))
theorem L3_rowSH (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (h : 0 < 50000) (e : Fin 800000) :
    RowGather.row h (val_main_v115 (F := Ideal) x1) e = Cert.Spec.srcRow x1 e :=
  Fin.ext (congrArg (fun s : BitVec 32 => min s.toInt.toNat 49999) (L3_srcH x0 x1 x3 x4 x5 x6 x7 x8 x9 x10 e))

/-- An edge's weight: the product of its source's and its destination's normalisers. -/
theorem L3_norm (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (e : Fin 800000) (c : Fin 128) :
    val_main_v117 (F := Ideal) x1 (ix2 e c) = Cert.Spec.dis x1 (Cert.Spec.srcRow x1 e) * Cert.Spec.dis x1 (Cert.Spec.dstRow x1 e) := by
  have h5 : 0 < 50000 := by omega
  have e39 : idx_main_v117 (ix2 e c) = ix2 e (0 : Fin 1) := funext fun a => Fin.ext (by match a with | ⟨0, _⟩ => rfl | ⟨1, _⟩ => rfl)
  have e31 : idx_main_v109 (ix2 e (0 : Fin 1)) = ix1 e := funext fun a => Fin.ext (by match a with | ⟨0, _⟩ => rfl)
  rw [val_main_v117_apply, e39, val_main_v109_apply, e31, val_main_v108_apply]
  unfold val_main_v100 val_main_v107
  rw [gathVec_eq, VecGS.gather_apply _ h5, VecGS.gather_apply _ h5, L3_rowSD x0 x1 x3 x4 x5 x6 x7 x8 x9 x10 h5, L3_rowDD x0 x1 x3 x4 x5 x6 x7 x8 x9 x10 h5, dis_eq]
  rfl

/-- An edge's message: its source's projected features. -/
theorem L3_msg (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (e : Fin 800000) (c : Fin 128) :
    val_main_v116 (F := Ideal) x0 x1 x3 x4 x5 x6 x7 x8 x9 (ix2 e c) = val_main_v93 (F := Ideal) x0 x1 x3 x4 x5 x6 x7 x8 x9 (ix2 (Cert.Spec.srcRow x1 e) c) := by
  have h5 : 0 < 50000 := by omega
  unfold val_main_v116
  rw [gathRow_eq, RowGather.gather_apply _ h5, L3_rowSH x0 x1 x3 x4 x5 x6 x7 x8 x9 x10 h5]

/-- The sum over the landing edges. -/
theorem L3_agg (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (n : Fin 50000) (c : Fin 128) :
    val_main_v121 (F := Ideal) x0 x1 x3 x4 x5 x6 x7 x8 x9 (ix2 n c) = Cert.Spec.aggR x1 (val_main_v93 (F := Ideal) x0 x1 x3 x4 x5 x6 x7 x8 x9) (ix2 n c) := by
  unfold val_main_v121
  rw [scatRow_eq, RowScatter.scatterAdd_apply, val_main_v119_apply, val_main_cst_21_apply]
  simp only [L3_dstRaw x0 x1 x3 x4 x5 x6 x7 x8 x9 x10, val_main_v118_apply, L3_msg x0 x1 x3 x4 x5 x6 x7 x8 x9 x10, L3_norm x0 x1 x3 x4 x5 x6 x7 x8 x9 x10, Ideal.mulf_def, Ideal.ofBits_def]
  rfl

/-- THE LAYER: its result is the specification's layer of its input. -/
theorem L3_eq (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) :
    val_main_v131 (F := Ideal) x0 x1 x3 x4 x5 x6 x7 x8 x9 x10 = Cert.Spec.layerR x1 (val_main_v92 (F := Ideal) x0 x1 x3 x4 x5 x6 x7 x8) x9 x10 := by
  funext i
  obtain ⟨n, c, rfl⟩ : ∃ (n : Fin 50000) (c : Fin 128), i = ix2 n c := ⟨i 0, i 1, eq_ix2 i⟩
  have e46 : idx_main_v123 (idx_main_v124 (ix2 n c)) = ix1 n := funext fun a => Fin.ext (by match a with | ⟨0, _⟩ => rfl)
  have e50 : idx_main_v127 (idx_main_v128 (ix2 n c)) = ix1 c := funext fun a => Fin.ext (by match a with | ⟨0, _⟩ => rfl)
  rw [val_main_v131_apply, val_main_v130_apply, val_main_v129_apply, val_main_v126_apply, val_main_v125_apply, L3_agg x0 x1 x3 x4 x5 x6 x7 x8 x9 x10, val_main_call2_v0_apply, val_main_call2_cst_apply,
    val_main_v128_apply, val_main_v127_apply, e50, val_main_v124_apply, val_main_v123_apply, e46, val_main_v122_apply, L3_hm x0 x1 x3 x4 x5 x6 x7 x8 x9 x10, dis_eq]
  rfl

end Cert.ReferenceIdeal.RefValue

end
-- ==== Proof.RefValue6.lean ====
import proofs.«111900_j74998718923370_2_alg».proof.Proof.Gen.ReferenceIdeal.Read
import proofs.«111900_j74998718923370_2_alg».proof.Proof.Spec
import proofs.«111900_j74998718923370_2_alg».proof.Proof.RefValue2

/-!
  The three layers' outputs side by side, and their per-graph mean, read index by index. A node belongs to graph g
  when its batch word, read signed, is g; the sum of a column over a graph's nodes is divided by the larger of the
  graph's size and one.
-/

noncomputable section

namespace Cert.ReferenceIdeal.RefValue

open Cert.ReferenceIdeal Cert.ReferenceIdeal.Gen Cert.ReferenceIdeal.Read Idealize.ShloMosaic Idealize.ShloMosaic.ValueIdx

/-- The printed dimension records of the pooling's two sums are the reading lemmas' records. -/
theorem scatPool_eq : scatter_S512x384_S50000x1_S50000x384_1_0_0_1
    = RowScatter.dims 512 50000 384 Facts₀.scatter_S512x384_S50000x1_S50000x384_1_0_0_1_wf := rfl
theorem scatCnt_eq : scatter_S512_S50000x1_S50000_n_0_0_1
    = VecGS.sdims 512 50000 Facts₀.scatter_S512_S50000x1_S50000_n_0_0_1_wf := rfl

/-- Stage %132 is the three layers side by side: column c comes from the layer c / 128, at column c mod 128. -/
theorem cat_eq (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) :
    val_main_v132 (F := Ideal) x0 x1 x3 x4 x5 x6 x7 x8 x9 x10 = Cert.Spec.cat3 (val_main_v53 (F := Ideal) x0 x1 x3 x4 x5 x6) (val_main_v92 (F := Ideal) x0 x1 x3 x4 x5 x6 x7 x8) (val_main_v131 (F := Ideal) x0 x1 x3 x4 x5 x6 x7 x8 x9 x10) := by
  funext i
  obtain ⟨n, c, rfl⟩ : ∃ (n : Fin 50000) (c : Fin 384), i = ix2 n c := ⟨i 0, i 1, eq_ix2 i⟩
  unfold val_main_v132 Cert.Spec.cat3
  split
  · next h =>
    exact concatenate_apply_piece _ _ _ (ix2 n c) 0 (by show (0 : Nat) < 3; omega) S50000x128 _ rfl rfl 0 rfl
      (ix2 n ⟨c.val, h⟩) (fun b hb => by match b with | ⟨0, _⟩ => rfl | ⟨1, _⟩ => exact absurd rfl hb)
      (by show 0 + c.val = c.val; omega)
  · next h =>
    have h' : ¬ c.val < 128 := h
    split
    · next h2 =>
      have h2' : c.val < 256 := h2
      exact concatenate_apply_piece _ _ _ (ix2 n c) 1 (by show (1 : Nat) < 3; omega) S50000x128 _ rfl rfl 128 rfl
        (ix2 n ⟨c.val - 128, by omega⟩) (fun b hb => by match b with | ⟨0, _⟩ => rfl | ⟨1, _⟩ => exact absurd rfl hb)
        (by show 128 + (c.val - 128) = c.val; omega)
    · next h2 =>
      have h2' : ¬ c.val < 256 := h2
      have h3 : c.val < 384 := c.isLt
      exact concatenate_apply_piece _ _ _ (ix2 n c) 2 (by show (2 : Nat) < 3; omega) S50000x128 _ rfl rfl 256 rfl
        (ix2 n ⟨c.val - 256, by omega⟩) (fun b hb => by match b with | ⟨0, _⟩ => rfl | ⟨1, _⟩ => exact absurd rfl hb)
        (by show 256 + (c.val - 256) = c.val; omega)

/-- The number of nodes of a graph. -/
theorem cnt_eq (x2 : (⟨S50000, .i32⟩ : BufTy).Contents (Elt Ideal)) (g : Fin 512) :
    val_main_v139 (F := Ideal) x2 (ix1 g) = Cert.Spec.cnt x2 g := by
  have ei : ∀ n : Fin 50000, idx_main_v138 (ix2 n (0 : Fin 1)) = ix1 n := fun n => funext fun a => Fin.ext (by match a with | ⟨0, _⟩ => rfl)
  unfold val_main_v139
  rw [scatCnt_eq, VecGS.scatterAdd_apply, val_main_v137_apply, val_main_cst_24_apply]
  simp only [val_main_v138_apply, ei, val_main_v136_apply, val_main_cst_23_apply, Ideal.ofBits_def]
  rfl

/-- Stage %144 is the per-graph mean of stage %132. -/
theorem pool_eq (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) :
    val_main_v144 (F := Ideal) x0 x1 x2 x3 x4 x5 x6 x7 x8 x9 x10 = Cert.Spec.pool x2 (val_main_v132 (F := Ideal) x0 x1 x3 x4 x5 x6 x7 x8 x9 x10) := by
  funext i
  obtain ⟨g, c, rfl⟩ : ∃ (g : Fin 512) (c : Fin 384), i = ix2 g c := ⟨i 0, i 1, eq_ix2 i⟩
  have ei : ∀ n : Fin 50000, idx_main_v134 (ix2 n (0 : Fin 1)) = ix1 n := fun n => funext fun a => Fin.ext (by match a with | ⟨0, _⟩ => rfl)
  have e143 : idx_main_v142 (idx_main_v143 (ix2 g c)) = ix1 g := funext fun a => Fin.ext (by match a with | ⟨0, _⟩ => rfl)
  rw [val_main_v144_apply, val_main_v143_apply, val_main_v142_apply, e143, val_main_v141_apply, cnt_eq, val_main_v140_apply,
    val_main_cst_25_apply]
  unfold val_main_v135
  rw [scatPool_eq, RowScatter.scatterAdd_apply, val_main_v133_apply, val_main_cst_22_apply]
  simp only [val_main_v134_apply, ei]
  rfl

end Cert.ReferenceIdeal.RefValue

end
-- ==== Proof.RefValue7.lean ====
import proofs.«111900_j74998718923370_2_alg».proof.Proof.Gen.ReferenceIdeal.Read
import proofs.«111900_j74998718923370_2_alg».proof.Proof.Spec

/-!
  The head, read index by index: two affine maps (matrix products as plain sums, a row added to every row) with a
  rectifier between, then each row divided by the larger of its Euclidean norm and a floor.
-/

noncomputable section

namespace Cert.ReferenceIdeal.RefValue

open Cert.ReferenceIdeal Cert.ReferenceIdeal.Gen Cert.ReferenceIdeal.Read Idealize.ShloMosaic Idealize.ShloMosaic.ValueIdx

/-- The hidden row: the rectifier of the first affine map of the pooled features. -/
theorem hid_eq (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S384x128, .f32⟩ : BufTy).Contents (Elt Ideal)) (x12 : (⟨S128, .f32⟩ : BufTy).Contents (Elt Ideal)) :
    val_main_v149 (F := Ideal) x0 x1 x2 x3 x4 x5 x6 x7 x8 x9 x10 x11 x12 = Cert.Spec.relu (Cert.Spec.addRow (Cert.Spec.lin (val_main_v144 (F := Ideal) x0 x1 x2 x3 x4 x5 x6 x7 x8 x9 x10) x11) x12) := by
  funext i
  obtain ⟨g, q, rfl⟩ : ∃ (g : Fin 512) (q : Fin 128), i = ix2 g q := ⟨i 0, i 1, eq_ix2 i⟩
  have el : ∀ k : Fin 384, lidx_main_v145 (ix2 g q) k = ix2 g k := fun k => funext fun a => Fin.ext (by match a with | ⟨0, _⟩ => rfl | ⟨1, _⟩ => rfl)
  have er : ∀ k : Fin 384, ridx_main_v145 (ix2 g q) k = ix2 k q := fun k => funext fun a => Fin.ext (by match a with | ⟨0, _⟩ => rfl | ⟨1, _⟩ => rfl)
  have e147 : idx_main_v146 (idx_main_v147 (ix2 g q)) = ix1 q := funext fun a => Fin.ext (by match a with | ⟨0, _⟩ => rfl)
  rw [val_main_v149_apply, val_main_v148_apply, val_main_v145_apply, val_main_v147_apply, val_main_v146_apply, e147,
    val_main_call3_v0_apply, val_main_call3_cst_apply]
  simp only [el, er]
  rfl

/-- The second affine map of the hidden row. -/
theorem headLin_eq (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S384x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) :
    val_main_v153 (F := Ideal) x0 x1 x2 x3 x4 x5 x6 x7 x8 x9 x10 x11 x12 x13 x14 = Cert.Spec.addRow (Cert.Spec.lin (Cert.Spec.relu (Cert.Spec.addRow (Cert.Spec.lin (val_main_v144 (F := Ideal) x0 x1 x2 x3 x4 x5 x6 x7 x8 x9 x10) x11) x12)) x13) x14 := by
  funext i
  obtain ⟨g, q, rfl⟩ : ∃ (g : Fin 512) (q : Fin 128), i = ix2 g q := ⟨i 0, i 1, eq_ix2 i⟩
  have el : ∀ k : Fin 128, lidx_main_v150 (ix2 g q) k = ix2 g k := fun k => funext fun a => Fin.ext (by match a with | ⟨0, _⟩ => rfl | ⟨1, _⟩ => rfl)
  have er : ∀ k : Fin 128, ridx_main_v150 (ix2 g q) k = ix2 k q := fun k => funext fun a => Fin.ext (by match a with | ⟨0, _⟩ => rfl | ⟨1, _⟩ => rfl)
  have e152 : idx_main_v151 (idx_main_v152 (ix2 g q)) = ix1 q := funext fun a => Fin.ext (by match a with | ⟨0, _⟩ => rfl)
  rw [val_main_v153_apply, val_main_v150_apply, val_main_v152_apply, val_main_v151_apply, e152, hid_eq]
  simp only [el, er]
  rfl

/-- Stage %161 is the head of stage %144. -/
theorem head_eq (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S384x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) :
    val_main_v161 (F := Ideal) x0 x1 x2 x3 x4 x5 x6 x7 x8 x9 x10 x11 x12 x13 x14 = Cert.Spec.head (val_main_v144 (F := Ideal) x0 x1 x2 x3 x4 x5 x6 x7 x8 x9 x10) x11 x12 x13 x14 := by
  funext i
  obtain ⟨g, q, rfl⟩ : ∃ (g : Fin 512) (q : Fin 128), i = ix2 g q := ⟨i 0, i 1, eq_ix2 i⟩
  have e160 : idx_main_v160 (ix2 g q) = ix2 g (0 : Fin 1) := funext fun a => Fin.ext (by match a with | ⟨0, _⟩ => rfl | ⟨1, _⟩ => rfl)
  have e156 : idx_main_v156 (ix2 g (0 : Fin 1)) = ix1 g := funext fun a => Fin.ext (by match a with | ⟨0, _⟩ => rfl)
  have e155 : ∀ k : Fin 128, idx_main_v155 (ix1 g) k = ix2 g k := fun k => funext fun a => Fin.ext (by match a with | ⟨0, _⟩ => rfl | ⟨1, _⟩ => rfl)
  rw [val_main_v161_apply, val_main_v160_apply, e160, val_main_v159_apply, val_main_v157_apply, val_main_v156_apply, e156,
    val_main_v155_apply, val_main_cst_26_apply, val_main_v158_apply, val_main_cst_27_apply]
  simp only [e155, val_main_v154_apply, headLin_eq x0 x1 x2 x3 x4 x5 x6 x7 x8 x9 x10 x11 x12 x13 x14, Ideal.hostDivf_def,
    Ideal.maximumf_def, Ideal.hostUnary_sqrt_def, Ideal.mulf_def, Ideal.ofBits_def]
  unfold Cert.Spec.head Cert.Spec.zeroW Cert.Spec.tinyW
  rfl

end Cert.ReferenceIdeal.RefValue

end
-- ==== Proof.RefValue.lean ====
import proofs.«111900_j74998718923370_2_alg».proof.Proof.Gen.ReferenceIdeal.Read
import proofs.«111900_j74998718923370_2_alg».proof.Proof.Spec
import proofs.«111900_j74998718923370_2_alg».proof.Proof.RefValue2
import proofs.«111900_j74998718923370_2_alg».proof.Proof.RefValue3
import proofs.«111900_j74998718923370_2_alg».proof.Proof.RefValue4
import proofs.«111900_j74998718923370_2_alg».proof.Proof.RefValue5
import proofs.«111900_j74998718923370_2_alg».proof.Proof.RefValue6
import proofs.«111900_j74998718923370_2_alg».proof.Proof.RefValue7

/-!
  The reference's result as a function of its fifteen argument arrays is the reference-shaped specification:
  the input projection, three graph layers, their outputs side by side, the per-graph mean, and the head.
-/

noncomputable section

namespace Cert.ReferenceIdeal.RefValue

open Cert.ReferenceIdeal Cert.ReferenceIdeal.Gen Cert.ReferenceIdeal.Read Idealize.ShloMosaic Idealize.ShloMosaic.ValueIdx

/-- THE REFERENCE'S VALUE: the last stage of the reference program, at the extended reals, is `Cert.Spec.outR` of the arguments. -/
theorem ref_eq (a0 : (⟨S50000x128, .f32⟩ : BufTy).Contents (Elt Ideal)) (a1 : (⟨S2x800000, .i32⟩ : BufTy).Contents (Elt Ideal)) (a2 : (⟨S50000, .i32⟩ : BufTy).Contents (Elt Ideal)) (a3 : (⟨S128x128, .f32⟩ : BufTy).Contents (Elt Ideal)) (a4 : (⟨S128, .f32⟩ : BufTy).Contents (Elt Ideal))
    (a5 : (⟨S128x128, .f32⟩ : BufTy).Contents (Elt Ideal)) (a6 : (⟨S128, .f32⟩ : BufTy).Contents (Elt Ideal)) (a7 : (⟨S128x128, .f32⟩ : BufTy).Contents (Elt Ideal)) (a8 : (⟨S128, .f32⟩ : BufTy).Contents (Elt Ideal)) (a9 : (⟨S128x128, .f32⟩ : BufTy).Contents (Elt Ideal))
    (a10 : (⟨S128, .f32⟩ : BufTy).Contents (Elt Ideal)) (a11 : (⟨S384x128, .f32⟩ : BufTy).Contents (Elt Ideal)) (a12 : (⟨S128, .f32⟩ : BufTy).Contents (Elt Ideal)) (a13 : (⟨S128x128, .f32⟩ : BufTy).Contents (Elt Ideal)) (a14 : (⟨S128, .f32⟩ : BufTy).Contents (Elt Ideal)) :
    val_main_v161 (F := Ideal) a0 a1 a2 a3 a4 a5 a6 a7 a8 a9 a10 a11 a12 a13 a14 = Cert.Spec.outR a0 a1 a2 a3 a4 a5 a6 a7 a8 a9 a10 a11 a12 a13 a14 := by
  rw [head_eq, pool_eq, cat_eq, L3_eq, L2_eq, L1_eq, h_eq]
  rfl

/-- The same, for the result the reference's run states: over a memory `m` and a device `c`, the run's result term is
    the specification of the argument buffers. -/
theorem ref_value (m : (ℓ : Loc nD τ sig) → Buf (Elt Ideal) ℓ) (c : Dev nD) :
    Cert.ReferenceIdeal.Value.res_main_v161 m c
      = Cert.Spec.outR (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) (m ((c.tc : Thread nD τ).loc main_arg6))
          (m ((c.tc : Thread nD τ).loc main_arg7)) (m ((c.tc : Thread nD τ).loc main_arg8)) (m ((c.tc : Thread nD τ).loc main_arg9)) (m ((c.tc : Thread nD τ).loc main_arg10))
          (m ((c.tc : Thread nD τ).loc main_arg11)) (m ((c.tc : Thread nD τ).loc main_arg12)) (m ((c.tc : Thread nD τ).loc main_arg13)) (m ((c.tc : Thread nD τ).loc main_arg14)) :=
  (val_main_v161_eq m c).trans (ref_eq _ _ _ _ _ _ _ _ _ _ _ _ _ _ _)

end Cert.ReferenceIdeal.RefValue

end
-- ==== Proof.GcnLaw.lean ====
/-
  Laws of the extended reals used by a graph-convolution layer.

  A layer sums, over the set S of edges landing on a node, the product of the gathered feature a e of the edge's source
  with the source's normaliser d e, and scales the sum by the node's own normaliser c. Scaling after the sum and scaling
  every term before the sum agree as soon as c is a nonnegative REAL, whatever extended reals a e and d e are:
  multiplication by a nonnegative real distributes over the addition of the extended reals (the only failure of
  distributivity there, an infinite factor against a sum of opposite signs, or a negative factor against ⊤ + ⊥, is
  excluded), and multiplication is commutative and associative. The normalisers are reciprocal square roots of a count
  of ones plus one, a real ≥ 1, hence nonnegative reals.
-/
import Idealize.ShloMosaic.PureOps.Ideal
import Idealize.ShloMosaic.PureOps.Ideal.Laws

noncomputable section

namespace Cert.GcnLaw

open Idealize.ShloMosaic
open scoped BigOperators

variable {ι : Type}

/-- Multiplication by a nonnegative real distributes over the sum of two extended reals. -/
theorem coe_mul_add (r : ℝ) (hr : 0 ≤ r) (y z : EReal) :
    (r : EReal) * (y + z) = (r : EReal) * y + (r : EReal) * z :=
  EReal.left_distrib_of_nonneg_of_ne_top (EReal.coe_nonneg.mpr hr) (EReal.coe_ne_top r) y z

/-- Multiplication by a nonnegative real distributes over a finite sum of extended reals. -/
theorem coe_mul_sum (S : Finset ι) (r : ℝ) (hr : 0 ≤ r) (f : ι → EReal) :
    (r : EReal) * ∑ e ∈ S, f e = ∑ e ∈ S, (r : EReal) * f e := by
  classical
  induction S using Finset.induction_on with
  | empty => simp
  | insert x s hx ih => rw [Finset.sum_insert hx, Finset.sum_insert hx, coe_mul_add r hr, ih]

/-- A nonnegative real scale of a sum of products a e · d e is the sum of the products a e · (d e · r). -/
theorem scale_sum (S : Finset ι) (r : ℝ) (hr : 0 ≤ r) (a d : ι → EReal) :
    (r : EReal) * ((0 : EReal) + ∑ e ∈ S, a e * d e) = (0 : EReal) + ∑ e ∈ S, a e * (d e * (r : EReal)) := by
  rw [zero_add, zero_add, coe_mul_sum S r hr]
  exact Finset.sum_congr rfl fun e _ => by rw [mul_comm (r : EReal), mul_assoc]

/-- The same with the scale written to the left of the normaliser: the terms are a e · (r · d e). -/
theorem scale_sum_left (S : Finset ι) (r : ℝ) (hr : 0 ≤ r) (a d : ι → EReal) :
    (r : EReal) * ((0 : EReal) + ∑ e ∈ S, a e * d e) = (0 : EReal) + ∑ e ∈ S, a e * ((r : EReal) * d e) := by
  rw [scale_sum S r hr]
  exact congrArg ((0 : EReal) + ·) (Finset.sum_congr rfl fun e _ => by rw [mul_comm (d e)])

/-- The same with the scale applied to each product: the terms are (a e · d e) · r. -/
theorem scale_sum_right (S : Finset ι) (r : ℝ) (hr : 0 ≤ r) (a d : ι → EReal) :
    (r : EReal) * ((0 : EReal) + ∑ e ∈ S, a e * d e) = (0 : EReal) + ∑ e ∈ S, (a e * d e) * (r : EReal) := by
  rw [scale_sum S r hr]
  exact congrArg ((0 : EReal) + ·) (Finset.sum_congr rfl fun e _ => by rw [mul_assoc])

/-- A finite sum of ones in the extended reals is the number of terms, a real. -/
theorem sum_one (S : Finset ι) : ∑ _e ∈ S, (1 : EReal) = ((S.card : ℝ) : EReal) := by
  classical
  induction S using Finset.induction_on with
  | empty => simp
  | insert x s hx ih =>
    rw [Finset.sum_insert hx, ih, Finset.card_insert_of_notMem hx]
    push_cast
    rw [add_comm]

/-- A count of ones plus one is the real number card S + 1. -/
theorem deg_real (S : Finset ι) :
    ((0 : EReal) + ∑ _e ∈ S, (1 : EReal)) + 1 = (((S.card : ℝ) + 1 : ℝ) : EReal) := by
  rw [zero_add, sum_one]
  push_cast
  rfl

/-- The single-precision word 0x3F800000 denotes the extended real one. -/
theorem ofBits_one_f32 : Ideal.ofBits .f32 0x3F800000#32 = 1 := by
  simp [Ideal.ofBits, Ideal.ieee, -EReal.coe_mul]; norm_num

/-- The same count with zero and one spelled as single-precision words. -/
theorem deg_real_bits (S : Finset ι) :
    (Ideal.ofBits .f32 0x00000000#32 + ∑ _e ∈ S, Ideal.ofBits .f32 0x3F800000#32) + Ideal.ofBits .f32 0x3F800000#32
      = (((S.card : ℝ) + 1 : ℝ) : EReal) := by
  rw [Ideal.ofBits_zero_f32, ofBits_one_f32]
  exact deg_real S

/-- The reciprocal square root of a real x ≥ 1 is the nonnegative real (√x)⁻¹. -/
theorem rsqrt_nonneg_real (x : ℝ) (hx : 1 ≤ x) : ∃ r : ℝ, 0 ≤ r ∧ Ideal.rsqrt (x : EReal) = (r : EReal) := by
  refine ⟨(Real.sqrt x)⁻¹, inv_nonneg.mpr (Real.sqrt_nonneg x), ?_⟩
  rw [Ideal.rsqrt_coe, if_neg (by linarith), if_neg (by linarith)]

/-- The reciprocal square root of a count of ones plus one is a nonnegative real. -/
theorem dis_nonneg_real (S : Finset ι) :
    ∃ r : ℝ, 0 ≤ r ∧
      Ideal.rsqrt ((Ideal.ofBits .f32 0x00000000#32 + ∑ _e ∈ S, Ideal.ofBits .f32 0x3F800000#32)
        + Ideal.ofBits .f32 0x3F800000#32) = (r : EReal) := by
  rw [deg_real_bits]
  exact rsqrt_nonneg_real _ (by have : (0 : ℝ) ≤ S.card := Nat.cast_nonneg _; linarith)

/-- The same with zero and one as the extended reals themselves. -/
theorem dis_nonneg_real' (S : Finset ι) :
    ∃ r : ℝ, 0 ≤ r ∧ Ideal.rsqrt (((0 : EReal) + ∑ _e ∈ S, (1 : EReal)) + 1) = (r : EReal) := by
  rw [deg_real]
  exact rsqrt_nonneg_real _ (by have : (0 : ℝ) ≤ S.card := Nat.cast_nonneg _; linarith)

/-- Addition of extended reals is associative: a four-term sum bracketed from the left equals the same sum with the
    first term split off. -/
theorem layer_assoc (r0 cA hm c2 b A' : EReal) (h : cA = A') :
    ((r0 + cA) + hm * c2) + b = r0 + ((A' + hm * c2) + b) := by
  rw [h, add_assoc, add_assoc, add_assoc]

end Cert.GcnLaw
-- ==== Proof.Algebra.lean ====
/-
  The kernel-shaped and the reference-shaped computations agree, for all arguments.

  A node's normaliser is the reciprocal square root of one plus a count, a nonnegative real; multiplication by such a
  number distributes over a sum of arbitrary extended reals, so scaling the sum of the landing edges' terms by the
  destination's normaliser is the same as scaling every term — and on a landing edge the destination row IS the node.
  The remaining differences are the bracketing of a four-term sum, and pooling three arrays before or after placing
  them side by side, which agree column by column.
-/
import proofs.«111900_j74998718923370_2_alg».proof.Proof.Spec
import proofs.«111900_j74998718923370_2_alg».proof.Proof.GcnLaw

noncomputable section

namespace Cert.Spec

open Idealize.ShloMosaic Idealize.ShloMosaic.ValueIdx

/-- A node's normaliser is a nonnegative real: the reciprocal square root of one plus a count of ones. -/
theorem dis_real (ei : EI) (n : Fin 50000) : ∃ r : ℝ, 0 ≤ r ∧ dis ei n = (r : EReal) := by
  unfold dis deg zeroW oneW
  exact Cert.GcnLaw.dis_nonneg_real _

/-- On an edge landing on node n the destination number is n itself, nonnegative and inside the node range, so neither
    the wrap-around nor the clamp changes it. -/
theorem dstRow_of_lands (ei : EI) (n : Fin 50000) (e : Fin 800000) (h : e ∈ lands ei n) : dstRow ei e = n := by
  have h' : (ei (ix2 (1 : Fin 2) e)).toInt = (n.val : Int) := (Finset.mem_filter.mp h).2
  have hlt : n.val < 50000 := n.isLt
  have hs : (ei (ix2 (1 : Fin 2) e)).slt 0#32 = false := by
    rw [BitVec.slt_eq_decide, h', BitVec.toInt_zero]
    exact decide_eq_false (by omega)
  unfold dstRow wrap
  rw [hs]
  simp only [Bool.false_eq_true, if_false]
  unfold clampRow
  apply Fin.ext
  show min (ei (ix2 (1 : Fin 2) e)).toInt.toNat 49999 = n.val
  rw [h']
  omega

/-- The destination's normaliser times the kernel-shaped sum is the reference-shaped sum: a nonnegative real scale
    moves inside the sum, and on every landing edge the destination row is the node. -/
theorem aggK_scaled (ei : EI) (hm : A2 50000 128) (i : (⟨2, ![50000, 128]⟩ : Shape).Idx) :
    dis ei (i 0) * aggK ei hm i = aggR ei hm i := by
  obtain ⟨r, hr, hd⟩ := dis_real ei (i 0)
  unfold aggK aggR zeroW
  rw [Ideal.ofBits_zero_f32, hd, Cert.GcnLaw.scale_sum _ r hr]
  refine congrArg ((0 : EReal) + ·) (Finset.sum_congr rfl fun e he => ?_)
  rw [dstRow_of_lands ei (i 0) e he, hd]

/-- The two layer shapes agree: the scaled sums agree and the four-term sum is only bracketed differently. -/
theorem layerK_eq_layerR (ei : EI) (r : A2 50000 128) (W : A2 128 128) (b : A1 128) :
    layerK ei r W b = layerR ei r W b := by
  funext i
  unfold layerK layerR
  exact congrArg (max · zeroW) (Cert.GcnLaw.layer_assoc _ _ _ _ _ _ (aggK_scaled ei (lin r W) i))

/-- Pooling three arrays and placing the means side by side is pooling the arrays placed side by side: a column of the
    wide array is a column of exactly one of the three, the same one for every node. -/
theorem pool_cat3 (bt : BT) (x y z : A2 50000 128) :
    cat3 (pool bt x) (pool bt y) (pool bt z) = pool bt (cat3 x y z) := by
  funext i
  by_cases h : (i 1).val < 128
  · have hR : ∀ n : Fin 50000, cat3 x y z (ix2 n (i 1)) = x (ix2 n ⟨(i 1).val, h⟩) := fun n => dif_pos h
    have hL : cat3 (pool bt x) (pool bt y) (pool bt z) i = pool bt x (ix2 (i 0) ⟨(i 1).val, h⟩) := dif_pos h
    rw [hL]
    unfold pool
    simp only [hR]
  · by_cases h2 : (i 1).val < 256
    · have hR : ∀ n : Fin 50000, cat3 x y z (ix2 n (i 1)) = y (ix2 n ⟨(i 1).val - 128, by omega⟩) := fun n => by
        unfold cat3; rw [dif_neg h, dif_pos h2]
      have hL : cat3 (pool bt x) (pool bt y) (pool bt z) i = pool bt y (ix2 (i 0) ⟨(i 1).val - 128, by omega⟩) := by
        unfold cat3; rw [dif_neg h, dif_pos h2]
      rw [hL]
      unfold pool
      simp only [hR]
    · have h3 : (i 1).val < 384 := (i 1).isLt
      have hR : ∀ n : Fin 50000, cat3 x y z (ix2 n (i 1)) = z (ix2 n ⟨(i 1).val - 256, by omega⟩) := fun n => by
        unfold cat3; rw [dif_neg h, dif_neg h2]
      have hL : cat3 (pool bt x) (pool bt y) (pool bt z) i = pool bt z (ix2 (i 0) ⟨(i 1).val - 256, by omega⟩) := by
        unfold cat3; rw [dif_neg h, dif_neg h2]
      rw [hL]
      unfold pool
      simp only [hR]

/-- The kernel-shaped and the reference-shaped results are equal for all arguments. -/
theorem outK_eq_outR (x : A2 50000 128) (ei : EI) (bt : BT) (Win : A2 128 128) (bin : A1 128) (W1 : A2 128 128)
    (b1 : A1 128) (W2 : A2 128 128) (b2 : A1 128) (W3 : A2 128 128) (b3 : A1 128) (Wp1 : A2 384 128) (bp1 : A1 128)
    (Wp2 : A2 128 128) (bp2 : A1 128) :
    outK x ei bt Win bin W1 b1 W2 b2 W3 b3 Wp1 bp1 Wp2 bp2 = outR x ei bt Win bin W1 b1 W2 b2 W3 b3 Wp1 bp1 Wp2 bp2 := by
  unfold outK outR
  simp only [layerK_eq_layerR]
  rw [pool_cat3]

end Cert.Spec

end
-- ==== Proof.lean ====
/-
  A three-layer graph convolution network with per-graph mean pooling and a normalised two-layer head, computed by a
  host program around five kernel regions, against the same network written as one host program.

  The kernel computes each layer as  max (r + dis · Σ_{edges landing on the node} (r W)[src] · dis[src] + (r W) · dis² + b, 0),
  scaling the projected features by the source's normaliser before they are gathered and by the destination's
  normaliser after the sum; the reference multiplies every edge's term by dis[src] · dis[dst] before summing. The
  normaliser of a node is the reciprocal square root of one plus a count of edges, hence a nonnegative real, and
  multiplication by a nonnegative real distributes over any sum of extended reals: the two layers are one function, for
  all inputs. The kernel pools each layer's output per graph and then places the three results side by side, the
  reference places the three outputs side by side and then pools: the same array, column by column. The head is the
  same expression on both sides. So the two results are equal index by index on the extended reals.

  The three programs run to the end, fault nowhere and leave their arguments unchanged: the kernel program (at the
  word level and on the extended reals) as the run of its ten items — five stretches of host operations and five
  regions, each region's body a straight line of whole-block loads, one pure payload per output, and whole-block
  stores — and the reference as the run of its host operations. Nothing was rewritten between the word-level kernel
  and its reading on the extended reals, so that conjunct is trivially true.
-/
import proofs.«111900_j74998718923370_2_alg».proof.Defs
import proofs.«111900_j74998718923370_2_alg».proof.Proof.Gen.Kernel
import proofs.«111900_j74998718923370_2_alg».proof.Proof.Gen.KernelIdeal
import proofs.«111900_j74998718923370_2_alg».proof.Proof.Gen.ReferenceIdeal
import proofs.«111900_j74998718923370_2_alg».proof.Proof.Gen.Pre_finite_inputs
import proofs.«111900_j74998718923370_2_alg».proof.Proof.Gen.ReferenceIdeal.Read
import proofs.«111900_j74998718923370_2_alg».proof.Proof.BitsRun
import proofs.«111900_j74998718923370_2_alg».proof.Proof.IdealRun
import proofs.«111900_j74998718923370_2_alg».proof.Proof.IdealStage
import proofs.«111900_j74998718923370_2_alg».proof.Proof.RefValue
import proofs.«111900_j74998718923370_2_alg».proof.Proof.Algebra

noncomputable section

namespace Cert.Proof

open Idealize.ShloMosaic Idealize.ShloMosaic.TcCoe Idealize.SL.Sem

/-- The word-level kernel program runs and leaves its arguments unchanged. -/
theorem frame_k : Cert.frame_Kernel := fun m ρ _ => Cert.Kernel.Hand.frameH (F := Bits) m ρ

/-- So does its reading on the extended reals. -/
theorem frame_ki : Cert.frame_KernelIdeal := fun m ρ _ => Cert.KernelIdeal.Hand.frameH (F := Ideal) m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the same result: the kernel's is the kernel-shaped
    function of the arguments, the reference's the reference-shaped one, and the two functions are equal. -/
theorem algebraic : Cert.algebraic_KernelIdeal_ReferenceIdeal := by
  intro m ρ m' ρ' _ hagree
  refine ⟨fun c => Cert.KernelIdeal.Hand.W10 m ρ c (Proc.devRef .tc Cert.KernelIdeal.main_v82),
    Cert.KernelIdeal.Hand.run_main (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14⟩ := hagree c
  show Cert.ReferenceIdeal.Value.res_main_v161 m' c = Cert.KernelIdeal.Hand.W10 m ρ c (Proc.devRef .tc Cert.KernelIdeal.main_v82)
  rw [Cert.ReferenceIdeal.RefValue.ref_value m' c, Cert.KernelIdeal.Hand.kernel_value m ρ c, Cert.Spec.outK_eq_outR,
    h0, h1, h2, h3, h4, h5, h6, h7, h8, h9, h10, h11, h12, h13, h14]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
